-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S3x128 .f32) (main_arg6 : FVec F S3x128 .f32) (main_arg7 : FVec F S3x128 .f32) (main_arg8 : FVec F S128x1 .f32) (main_arg9 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x1 : Shape := ⟨2, ![1, 1]⟩
abbrev S50000x1 : Shape := ⟨2, ![50000, 1]⟩
abbrev S5000x1 : Shape := ⟨2, ![5000, 1]⟩
abbrev S5000 : Shape := ⟨1, ![5000]⟩

abbrev nBuf : Space → Nat
  | .hbm => 161
  | .vmem => 60
  | .smem => 0
  | _ => 0

abbrev hbmTy0_0 (i : Nat) : BufTy := match i % 128 with
  | 0 => ⟨S50000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x600000, .i32⟩
  | 11 => ⟨S600000, .i32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S_, .f32⟩
  | 24 => ⟨S50000x128, .f32⟩
  | 25 => ⟨S600000x1, .i32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S50000x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S1x128, .f32⟩
  | 61 => ⟨S50000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S_, .f32⟩
  | 72 => ⟨S50000x128, .f32⟩
  | 73 => ⟨S600000x1, .i32⟩
  | 74 => ⟨S50000x128, .f32⟩
  | 75 => ⟨S1x128x128, .f32⟩
  | 76 => ⟨S128x128, .f32⟩
  | 77 => ⟨S1x128, .f32⟩
  | 78 => ⟨S128, .f32⟩
  | 79 => ⟨S1x128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S50000x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S128, .f32⟩
  | 102 => ⟨S1x128, .f32⟩
  | 103 => ⟨S1x128, .f32⟩
  | 104 => ⟨S1x128, .f32⟩
  | 105 => ⟨S128, .f32⟩
  | 106 => ⟨S1x128, .f32⟩
  | 107 => ⟨S1x128, .f32⟩
  | 108 => ⟨S1x128, .f32⟩
  | 109 => ⟨S50000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S_, .f32⟩
  | 120 => ⟨S50000x128, .f32⟩
  | 121 => ⟨S600000x1, .i32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S50000x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S1x128, .f32⟩
  | 21 => ⟨S128, .f32⟩
  | 22 => ⟨S1x128, .f32⟩
  | 23 => ⟨S1x128, .f32⟩
  | 24 => ⟨S1x128, .f32⟩
  | 25 => ⟨S128, .f32⟩
  | 26 => ⟨S1x128, .f32⟩
  | 27 => ⟨S1x128, .f32⟩
  | 28 => ⟨S1x128, .f32⟩
  | 29 => ⟨S50000x128, .f32⟩
  | 30 => ⟨S1x128, .f32⟩
  | 31 => ⟨S1x1, .f32⟩
  | 32 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x1, .f32⟩
  | .local _ .vmem, ⟨58, _⟩ => ⟨S5000x1, .f32⟩
  | .local _ .vmem, ⟨59, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_4 : Ref sig .tc := ⟨.hbm, 62, rfl⟩
abbrev main_v44 : Ref sig .tc := ⟨.hbm, 63, rfl⟩
abbrev main_v45 : Ref sig .tc := ⟨.hbm, 64, rfl⟩
abbrev main_c_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64_0 : Ref sig .tc := ⟨.hbm, 85, rfl⟩
abbrev main_v64_1 : Ref sig .tc := ⟨.hbm, 86, rfl⟩
abbrev main_v64_2 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_10 : Ref sig .tc := ⟨.hbm, 110, rfl⟩
abbrev main_v84 : Ref sig .tc := ⟨.hbm, 111, rfl⟩
abbrev main_v85 : Ref sig .tc := ⟨.hbm, 112, rfl⟩
abbrev main_c_11 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_12 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104_0 : Ref sig .tc := ⟨.hbm, 133, rfl⟩
abbrev main_v104_1 : Ref sig .tc := ⟨.hbm, 134, rfl⟩
abbrev main_v104_2 : Ref sig .tc := ⟨.hbm, 135, rfl⟩
abbrev main_cst_13 : Ref sig .tc := ⟨.hbm, 136, rfl⟩
abbrev main_v105 : Ref sig .tc := ⟨.hbm, 137, rfl⟩
abbrev main_v106 : Ref sig .tc := ⟨.hbm, 138, rfl⟩
abbrev main_cst_14 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_15 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg8_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem8_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S128x1_S1x128_1_0 : S128x1.Transposes [1, 0] S1x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v64_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v64_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v83) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v103) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v104_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v104_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v104_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v104_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v117) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v123) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v125) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v126) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S1x1 : Shape := ⟨2, ![1, 1]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x600000, .i32⟩
  | 11 => ⟨S600000, .i32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S_, .f32⟩
  | 24 => ⟨S50000x128, .f32⟩
  | 25 => ⟨S600000x1, .i32⟩
  | 26 => ⟨S50000x128, .f32⟩
  | 27 => ⟨S50000x128, .f32⟩
  | 28 => ⟨S1x128x128, .f32⟩
  | 29 => ⟨S128x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S50000x128, .f32⟩
  | 109 => ⟨S600000x1, .i32⟩
  | 110 => ⟨S50000x128, .f32⟩
  | 111 => ⟨S50000x128, .f32⟩
  | 112 => ⟨S1x128x128, .f32⟩
  | 113 => ⟨S128x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x1, .f32⟩
  | 11 => ⟨S1x1, .f32⟩
  | 12 => ⟨S50000x1, .f32⟩
  | 13 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_cst_3 : Ref sig .tc := ⟨.hbm, 69, rfl⟩
abbrev main_call1_v12 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_4 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call2_cst : Ref sig .tc := ⟨.hbm, 95, rfl⟩
abbrev main_call2_v0 : Ref sig .tc := ⟨.hbm, 96, rfl⟩
abbrev main_v55 : Ref sig .tc := ⟨.hbm, 97, rfl⟩
abbrev main_c_5 : Ref sig .tc := ⟨.hbm, 98, rfl⟩
abbrev main_v56 : Ref sig .tc := ⟨.hbm, 99, rfl⟩
abbrev main_v57 : Ref sig .tc := ⟨.hbm, 100, rfl⟩
abbrev main_c_6 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_7 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call3_cst : Ref sig .tc := ⟨.hbm, 120, rfl⟩
abbrev main_call3_v0 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_8 : Ref sig .tc := ⟨.hbm, 131, rfl⟩
abbrev main_v84 : Ref sig .tc := ⟨.hbm, 132, rfl⟩
abbrev main_cst_9 : Ref sig .tc := ⟨.hbm, 133, rfl⟩
abbrev main_v85 : Ref sig .tc := ⟨.hbm, 134, rfl⟩
abbrev main_v86 : Ref sig .tc := ⟨.hbm, 135, rfl⟩
abbrev main_c_10 : Ref sig .tc := ⟨.hbm, 136, rfl⟩
abbrev main_call4_cst : Ref sig .tc := ⟨.hbm, 137, rfl⟩
abbrev main_call4_v0 : Ref sig .tc := ⟨.hbm, 138, rfl⟩
abbrev main_call4_v1 : Ref sig .tc := ⟨.hbm, 139, rfl⟩
abbrev main_call4_cst_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_cst_1 : Ref sig .tc := ⟨.hbm, 147, rfl⟩
abbrev main_call4_v8 : Ref sig .tc := ⟨.hbm, 148, rfl⟩
abbrev main_call4_cst_2 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_cst_3 : Ref sig .tc := ⟨.hbm, 153, rfl⟩
abbrev main_call4_v12 : Ref sig .tc := ⟨.hbm, 154, rfl⟩
abbrev main_call4_cst_4 : Ref sig .tc := ⟨.hbm, 155, rfl⟩
abbrev main_call4_call0_v0 : Ref sig .tc := ⟨.hbm, 156, rfl⟩
abbrev main_call4_call0_v1 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_cst_11 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_call5_cst : Ref sig .tc := ⟨.hbm, 179, rfl⟩
abbrev main_call5_v0 : Ref sig .tc := ⟨.hbm, 180, rfl⟩
abbrev main_v107 : Ref sig .tc := ⟨.hbm, 181, rfl⟩
abbrev main_c_12 : Ref sig .tc := ⟨.hbm, 182, rfl⟩
abbrev main_v108 : Ref sig .tc := ⟨.hbm, 183, rfl⟩
abbrev main_v109 : Ref sig .tc := ⟨.hbm, 184, rfl⟩
abbrev main_c_13 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_cst_14 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_call6_cst : Ref sig .tc := ⟨.hbm, 204, rfl⟩
abbrev main_call6_v0 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_15 : Ref sig .tc := ⟨.hbm, 215, rfl⟩
abbrev main_v136 : Ref sig .tc := ⟨.hbm, 216, rfl⟩
abbrev main_cst_16 : Ref sig .tc := ⟨.hbm, 217, rfl⟩
abbrev main_v137 : Ref sig .tc := ⟨.hbm, 218, rfl⟩
abbrev main_v138 : Ref sig .tc := ⟨.hbm, 219, rfl⟩
abbrev main_c_17 : Ref sig .tc := ⟨.hbm, 220, rfl⟩
abbrev main_call7_cst : Ref sig .tc := ⟨.hbm, 221, rfl⟩
abbrev main_call7_v0 : Ref sig .tc := ⟨.hbm, 222, rfl⟩
abbrev main_call7_v1 : Ref sig .tc := ⟨.hbm, 223, rfl⟩
abbrev main_call7_cst_0 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_call7_v5 : Ref sig .tc := ⟨.hbm, 228, rfl⟩
abbrev main_call7_v6 : Ref sig .tc := ⟨.hbm, 229, rfl⟩
abbrev main_call7_v7 : Ref sig .tc := ⟨.hbm, 230, rfl⟩
abbrev main_call7_cst_1 : Ref sig .tc := ⟨.hbm, 231, rfl⟩
abbrev main_call7_v8 : Ref sig .tc := ⟨.hbm, 232, rfl⟩
abbrev main_call7_cst_2 : Ref sig .tc := ⟨.hbm, 233, rfl⟩
abbrev main_call7_v9 : Ref sig .tc := ⟨.hbm, 234, rfl⟩
abbrev main_call7_v10 : Ref sig .tc := ⟨.hbm, 235, rfl⟩
abbrev main_call7_v11 : Ref sig .tc := ⟨.hbm, 236, rfl⟩
abbrev main_call7_cst_3 : Ref sig .tc := ⟨.hbm, 237, rfl⟩
abbrev main_call7_v12 : Ref sig .tc := ⟨.hbm, 238, rfl⟩
abbrev main_call7_cst_4 : Ref sig .tc := ⟨.hbm, 239, rfl⟩
abbrev main_call7_call0_v0 : Ref sig .tc := ⟨.hbm, 240, rfl⟩
abbrev main_call7_call0_v1 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_cst_18 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_call8_cst : Ref sig .tc := ⟨.hbm, 263, rfl⟩
abbrev main_call8_v0 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The run of the whole program with the result named: every weakly fair execution from any memory with zero counters
  ends, nothing faulting, with the result array at the last boundary's contents and every argument array as launched.
-/
import proofs.«147060_j15040975470999_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program on the cores terminates, nothing
    faulting; the result array then holds the last boundary's contents, and every argument array is as launched. -/
theorem run : θ_run defs (onTc (τ := τ) (main (F := F))) ⟨m, fun _ => 0, ρ⟩ (fun r => ∀ c : Dev nD,
      r.2.mem ((c.tc : Thread nD τ).loc main_v126) = W14 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v126 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Hand

end
-- ==== Proof.RefRunA.lean ====
/- The reference program as one pure function of its ten arguments: the edge lists, then the same layer three times
   (neighbour sum, two-layer perceptron, batch normalisation with its affine map, rectifier), then the output map.
   Every operation is the whole-array operation the program names, at any float values. -/
import proofs.«147060_j15040975470999_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge array as a vector: the source node of every edge. -/
def srcOf (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- Row 1 of the edge array as a vector: the destination node of every edge. -/
def dstOf (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- Layer 0's 128×128 matrix out of a stack of three: the slice of row block 0, its leading unit axis dropped. -/
def pick2_0 (a : (⟨S3x128x128, .f32⟩ : BufTy).Contents (Elt F)) : (⟨S128x128, .f32⟩ : BufTy).Contents (Elt F) :=
  shapeCast S128x128 (extractStridedSlice S1x128x128 ![0, 0, 0] a slices_S3x128x128_S1x128x128_0_0_0) shapeCasts_S1x128x128_S128x128

/-- Layer 1's 128×128 matrix out of a stack of three: the slice of row block 1, its leading unit axis dropped. -/
def pick2_1 (a : (⟨S3x128x128, .f32⟩ : BufTy).Contents (Elt F)) : (⟨S128x128, .f32⟩ : BufTy).Contents (Elt F) :=
  shapeCast S128x128 (extractStridedSlice S1x128x128 ![1, 0, 0] a slices_S3x128x128_S1x128x128_1_0_0) shapeCasts_S1x128x128_S128x128

/-- Layer 2's 128×128 matrix out of a stack of three: the slice of row block 2, its leading unit axis dropped. -/
def pick2_2 (a : (⟨S3x128x128, .f32⟩ : BufTy).Contents (Elt F)) : (⟨S128x128, .f32⟩ : BufTy).Contents (Elt F) :=
  shapeCast S128x128 (extractStridedSlice S1x128x128 ![2, 0, 0] a slices_S3x128x128_S1x128x128_2_0_0) shapeCasts_S1x128x128_S128x128

/-- Layer 0's 128-vector out of a stack of three: the slice of row 0, its leading unit axis dropped. -/
def pick1_0 (a : (⟨S3x128, .f32⟩ : BufTy).Contents (Elt F)) : (⟨S128, .f32⟩ : BufTy).Contents (Elt F) :=
  shapeCast S128 (extractStridedSlice S1x128 ![0, 0] a slices_S3x128_S1x128_0_0) shapeCasts_S1x128_S128

/-- Layer 1's 128-vector out of a stack of three: the slice of row 1, its leading unit axis dropped. -/
def pick1_1 (a : (⟨S3x128, .f32⟩ : BufTy).Contents (Elt F)) : (⟨S128, .f32⟩ : BufTy).Contents (Elt F) :=
  shapeCast S128 (extractStridedSlice S1x128 ![1, 0] a slices_S3x128_S1x128_1_0) shapeCasts_S1x128_S128

/-- Layer 2's 128-vector out of a stack of three: the slice of row 2, its leading unit axis dropped. -/
def pick1_2 (a : (⟨S3x128, .f32⟩ : BufTy).Contents (Elt F)) : (⟨S128, .f32⟩ : BufTy).Contents (Elt F) :=
  shapeCast S128 (extractStridedSlice S1x128 ![2, 0] a slices_S3x128_S1x128_2_0) shapeCasts_S1x128_S128

/-- A negative index counts from the end: `i + 50000` where `i < 0`, else `i`. -/
def normIdx (src : (⟨S600000, .i32⟩ : BufTy).Contents (Elt F)) : (⟨S600000, .i32⟩ : BufTy).Contents (Elt F) :=
  select (cmpi .slt src (broadcastInDim S600000 ![] bcast_S_S600000 (constantI S_ 32 0#32)))
    (addi src (broadcastInDim S600000 ![] bcast_S_S600000 (constantI S_ 32 50000#32))) src

/-- The neighbour sum: row `src e` of `h` gathered for every edge `e`, and the gathered rows added up at row `dst e`
    of an array of zeros. -/
def aggOps (h : (⟨S50000x128, .f32⟩ : BufTy).Contents (Elt F)) (src dst : (⟨S600000, .i32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h (broadcastInDim S600000x1 ![0] bcast_S600000_S600000x1_0 (normIdx src)))

/-- The rectifier: the maximum with an array of zeros. -/
def reluOps (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- A 128-vector laid along every one of the 50000 rows. -/
def rowBias (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The two-layer perceptron: `relu (u · w1 + b1) · w2 + b2`. -/
def mlpOps (u : (⟨S50000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S50000x128, .f32⟩ : BufTy).Contents (Elt F) :=
  addf (Host.dotGeneral dot_S50000x128_S128x128_S50000x128_1_0_0_1_n_n none
      (reluOps (addf (Host.dotGeneral dot_S50000x128_S128x128_S50000x128_1_0_0_1_n_n none u w1) (rowBias b1))) w2) (rowBias b2)

/-- The column means: the column sums over the 50000 rows, divided by 50000. -/
def meanOps (z : (⟨S50000x128, .f32⟩ : BufTy).Contents (Elt F)) : (⟨S128, .f32⟩ : BufTy).Contents (Elt F) :=
  Host.divf (Host.reduceAdd z (constant S_ .f32 0x00000000#32) reducesTo_S50000x128_S128_d0 h_S_)
    (broadcastInDim S128 ![] bcast_S_S128 (constant S_ .f32 0x47435000#32))

/-- The variance's own column means, kept as a 1×128 row: column sums divided by 50000. -/
def varMean (z : (⟨S50000x128, .f32⟩ : BufTy).Contents (Elt F)) : (⟨S1x128, .f32⟩ : BufTy).Contents (Elt F) :=
  Host.divf (broadcastInDim S1x128 ![1] bcast_S128_S1x128_1
      (Host.reduceAdd z (constant S_ .f32 0x00000000#32) reducesTo_S50000x128_S128_d0 h_S_))
    (broadcastInDim S1x128 ![] bcast_S_S1x128 (constant S_ .f32 0x47435000#32))

/-- The squared deviations from the column means. -/
def varSq (z : (⟨S50000x128, .f32⟩ : BufTy).Contents (Elt F)) : (⟨S50000x128, .f32⟩ : BufTy).Contents (Elt F) :=
  mulf (subf z (broadcastInDim S50000x128 ![0, 1] bcast_S1x128_S50000x128_0_1 (varMean z)))
    (subf z (broadcastInDim S50000x128 ![0, 1] bcast_S1x128_S50000x128_0_1 (varMean z)))

/-- The variance's divisor: 50000 less the correction, the integer 0 converted. -/
def varCount : (⟨S_, .f32⟩ : BufTy).Contents (Elt F) :=
  subf (constant S_ .f32 0x47435000#32) (sitofp .f32 (constantI S_ 32 0#32))

/-- The column variances: the column sums of the squared deviations divided by the divisor where the divisor is
    positive, the not-a-number constant elsewhere. -/
def varOps (z : (⟨S50000x128, .f32⟩ : BufTy).Contents (Elt F)) : (⟨S128, .f32⟩ : BufTy).Contents (Elt F) :=
  select (broadcastInDim S128 ![] bcast_S_S128 (cmpf .ogt (varCount (F := F)) (constant S_ .f32 0x00000000#32)))
    (Host.divf (Host.reduceAdd (varSq z) (constant S_ .f32 0x00000000#32) reducesTo_S50000x128_S128_d0 h_S_)
      (broadcastInDim S128 ![] bcast_S_S128 (varCount (F := F))))
    (broadcastInDim S128 ![] bcast_S_S128 (id (constant S_ .f32 0x7FC00000#32)))

/-- Normalisation given the column means and variances, then the affine map and the rectifier:
    `relu ((z - mean) * rsqrt (var + eps) * gam + bet)`, every 128-vector laid along the rows. -/
def tailOps (z : (⟨S50000x128, .f32⟩ : BufTy).Contents (Elt F)) (mean var gam bet : (⟨S128, .f32⟩ : BufTy).Contents (Elt F)) : (⟨S50000x128, .f32⟩ : BufTy).Contents (Elt F) :=
  reluOps (addf (mulf (mulf (subf z (rowBias mean))
      (rowBias (Host.rsqrt (addf var (broadcastInDim S128 ![] bcast_S_S128 (constant S_ .f32 0x3727C5AC#32))))))
    (rowBias gam)) (rowBias bet))

/-- Batch normalisation over the rows with its affine map, then the rectifier. -/
def bnOps (z : (⟨S50000x128, .f32⟩ : BufTy).Contents (Elt F)) (gam bet : (⟨S128, .f32⟩ : BufTy).Contents (Elt F)) : (⟨S50000x128, .f32⟩ : BufTy).Contents (Elt F) :=
  tailOps z (meanOps z) (varOps z) gam bet

/-- One layer: the neighbour sum added to the features, the perceptron, the normalisation. -/
def layerOps (h : (⟨S50000x128, .f32⟩ : BufTy).Contents (Elt F)) (src dst : (⟨S600000, .i32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (gam bet : (⟨S128, .f32⟩ : BufTy).Contents (Elt F)) : (⟨S50000x128, .f32⟩ : BufTy).Contents (Elt F) :=
  bnOps (mlpOps (addf h (aggOps h src dst)) w1 b1 w2 b2) gam bet

/-- The output map: `h · w + b`, the one bias laid along the rows. -/
def outOps (h : (⟨S50000x128, .f32⟩ : BufTy).Contents (Elt F)) (fcw : (⟨S128x1, .f32⟩ : BufTy).Contents (Elt F)) (fcb : (⟨S1, .f32⟩ : BufTy).Contents (Elt F)) : (⟨S50000x1, .f32⟩ : BufTy).Contents (Elt F) :=
  addf (Host.dotGeneral dot_S50000x128_S128x1_S50000x1_1_0_0_1_n_n none h fcw)
    (broadcastInDim S50000x1 ![0, 1] bcast_S1x1_S50000x1_0_1 (broadcastInDim S1x1 ![1] bcast_S1_S1x1_1 fcb))

/-- The whole reference: three layers over the same edge lists, each with its own slice of the parameters, then the
    output map. -/
def refOut (a0 : (⟨S50000x128, .f32⟩ : BufTy).Contents (Elt F)) (a1 : (⟨S2x600000, .i32⟩ : BufTy).Contents (Elt F)) (a2 : (⟨S3x128x128, .f32⟩ : BufTy).Contents (Elt F)) (a3 : (⟨S3x128, .f32⟩ : BufTy).Contents (Elt F))
    (a4 : (⟨S3x128x128, .f32⟩ : BufTy).Contents (Elt F)) (a5 a6 a7 : (⟨S3x128, .f32⟩ : BufTy).Contents (Elt F)) (a8 : (⟨S128x1, .f32⟩ : BufTy).Contents (Elt F))
    (a9 : (⟨S1, .f32⟩ : BufTy).Contents (Elt F)) : (⟨S50000x1, .f32⟩ : BufTy).Contents (Elt F) :=
  outOps
    (layerOps
      (layerOps
        (layerOps a0 (srcOf a1) (dstOf a1) (pick2_0 a2) (pick1_0 a3) (pick2_0 a4) (pick1_0 a5) (pick1_0 a6) (pick1_0 a7))
        (srcOf a1) (dstOf a1) (pick2_1 a2) (pick1_1 a3) (pick2_1 a4) (pick1_1 a5) (pick1_1 a6) (pick1_1 a7))
      (srcOf a1) (dstOf a1) (pick2_2 a2) (pick1_2 a3) (pick2_2 a4) (pick1_2 a5) (pick1_2 a6) (pick1_2 a7))
    a8 a9

end Cert.ReferenceIdeal.Hand

end
-- ==== Proof.RefRunB.lean ====
/- The reference program's @main as a line of 260 operations, the called functions' operations written at their calls
   over each call's own buffers, cut into stretches that follow the program's stages; @main is that line. -/
import proofs.«147060_j15040975470999_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge array's two rows as vectors: operations 1 … 4 of 260. -/
abbrev opsPre : List (HloOp τ sig (Elt F)) :=
  [
    StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

/-- Layer 0: the neighbour sum and its addition to the features: operations 5 … 18 of 260. -/
abbrev opsAgg0 : List (HloOp τ sig (Elt F)) :=
  [
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)) ]

/-- Layer 0: the two-layer perceptron: operations 19 … 37 of 260. -/
abbrev opsMlp0 : List (HloOp τ sig (Elt F)) :=
  [
    StableHlo.unary main_arg2 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v22 : StableHlo.TRef sig ⟨S50000x128, .f32⟩) main_call0.v0 main_call0.v1 maximumf,
    StableHlo.unary main_arg4 main_v24 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v24 main_v25 rfl shapeCasts_S1x128x128_S128x128,
    StableHlo.binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v27 ((extractStridedSlice S1x128 ![0, 0] · slices_S3x128_S1x128_0_0) : (⟨S3x128, .f32⟩ : BufTy).Contents (Elt F) → (⟨S1x128, .f32⟩ : BufTy).Contents (Elt F)),
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v30 main_v31 (addf : (⟨S50000x128, .f32⟩ : BufTy).Contents (Elt F) → (⟨S50000x128, .f32⟩ : BufTy).Contents (Elt F) → (⟨S50000x128, .f32⟩ : BufTy).Contents (Elt F)) ]

/-- Layer 0: the column means: operations 38 … 42 of 260. -/
abbrev opsMean0 : List (HloOp τ sig (Elt F)) :=
  [
    StableHlo.nullary main_cst_1 (constant S_ .f32 0x00000000#32),
    StableHlo.binary main_v31 main_cst_1 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)) ]

/-- Layer 0: the column variances (the called function, its own call of the select inside): operations 43 … 65 of 260. -/
abbrev opsVar0 : List (HloOp τ sig (Elt F)) :=
  [
    StableHlo.nullary main_c_3 (constantI S_ 32 0#32),
    StableHlo.TRef.nullary main_call1.cst (constant S_ .f32 0x00000000#32),
    StableHlo.TRef.binary (.of main_v31 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v31 : StableHlo.TRef sig ⟨S50000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- Layer 0: normalisation and the affine map, first stretch: operations 66 … 83 of 260. -/
abbrev opsTail0a : List (HloOp τ sig (Elt F)) :=
  [
    StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v37 main_v38 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v39 (broadcastInDim S128 ![] bcast_S_S128 : (⟨S_, .f32⟩ : BufTy).Contents (Elt F) → (⟨S128, .f32⟩ : BufTy).Contents (Elt F)),
    StableHlo.binary main_v35 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg6 main_v45 ((extractStridedSlice S1x128 ![0, 0] · slices_S3x128_S1x128_0_0) : (⟨S3x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg7 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)) ]

/-- Layer 0: normalisation and the affine map, last stretch, with the rectifier: operations 84 … 88 of 260. -/
abbrev opsTail0b : List (HloOp τ sig (Elt F)) :=
  [
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v54 : StableHlo.TRef sig ⟨S50000x128, .f32⟩) main_call2.v0 main_call2.v1 maximumf ]

/-- Layer 1: the neighbour sum and its addition to the features: operations 89 … 102 of 260. -/
abbrev opsAgg1 : List (HloOp τ sig (Elt F)) :=
  [
    StableHlo.nullary main_c_5 (constantI S_ 32 0#32),
    StableHlo.unary main_c_5 main_v56 (broadcastInDim S600000 ![] bcast_S_S600000 : (⟨S_, .i32⟩ : BufTy).Contents (Elt F) → (⟨S600000, .i32⟩ : BufTy).Contents (Elt F)),
    StableHlo.binary main_v1 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v58 (broadcastInDim S600000 ![] bcast_S_S600000 : (⟨S_, .i32⟩ : BufTy).Contents (Elt F) → (⟨S600000, .i32⟩ : BufTy).Contents (Elt F)),
    StableHlo.binary main_v1 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v1 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.binary main_v55 main_v61 main_v62 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v63 (broadcastInDim S50000x128 ![] bcast_S_S50000x128 : (⟨S_, .f32⟩ : BufTy).Contents (Elt F) → (⟨S50000x128, .f32⟩ : BufTy).Contents (Elt F)),
    StableHlo.unary main_v3 main_v64 (broadcastInDim S600000x1 ![0] bcast_S600000_S600000x1_0 : (⟨S600000, .i32⟩ : BufTy).Contents (Elt F) → (⟨S600000x1, .i32⟩ : BufTy).Contents (Elt F)),
    StableHlo.ternary main_v63 main_v64 main_v62 main_v65 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v55 main_v65 main_v66 (addf : (⟨S50000x128, .f32⟩ : BufTy).Contents (Elt F) → (⟨S50000x128, .f32⟩ : BufTy).Contents (Elt F) → (⟨S50000x128, .f32⟩ : BufTy).Contents (Elt F)) ]

/-- Layer 1: the two-layer perceptron: operations 103 … 121 of 260. -/
abbrev opsMlp1 : List (HloOp τ sig (Elt F)) :=
  [
    StableHlo.unary main_arg2 main_v67 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v67 main_v68 rfl shapeCasts_S1x128x128_S128x128,
    StableHlo.binary main_v66 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v70 ((extractStridedSlice S1x128 ![1, 0] · slices_S3x128_S1x128_1_0) : (⟨S3x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v73 main_v74 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v74 : StableHlo.TRef sig ⟨S50000x128, .f32⟩) main_call3.v0 main_call3.v1 maximumf,
    StableHlo.unary main_arg4 main_v76 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v76 main_v77 rfl shapeCasts_S1x128x128_S128x128,
    StableHlo.binary main_v75 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v79 ((extractStridedSlice S1x128 ![1, 0] · slices_S3x128_S1x128_1_0) : (⟨S3x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (addf : (⟨S50000x128, .f32⟩ : BufTy).Contents (Elt F) → (⟨S50000x128, .f32⟩ : BufTy).Contents (Elt F) → (⟨S50000x128, .f32⟩ : BufTy).Contents (Elt F)) ]

/-- Layer 1: the column means: operations 122 … 126 of 260. -/
abbrev opsMean1 : List (HloOp τ sig (Elt F)) :=
  [
    StableHlo.nullary main_cst_8 (constant S_ .f32 0x00000000#32),
    StableHlo.binary main_v83 main_cst_8 main_v84 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)) ]

/-- Layer 1: the column variances (the called function, its own call of the select inside): operations 127 … 149 of 260. -/
abbrev opsVar1 : List (HloOp τ sig (Elt F)) :=
  [
    StableHlo.nullary main_c_10 (constantI S_ 32 0#32),
    StableHlo.TRef.nullary main_call4.cst (constant S_ .f32 0x00000000#32),
    StableHlo.TRef.binary (.of main_v83 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v83 : StableHlo.TRef sig ⟨S50000x128, .f32⟩) main_call4.v4 main_call4.v5 subf,
    StableHlo.TRef.binary main_call4.v5 main_call4.v5 main_call4.v6 mulf,
    StableHlo.TRef.unary (.of main_c_10 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Layer 1: normalisation and the affine map, first stretch: operations 150 … 168 of 260. -/
abbrev opsTail1a : List (HloOp τ sig (Elt F)) :=
  [
    StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v89 main_v90 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v91 (broadcastInDim S128 ![] bcast_S_S128 : (⟨S_, .f32⟩ : BufTy).Contents (Elt F) → (⟨S128, .f32⟩ : BufTy).Contents (Elt F)),
    StableHlo.binary main_v87 main_v91 main_v92 (addf : (⟨S128, .f32⟩ : BufTy).Contents (Elt F) → (⟨S128, .f32⟩ : BufTy).Contents (Elt F) → (⟨S128, .f32⟩ : BufTy).Contents (Elt F)),
    StableHlo.unary main_v92 main_v93 (Host.rsqrt : (⟨S128, .f32⟩ : BufTy).Contents (Elt F) → (⟨S128, .f32⟩ : BufTy).Contents (Elt F)),
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v95 main_v96 (mulf : (⟨S50000x128, .f32⟩ : BufTy).Contents (Elt F) → (⟨S50000x128, .f32⟩ : BufTy).Contents (Elt F) → (⟨S50000x128, .f32⟩ : BufTy).Contents (Elt F)),
    StableHlo.unary main_arg6 main_v97 ((extractStridedSlice S1x128 ![1, 0] · slices_S3x128_S1x128_1_0) : (⟨S3x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v96 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_arg7 main_v102 ((extractStridedSlice S1x128 ![1, 0] · slices_S3x128_S1x128_1_0) : (⟨S3x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)) ]

/-- Layer 1: normalisation and the affine map, last stretch, with the rectifier: operations 169 … 172 of 260. -/
abbrev opsTail1b : List (HloOp τ sig (Elt F)) :=
  [
    StableHlo.binary main_v101 main_v105 main_v106 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v106 : StableHlo.TRef sig ⟨S50000x128, .f32⟩) main_call5.v0 main_call5.v1 maximumf ]

/-- Layer 2: the neighbour sum and its addition to the features: operations 173 … 186 of 260. -/
abbrev opsAgg2 : List (HloOp τ sig (Elt F)) :=
  [
    StableHlo.nullary main_c_12 (constantI S_ 32 0#32),
    StableHlo.unary main_c_12 main_v108 (broadcastInDim S600000 ![] bcast_S_S600000 : (⟨S_, .i32⟩ : BufTy).Contents (Elt F) → (⟨S600000, .i32⟩ : BufTy).Contents (Elt F)),
    StableHlo.binary main_v1 main_v108 main_v109 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v110 (broadcastInDim S600000 ![] bcast_S_S600000 : (⟨S_, .i32⟩ : BufTy).Contents (Elt F) → (⟨S600000, .i32⟩ : BufTy).Contents (Elt F)),
    StableHlo.binary main_v1 main_v110 main_v111 (addi : (⟨S600000, .i32⟩ : BufTy).Contents (Elt F) → (⟨S600000, .i32⟩ : BufTy).Contents (Elt F) → (⟨S600000, .i32⟩ : BufTy).Contents (Elt F)),
    StableHlo.ternary main_v109 main_v111 main_v1 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v112 main_v113 (broadcastInDim S600000x1 ![0] bcast_S600000_S600000x1_0 : (⟨S600000, .i32⟩ : BufTy).Contents (Elt F) → (⟨S600000x1, .i32⟩ : BufTy).Contents (Elt F)),
    StableHlo.binary main_v107 main_v113 main_v114 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v115 (broadcastInDim S50000x128 ![] bcast_S_S50000x128 : (⟨S_, .f32⟩ : BufTy).Contents (Elt F) → (⟨S50000x128, .f32⟩ : BufTy).Contents (Elt F)),
    StableHlo.unary main_v3 main_v116 (broadcastInDim S600000x1 ![0] bcast_S600000_S600000x1_0 : (⟨S600000, .i32⟩ : BufTy).Contents (Elt F) → (⟨S600000x1, .i32⟩ : BufTy).Contents (Elt F)),
    StableHlo.ternary main_v115 main_v116 main_v114 main_v117 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v107 main_v117 main_v118 (addf : (⟨S50000x128, .f32⟩ : BufTy).Contents (Elt F) → (⟨S50000x128, .f32⟩ : BufTy).Contents (Elt F) → (⟨S50000x128, .f32⟩ : BufTy).Contents (Elt F)) ]

/-- Layer 2: the two-layer perceptron: operations 187 … 205 of 260. -/
abbrev opsMlp2 : List (HloOp τ sig (Elt F)) :=
  [
    StableHlo.unary main_arg2 main_v119 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v119 main_v120 rfl shapeCasts_S1x128x128_S128x128,
    StableHlo.binary main_v118 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v126 : StableHlo.TRef sig ⟨S50000x128, .f32⟩) main_call6.v0 main_call6.v1 maximumf,
    StableHlo.unary main_arg4 main_v128 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v131 ((extractStridedSlice S1x128 ![2, 0] · slices_S3x128_S1x128_2_0) : (⟨S3x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v134 main_v135 (addf : (⟨S50000x128, .f32⟩ : BufTy).Contents (Elt F) → (⟨S50000x128, .f32⟩ : BufTy).Contents (Elt F) → (⟨S50000x128, .f32⟩ : BufTy).Contents (Elt F)) ]

/-- Layer 2: the column means: operations 206 … 210 of 260. -/
abbrev opsMean2 : List (HloOp τ sig (Elt F)) :=
  [
    StableHlo.nullary main_cst_15 (constant S_ .f32 0x00000000#32),
    StableHlo.binary main_v135 main_cst_15 main_v136 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v137 (broadcastInDim S128 ![] bcast_S_S128 : (⟨S_, .f32⟩ : BufTy).Contents (Elt F) → (⟨S128, .f32⟩ : BufTy).Contents (Elt F)),
    StableHlo.binary main_v136 main_v137 main_v138 (Host.divf : (⟨S128, .f32⟩ : BufTy).Contents (Elt F) → (⟨S128, .f32⟩ : BufTy).Contents (Elt F) → (⟨S128, .f32⟩ : BufTy).Contents (Elt F)) ]

/-- Layer 2: the column variances (the called function, its own call of the select inside): operations 211 … 233 of 260. -/
abbrev opsVar2 : List (HloOp τ sig (Elt F)) :=
  [
    StableHlo.nullary main_c_17 (constantI S_ 32 0#32),
    StableHlo.TRef.nullary main_call7.cst (constant S_ .f32 0x00000000#32),
    StableHlo.TRef.binary (.of main_v135 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v135 : StableHlo.TRef sig ⟨S50000x128, .f32⟩) main_call7.v4 main_call7.v5 subf,
    StableHlo.TRef.binary main_call7.v5 main_call7.v5 main_call7.v6 mulf,
    StableHlo.TRef.unary (.of main_c_17 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b) ]

/-- Layer 2: normalisation and the affine map, first stretch: operations 234 … 253 of 260. -/
abbrev opsTail2a : List (HloOp τ sig (Elt F)) :=
  [
    StableHlo.unary main_v138 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v141 main_v142 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v143 (broadcastInDim S128 ![] bcast_S_S128 : (⟨S_, .f32⟩ : BufTy).Contents (Elt F) → (⟨S128, .f32⟩ : BufTy).Contents (Elt F)),
    StableHlo.binary main_v139 main_v143 main_v144 (addf : (⟨S128, .f32⟩ : BufTy).Contents (Elt F) → (⟨S128, .f32⟩ : BufTy).Contents (Elt F) → (⟨S128, .f32⟩ : BufTy).Contents (Elt F)),
    StableHlo.unary main_v144 main_v145 (Host.rsqrt : (⟨S128, .f32⟩ : BufTy).Contents (Elt F) → (⟨S128, .f32⟩ : BufTy).Contents (Elt F)),
    StableHlo.unary main_v145 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v147 main_v148 (mulf : (⟨S50000x128, .f32⟩ : BufTy).Contents (Elt F) → (⟨S50000x128, .f32⟩ : BufTy).Contents (Elt F) → (⟨S50000x128, .f32⟩ : BufTy).Contents (Elt F)),
    StableHlo.unary main_arg6 main_v149 ((extractStridedSlice S1x128 ![2, 0] · slices_S3x128_S1x128_2_0) : (⟨S3x128, .f32⟩ : BufTy).Contents (Elt F) → (⟨S1x128, .f32⟩ : BufTy).Contents (Elt F)),
    StableHlo.reshape main_v149 main_v150 rfl shapeCasts_S1x128_S128,
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v152 main_v153 (mulf : (⟨S50000x128, .f32⟩ : BufTy).Contents (Elt F) → (⟨S50000x128, .f32⟩ : BufTy).Contents (Elt F) → (⟨S50000x128, .f32⟩ : BufTy).Contents (Elt F)),
    StableHlo.unary main_arg7 main_v154 ((extractStridedSlice S1x128 ![2, 0] · slices_S3x128_S1x128_2_0) : (⟨S3x128, .f32⟩ : BufTy).Contents (Elt F) → (⟨S1x128, .f32⟩ : BufTy).Contents (Elt F)),
    StableHlo.reshape main_v154 main_v155 rfl shapeCasts_S1x128_S128,
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v157 main_v158 (addf : (⟨S50000x128, .f32⟩ : BufTy).Contents (Elt F) → (⟨S50000x128, .f32⟩ : BufTy).Contents (Elt F) → (⟨S50000x128, .f32⟩ : BufTy).Contents (Elt F)) ]

/-- Layer 2: normalisation and the affine map, last stretch, with the rectifier: operations 254 … 256 of 260. -/
abbrev opsTail2b : List (HloOp τ sig (Elt F)) :=
  [
    StableHlo.TRef.nullary main_call8.cst (constant S_ .f32 0x00000000#32),
    StableHlo.TRef.unary main_call8.cst main_call8.v0 (broadcastInDim S50000x128 ![] bcast_S_S50000x128),
    StableHlo.TRef.binary (.of main_v158 : StableHlo.TRef sig ⟨S50000x128, .f32⟩) main_call8.v0 main_call8.v1 maximumf ]

/-- The output map: operations 257 … 260 of 260. -/
abbrev opsOut : List (HloOp τ sig (Elt F)) :=
  [
    StableHlo.binary main_v159 main_arg8 main_v160 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg9 main_v161 (broadcastInDim S1x1 ![1] bcast_S1_S1x1_1 : (⟨S1, .f32⟩ : BufTy).Contents (Elt F) → (⟨S1x1, .f32⟩ : BufTy).Contents (Elt F)),
    StableHlo.unary main_v161 main_v162 (broadcastInDim S50000x1 ![0, 1] bcast_S1x1_S50000x1_0_1 : (⟨S1x1, .f32⟩ : BufTy).Contents (Elt F) → (⟨S50000x1, .f32⟩ : BufTy).Contents (Elt F)),
    StableHlo.binary main_v160 main_v162 main_v163 (addf : (⟨S50000x1, .f32⟩ : BufTy).Contents (Elt F) → (⟨S50000x1, .f32⟩ : BufTy).Contents (Elt F) → (⟨S50000x1, .f32⟩ : BufTy).Contents (Elt F)) ]

/-- The operations of @main's window 0. -/
def opsP0 : List (HloOp τ sig (Elt F)) :=
  opsPre ++ (opsAgg0 ++ (opsMlp0 ++ (opsMean0 ++ (opsVar0 ++ (opsTail0a)))))

/-- The operations of @main's window 1. -/
def opsP1 : List (HloOp τ sig (Elt F)) :=
  opsTail0b ++ (opsAgg1 ++ (opsMlp1 ++ (opsMean1 ++ (opsVar1 ++ (opsTail1a)))))

/-- The operations of @main's window 2. -/
def opsP2 : List (HloOp τ sig (Elt F)) :=
  opsTail1b ++ (opsAgg2 ++ (opsMlp2 ++ (opsMean2 ++ (opsVar2 ++ (opsTail2a)))))

/-- The operations of @main's window 3. -/
def opsP3 : List (HloOp τ sig (Elt F)) :=
  opsTail2b ++ (opsOut)

/-- @main's 260 operations, in order. -/
def ops : List (HloOp τ sig (Elt F)) := opsP0 ++ (opsP1 ++ (opsP2 ++ opsP3))

/-- The line as its stretches. -/
theorem ops_eq : (ops : List (HloOp τ sig (Elt F))) = opsPre ++ (opsAgg0 ++ (opsMlp0 ++ (opsMean0 ++ (opsVar0 ++ (opsTail0a ++ (opsTail0b ++ (opsAgg1 ++ (opsMlp1 ++ (opsMean1 ++ (opsVar1 ++ (opsTail1a ++ (opsTail1b ++ (opsAgg2 ++ (opsMlp2 ++ (opsMean2 ++ (opsVar2 ++ (opsTail2a ++ (opsTail2b ++ (opsOut))))))))))))))))))) := by
  simp only [ops, opsP0, opsP1, opsP2, opsP3, List.append_assoc]

set_option maxRecDepth 65536 in
set_option maxHeartbeats 4000000 in
/-- Window 0 of @main is its operations in a line: the called functions' bodies unfold at their calls. -/
theorem main_part0_eq (c : Dev nD) : main_part0 (F := F) c = seq opsP0 := rfl

set_option maxRecDepth 65536 in
set_option maxHeartbeats 4000000 in
/-- Window 1 of @main is its operations in a line: the called functions' bodies unfold at their calls. -/
theorem main_part1_eq (c : Dev nD) : main_part1 (F := F) c = seq opsP1 := rfl

set_option maxRecDepth 65536 in
set_option maxHeartbeats 4000000 in
/-- Window 2 of @main is its operations in a line: the called functions' bodies unfold at their calls. -/
theorem main_part2_eq (c : Dev nD) : main_part2 (F := F) c = seq opsP2 := rfl

set_option maxRecDepth 65536 in
set_option maxHeartbeats 4000000 in
/-- Window 3 of @main is its operations in a line: the called functions' bodies unfold at their calls. -/
theorem main_part3_eq (c : Dev nD) : main_part3 (F := F) c = seq opsP3 := rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig :=
  ⟨unary_bufs_sub .., reshape_bufs_sub .., unary_bufs_sub .., reshape_bufs_sub ..⟩
theorem opsPre_fresh : ∀ op ∈ (opsPre : List (HloOp τ sig (Elt F))), op.fresh = ∅ := by
  intro _ h; (repeat (cases h with | head => rfl | tail _ h => ?_)); exact nomatch h
theorem opsAgg0_sub : (opsAgg0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem opsAgg0_fresh : ∀ op ∈ (opsAgg0 : List (HloOp τ sig (Elt F))), op.fresh = ∅ := by
  intro _ h; (repeat (cases h with | head => rfl | tail _ h => ?_)); exact nomatch h
theorem opsMlp0_sub : (opsMlp0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem opsMlp0_fresh : ∀ op ∈ (opsMlp0 : List (HloOp τ sig (Elt F))), op.fresh = ∅ := by
  intro _ h; (repeat (cases h with | head => rfl | tail _ h => ?_)); exact nomatch h
theorem opsMean0_sub : (opsMean0 : List (HloOp τ sig (Elt F))).Forall fun op => op.bufs ⊆ tcRefs τ sig :=
  ⟨nullary_bufs_sub .., binary_bufs_sub .., nullary_bufs_sub .., unary_bufs_sub .., binary_bufs_sub ..⟩
theorem opsMean0_fresh : ∀ op ∈ (opsMean0 : List (HloOp τ sig (Elt F))), op.fresh = ∅ := by
  intro _ h; (repeat (cases h with | head => rfl | tail _ h => ?_)); exact nomatch h
theorem opsVar0_sub : (opsVar0 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar0_fresh : ∀ op ∈ (opsVar0 : List (HloOp τ sig (Elt F))), op.fresh = ∅ := by
  intro _ h; (repeat (cases h with | head => rfl | tail _ h => ?_)); exact nomatch h
theorem opsTail0a_sub : (opsTail0a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub ..⟩
theorem opsTail0a_fresh : ∀ op ∈ (opsTail0a : List (HloOp τ sig (Elt F))), op.fresh = ∅ := by
  intro _ h; (repeat (cases h with | head => rfl | tail _ h => ?_)); exact nomatch h
theorem opsTail0b_sub : (opsTail0b : List (HloOp τ sig (Elt F))).Forall fun op => op.bufs ⊆ tcRefs τ sig :=
  ⟨unary_bufs_sub .., binary_bufs_sub .., nullary_bufs_sub .., unary_bufs_sub .., binary_bufs_sub ..⟩
theorem opsTail0b_fresh : ∀ op ∈ (opsTail0b : List (HloOp τ sig (Elt F))), op.fresh = ∅ := by
  intro _ h; (repeat (cases h with | head => rfl | tail _ h => ?_)); exact nomatch h
theorem opsAgg1_sub : (opsAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem opsAgg1_fresh : ∀ op ∈ (opsAgg1 : List (HloOp τ sig (Elt F))), op.fresh = ∅ := by
  intro _ h; (repeat (cases h with | head => rfl | tail _ h => ?_)); exact nomatch h
theorem opsMlp1_sub : (opsMlp1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem opsMlp1_fresh : ∀ op ∈ (opsMlp1 : List (HloOp τ sig (Elt F))), op.fresh = ∅ := by
  intro _ h; (repeat (cases h with | head => rfl | tail _ h => ?_)); exact nomatch h
theorem opsMean1_sub : (opsMean1 : List (HloOp τ sig (Elt F))).Forall fun op => op.bufs ⊆ tcRefs τ sig :=
  ⟨nullary_bufs_sub .., binary_bufs_sub .., nullary_bufs_sub .., unary_bufs_sub .., binary_bufs_sub ..⟩
theorem opsMean1_fresh : ∀ op ∈ (opsMean1 : List (HloOp τ sig (Elt F))), op.fresh = ∅ := by
  intro _ h; (repeat (cases h with | head => rfl | tail _ h => ?_)); exact nomatch h
theorem opsVar1_sub : (opsVar1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar1_fresh : ∀ op ∈ (opsVar1 : List (HloOp τ sig (Elt F))), op.fresh = ∅ := by
  intro _ h; (repeat (cases h with | head => rfl | tail _ h => ?_)); exact nomatch h
theorem opsTail1a_sub : (opsTail1a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub ..⟩
theorem opsTail1a_fresh : ∀ op ∈ (opsTail1a : List (HloOp τ sig (Elt F))), op.fresh = ∅ := by
  intro _ h; (repeat (cases h with | head => rfl | tail _ h => ?_)); exact nomatch h
theorem opsTail1b_sub : (opsTail1b : List (HloOp τ sig (Elt F))).Forall fun op => op.bufs ⊆ tcRefs τ sig :=
  ⟨binary_bufs_sub .., nullary_bufs_sub .., unary_bufs_sub .., binary_bufs_sub ..⟩
theorem opsTail1b_fresh : ∀ op ∈ (opsTail1b : List (HloOp τ sig (Elt F))), op.fresh = ∅ := by
  intro _ h; (repeat (cases h with | head => rfl | tail _ h => ?_)); exact nomatch h
theorem opsAgg2_sub : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem opsAgg2_fresh : ∀ op ∈ (opsAgg2 : List (HloOp τ sig (Elt F))), op.fresh = ∅ := by
  intro _ h; (repeat (cases h with | head => rfl | tail _ h => ?_)); exact nomatch h
theorem opsMlp2_sub : (opsMlp2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem opsMlp2_fresh : ∀ op ∈ (opsMlp2 : List (HloOp τ sig (Elt F))), op.fresh = ∅ := by
  intro _ h; (repeat (cases h with | head => rfl | tail _ h => ?_)); exact nomatch h
theorem opsMean2_sub : (opsMean2 : List (HloOp τ sig (Elt F))).Forall fun op => op.bufs ⊆ tcRefs τ sig :=
  ⟨nullary_bufs_sub .., binary_bufs_sub .., nullary_bufs_sub .., unary_bufs_sub .., binary_bufs_sub ..⟩
theorem opsMean2_fresh : ∀ op ∈ (opsMean2 : List (HloOp τ sig (Elt F))), op.fresh = ∅ := by
  intro _ h; (repeat (cases h with | head => rfl | tail _ h => ?_)); exact nomatch h
theorem opsVar2_sub : (opsVar2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar2_fresh : ∀ op ∈ (opsVar2 : List (HloOp τ sig (Elt F))), op.fresh = ∅ := by
  intro _ h; (repeat (cases h with | head => rfl | tail _ h => ?_)); exact nomatch h
theorem opsTail2a_sub : (opsTail2a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem opsTail2a_fresh : ∀ op ∈ (opsTail2a : List (HloOp τ sig (Elt F))), op.fresh = ∅ := by
  intro _ h; (repeat (cases h with | head => rfl | tail _ h => ?_)); exact nomatch h
theorem opsTail2b_sub : (opsTail2b : List (HloOp τ sig (Elt F))).Forall fun op => op.bufs ⊆ tcRefs τ sig :=
  ⟨nullary_bufs_sub .., unary_bufs_sub .., binary_bufs_sub ..⟩
theorem opsTail2b_fresh : ∀ op ∈ (opsTail2b : List (HloOp τ sig (Elt F))), op.fresh = ∅ := by
  intro _ h; (repeat (cases h with | head => rfl | tail _ h => ?_)); exact nomatch h
theorem opsOut_sub : (opsOut : List (HloOp τ sig (Elt F))).Forall fun op => op.bufs ⊆ tcRefs τ sig :=
  ⟨binary_bufs_sub .., unary_bufs_sub .., unary_bufs_sub .., binary_bufs_sub ..⟩
theorem opsOut_fresh : ∀ op ∈ (opsOut : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops_eq, List.mem_append] at h
    rcases h with h | h | h | h | h | h | h | h | h | h | h | h | h | h | h | h | h | h | h | h
    exacts [List.forall_iff_forall_mem.mp opsPre_sub op h, List.forall_iff_forall_mem.mp opsAgg0_sub op h, List.forall_iff_forall_mem.mp opsMlp0_sub op h, List.forall_iff_forall_mem.mp opsMean0_sub op h, List.forall_iff_forall_mem.mp opsVar0_sub op h, List.forall_iff_forall_mem.mp opsTail0a_sub op h, List.forall_iff_forall_mem.mp opsTail0b_sub op h, List.forall_iff_forall_mem.mp opsAgg1_sub op h, List.forall_iff_forall_mem.mp opsMlp1_sub op h, List.forall_iff_forall_mem.mp opsMean1_sub op h, List.forall_iff_forall_mem.mp opsVar1_sub op h, List.forall_iff_forall_mem.mp opsTail1a_sub op h, List.forall_iff_forall_mem.mp opsTail1b_sub op h, List.forall_iff_forall_mem.mp opsAgg2_sub op h, List.forall_iff_forall_mem.mp opsMlp2_sub op h, List.forall_iff_forall_mem.mp opsMean2_sub op h, List.forall_iff_forall_mem.mp opsVar2_sub op h, List.forall_iff_forall_mem.mp opsTail2a_sub op h, List.forall_iff_forall_mem.mp opsTail2b_sub op h, List.forall_iff_forall_mem.mp opsOut_sub op h]

theorem ops_fresh : ∀ op ∈ (ops : List (HloOp τ sig (Elt F))), op.fresh = ∅ := by
  intro op h
  simp only [ops_eq, List.mem_append] at h
  rcases h with h | h | h | h | h | h | h | h | h | h | h | h | h | h | h | h | h | h | h | h
  exacts [opsPre_fresh op h, opsAgg0_fresh op h, opsMlp0_fresh op h, opsMean0_fresh op h, opsVar0_fresh op h, opsTail0a_fresh op h, opsTail0b_fresh op h, opsAgg1_fresh op h, opsMlp1_fresh op h, opsMean1_fresh op h, opsVar1_fresh op h, opsTail1a_fresh op h, opsTail1b_fresh op h, opsAgg2_fresh op h, opsMlp2_fresh op h, opsMean2_fresh op h, opsVar2_fresh op h, opsTail2a_fresh op h, opsTail2b_fresh op h, opsOut_fresh op h]

end Cert.ReferenceIdeal.Hand

end
-- ==== Proof.RefRunC0.lean ====
/- Layer 0 of the reference read back: through each stretch of its operations, from any contents of the buffers, the
   stretch's result is the stage's function of what the stretch reads, and every buffer it does not write is kept;
   composed, the layer's result is the layer function of the features, the edge lists and the layer's parameters. -/
import proofs.«147060_j15040975470999_1_alg».proof.Proof.Gen.ReferenceIdeal
import Idealize.ShloMosaic.Lib.StableHlo.Run
import Idealize.ShloMosaic.Lib.Pipeline.Frame
import proofs.«147060_j15040975470999_1_alg».proof.Proof.RefRunA
import proofs.«147060_j15040975470999_1_alg».proof.Proof.RefRunB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 0's normalisation, affine map and rectifier: one stretch. -/
def opsTail0 : List (HloOp τ sig (Elt F)) := opsTail0a ++ opsTail0b

/-- Layer 0's operations. -/
def opsL0 : List (HloOp τ sig (Elt F)) := opsAgg0 ++ (opsMlp0 ++ (opsMean0 ++ (opsVar0 ++ opsTail0)))

/-- The buffers `opsAgg0` writes. -/
abbrev opsAgg0_W : List (Ref sig .tc) := [main_c, main_v4, main_v5, main_c_0, main_v6, main_v7, main_v8, main_v9, main_v10, main_cst, main_v11, main_v12, main_v13, main_v14]
set_option maxRecDepth 8192 in
theorem opsAgg0_writes : (opsAgg0 : List (HloOp τ sig (Elt F))).Forall fun op =>
    op.writes ⊆ (opsAgg0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsAgg0` does not write keeps its contents through it. -/
theorem agg0_keep (V : Valuation τ sig (Elt F)) (r : Ref sig .tc) (h : r ∉ opsAgg0_W) :
    after opsAgg0 V (no_index (Proc.devRef .tc r)) = V (Proc.devRef .tc r) :=
  after_of_writes_sub opsAgg0 V opsAgg0_writes h

/-- The buffers `opsMlp0` writes. -/
abbrev opsMlp0_W : List (Ref sig .tc) := [main_v15, main_v16, main_v17, main_v18, main_v19, main_v20, main_v21, main_v22, main_call0_cst, main_call0_v0, main_v23, main_v24, main_v25, main_v26, main_v27, main_v28, main_v29, main_v30, main_v31]
set_option maxRecDepth 8192 in
theorem opsMlp0_writes : (opsMlp0 : List (HloOp τ sig (Elt F))).Forall fun op =>
    op.writes ⊆ (opsMlp0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsMlp0` does not write keeps its contents through it. -/
theorem mlp0_keep (V : Valuation τ sig (Elt F)) (r : Ref sig .tc) (h : r ∉ opsMlp0_W) :
    after opsMlp0 V (no_index (Proc.devRef .tc r)) = V (Proc.devRef .tc r) :=
  after_of_writes_sub opsMlp0 V opsMlp0_writes h

/-- The buffers `opsMean0` writes. -/
abbrev opsMean0_W : List (Ref sig .tc) := [main_cst_1, main_v32, main_cst_2, main_v33, main_v34]
set_option maxRecDepth 8192 in
theorem opsMean0_writes : (opsMean0 : List (HloOp τ sig (Elt F))).Forall fun op =>
    op.writes ⊆ (opsMean0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsMean0` does not write keeps its contents through it. -/
theorem mean0_keep (V : Valuation τ sig (Elt F)) (r : Ref sig .tc) (h : r ∉ opsMean0_W) :
    after opsMean0 V (no_index (Proc.devRef .tc r)) = V (Proc.devRef .tc r) :=
  after_of_writes_sub opsMean0 V opsMean0_writes h

/-- The buffers `opsVar0` writes. -/
abbrev opsVar0_W : List (Ref sig .tc) := [main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v35]
set_option maxRecDepth 8192 in
theorem opsVar0_writes : (opsVar0 : List (HloOp τ sig (Elt F))).Forall fun op =>
    op.writes ⊆ (opsVar0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsVar0` does not write keeps its contents through it. -/
theorem var0_keep (V : Valuation τ sig (Elt F)) (r : Ref sig .tc) (h : r ∉ opsVar0_W) :
    after opsVar0 V (no_index (Proc.devRef .tc r)) = V (Proc.devRef .tc r) :=
  after_of_writes_sub opsVar0 V opsVar0_writes h

/-- The buffers `opsTail0` writes. -/
abbrev opsTail0_W : List (Ref sig .tc) := [main_v36, main_v37, main_v38, main_cst_4, main_v39, main_v40, main_v41, main_v42, main_v43, main_v44, main_v45, main_v46, main_v47, main_v48, main_v49, main_v50, main_v51, main_v52, main_v53, main_v54, main_call2_cst, main_call2_v0, main_v55]
set_option maxRecDepth 8192 in
theorem opsTail0_writes : (opsTail0 : List (HloOp τ sig (Elt F))).Forall fun op =>
    op.writes ⊆ (opsTail0_W.map (Proc.devRef (τ := τ) .tc)).toFinset := by
  simp only [opsTail0, opsTail0a, opsTail0b, List.cons_append, List.nil_append, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsTail0` does not write keeps its contents through it. -/
theorem tail0_keep (V : Valuation τ sig (Elt F)) (r : Ref sig .tc) (h : r ∉ opsTail0_W) :
    after opsTail0 V (no_index (Proc.devRef .tc r)) = V (Proc.devRef .tc r) :=
  after_of_writes_sub opsTail0 V opsTail0_writes h

set_option maxRecDepth 8192 in
set_option maxHeartbeats 2000000 in
/-- The features plus their neighbour sum. -/
theorem agg0_u (V : Valuation τ sig (Elt F)) :
    after opsAgg0 V (no_index (Proc.devRef .tc main_v14)) =
      addf (V (Proc.devRef .tc main_arg0) : (⟨S50000x128, .f32⟩ : BufTy).Contents (Elt F)) (aggOps (V (Proc.devRef .tc main_arg0)) (V (Proc.devRef .tc main_v1)) (V (Proc.devRef .tc main_v3))) := by
  simp only [opsAgg0]
  after_results_simp
  rfl

set_option maxRecDepth 8192 in
set_option maxHeartbeats 2000000 in
/-- The perceptron's output. -/
theorem mlp0_z (V : Valuation τ sig (Elt F)) :
    after opsMlp0 V (no_index (Proc.devRef .tc main_v31)) =
      mlpOps (V (Proc.devRef .tc main_v14)) (pick2_0 (V (Proc.devRef .tc main_arg2))) (pick1_0 (V (Proc.devRef .tc main_arg3))) (pick2_0 (V (Proc.devRef .tc main_arg4))) (pick1_0 (V (Proc.devRef .tc main_arg5))) := by
  simp only [opsMlp0]
  after_results_simp
  rfl

set_option maxRecDepth 8192 in
set_option maxHeartbeats 2000000 in
/-- The column means. -/
theorem mean0_m (V : Valuation τ sig (Elt F)) :
    after opsMean0 V (no_index (Proc.devRef .tc main_v34)) = meanOps (V (Proc.devRef .tc main_v31)) := by
  simp only [opsMean0]
  after_results_simp
  rfl

set_option maxRecDepth 8192 in
set_option maxHeartbeats 2000000 in
/-- The column variances. -/
theorem var0_v (V : Valuation τ sig (Elt F)) :
    after opsVar0 V (no_index (Proc.devRef .tc main_v35)) = varOps (V (Proc.devRef .tc main_v31)) := by
  simp only [opsVar0]
  after_results_simp
  rfl

set_option maxRecDepth 8192 in
set_option maxHeartbeats 2000000 in
/-- The normalised, scaled, shifted and rectified output. -/
theorem tail0_o (V : Valuation τ sig (Elt F)) :
    after opsTail0 V (no_index (Proc.devRef .tc main_v55)) =
      tailOps (V (Proc.devRef .tc main_v31)) (V (Proc.devRef .tc main_v34)) (V (Proc.devRef .tc main_v35)) (pick1_0 (V (Proc.devRef .tc main_arg6))) (pick1_0 (V (Proc.devRef .tc main_arg7))) := by
  simp only [opsTail0, opsTail0a, opsTail0b, List.cons_append, List.nil_append]
  after_results_simp
  rfl

/-- The buffers layer 0 writes. -/
abbrev opsL0_W : List (Ref sig .tc) := opsAgg0_W ++ (opsMlp0_W ++ (opsMean0_W ++ (opsVar0_W ++ opsTail0_W)))

/-- A buffer layer 0 does not write keeps its contents through it. -/
theorem layer0_keep (V : Valuation τ sig (Elt F)) (r : Ref sig .tc) (h : r ∉ opsL0_W) :
    after opsL0 V (no_index (Proc.devRef .tc r)) = V (Proc.devRef .tc r) := by
  simp only [opsL0_W, List.mem_append, not_or] at h
  obtain ⟨h1, h2, h3, h4, h5⟩ := h
  simp only [opsL0, after_append]
  rw [tail0_keep _ _ h5, var0_keep _ _ h4, mean0_keep _ _ h3, mlp0_keep _ _ h2, agg0_keep _ _ h1]

set_option maxRecDepth 8192 in
set_option maxHeartbeats 2000000 in
/-- Layer 0's result is the layer function of the features it starts from, the edge lists and its parameters. -/
theorem layer0_o (V : Valuation τ sig (Elt F)) :
    after opsL0 V (no_index (Proc.devRef .tc main_v55)) =
      layerOps (V (Proc.devRef .tc main_arg0)) (V (Proc.devRef .tc main_v1)) (V (Proc.devRef .tc main_v3)) (pick2_0 (V (Proc.devRef .tc main_arg2))) (pick1_0 (V (Proc.devRef .tc main_arg3))) (pick2_0 (V (Proc.devRef .tc main_arg4))) (pick1_0 (V (Proc.devRef .tc main_arg5))) (pick1_0 (V (Proc.devRef .tc main_arg6))) (pick1_0 (V (Proc.devRef .tc main_arg7))) := by
  simp (disch := decide) only [opsL0, after_append, tail0_o, var0_v, mean0_m, mlp0_z, agg0_u,
    tail0_keep, var0_keep, mean0_keep, mlp0_keep, agg0_keep]
  rfl

end Cert.ReferenceIdeal.Hand

end
-- ==== Proof.RefRunC1.lean ====
/- Layer 1 of the reference read back: through each stretch of its operations, from any contents of the buffers, the
   stretch's result is the stage's function of what the stretch reads, and every buffer it does not write is kept;
   composed, the layer's result is the layer function of the features, the edge lists and the layer's parameters. -/
import proofs.«147060_j15040975470999_1_alg».proof.Proof.Gen.ReferenceIdeal
import Idealize.ShloMosaic.Lib.StableHlo.Run
import Idealize.ShloMosaic.Lib.Pipeline.Frame
import proofs.«147060_j15040975470999_1_alg».proof.Proof.RefRunA
import proofs.«147060_j15040975470999_1_alg».proof.Proof.RefRunB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 1's normalisation, affine map and rectifier: one stretch. -/
def opsTail1 : List (HloOp τ sig (Elt F)) := opsTail1a ++ opsTail1b

/-- Layer 1's operations. -/
def opsL1 : List (HloOp τ sig (Elt F)) := opsAgg1 ++ (opsMlp1 ++ (opsMean1 ++ (opsVar1 ++ opsTail1)))

/-- The buffers `opsAgg1` writes. -/
abbrev opsAgg1_W : List (Ref sig .tc) := [main_c_5, main_v56, main_v57, main_c_6, main_v58, main_v59, main_v60, main_v61, main_v62, main_cst_7, main_v63, main_v64, main_v65, main_v66]
set_option maxRecDepth 8192 in
theorem opsAgg1_writes : (opsAgg1 : List (HloOp τ sig (Elt F))).Forall fun op =>
    op.writes ⊆ (opsAgg1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsAgg1` does not write keeps its contents through it. -/
theorem agg1_keep (V : Valuation τ sig (Elt F)) (r : Ref sig .tc) (h : r ∉ opsAgg1_W) :
    after opsAgg1 V (no_index (Proc.devRef .tc r)) = V (Proc.devRef .tc r) :=
  after_of_writes_sub opsAgg1 V opsAgg1_writes h

/-- The buffers `opsMlp1` writes. -/
abbrev opsMlp1_W : List (Ref sig .tc) := [main_v67, main_v68, main_v69, main_v70, main_v71, main_v72, main_v73, main_v74, main_call3_cst, main_call3_v0, main_v75, main_v76, main_v77, main_v78, main_v79, main_v80, main_v81, main_v82, main_v83]
set_option maxRecDepth 8192 in
theorem opsMlp1_writes : (opsMlp1 : List (HloOp τ sig (Elt F))).Forall fun op =>
    op.writes ⊆ (opsMlp1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsMlp1` does not write keeps its contents through it. -/
theorem mlp1_keep (V : Valuation τ sig (Elt F)) (r : Ref sig .tc) (h : r ∉ opsMlp1_W) :
    after opsMlp1 V (no_index (Proc.devRef .tc r)) = V (Proc.devRef .tc r) :=
  after_of_writes_sub opsMlp1 V opsMlp1_writes h

/-- The buffers `opsMean1` writes. -/
abbrev opsMean1_W : List (Ref sig .tc) := [main_cst_8, main_v84, main_cst_9, main_v85, main_v86]
set_option maxRecDepth 8192 in
theorem opsMean1_writes : (opsMean1 : List (HloOp τ sig (Elt F))).Forall fun op =>
    op.writes ⊆ (opsMean1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsMean1` does not write keeps its contents through it. -/
theorem mean1_keep (V : Valuation τ sig (Elt F)) (r : Ref sig .tc) (h : r ∉ opsMean1_W) :
    after opsMean1 V (no_index (Proc.devRef .tc r)) = V (Proc.devRef .tc r) :=
  after_of_writes_sub opsMean1 V opsMean1_writes h

/-- The buffers `opsVar1` writes. -/
abbrev opsVar1_W : List (Ref sig .tc) := [main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v87]
set_option maxRecDepth 8192 in
theorem opsVar1_writes : (opsVar1 : List (HloOp τ sig (Elt F))).Forall fun op =>
    op.writes ⊆ (opsVar1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsVar1` does not write keeps its contents through it. -/
theorem var1_keep (V : Valuation τ sig (Elt F)) (r : Ref sig .tc) (h : r ∉ opsVar1_W) :
    after opsVar1 V (no_index (Proc.devRef .tc r)) = V (Proc.devRef .tc r) :=
  after_of_writes_sub opsVar1 V opsVar1_writes h

/-- The buffers `opsTail1` writes. -/
abbrev opsTail1_W : List (Ref sig .tc) := [main_v88, main_v89, main_v90, main_cst_11, main_v91, main_v92, main_v93, main_v94, main_v95, main_v96, main_v97, main_v98, main_v99, main_v100, main_v101, main_v102, main_v103, main_v104, main_v105, main_v106, main_call5_cst, main_call5_v0, main_v107]
set_option maxRecDepth 8192 in
theorem opsTail1_writes : (opsTail1 : List (HloOp τ sig (Elt F))).Forall fun op =>
    op.writes ⊆ (opsTail1_W.map (Proc.devRef (τ := τ) .tc)).toFinset := by
  simp only [opsTail1, opsTail1a, opsTail1b, List.cons_append, List.nil_append, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsTail1` does not write keeps its contents through it. -/
theorem tail1_keep (V : Valuation τ sig (Elt F)) (r : Ref sig .tc) (h : r ∉ opsTail1_W) :
    after opsTail1 V (no_index (Proc.devRef .tc r)) = V (Proc.devRef .tc r) :=
  after_of_writes_sub opsTail1 V opsTail1_writes h

set_option maxRecDepth 8192 in
set_option maxHeartbeats 2000000 in
/-- The features plus their neighbour sum. -/
theorem agg1_u (V : Valuation τ sig (Elt F)) :
    after opsAgg1 V (no_index (Proc.devRef .tc main_v66)) =
      addf (V (Proc.devRef .tc main_v55) : (⟨S50000x128, .f32⟩ : BufTy).Contents (Elt F)) (aggOps (V (Proc.devRef .tc main_v55)) (V (Proc.devRef .tc main_v1)) (V (Proc.devRef .tc main_v3))) := by
  simp only [opsAgg1]
  after_results_simp
  rfl

set_option maxRecDepth 8192 in
set_option maxHeartbeats 2000000 in
/-- The perceptron's output. -/
theorem mlp1_z (V : Valuation τ sig (Elt F)) :
    after opsMlp1 V (no_index (Proc.devRef .tc main_v83)) =
      mlpOps (V (Proc.devRef .tc main_v66)) (pick2_1 (V (Proc.devRef .tc main_arg2))) (pick1_1 (V (Proc.devRef .tc main_arg3))) (pick2_1 (V (Proc.devRef .tc main_arg4))) (pick1_1 (V (Proc.devRef .tc main_arg5))) := by
  simp only [opsMlp1]
  after_results_simp
  rfl

set_option maxRecDepth 8192 in
set_option maxHeartbeats 2000000 in
/-- The column means. -/
theorem mean1_m (V : Valuation τ sig (Elt F)) :
    after opsMean1 V (no_index (Proc.devRef .tc main_v86)) = meanOps (V (Proc.devRef .tc main_v83)) := by
  simp only [opsMean1]
  after_results_simp
  rfl

set_option maxRecDepth 8192 in
set_option maxHeartbeats 2000000 in
/-- The column variances. -/
theorem var1_v (V : Valuation τ sig (Elt F)) :
    after opsVar1 V (no_index (Proc.devRef .tc main_v87)) = varOps (V (Proc.devRef .tc main_v83)) := by
  simp only [opsVar1]
  after_results_simp
  rfl

set_option maxRecDepth 8192 in
set_option maxHeartbeats 2000000 in
/-- The normalised, scaled, shifted and rectified output. -/
theorem tail1_o (V : Valuation τ sig (Elt F)) :
    after opsTail1 V (no_index (Proc.devRef .tc main_v107)) =
      tailOps (V (Proc.devRef .tc main_v83)) (V (Proc.devRef .tc main_v86)) (V (Proc.devRef .tc main_v87)) (pick1_1 (V (Proc.devRef .tc main_arg6))) (pick1_1 (V (Proc.devRef .tc main_arg7))) := by
  simp only [opsTail1, opsTail1a, opsTail1b, List.cons_append, List.nil_append]
  after_results_simp
  rfl

/-- The buffers layer 1 writes. -/
abbrev opsL1_W : List (Ref sig .tc) := opsAgg1_W ++ (opsMlp1_W ++ (opsMean1_W ++ (opsVar1_W ++ opsTail1_W)))

/-- A buffer layer 1 does not write keeps its contents through it. -/
theorem layer1_keep (V : Valuation τ sig (Elt F)) (r : Ref sig .tc) (h : r ∉ opsL1_W) :
    after opsL1 V (no_index (Proc.devRef .tc r)) = V (Proc.devRef .tc r) := by
  simp only [opsL1_W, List.mem_append, not_or] at h
  obtain ⟨h1, h2, h3, h4, h5⟩ := h
  simp only [opsL1, after_append]
  rw [tail1_keep _ _ h5, var1_keep _ _ h4, mean1_keep _ _ h3, mlp1_keep _ _ h2, agg1_keep _ _ h1]

set_option maxRecDepth 8192 in
set_option maxHeartbeats 2000000 in
/-- Layer 1's result is the layer function of the features it starts from, the edge lists and its parameters. -/
theorem layer1_o (V : Valuation τ sig (Elt F)) :
    after opsL1 V (no_index (Proc.devRef .tc main_v107)) =
      layerOps (V (Proc.devRef .tc main_v55)) (V (Proc.devRef .tc main_v1)) (V (Proc.devRef .tc main_v3)) (pick2_1 (V (Proc.devRef .tc main_arg2))) (pick1_1 (V (Proc.devRef .tc main_arg3))) (pick2_1 (V (Proc.devRef .tc main_arg4))) (pick1_1 (V (Proc.devRef .tc main_arg5))) (pick1_1 (V (Proc.devRef .tc main_arg6))) (pick1_1 (V (Proc.devRef .tc main_arg7))) := by
  simp (disch := decide) only [opsL1, after_append, tail1_o, var1_v, mean1_m, mlp1_z, agg1_u,
    tail1_keep, var1_keep, mean1_keep, mlp1_keep, agg1_keep]
  rfl

end Cert.ReferenceIdeal.Hand

end
-- ==== Proof.RefRunC2.lean ====
/- Layer 2 of the reference read back: through each stretch of its operations, from any contents of the buffers, the
   stretch's result is the stage's function of what the stretch reads, and every buffer it does not write is kept;
   composed, the layer's result is the layer function of the features, the edge lists and the layer's parameters. -/
import proofs.«147060_j15040975470999_1_alg».proof.Proof.Gen.ReferenceIdeal
import Idealize.ShloMosaic.Lib.StableHlo.Run
import Idealize.ShloMosaic.Lib.Pipeline.Frame
import proofs.«147060_j15040975470999_1_alg».proof.Proof.RefRunA
import proofs.«147060_j15040975470999_1_alg».proof.Proof.RefRunB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 2's normalisation, affine map and rectifier: one stretch. -/
def opsTail2 : List (HloOp τ sig (Elt F)) := opsTail2a ++ opsTail2b

/-- Layer 2's operations. -/
def opsL2 : List (HloOp τ sig (Elt F)) := opsAgg2 ++ (opsMlp2 ++ (opsMean2 ++ (opsVar2 ++ opsTail2)))

/-- The buffers `opsAgg2` writes. -/
abbrev opsAgg2_W : List (Ref sig .tc) := [main_c_12, main_v108, main_v109, main_c_13, main_v110, main_v111, main_v112, main_v113, main_v114, main_cst_14, main_v115, main_v116, main_v117, main_v118]
set_option maxRecDepth 8192 in
theorem opsAgg2_writes : (opsAgg2 : List (HloOp τ sig (Elt F))).Forall fun op =>
    op.writes ⊆ (opsAgg2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsAgg2` does not write keeps its contents through it. -/
theorem agg2_keep (V : Valuation τ sig (Elt F)) (r : Ref sig .tc) (h : r ∉ opsAgg2_W) :
    after opsAgg2 V (no_index (Proc.devRef .tc r)) = V (Proc.devRef .tc r) :=
  after_of_writes_sub opsAgg2 V opsAgg2_writes h

/-- The buffers `opsMlp2` writes. -/
abbrev opsMlp2_W : List (Ref sig .tc) := [main_v119, main_v120, main_v121, main_v122, main_v123, main_v124, main_v125, main_v126, main_call6_cst, main_call6_v0, main_v127, main_v128, main_v129, main_v130, main_v131, main_v132, main_v133, main_v134, main_v135]
set_option maxRecDepth 8192 in
theorem opsMlp2_writes : (opsMlp2 : List (HloOp τ sig (Elt F))).Forall fun op =>
    op.writes ⊆ (opsMlp2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsMlp2` does not write keeps its contents through it. -/
theorem mlp2_keep (V : Valuation τ sig (Elt F)) (r : Ref sig .tc) (h : r ∉ opsMlp2_W) :
    after opsMlp2 V (no_index (Proc.devRef .tc r)) = V (Proc.devRef .tc r) :=
  after_of_writes_sub opsMlp2 V opsMlp2_writes h

/-- The buffers `opsMean2` writes. -/
abbrev opsMean2_W : List (Ref sig .tc) := [main_cst_15, main_v136, main_cst_16, main_v137, main_v138]
set_option maxRecDepth 8192 in
theorem opsMean2_writes : (opsMean2 : List (HloOp τ sig (Elt F))).Forall fun op =>
    op.writes ⊆ (opsMean2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsMean2` does not write keeps its contents through it. -/
theorem mean2_keep (V : Valuation τ sig (Elt F)) (r : Ref sig .tc) (h : r ∉ opsMean2_W) :
    after opsMean2 V (no_index (Proc.devRef .tc r)) = V (Proc.devRef .tc r) :=
  after_of_writes_sub opsMean2 V opsMean2_writes h

/-- The buffers `opsVar2` writes. -/
abbrev opsVar2_W : List (Ref sig .tc) := [main_c_17, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v139]
set_option maxRecDepth 8192 in
theorem opsVar2_writes : (opsVar2 : List (HloOp τ sig (Elt F))).Forall fun op =>
    op.writes ⊆ (opsVar2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsVar2` does not write keeps its contents through it. -/
theorem var2_keep (V : Valuation τ sig (Elt F)) (r : Ref sig .tc) (h : r ∉ opsVar2_W) :
    after opsVar2 V (no_index (Proc.devRef .tc r)) = V (Proc.devRef .tc r) :=
  after_of_writes_sub opsVar2 V opsVar2_writes h

/-- The buffers `opsTail2` writes. -/
abbrev opsTail2_W : List (Ref sig .tc) := [main_v140, main_v141, main_v142, main_cst_18, main_v143, main_v144, main_v145, main_v146, main_v147, main_v148, main_v149, main_v150, main_v151, main_v152, main_v153, main_v154, main_v155, main_v156, main_v157, main_v158, main_call8_cst, main_call8_v0, main_v159]
set_option maxRecDepth 8192 in
theorem opsTail2_writes : (opsTail2 : List (HloOp τ sig (Elt F))).Forall fun op =>
    op.writes ⊆ (opsTail2_W.map (Proc.devRef (τ := τ) .tc)).toFinset := by
  simp only [opsTail2, opsTail2a, opsTail2b, List.cons_append, List.nil_append, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsTail2` does not write keeps its contents through it. -/
theorem tail2_keep (V : Valuation τ sig (Elt F)) (r : Ref sig .tc) (h : r ∉ opsTail2_W) :
    after opsTail2 V (no_index (Proc.devRef .tc r)) = V (Proc.devRef .tc r) :=
  after_of_writes_sub opsTail2 V opsTail2_writes h

set_option maxRecDepth 8192 in
set_option maxHeartbeats 2000000 in
/-- The features plus their neighbour sum. -/
theorem agg2_u (V : Valuation τ sig (Elt F)) :
    after opsAgg2 V (no_index (Proc.devRef .tc main_v118)) =
      addf (V (Proc.devRef .tc main_v107) : (⟨S50000x128, .f32⟩ : BufTy).Contents (Elt F)) (aggOps (V (Proc.devRef .tc main_v107)) (V (Proc.devRef .tc main_v1)) (V (Proc.devRef .tc main_v3))) := by
  simp only [opsAgg2]
  after_results_simp
  rfl

set_option maxRecDepth 8192 in
set_option maxHeartbeats 2000000 in
/-- The perceptron's output. -/
theorem mlp2_z (V : Valuation τ sig (Elt F)) :
    after opsMlp2 V (no_index (Proc.devRef .tc main_v135)) =
      mlpOps (V (Proc.devRef .tc main_v118)) (pick2_2 (V (Proc.devRef .tc main_arg2))) (pick1_2 (V (Proc.devRef .tc main_arg3))) (pick2_2 (V (Proc.devRef .tc main_arg4))) (pick1_2 (V (Proc.devRef .tc main_arg5))) := by
  simp only [opsMlp2]
  after_results_simp
  rfl

set_option maxRecDepth 8192 in
set_option maxHeartbeats 2000000 in
/-- The column means. -/
theorem mean2_m (V : Valuation τ sig (Elt F)) :
    after opsMean2 V (no_index (Proc.devRef .tc main_v138)) = meanOps (V (Proc.devRef .tc main_v135)) := by
  simp only [opsMean2]
  after_results_simp
  rfl

set_option maxRecDepth 8192 in
set_option maxHeartbeats 2000000 in
/-- The column variances. -/
theorem var2_v (V : Valuation τ sig (Elt F)) :
    after opsVar2 V (no_index (Proc.devRef .tc main_v139)) = varOps (V (Proc.devRef .tc main_v135)) := by
  simp only [opsVar2]
  after_results_simp
  rfl

set_option maxRecDepth 8192 in
set_option maxHeartbeats 2000000 in
/-- The normalised, scaled, shifted and rectified output. -/
theorem tail2_o (V : Valuation τ sig (Elt F)) :
    after opsTail2 V (no_index (Proc.devRef .tc main_v159)) =
      tailOps (V (Proc.devRef .tc main_v135)) (V (Proc.devRef .tc main_v138)) (V (Proc.devRef .tc main_v139)) (pick1_2 (V (Proc.devRef .tc main_arg6))) (pick1_2 (V (Proc.devRef .tc main_arg7))) := by
  simp only [opsTail2, opsTail2a, opsTail2b, List.cons_append, List.nil_append]
  after_results_simp
  rfl

/-- The buffers layer 2 writes. -/
abbrev opsL2_W : List (Ref sig .tc) := opsAgg2_W ++ (opsMlp2_W ++ (opsMean2_W ++ (opsVar2_W ++ opsTail2_W)))

/-- A buffer layer 2 does not write keeps its contents through it. -/
theorem layer2_keep (V : Valuation τ sig (Elt F)) (r : Ref sig .tc) (h : r ∉ opsL2_W) :
    after opsL2 V (no_index (Proc.devRef .tc r)) = V (Proc.devRef .tc r) := by
  simp only [opsL2_W, List.mem_append, not_or] at h
  obtain ⟨h1, h2, h3, h4, h5⟩ := h
  simp only [opsL2, after_append]
  rw [tail2_keep _ _ h5, var2_keep _ _ h4, mean2_keep _ _ h3, mlp2_keep _ _ h2, agg2_keep _ _ h1]

set_option maxRecDepth 8192 in
set_option maxHeartbeats 2000000 in
/-- Layer 2's result is the layer function of the features it starts from, the edge lists and its parameters. -/
theorem layer2_o (V : Valuation τ sig (Elt F)) :
    after opsL2 V (no_index (Proc.devRef .tc main_v159)) =
      layerOps (V (Proc.devRef .tc main_v107)) (V (Proc.devRef .tc main_v1)) (V (Proc.devRef .tc main_v3)) (pick2_2 (V (Proc.devRef .tc main_arg2))) (pick1_2 (V (Proc.devRef .tc main_arg3))) (pick2_2 (V (Proc.devRef .tc main_arg4))) (pick1_2 (V (Proc.devRef .tc main_arg5))) (pick1_2 (V (Proc.devRef .tc main_arg6))) (pick1_2 (V (Proc.devRef .tc main_arg7))) := by
  simp (disch := decide) only [opsL2, after_append, tail2_o, var2_v, mean2_m, mlp2_z, agg2_u,
    tail2_keep, var2_keep, mean2_keep, mlp2_keep, agg2_keep]
  rfl

end Cert.ReferenceIdeal.Hand

end
-- ==== Proof.RefRun.lean ====
/- The reference's run: every weakly fair execution of @main terminates with the result buffer at the reference function of
   the ten argument arrays' launch contents, and the argument arrays unchanged. The line of operations is read stretch by
   stretch: the edge lists, the three layers (one module each), the output map. -/
import proofs.«147060_j15040975470999_1_alg».proof.Proof.Gen.ReferenceIdeal
import Idealize.ShloMosaic.Lib.StableHlo.Run
import Idealize.ShloMosaic.Lib.Pipeline.Frame
import proofs.«147060_j15040975470999_1_alg».proof.Proof.RefRunA
import proofs.«147060_j15040975470999_1_alg».proof.Proof.RefRunB
import proofs.«147060_j15040975470999_1_alg».proof.Proof.RefRunC0
import proofs.«147060_j15040975470999_1_alg».proof.Proof.RefRunC1
import proofs.«147060_j15040975470999_1_alg».proof.Proof.RefRunC2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers `opsPre` writes. -/
abbrev opsPre_W : List (Ref sig .tc) := [main_v0, main_v1, main_v2, main_v3]
set_option maxRecDepth 8192 in
theorem opsPre_writes : (opsPre : List (HloOp τ sig (Elt F))).Forall fun op =>
    op.writes ⊆ (opsPre_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsPre` does not write keeps its contents through it. -/
theorem pre_keep (V : Valuation τ sig (Elt F)) (r : Ref sig .tc) (h : r ∉ opsPre_W) :
    after opsPre V (no_index (Proc.devRef .tc r)) = V (Proc.devRef .tc r) :=
  after_of_writes_sub opsPre V opsPre_writes h

set_option maxRecDepth 8192 in
/-- The source nodes. -/
theorem pre_src (V : Valuation τ sig (Elt F)) :
    after opsPre V (no_index (Proc.devRef .tc main_v1)) = srcOf (V (Proc.devRef .tc main_arg1)) := by
  simp only [opsPre]
  after_results_simp
  rfl

set_option maxRecDepth 8192 in
/-- The destination nodes. -/
theorem pre_dst (V : Valuation τ sig (Elt F)) :
    after opsPre V (no_index (Proc.devRef .tc main_v3)) = dstOf (V (Proc.devRef .tc main_arg1)) := by
  simp only [opsPre]
  after_results_simp
  rfl

/-- The buffers `opsOut` writes. -/
abbrev opsOut_W : List (Ref sig .tc) := [main_v160, main_v161, main_v162, main_v163]
set_option maxRecDepth 8192 in
theorem opsOut_writes : (opsOut : List (HloOp τ sig (Elt F))).Forall fun op =>
    op.writes ⊆ (opsOut_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsOut` does not write keeps its contents through it. -/
theorem out_keep (V : Valuation τ sig (Elt F)) (r : Ref sig .tc) (h : r ∉ opsOut_W) :
    after opsOut V (no_index (Proc.devRef .tc r)) = V (Proc.devRef .tc r) :=
  after_of_writes_sub opsOut V opsOut_writes h

set_option maxRecDepth 8192 in
/-- The output map's result. -/
theorem out_o (V : Valuation τ sig (Elt F)) :
    after opsOut V (no_index (Proc.devRef .tc main_v163)) =
      outOps (V (Proc.devRef .tc main_v159)) (V (Proc.devRef .tc main_arg8)) (V (Proc.devRef .tc main_arg9)) := by
  simp only [opsOut]
  after_results_simp
  rfl

/-- The line as the edge lists' stretch, the three layers and the output map. -/
theorem ops_layers : (ops : List (HloOp τ sig (Elt F))) = opsPre ++ (opsL0 ++ (opsL1 ++ (opsL2 ++ opsOut))) := by
  simp only [ops_eq, opsL0, opsL1, opsL2, opsTail0, opsTail1, opsTail2, List.append_assoc]

set_option maxRecDepth 8192 in
set_option maxHeartbeats 4000000 in
/-- After the whole line the result buffer holds the reference function of the argument arrays. -/
theorem out_eq (V : Valuation τ sig (Elt F)) :
    after ops V (Proc.devRef .tc main_v163) =
      refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp (disch := decide) only [ops_layers, after_append, out_o, layer2_o, layer1_o, layer0_o, pre_src, pre_dst,
    out_keep, layer2_keep, layer1_keep, layer0_keep, pre_keep]
  rfl

set_option maxRecDepth 8192 in
theorem arg0_eq (V : Valuation τ sig (Elt F)) :
    after ops V (Proc.devRef .tc main_arg0) = V (Proc.devRef .tc main_arg0) := by
  simp (disch := decide) only [ops_layers, after_append, out_keep, layer2_keep, layer1_keep, layer0_keep, pre_keep]

set_option maxRecDepth 8192 in
theorem arg1_eq (V : Valuation τ sig (Elt F)) :
    after ops V (Proc.devRef .tc main_arg1) = V (Proc.devRef .tc main_arg1) := by
  simp (disch := decide) only [ops_layers, after_append, out_keep, layer2_keep, layer1_keep, layer0_keep, pre_keep]

set_option maxRecDepth 8192 in
theorem arg2_eq (V : Valuation τ sig (Elt F)) :
    after ops V (Proc.devRef .tc main_arg2) = V (Proc.devRef .tc main_arg2) := by
  simp (disch := decide) only [ops_layers, after_append, out_keep, layer2_keep, layer1_keep, layer0_keep, pre_keep]

set_option maxRecDepth 8192 in
theorem arg3_eq (V : Valuation τ sig (Elt F)) :
    after ops V (Proc.devRef .tc main_arg3) = V (Proc.devRef .tc main_arg3) := by
  simp (disch := decide) only [ops_layers, after_append, out_keep, layer2_keep, layer1_keep, layer0_keep, pre_keep]

set_option maxRecDepth 8192 in
theorem arg4_eq (V : Valuation τ sig (Elt F)) :
    after ops V (Proc.devRef .tc main_arg4) = V (Proc.devRef .tc main_arg4) := by
  simp (disch := decide) only [ops_layers, after_append, out_keep, layer2_keep, layer1_keep, layer0_keep, pre_keep]

set_option maxRecDepth 8192 in
theorem arg5_eq (V : Valuation τ sig (Elt F)) :
    after ops V (Proc.devRef .tc main_arg5) = V (Proc.devRef .tc main_arg5) := by
  simp (disch := decide) only [ops_layers, after_append, out_keep, layer2_keep, layer1_keep, layer0_keep, pre_keep]

set_option maxRecDepth 8192 in
theorem arg6_eq (V : Valuation τ sig (Elt F)) :
    after ops V (Proc.devRef .tc main_arg6) = V (Proc.devRef .tc main_arg6) := by
  simp (disch := decide) only [ops_layers, after_append, out_keep, layer2_keep, layer1_keep, layer0_keep, pre_keep]

set_option maxRecDepth 8192 in
theorem arg7_eq (V : Valuation τ sig (Elt F)) :
    after ops V (Proc.devRef .tc main_arg7) = V (Proc.devRef .tc main_arg7) := by
  simp (disch := decide) only [ops_layers, after_append, out_keep, layer2_keep, layer1_keep, layer0_keep, pre_keep]

set_option maxRecDepth 8192 in
theorem arg8_eq (V : Valuation τ sig (Elt F)) :
    after ops V (Proc.devRef .tc main_arg8) = V (Proc.devRef .tc main_arg8) := by
  simp (disch := decide) only [ops_layers, after_append, out_keep, layer2_keep, layer1_keep, layer0_keep, pre_keep]

set_option maxRecDepth 8192 in
theorem arg9_eq (V : Valuation τ sig (Elt F)) :
    after ops V (Proc.devRef .tc main_arg9) = V (Proc.devRef .tc main_arg9) := by
  simp (disch := decide) only [ops_layers, after_append, out_keep, layer2_keep, layer1_keep, layer0_keep, pre_keep]

/-- On every device, for any float values, from any memory with zero counters: every weakly fair execution of @main
    terminates with the result at the reference function of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v163) =
        refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v163).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ (fun _ => ops_fresh))

end Cert.ReferenceIdeal.Hand

end
-- ==== Proof.Spec.lean ====
/-
  One layer of the graph network, entry by entry, on the extended reals.

  For node features h : [50000, 128] and neighbour sums a : [50000, 128] the layer first forms
      z[r, n] = (∑ k, max (∑ j, (h[r, j] + a[r, j]) · w1[j, k] + b1[k]) 0 · w2[k, n]) + b2[n],
  then the column sums  s[n] = ∑ r, z[r, n]  and  q[n] = ∑ r, z[r, n] · z[r, n],  and finally rescales each
  column by a scale and a shift computed from s, q and the layer's normalisation parameters and rectifies:
      h'[r, n] = max (z[r, n] · scale[n] + shift[n]) 0.
  The read-out is  out[r] = (∑ j, h[r, j] · w[j]) + b.
  This file only names these functions; it states nothing about any program.
-/
import Idealize.ShloMosaic.Lib.ValueIdx
import Idealize.ShloMosaic.PureOps.Ideal

noncomputable section

open scoped BigOperators

namespace Cert.Gin

open Idealize.ShloMosaic Idealize.ShloMosaic.ValueIdx

/-- The shapes: node features, a square weight, one row, one column of results, a single entry. -/
abbrev SN : Shape := ⟨2, ![50000, 128]⟩
abbrev SW : Shape := ⟨2, ![128, 128]⟩
abbrev SR : Shape := ⟨2, ![1, 128]⟩
abbrev SO : Shape := ⟨2, ![50000, 1]⟩
abbrev SE : Shape := ⟨2, ![1, 1]⟩

/-- The two-layer perceptron of h + a at (r, n): a rectifier after the first affine map, none after the second. -/
def zVal (h a : FVec Ideal SN .f32) (w1 : FVec Ideal SW .f32) (b1 : FVec Ideal SR .f32) (w2 : FVec Ideal SW .f32)
    (b2 : FVec Ideal SR .f32) (r : Fin 50000) (n : Fin 128) : EReal :=
  (∑ k : Fin 128, max ((∑ j : Fin 128, (h (ix2 r j) + a (ix2 r j)) * w1 (ix2 j k)) + b1 (ix2 (0 : Fin 1) k)) 0 * w2 (ix2 k n))
    + b2 (ix2 (0 : Fin 1) n)

/-- The array of those values. -/
def zArr (h a : FVec Ideal SN .f32) (w1 : FVec Ideal SW .f32) (b1 : FVec Ideal SR .f32) (w2 : FVec Ideal SW .f32)
    (b2 : FVec Ideal SR .f32) : FVec Ideal SN .f32 := fun i => zVal h a w1 b1 w2 b2 (i 0) (i 1)

theorem zArr_apply (h a : FVec Ideal SN .f32) (w1 : FVec Ideal SW .f32) (b1 : FVec Ideal SR .f32) (w2 : FVec Ideal SW .f32)
    (b2 : FVec Ideal SR .f32) (r : Fin 50000) (n : Fin 128) : zArr h a w1 b1 w2 b2 (ix2 r n) = zVal h a w1 b1 w2 b2 r n := rfl

/-- The column sums of an array, as one row. -/
def colSum (z : FVec Ideal SN .f32) : FVec Ideal SR .f32 := fun i => ∑ r : Fin 50000, z (ix2 r (i 1))

theorem colSum_apply (z : FVec Ideal SN .f32) (u : Fin 1) (n : Fin 128) : colSum z (ix2 u n) = ∑ r : Fin 50000, z (ix2 r n) := rfl

/-- The column sums of the squares, as one row. -/
def colSumSq (z : FVec Ideal SN .f32) : FVec Ideal SR .f32 := fun i => ∑ r : Fin 50000, z (ix2 r (i 1)) * z (ix2 r (i 1))

theorem colSumSq_apply (z : FVec Ideal SN .f32) (u : Fin 1) (n : Fin 128) :
    colSumSq z (ix2 u n) = ∑ r : Fin 50000, z (ix2 r n) * z (ix2 r n) := rfl

/-- Each column rescaled and shifted, then rectified. -/
def affRelu (z : FVec Ideal SN .f32) (scale shift : FVec Ideal SR .f32) : FVec Ideal SN .f32 :=
  fun i => max (z i * scale (ix2 (0 : Fin 1) (i 1)) + shift (ix2 (0 : Fin 1) (i 1))) 0

theorem affRelu_apply (z : FVec Ideal SN .f32) (scale shift : FVec Ideal SR .f32) (r : Fin 50000) (n : Fin 128) :
    affRelu z scale shift (ix2 r n) = max (z (ix2 r n) * scale (ix2 (0 : Fin 1) n) + shift (ix2 (0 : Fin 1) n)) 0 := rfl

/-- The read-out: each row's inner product with one row of weights, plus one bias. -/
def readOut (h : FVec Ideal SN .f32) (w : FVec Ideal SR .f32) (b : FVec Ideal SE .f32) : FVec Ideal SO .f32 :=
  fun i => (∑ j : Fin 128, h (ix2 (i 0) j) * w (ix2 (0 : Fin 1) j)) + b (ix2 (0 : Fin 1) (0 : Fin 1))

theorem readOut_apply (h : FVec Ideal SN .f32) (w : FVec Ideal SR .f32) (b : FVec Ideal SE .f32) (r : Fin 50000) (u : Fin 1) :
    readOut h w b (ix2 r u) = (∑ j : Fin 128, h (ix2 r j) * w (ix2 (0 : Fin 1) j)) + b (ix2 (0 : Fin 1) (0 : Fin 1)) := rfl

end Cert.Gin

end
-- ==== Proof.KChainDefs.lean ====
/-
  The kernel program as one pure function of its ten arguments: the edge lists, then the same layer three times
  (neighbour sum, two-layer perceptron with its column sums, the columns' scale and shift, rescaling and rectifier),
  then the read-out. The whole-array host operations are the ones the program names; the launches' results are the
  entry-by-entry functions of the layer's description.
-/
import proofs.«147060_j15040975470999_1_alg».proof.Proof.Gen.KernelIdeal
import proofs.«147060_j15040975470999_1_alg».proof.Proof.Spec

noncomputable section

namespace Cert.KernelIdeal.Hand

open Cert.KernelIdeal Cert.KernelIdeal.Gen Idealize.ShloMosaic Idealize.ShloMosaic.TcCoe Idealize.SL.Sem Cert.Gin

section AnyFloat

variable {F : FTy → Type} [FloatOps F]

/-- Row 0 of the edge array as a vector: the source node of every edge. -/
def kSrc (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- Row 1 of the edge array as a vector: the destination node of every edge. -/
def kDst (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- Layer 0's 128×128 matrix out of a stack of three: the slice of row block 0, its leading unit axis dropped. -/
def kPick2_0 (a : (⟨S3x128x128, .f32⟩ : BufTy).Contents (Elt F)) : (⟨S128x128, .f32⟩ : BufTy).Contents (Elt F) :=
  shapeCast S128x128 (extractStridedSlice S1x128x128 ![0, 0, 0] a slices_S3x128x128_S1x128x128_0_0_0) shapeCasts_S1x128x128_S128x128

/-- Layer 1's 128×128 matrix out of a stack of three: the slice of row block 1, its leading unit axis dropped. -/
def kPick2_1 (a : (⟨S3x128x128, .f32⟩ : BufTy).Contents (Elt F)) : (⟨S128x128, .f32⟩ : BufTy).Contents (Elt F) :=
  shapeCast S128x128 (extractStridedSlice S1x128x128 ![1, 0, 0] a slices_S3x128x128_S1x128x128_1_0_0) shapeCasts_S1x128x128_S128x128

/-- Layer 2's 128×128 matrix out of a stack of three: the slice of row block 2, its leading unit axis dropped. -/
def kPick2_2 (a : (⟨S3x128x128, .f32⟩ : BufTy).Contents (Elt F)) : (⟨S128x128, .f32⟩ : BufTy).Contents (Elt F) :=
  shapeCast S128x128 (extractStridedSlice S1x128x128 ![2, 0, 0] a slices_S3x128x128_S1x128x128_2_0_0) shapeCasts_S1x128x128_S128x128

/-- Layer 0's 128-vector out of a stack of three: the slice of row 0, its leading unit axis dropped. -/
def kPick1_0 (a : (⟨S3x128, .f32⟩ : BufTy).Contents (Elt F)) : (⟨S128, .f32⟩ : BufTy).Contents (Elt F) :=
  shapeCast S128 (extractStridedSlice S1x128 ![0, 0] a slices_S3x128_S1x128_0_0) shapeCasts_S1x128_S128

/-- Layer 1's 128-vector out of a stack of three: the slice of row 1, its leading unit axis dropped. -/
def kPick1_1 (a : (⟨S3x128, .f32⟩ : BufTy).Contents (Elt F)) : (⟨S128, .f32⟩ : BufTy).Contents (Elt F) :=
  shapeCast S128 (extractStridedSlice S1x128 ![1, 0] a slices_S3x128_S1x128_1_0) shapeCasts_S1x128_S128

/-- Layer 2's 128-vector out of a stack of three: the slice of row 2, its leading unit axis dropped. -/
def kPick1_2 (a : (⟨S3x128, .f32⟩ : BufTy).Contents (Elt F)) : (⟨S128, .f32⟩ : BufTy).Contents (Elt F) :=
  shapeCast S128 (extractStridedSlice S1x128 ![2, 0] a slices_S3x128_S1x128_2_0) shapeCasts_S1x128_S128

/-- A 128-vector as a 1×128 row. -/
def kRow (v : (⟨S128, .f32⟩ : BufTy).Contents (Elt F)) : (⟨S1x128, .f32⟩ : BufTy).Contents (Elt F) :=
  shapeCast S1x128 v shapeCasts_S128_S1x128

/-- A negative index counts from the end: `i + 50000` where `i < 0`, else `i`. -/
def kNormIdx (src : (⟨S600000, .i32⟩ : BufTy).Contents (Elt F)) : (⟨S600000, .i32⟩ : BufTy).Contents (Elt F) :=
  select (cmpi .slt src (broadcastInDim S600000 ![] bcast_S_S600000 (constantI S_ 32 0#32)))
    (addi src (broadcastInDim S600000 ![] bcast_S_S600000 (constantI S_ 32 50000#32))) src

/-- The neighbour sum: row `src e` of `h` gathered for every edge `e`, and the gathered rows added up at row `dst e`
    of an array of zeros. -/
def kAgg (h : (⟨S50000x128, .f32⟩ : BufTy).Contents (Elt F)) (src dst : (⟨S600000, .i32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h (broadcastInDim S600000x1 ![0] bcast_S600000_S600000x1_0 (kNormIdx src)))

/-- A row of column sums over the 50000 rows, divided by 50000. -/
def kMean (s : (⟨S1x128, .f32⟩ : BufTy).Contents (Elt F)) : (⟨S1x128, .f32⟩ : BufTy).Contents (Elt F) :=
  Host.divf s (broadcastInDim S1x128 ![] bcast_S_S1x128 (constant S_ .f32 0x47435000#32))

/-- The reciprocal square root of the columns' variance plus the small constant: the variance is the mean of the
    squares less the square of the mean. -/
def kRstd (s q : (⟨S1x128, .f32⟩ : BufTy).Contents (Elt F)) : (⟨S1x128, .f32⟩ : BufTy).Contents (Elt F) :=
  Host.rsqrt (addf (subf (kMean q) (mulf (kMean s) (kMean s))) (broadcastInDim S1x128 ![] bcast_S_S1x128 (constant S_ .f32 0x3727C5AC#32)))

/-- The columns' scale: the layer's multiplier times the reciprocal square root. -/
def kScale (s q gam : (⟨S1x128, .f32⟩ : BufTy).Contents (Elt F)) : (⟨S1x128, .f32⟩ : BufTy).Contents (Elt F) :=
  mulf gam (kRstd s q)

/-- The columns' shift: the layer's offset less the mean times the scale. -/
def kShift (s q gam bet : (⟨S1x128, .f32⟩ : BufTy).Contents (Elt F)) : (⟨S1x128, .f32⟩ : BufTy).Contents (Elt F) :=
  subf bet (mulf (kMean s) (kScale s q gam))

/-- The read-out's weights as a row. -/
def kTranspose (w : (⟨S128x1, .f32⟩ : BufTy).Contents (Elt F)) : (⟨S1x128, .f32⟩ : BufTy).Contents (Elt F) :=
  transpose S1x128 [1, 0] w transposes_S128x1_S1x128_1_0

/-- The read-out's one bias as a 1×1 array. -/
def kReshape (b : (⟨S1, .f32⟩ : BufTy).Contents (Elt F)) : (⟨S1x1, .f32⟩ : BufTy).Contents (Elt F) :=
  shapeCast S1x1 b shapeCasts_S1_S1x1

end AnyFloat

/-- The columns of `z` rescaled by the scale and shift computed from `z`'s own column sums, then rectified. -/
def kNorm (z : FVec Ideal SN .f32) (gam bet : FVec Ideal SR .f32) : FVec Ideal SN .f32 :=
  affRelu z (kScale (F := Ideal) (colSum z) (colSumSq z) gam) (kShift (F := Ideal) (colSum z) (colSumSq z) gam bet)

/-- One layer: the perceptron of the features plus their neighbour sums, then the normalisation. -/
def kLayer (h : FVec Ideal SN .f32) (src dst : IVec S600000 32) (w1 : FVec Ideal SW .f32) (b1 : FVec Ideal SR .f32) (w2 : FVec Ideal SW .f32) (b2 : FVec Ideal SR .f32)
    (gam bet : FVec Ideal SR .f32) : FVec Ideal SN .f32 :=
  kNorm (zArr h (kAgg (F := Ideal) h src dst) w1 b1 w2 b2) gam bet

/-- The whole program: three layers over the same edge lists, each with its own slice of the parameters, then the
    read-out. -/
def kOut (a0 : FVec Ideal S50000x128 .f32) (a1 : IVec S2x600000 32) (a2 : FVec Ideal S3x128x128 .f32) (a3 : FVec Ideal S3x128 .f32)
    (a4 : FVec Ideal S3x128x128 .f32) (a5 a6 a7 : FVec Ideal S3x128 .f32) (a8 : FVec Ideal S128x1 .f32) (a9 : FVec Ideal S1 .f32) : FVec Ideal SO .f32 :=
  readOut
    (kLayer
      (kLayer
        (kLayer a0 (kSrc (F := Ideal) a1) (kDst (F := Ideal) a1) (kPick2_0 (F := Ideal) a2) (kRow (F := Ideal) (kPick1_0 (F := Ideal) a3)) (kPick2_0 (F := Ideal) a4)
          (kRow (F := Ideal) (kPick1_0 (F := Ideal) a5)) (kRow (F := Ideal) (kPick1_0 (F := Ideal) a6)) (kRow (F := Ideal) (kPick1_0 (F := Ideal) a7)))
        (kSrc (F := Ideal) a1) (kDst (F := Ideal) a1) (kPick2_1 (F := Ideal) a2) (kRow (F := Ideal) (kPick1_1 (F := Ideal) a3)) (kPick2_1 (F := Ideal) a4)
          (kRow (F := Ideal) (kPick1_1 (F := Ideal) a5)) (kRow (F := Ideal) (kPick1_1 (F := Ideal) a6)) (kRow (F := Ideal) (kPick1_1 (F := Ideal) a7)))
      (kSrc (F := Ideal) a1) (kDst (F := Ideal) a1) (kPick2_2 (F := Ideal) a2) (kRow (F := Ideal) (kPick1_2 (F := Ideal) a3)) (kPick2_2 (F := Ideal) a4)
          (kRow (F := Ideal) (kPick1_2 (F := Ideal) a5)) (kRow (F := Ideal) (kPick1_2 (F := Ideal) a6)) (kRow (F := Ideal) (kPick1_2 (F := Ideal) a7)))
    (kTranspose (F := Ideal) a8) (kReshape (F := Ideal) a9)

end Cert.KernelIdeal.Hand

end
-- ==== Proof.Consts.lean ====
/-
  The float constants the two programs spell, as the extended reals their bit patterns denote: the number of rows
  50000, and the small positive number added to the variance, 10995116 / 2^40 (the single-precision number nearest
  to 1e-5). Both are real numbers; the second is positive.
-/
import Idealize.ShloMosaic.PureOps.Ideal

noncomputable section

namespace Cert.Gin.Consts

open Idealize.ShloMosaic

/-- The pattern of 50000.0 denotes the real 50000. -/
theorem ofBits_rows : Ideal.ofBits .f32 0x47435000#32 = ((50000 : ℝ) : EReal) := by
  simp [Ideal.ofBits, Ideal.ieee, -EReal.coe_mul]; norm_num

/-- The small number added to the variance. -/
def eps : ℝ := 10995116 / 1099511627776

theorem eps_pos : 0 < eps := by unfold eps; norm_num

/-- The pattern of 9.99999974E-6 denotes that real. -/
theorem ofBits_eps : Ideal.ofBits .f32 0x3727C5AC#32 = ((eps : ℝ) : EReal) := by
  unfold eps
  simp [Ideal.ofBits, Ideal.ieee, -EReal.coe_mul]; norm_num

end Cert.Gin.Consts

end
-- ==== Proof.KRead.lean ====
/-
  The kernel program's small host stages read at one entry, at the ideal values: a vector viewed as one row, the
  column statistics (mean = sum / 50000, reciprocal standard deviation, scale = γ · rstd, shift = β − mean · scale),
  the weight column transposed to a row, the one bias viewed as a 1×1 array.  And the stages the two programs spell
  with the same operations are the same functions.
-/
import proofs.«147060_j15040975470999_1_alg».proof.Proof.KChainDefs
import proofs.«147060_j15040975470999_1_alg».proof.Proof.RefRunA
import proofs.«147060_j15040975470999_1_alg».proof.Proof.Consts
import Idealize.ShloMosaic.Lib.IdealHost
import Idealize.ShloMosaic.Lib.ValueIdx
import Idealize.ShloMosaic.Lib.ValueLayout
import Idealize.ShloMosaic.Lib.Pipeline.Value

noncomputable section

open scoped BigOperators

namespace Cert.KernelIdeal.HandRead

open Cert.KernelIdeal Cert.KernelIdeal.Gen Cert.KernelIdeal.Hand Idealize.ShloMosaic Idealize.ShloMosaic.ValueIdx Cert.Gin Cert.Gin.Consts

/-- A vector viewed as one row reads, at (0, k), its entry k. -/
theorem kRow_at (v : FVec Ideal S128 .f32) (k : Fin 128) : kRow (F := Ideal) v (ix2 (0 : Fin 1) k) = v (ix1 k) := by
  unfold kRow
  exact shapeCast_a_1a_apply v _ 0 k

/-- The mean row at (0, n): the sum row's entry over the real 50000. -/
theorem kMean_at (s : FVec Ideal S1x128 .f32) (n : Fin 128) :
    kMean (F := Ideal) s (ix2 (0 : Fin 1) n) = Ideal.div (s (ix2 (0 : Fin 1) n)) ((50000 : ℝ) : EReal) := by
  unfold kMean
  rw [hostDivf_apply, broadcastInDim_scalar_apply, constant_apply, ofBits_rows]

/-- The scale row at (0, n). -/
theorem kScale_at (s q gam : FVec Ideal S1x128 .f32) (n : Fin 128) :
    kScale (F := Ideal) s q gam (ix2 (0 : Fin 1) n) = gam (ix2 (0 : Fin 1) n) * Ideal.rsqrt
      (Ideal.div (q (ix2 (0 : Fin 1) n)) ((50000 : ℝ) : EReal)
        - Ideal.div (s (ix2 (0 : Fin 1) n)) ((50000 : ℝ) : EReal) * Ideal.div (s (ix2 (0 : Fin 1) n)) ((50000 : ℝ) : EReal)
        + ((eps : ℝ) : EReal)) := by
  unfold kScale kRstd
  rw [mulf_apply]
  show gam (ix2 (0 : Fin 1) n) * Ideal.rsqrt ((addf (F := Ideal) _ _ : FVec Ideal S1x128 .f32) (ix2 (0 : Fin 1) n)) = _
  rw [addf_apply, subf_apply, mulf_apply, kMean_at, kMean_at, broadcastInDim_scalar_apply, constant_apply, ofBits_eps]

/-- The shift row at (0, n). -/
theorem kShift_at (s q gam bet : FVec Ideal S1x128 .f32) (n : Fin 128) :
    kShift (F := Ideal) s q gam bet (ix2 (0 : Fin 1) n)
      = bet (ix2 (0 : Fin 1) n) - Ideal.div (s (ix2 (0 : Fin 1) n)) ((50000 : ℝ) : EReal) * kScale (F := Ideal) s q gam (ix2 (0 : Fin 1) n) := by
  unfold kShift
  rw [subf_apply, mulf_apply, kMean_at]

/-- The weight column transposed to a row reads, at (0, j), the column's entry (j, 0). -/
theorem kTranspose_at (w : FVec Ideal S128x1 .f32) (j : Fin 128) :
    kTranspose (F := Ideal) w (ix2 (0 : Fin 1) j) = w (ix2 j (0 : Fin 1)) := by
  unfold kTranspose
  refine transpose_apply _ w _ (ix2 (0 : Fin 1) j) (ix2 j (0 : Fin 1)) fun b => ?_
  match b with
  | ⟨0, _⟩ => rfl
  | ⟨1, _⟩ => rfl

/-- The one bias viewed as a 1×1 array reads it. -/
theorem kReshape_at (b : FVec Ideal S1 .f32) : kReshape (F := Ideal) b (ix2 (0 : Fin 1) (0 : Fin 1)) = b (ix1 (0 : Fin 1)) := by
  unfold kReshape
  refine shapeCast_apply b _ _ _ ?_
  rw [Shape.rowMajor_val_one, Shape.rowMajor_val_two]
  rfl

/-! ## The stages both programs spell with the same operations -/

theorem kSrc_eq (ei : IVec S2x600000 32) : kSrc (F := Ideal) ei = Cert.ReferenceIdeal.Hand.srcOf (F := Ideal) ei := rfl
theorem kDst_eq (ei : IVec S2x600000 32) : kDst (F := Ideal) ei = Cert.ReferenceIdeal.Hand.dstOf (F := Ideal) ei := rfl
theorem kPick2_0_eq (a : FVec Ideal S3x128x128 .f32) : kPick2_0 (F := Ideal) a = Cert.ReferenceIdeal.Hand.pick2_0 (F := Ideal) a := rfl
theorem kPick2_1_eq (a : FVec Ideal S3x128x128 .f32) : kPick2_1 (F := Ideal) a = Cert.ReferenceIdeal.Hand.pick2_1 (F := Ideal) a := rfl
theorem kPick2_2_eq (a : FVec Ideal S3x128x128 .f32) : kPick2_2 (F := Ideal) a = Cert.ReferenceIdeal.Hand.pick2_2 (F := Ideal) a := rfl
theorem kPick1_0_eq (a : FVec Ideal S3x128 .f32) : kPick1_0 (F := Ideal) a = Cert.ReferenceIdeal.Hand.pick1_0 (F := Ideal) a := rfl
theorem kPick1_1_eq (a : FVec Ideal S3x128 .f32) : kPick1_1 (F := Ideal) a = Cert.ReferenceIdeal.Hand.pick1_1 (F := Ideal) a := rfl
theorem kPick1_2_eq (a : FVec Ideal S3x128 .f32) : kPick1_2 (F := Ideal) a = Cert.ReferenceIdeal.Hand.pick1_2 (F := Ideal) a := rfl
theorem kAgg_eq (h : FVec Ideal S50000x128 .f32) (src dst : IVec S600000 32) :
    kAgg (F := Ideal) h src dst = Cert.ReferenceIdeal.Hand.aggOps (F := Ideal) h src dst := rfl

end Cert.KernelIdeal.HandRead

end
-- ==== Proof.GinMath.lean ====
/-
  The algebra of one normalisation step, on the extended reals with real entries.

  For a column z : ι → ℝ of N = |ι| real numbers, with S = ∑ z and Q = ∑ z², the batch normalisation can be written
  through the two moments,
      mean = S / N,  var = Q / N − mean²,  scale = γ · (var + ε)^(-1/2),  shift = β − mean · scale,
      out  = max (z · scale + shift) 0,
  or through the centred column,
      μ = S / N,  var' = (∑ (z − μ)²) / N,  out' = max ((z − μ) · (var' + ε)^(-1/2) · γ + β) 0.
  Over the reals  Q / N − (S / N)² = (∑ (z − S/N)²) / N  (expand the square and use ∑ 1 = N), which is ≥ 0, so for
  ε > 0 the reciprocal square root is taken of a positive real and every intermediate value is a real number; the
  two results then agree by the distributive law.  On the extended reals the distributive law fails at the
  infinities, which is why the entries are required to be real; the quotient by the real N is the product with 1/N.
  Also here: the real numbers inside the extended reals are closed under the operations the layer uses.
-/
import Idealize.ShloMosaic.PureOps.Ideal

noncomputable section

open scoped BigOperators

namespace Cert.Gin.Math

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum (it is monotone). -/
theorem coe_max (a b : ℝ) : ((Max.max a b : ℝ) : EReal) = Max.max (a : EReal) (b : EReal) :=
  EReal.coe_strictMono.monotone.map_max

/-! ## Real entries -/

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.max {x y : EReal} (hx : IsR x) (hy : IsR y) : IsR (max x y) := by
  obtain ⟨a, rfl⟩ := hx; obtain ⟨b, rfl⟩ := hy; exact ⟨Max.max a b, (coe_max a b).symm⟩
theorem IsR.sum {ι : Type} (s : Finset ι) (f : ι → EReal) (h : ∀ i ∈ s, IsR (f i)) : IsR (∑ i ∈ s, f i) :=
  Finset.sum_induction f IsR (fun _ _ => IsR.add) IsR.zero h

/-! ## The variance through the moments -/

/-- Q/N − (S/N)² = (∑ (z − S/N)²)/N over the reals, for N = |ι| ≠ 0. -/
theorem var_identity {ι : Type} [Fintype ι] (z : ι → ℝ) (cN : ℝ) (hc : (Fintype.card ι : ℝ) = cN) (h0 : cN ≠ 0) :
    (∑ r, (z r - (∑ r, z r) * (1 / cN)) * (z r - (∑ r, z r) * (1 / cN))) * (1 / cN)
      = (∑ r, z r * z r) * (1 / cN) - ((∑ r, z r) * (1 / cN)) * ((∑ r, z r) * (1 / cN)) := by
  have e : ∀ r, (z r - (∑ r, z r) * (1 / cN)) * (z r - (∑ r, z r) * (1 / cN))
      = z r * z r - 2 * ((∑ r, z r) * (1 / cN)) * z r + ((∑ r, z r) * (1 / cN)) * ((∑ r, z r) * (1 / cN)) := fun r => by ring
  simp only [e, Finset.sum_add_distrib, Finset.sum_sub_distrib, ← Finset.mul_sum, Finset.sum_const, Finset.card_univ,
    nsmul_eq_mul, hc]
  field_simp
  ring

/-- The centred second moment is not negative. -/
theorem var_nonneg {ι : Type} [Fintype ι] (z : ι → ℝ) (cN : ℝ) (h0 : 0 < cN) (μ : ℝ) :
    0 ≤ (∑ r, (z r - μ) * (z r - μ)) * (1 / cN) :=
  mul_nonneg (Finset.sum_nonneg fun r _ => mul_self_nonneg _) (by positivity)

/-! ## The normalisation step -/

/-- The step's value over the reals, through the centred column. -/
def bnReal {ι : Type} [Fintype ι] (z : ι → ℝ) (cN e g b : ℝ) (r0 : ι) : ℝ :=
  Max.max ((z r0 - (∑ r, z r) * (1 / cN))
      * (Real.sqrt ((∑ r, (z r - (∑ r, z r) * (1 / cN)) * (z r - (∑ r, z r) * (1 / cN))) * (1 / cN) + e))⁻¹ * g + b) 0

/-- The reciprocal square root of a positive real is the real reciprocal square root. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-- THE CENTRED SPELLING is the real value: mean μ = S/N, variance the centred second moment over N. -/
theorem bn_centred {ι : Type} [Fintype ι] (z : ι → ℝ) (cN e g b : ℝ) (hN : 0 < cN) (he : 0 < e) (r0 : ι) :
    max ((((z r0 : ℝ) : EReal) - Ideal.div (∑ r, ((z r : ℝ) : EReal)) (cN : EReal))
        * Ideal.rsqrt (Ideal.div (∑ r, (((z r : ℝ) : EReal) - Ideal.div (∑ r, ((z r : ℝ) : EReal)) (cN : EReal))
            * (((z r : ℝ) : EReal) - Ideal.div (∑ r, ((z r : ℝ) : EReal)) (cN : EReal))) (cN : EReal) + (e : EReal))
        * (g : EReal) + (b : EReal)) 0
      = ((bnReal z cN e g b r0 : ℝ) : EReal) := by
  have hμ : Ideal.div (∑ r, ((z r : ℝ) : EReal)) (cN : EReal) = (((∑ r, z r) * (1 / cN) : ℝ) : EReal) := by
    rw [Ideal.div_coe hN.ne', ← coe_sum, ← EReal.coe_mul]
  rw [hμ]
  have hsq : ∀ r, (((z r : ℝ) : EReal) - (((∑ r, z r) * (1 / cN) : ℝ) : EReal)) * (((z r : ℝ) : EReal) - (((∑ r, z r) * (1 / cN) : ℝ) : EReal))
      = (((z r - (∑ r, z r) * (1 / cN)) * (z r - (∑ r, z r) * (1 / cN)) : ℝ) : EReal) := fun r => by
    rw [← EReal.coe_sub, ← EReal.coe_mul]
  simp only [hsq]
  rw [← coe_sum, Ideal.div_coe hN.ne', ← EReal.coe_mul, ← EReal.coe_add,
    rsqrt_pos (add_pos_of_nonneg_of_pos (var_nonneg z cN hN _) he),
    ← EReal.coe_sub, ← EReal.coe_mul, ← EReal.coe_mul, ← EReal.coe_add, ← EReal.coe_zero, ← coe_max]
  rfl

/-- THE MOMENT SPELLING is the same real value: variance Q/N − mean², a scale and a shift. -/
theorem bn_moments {ι : Type} [Fintype ι] (z : ι → ℝ) (cN e g b : ℝ) (hc : (Fintype.card ι : ℝ) = cN) (hN : 0 < cN) (he : 0 < e) (r0 : ι) :
    max (((z r0 : ℝ) : EReal)
          * ((g : EReal) * Ideal.rsqrt (Ideal.div (∑ r, ((z r : ℝ) : EReal) * ((z r : ℝ) : EReal)) (cN : EReal)
              - Ideal.div (∑ r, ((z r : ℝ) : EReal)) (cN : EReal) * Ideal.div (∑ r, ((z r : ℝ) : EReal)) (cN : EReal) + (e : EReal)))
        + ((b : EReal) - Ideal.div (∑ r, ((z r : ℝ) : EReal)) (cN : EReal)
            * ((g : EReal) * Ideal.rsqrt (Ideal.div (∑ r, ((z r : ℝ) : EReal) * ((z r : ℝ) : EReal)) (cN : EReal)
              - Ideal.div (∑ r, ((z r : ℝ) : EReal)) (cN : EReal) * Ideal.div (∑ r, ((z r : ℝ) : EReal)) (cN : EReal) + (e : EReal))))) 0
      = ((bnReal z cN e g b r0 : ℝ) : EReal) := by
  have hμ : Ideal.div (∑ r, ((z r : ℝ) : EReal)) (cN : EReal) = (((∑ r, z r) * (1 / cN) : ℝ) : EReal) := by
    rw [Ideal.div_coe hN.ne', ← coe_sum, ← EReal.coe_mul]
  have hq : Ideal.div (∑ r, ((z r : ℝ) : EReal) * ((z r : ℝ) : EReal)) (cN : EReal) = (((∑ r, z r * z r) * (1 / cN) : ℝ) : EReal) := by
    simp only [← EReal.coe_mul]
    rw [Ideal.div_coe hN.ne', ← coe_sum, ← EReal.coe_mul]
  rw [hμ, hq, ← EReal.coe_mul, ← EReal.coe_sub, ← EReal.coe_add, ← var_identity z cN hc hN.ne',
    rsqrt_pos (add_pos_of_nonneg_of_pos (var_nonneg z cN hN _) he),
    ← EReal.coe_mul, ← EReal.coe_mul, ← EReal.coe_mul, ← EReal.coe_sub, ← EReal.coe_add, ← EReal.coe_zero, ← coe_max]
  unfold bnReal
  congr 2
  ring

end Cert.Gin.Math

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.RefRead.lean ====
/-
  The reference's whole-array stages read at one entry, at the ideal values.

  A vector laid along the rows reads its own entry; the rectifier is the maximum with 0; a matrix product is the sum
  over the contracted coordinate; a column sum started from 0 is the sum over the 50000 rows; the quotient by the
  constant 50000 is Ideal.div by the real 50000.  So the perceptron reads
      (∑ k, max ((∑ j, u[r,j] · w1[j,k]) + b1[k]) 0 · w2[k,n]) + b2[n],
  the column mean reads (∑ r, z[r,n]) / 50000, the variance reads (∑ r, (z[r,n] − mean)²) / 50000 (its divisor is
  50000 − 0 > 0, so the guarded selection takes the quotient), and the normalised, rescaled and rectified value reads
      max ((z[r,n] − mean[n]) · rsqrt (var[n] + ε) · γ[n] + β[n]) 0.
-/
import proofs.«147060_j15040975470999_1_alg».proof.Proof.RefRunA
import proofs.«147060_j15040975470999_1_alg».proof.Proof.LibMlpAt
import proofs.«147060_j15040975470999_1_alg».proof.Proof.Consts
import Idealize.ShloMosaic.Lib.IdealHost
import Idealize.ShloMosaic.Lib.ValueIdx
import Idealize.ShloMosaic.Lib.ValueLayout
import Idealize.ShloMosaic.Lib.Pipeline.Value

noncomputable section

open scoped BigOperators

namespace Cert.ReferenceIdeal.HandRead

open Cert.ReferenceIdeal Cert.ReferenceIdeal.Gen Cert.ReferenceIdeal.Hand Idealize.ShloMosaic Idealize.ShloMosaic.ValueIdx

/-- A 128-vector laid along the rows reads, at (r, n), its entry n. -/
theorem rowBias_at (b : FVec Ideal S128 .f32) (r : Fin 50000) (n : Fin 128) :
    rowBias (F := Ideal) b (ix2 r n) = b (ix1 n) := by
  unfold rowBias
  rw [Cert.Mlp.bcastRow_at]
  refine broadcastInDim_apply _ bcast_S128_S1x128_1 b (ix2 (0 : Fin 1) n) (ix1 n) fun ax => ?_
  match ax with
  | ⟨0, _⟩ => rfl

/-- The rectifier at an entry. -/
theorem reluOps_at (x : FVec Ideal S50000x128 .f32) (i : S50000x128.Idx) : reluOps (F := Ideal) x i = max (x i) 0 := by
  unfold reluOps
  rw [maximumf_apply, broadcastInDim_scalar_apply, constant_apply, Ideal.ofBits_zero_f32]

/-- The perceptron at (r, n). -/
theorem mlpOps_at (u : FVec Ideal S50000x128 .f32) (w1 : FVec Ideal S128x128 .f32) (b1 : FVec Ideal S128 .f32)
    (w2 : FVec Ideal S128x128 .f32) (b2 : FVec Ideal S128 .f32) (r : Fin 50000) (n : Fin 128) :
    mlpOps (F := Ideal) u w1 b1 w2 b2 (ix2 r n)
      = (∑ k : Fin 128, max ((∑ j : Fin 128, u (ix2 r j) * w1 (ix2 j k)) + b1 (ix1 k)) 0 * w2 (ix2 k n)) + b2 (ix1 n) := by
  unfold mlpOps
  rw [addf_apply, rowBias_at,
    show dot_S50000x128_S128x128_S50000x128_1_0_0_1_n_n = Cert.Mlp.D2 dot_S50000x128_S128x128_S50000x128_1_0_0_1_n_n_wf from rfl,
    Cert.Mlp.dotGeneral_at]
  refine congrArg (fun s => s + b2 (ix1 n)) (Finset.sum_congr rfl fun k _ => ?_)
  rw [reluOps_at, addf_apply, rowBias_at, Cert.Mlp.dotGeneral_at]

/-- A reduction along axis 0 of [50000, 128] visits, for column n and coordinate k, the entry (k, n). -/
theorem lift_axis0 (h : S50000x128.Reduces [0] S128) (n : Fin 128) (k : Fin 50000) : h.lift (ix1 n) k = ix2 k n :=
  funext fun c => Fin.ext (by match c with | ⟨0, _⟩ => rfl | ⟨1, _⟩ => rfl)

/-- A column sum started from the zero pattern, at column n. -/
theorem colSum_at (z : FVec Ideal S50000x128 .f32) (n : Fin 128) :
    Host.reduceAdd z (constant (F := Ideal) S_ .f32 0x00000000#32) reducesTo_S50000x128_S128_d0 h_S_ (ix1 n)
      = ∑ r : Fin 50000, z (ix2 r n) := by
  rw [hostReduceAdd_apply, Ideal.hostReduceAdd_single reducesTo_S50000x128_S128_d0 (by decide : S50000x128.Reduces [0] S128),
    constant_apply, Ideal.ofBits_zero_f32, zero_add]
  exact Finset.sum_congr rfl fun k _ => congrArg z (lift_axis0 _ n k)

/-- The column mean at n: the column sum over the real 50000. -/
theorem meanOps_at (z : FVec Ideal S50000x128 .f32) (n : Fin 128) :
    meanOps (F := Ideal) z (ix1 n) = Ideal.div (∑ r : Fin 50000, z (ix2 r n)) ((50000 : ℝ) : EReal) := by
  unfold meanOps
  rw [hostDivf_apply, colSum_at, broadcastInDim_scalar_apply, constant_apply, Cert.Gin.Consts.ofBits_rows]

/-- The variance's own mean, kept as a row, at (0, n). -/
theorem varMean_at (z : FVec Ideal S50000x128 .f32) (u : Fin 1) (n : Fin 128) :
    varMean (F := Ideal) z (ix2 u n) = Ideal.div (∑ r : Fin 50000, z (ix2 r n)) ((50000 : ℝ) : EReal) := by
  unfold varMean
  rw [hostDivf_apply, broadcastInDim_scalar_apply, constant_apply, Cert.Gin.Consts.ofBits_rows]
  refine congrArg (fun s => Ideal.div s ((50000 : ℝ) : EReal)) ?_
  refine (broadcastInDim_apply _ bcast_S128_S1x128_1 _ (ix2 u n) (ix1 n) fun ax => ?_).trans (colSum_at z n)
  match ax with
  | ⟨0, _⟩ => rfl

/-- The squared deviation at (r, n). -/
theorem varSq_at (z : FVec Ideal S50000x128 .f32) (r : Fin 50000) (n : Fin 128) :
    varSq (F := Ideal) z (ix2 r n)
      = (z (ix2 r n) - Ideal.div (∑ r : Fin 50000, z (ix2 r n)) ((50000 : ℝ) : EReal))
        * (z (ix2 r n) - Ideal.div (∑ r : Fin 50000, z (ix2 r n)) ((50000 : ℝ) : EReal)) := by
  unfold varSq
  rw [mulf_apply, subf_apply, Cert.Mlp.bcastRow_at, varMean_at]

/-- The variance's divisor is the real 50000. -/
theorem varCount_eq : varCount (F := Ideal) ix0 = ((50000 : ℝ) : EReal) := by
  unfold varCount
  rw [subf_apply, constant_apply, Cert.Gin.Consts.ofBits_rows, sitofp_apply, constantI_apply]
  show ((50000 : ℝ) : EReal) - ((((0#32 : BitVec 32).toInt : ℝ)) : EReal) = _
  simp

/-- The variance at n: the sum of the squared deviations over the real 50000 (the guard's test is true). -/
theorem varOps_at (z : FVec Ideal S50000x128 .f32) (n : Fin 128) :
    varOps (F := Ideal) z (ix1 n)
      = Ideal.div (∑ r : Fin 50000, (z (ix2 r n) - Ideal.div (∑ r : Fin 50000, z (ix2 r n)) ((50000 : ℝ) : EReal))
          * (z (ix2 r n) - Ideal.div (∑ r : Fin 50000, z (ix2 r n)) ((50000 : ℝ) : EReal))) ((50000 : ℝ) : EReal) := by
  unfold varOps
  rw [select_apply, broadcastInDim_scalar_apply, cmpf_apply, varCount_eq, constant_apply, Ideal.ofBits_zero_f32]
  have hg : FloatOps.cmpf (F := Ideal) (φ := .f32) .ogt ((50000 : ℝ) : EReal) 0 = 1#1 := by
    show Ideal.cmp .ogt ((50000 : ℝ) : EReal) 0 = 1#1
    unfold Ideal.cmp
    simp
  rw [hg]
  show Host.divf _ _ (ix1 n) = _
  rw [hostDivf_apply, colSum_at, broadcastInDim_scalar_apply, varCount_eq]
  exact congrArg (fun s => Ideal.div s ((50000 : ℝ) : EReal)) (Finset.sum_congr rfl fun r _ => varSq_at z r n)

/-- The normalisation, affine map and rectifier at (r, n), given the column means and variances. -/
theorem tailOps_at (z : FVec Ideal S50000x128 .f32) (mean var gam bet : FVec Ideal S128 .f32) (r : Fin 50000) (n : Fin 128) :
    tailOps (F := Ideal) z mean var gam bet (ix2 r n)
      = max ((z (ix2 r n) - mean (ix1 n)) * Ideal.rsqrt (var (ix1 n) + ((Cert.Gin.Consts.eps : ℝ) : EReal)) * gam (ix1 n) + bet (ix1 n)) 0 := by
  unfold tailOps
  rw [reluOps_at, addf_apply, mulf_apply, mulf_apply, subf_apply, rowBias_at, rowBias_at, rowBias_at, rowBias_at]
  show max ((z (ix2 r n) - mean (ix1 n)) * Ideal.rsqrt (addf var _ (ix1 n)) * gam (ix1 n) + bet (ix1 n)) 0 = _
  rw [addf_apply, broadcastInDim_scalar_apply, constant_apply, Cert.Gin.Consts.ofBits_eps]

/-- Batch normalisation with its affine map and the rectifier at (r, n), in the centred spelling. -/
theorem bnOps_at (z : FVec Ideal S50000x128 .f32) (gam bet : FVec Ideal S128 .f32) (r : Fin 50000) (n : Fin 128) :
    bnOps (F := Ideal) z gam bet (ix2 r n)
      = max ((z (ix2 r n) - Ideal.div (∑ r : Fin 50000, z (ix2 r n)) ((50000 : ℝ) : EReal))
          * Ideal.rsqrt (Ideal.div (∑ r : Fin 50000, (z (ix2 r n) - Ideal.div (∑ r : Fin 50000, z (ix2 r n)) ((50000 : ℝ) : EReal))
              * (z (ix2 r n) - Ideal.div (∑ r : Fin 50000, z (ix2 r n)) ((50000 : ℝ) : EReal))) ((50000 : ℝ) : EReal)
            + ((Cert.Gin.Consts.eps : ℝ) : EReal))
          * gam (ix1 n) + bet (ix1 n)) 0 := by
  unfold bnOps
  rw [tailOps_at, meanOps_at, varOps_at]

end Cert.ReferenceIdeal.HandRead

end
-- ==== Proof.Layer.lean ====
/-
  One layer, both spellings: the rows' perceptron values followed by the rescaling through the two moments (scale
  and shift rows) against the reference's perceptron followed by its centred batch normalisation.  For real features,
  neighbour sums and parameters every value z[r, n] is a real number, so at every entry both spellings are the
  coercion of one real number (Cert.Gin.Math.bn_moments, bn_centred); in particular the layer's output is real
  again, which is what the next layer needs.  The read-out needs no such care: both spellings are the same sum.
-/
import proofs.«147060_j15040975470999_1_alg».proof.Proof.Spec
import proofs.«147060_j15040975470999_1_alg».proof.Proof.GinMath
import proofs.«147060_j15040975470999_1_alg».proof.Proof.Consts
import proofs.«147060_j15040975470999_1_alg».proof.Proof.RefRead

noncomputable section

open scoped BigOperators

namespace Cert.Gin.Layer

open Cert.ReferenceIdeal Cert.ReferenceIdeal.Gen Cert.ReferenceIdeal.Hand Cert.ReferenceIdeal.HandRead
open Idealize.ShloMosaic Idealize.ShloMosaic.ValueIdx Cert.Gin Cert.Gin.Math Cert.Gin.Consts

theorem card_rows : ((Fintype.card (Fin 50000) : ℕ) : ℝ) = (50000 : ℝ) := by
  rw [Fintype.card_fin]; norm_num

/-- The perceptron's value is real when everything it reads is. -/
theorem mlp_isR (u : FVec Ideal S50000x128 .f32) (hu : ∀ i, IsR (u i)) (w1 : FVec Ideal S128x128 .f32) (hw1 : ∀ i, IsR (w1 i))
    (b1 : FVec Ideal S128 .f32) (hb1 : ∀ i, IsR (b1 i)) (w2 : FVec Ideal S128x128 .f32) (hw2 : ∀ i, IsR (w2 i))
    (b2 : FVec Ideal S128 .f32) (hb2 : ∀ i, IsR (b2 i)) (r : Fin 50000) (n : Fin 128) :
    IsR (mlpOps (F := Ideal) u w1 b1 w2 b2 (ix2 r n)) := by
  rw [mlpOps_at]
  exact IsR.add (IsR.sum _ _ fun k _ => IsR.mul (IsR.max (IsR.add (IsR.sum _ _ fun j _ => IsR.mul (hu _) (hw1 _)) (hb1 _)) IsR.zero) (hw2 _)) (hb2 _)

/-- THE LAYER. With z the rows' perceptron values of h + a (biases given as one-row arrays), a scale row
    γ · rsqrt (Q/N − (S/N)² + ε) and a shift row β − (S/N) · scale, the rescaled and rectified z is the reference's
    batch-normalised, rectified perceptron output, and every entry of it is real. -/
theorem layer_eq (h a : FVec Ideal S50000x128 .f32) (hh : ∀ i, IsR (h i)) (ha : ∀ i, IsR (a i))
    (w1 : FVec Ideal S128x128 .f32) (hw1 : ∀ i, IsR (w1 i)) (b1 : FVec Ideal S128 .f32) (hb1 : ∀ i, IsR (b1 i))
    (w2 : FVec Ideal S128x128 .f32) (hw2 : ∀ i, IsR (w2 i)) (b2 : FVec Ideal S128 .f32) (hb2 : ∀ i, IsR (b2 i))
    (gam : FVec Ideal S128 .f32) (hg : ∀ i, IsR (gam i)) (bet : FVec Ideal S128 .f32) (hbt : ∀ i, IsR (bet i))
    (b1r b2r scale shift : FVec Ideal SR .f32)
    (e1 : ∀ k : Fin 128, b1r (ix2 (0 : Fin 1) k) = b1 (ix1 k)) (e2 : ∀ k : Fin 128, b2r (ix2 (0 : Fin 1) k) = b2 (ix1 k))
    (es : ∀ n : Fin 128, scale (ix2 (0 : Fin 1) n) = gam (ix1 n) * Ideal.rsqrt
        (Ideal.div (colSumSq (zArr h a w1 b1r w2 b2r) (ix2 (0 : Fin 1) n)) ((50000 : ℝ) : EReal)
          - Ideal.div (colSum (zArr h a w1 b1r w2 b2r) (ix2 (0 : Fin 1) n)) ((50000 : ℝ) : EReal)
            * Ideal.div (colSum (zArr h a w1 b1r w2 b2r) (ix2 (0 : Fin 1) n)) ((50000 : ℝ) : EReal) + ((eps : ℝ) : EReal)))
    (et : ∀ n : Fin 128, shift (ix2 (0 : Fin 1) n) = bet (ix1 n)
        - Ideal.div (colSum (zArr h a w1 b1r w2 b2r) (ix2 (0 : Fin 1) n)) ((50000 : ℝ) : EReal) * scale (ix2 (0 : Fin 1) n)) :
    affRelu (zArr h a w1 b1r w2 b2r) scale shift = bnOps (F := Ideal) (mlpOps (F := Ideal) (addf h a) w1 b1 w2 b2) gam bet
      ∧ ∀ i, IsR (bnOps (F := Ideal) (mlpOps (F := Ideal) (addf h a) w1 b1 w2 b2) gam bet i) := by
  have hu : ∀ i, IsR (addf h a i) := fun i => by rw [addf_apply]; exact IsR.add (hh i) (ha i)
  -- the two spellings of z agree entry by entry
  have hz : ∀ (r : Fin 50000) (n : Fin 128), zArr h a w1 b1r w2 b2r (ix2 r n) = mlpOps (F := Ideal) (addf h a) w1 b1 w2 b2 (ix2 r n) := by
    intro r n
    rw [zArr_apply, mlpOps_at]
    unfold zVal
    simp only [addf_apply, e1, e2]
  -- and z is real
  have hzR : ∀ (r : Fin 50000) (n : Fin 128), IsR (mlpOps (F := Ideal) (addf h a) w1 b1 w2 b2 (ix2 r n)) :=
    fun r n => mlp_isR _ hu w1 hw1 b1 hb1 w2 hw2 b2 hb2 r n
  -- both results at an entry are one real number
  have key : ∀ (r : Fin 50000) (n : Fin 128), ∃ x : ℝ,
      affRelu (zArr h a w1 b1r w2 b2r) scale shift (ix2 r n) = (x : EReal)
        ∧ bnOps (F := Ideal) (mlpOps (F := Ideal) (addf h a) w1 b1 w2 b2) gam bet (ix2 r n) = (x : EReal) := by
    intro r n
    choose zr hzr using fun r' => hzR r' n
    obtain ⟨g, hg'⟩ := hg (ix1 n)
    obtain ⟨b, hb'⟩ := hbt (ix1 n)
    refine ⟨bnReal zr 50000 eps g b r, ?_, ?_⟩
    · rw [affRelu_apply, et, es, colSum_apply, colSumSq_apply]
      simp only [hz, hzr, hg', hb']
      exact bn_moments zr 50000 eps g b card_rows (by norm_num) eps_pos r
    · rw [bnOps_at]
      simp only [hzr, hg', hb']
      exact bn_centred zr 50000 eps g b (by norm_num) eps_pos r
  constructor
  · funext i
    obtain ⟨r, n, rfl⟩ : ∃ (r : Fin 50000) (n : Fin 128), i = ix2 r n := ⟨i 0, i 1, eq_ix2 i⟩
    obtain ⟨x, h1, h2⟩ := key r n
    rw [h1, h2]
  · intro i
    obtain ⟨r, n, rfl⟩ : ∃ (r : Fin 50000) (n : Fin 128), i = ix2 r n := ⟨i 0, i 1, eq_ix2 i⟩
    obtain ⟨x, -, h2⟩ := key r n
    exact ⟨x, h2⟩

/-- THE READ-OUT. Each row's inner product with the weights, given as one row, plus the one bias, is the
    reference's product with the weight column plus the bias laid along the rows. -/
theorem readOut_eq (h : FVec Ideal S50000x128 .f32) (fcw : FVec Ideal S128x1 .f32) (fcb : FVec Ideal S1 .f32)
    (wr : FVec Ideal SR .f32) (be : FVec Ideal SE .f32)
    (ew : ∀ j : Fin 128, wr (ix2 (0 : Fin 1) j) = fcw (ix2 j (0 : Fin 1))) (eb : be (ix2 (0 : Fin 1) (0 : Fin 1)) = fcb (ix1 (0 : Fin 1))) :
    readOut h wr be = outOps (F := Ideal) h fcw fcb := by
  funext i
  obtain ⟨r, u, rfl⟩ : ∃ (r : Fin 50000) (u : Fin 1), i = ix2 r u := ⟨i 0, i 1, eq_ix2 i⟩
  obtain rfl : u = 0 := Subsingleton.elim _ _
  rw [readOut_apply]
  unfold outOps
  rw [addf_apply,
    show dot_S50000x128_S128x1_S50000x1_1_0_0_1_n_n = Cert.Mlp.D2 dot_S50000x128_S128x1_S50000x1_1_0_0_1_n_n_wf from rfl,
    Cert.Mlp.dotGeneral_at, Cert.Mlp.bcastRow_at]
  simp only [ew, eb]
  refine congrArg (fun s => (∑ j : Fin 128, h (ix2 r j) * fcw (ix2 j (0 : Fin 1))) + s) ?_
  refine (broadcastInDim_apply _ bcast_S1_S1x1_1 fcb (ix2 (0 : Fin 1) (0 : Fin 1)) (ix1 (0 : Fin 1)) fun ax => ?_).symm
  match ax with
  | ⟨0, _⟩ => rfl

end Cert.Gin.Layer

end
-- ==== Proof.LibRowGatherScatter.lean ====
/- Rows gathered and rows scattered, read at an index. A gather of whole rows of an [N, C] array at an [E, 1] table
   of row numbers gives an [E, C] array whose row e is the row the table names, the number read signed and clamped
   into [0, N - 1]. A scatter of the rows of an [E, C] array into an [N, C] array by addition, at an [E, 1] table of
   row numbers, adds row e to the row the table names, the number read signed and NOT clamped: a row whose number
   falls outside [0, N) is dropped. At the ideal values the scattered array at (n, c) is therefore the operand's
   entry plus the sum, over the rows e that land on n, of the update's entry (e, c). Stated over abstract sizes. -/
import Idealize.ShloMosaic.Lib.ValueIdx
import Idealize.ShloMosaic.PureOps.Ideal.Laws

noncomputable section

open scoped BigOperators

namespace Cert.Lib.RowGatherScatter

open Idealize.ShloMosaic Idealize.ShloMosaic.ValueIdx

variable {N E C w : Nat}

/-! ## The gather of rows -/

/-- The dimension numbers of a gather of whole rows: axis 0 collapsed and named by the one-component start index,
    axis 1 the offset axis, a slice one row long. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row e reads: the table's entry e as a signed integer, clamped into [0, N - 1]. -/
def gatherPos (hN : 0 < N) (idx : IVec ⟨2, ![E, 1]⟩ w) (e : Fin E) : Fin N :=
  ⟨min (idx (ix2 e (0 : Fin 1))).toInt.toNat (N - 1), by omega⟩

/-- THE GATHER READ AT (e, c): the operand at the row the table names for e, same column. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherPos hN idx e) c) := by
  unfold Host.gather
  congr 1
  funext a
  refine Fin.ext ?_
  match a with
  | ⟨0, _⟩ =>
    show (rowGatherDims N E C wf).start (ix2 e c) idx (0 : Fin 2) + (rowGatherDims N E C wf).batchCoord (ix2 e c) (0 : Fin 2)
      + (rowGatherDims N E C wf).offCoord (ix2 e c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx (1 : Fin 2) + (rowGatherDims N E C wf).batchCoord (ix2 e c) (1 : Fin 2)
      + (rowGatherDims N E C wf).offCoord (ix2 e c) (1 : Fin 2) = c.val
    have hs : (rowGatherDims N E C wf).start (ix2 e c) idx (1 : Fin 2) = 0 := by
      unfold GatherDims.start
      rw [dif_neg (show (1 : Fin 2) ∉ (rowGatherDims N E C wf).startIndexMap from
        fun h => absurd (List.mem_singleton.mp h) (show ¬ ((1 : Fin 2) = 0) by decide))]
    have hk : (1 : Fin 2) ∈ (rowGatherDims N E C wf).sKept :=
      (GatherDims.mem_sKept _ _).mpr ⟨fun h => absurd (List.mem_singleton.mp h) (show ¬ ((1 : Fin 2) = 0) by decide), List.not_mem_nil⟩
    have ho : (rowGatherDims N E C wf).offCoord (ix2 e c) (1 : Fin 2) = c.val := by
      unfold GatherDims.offCoord
      rw [dif_pos hk]
      rfl
    rw [hs, GatherDims.batchCoord_eq_zero _ _ _ List.not_mem_nil, ho]
    omega

/-! ## The scatter of rows by addition -/

/-- The dimension numbers of a scatter of whole rows: the operand's axis 0 inserted and named by the one-component
    scatter index, the update's axis 1 its window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row that update row e lands on: the table's entry e as a signed integer when it lies in [0, N), no row
    otherwise (the update row is dropped). -/
def landPos (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Update entry (e, c) lands on operand entry (n, c') exactly when the table sends e to n and c = c'. -/
theorem resultIdx_rows (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatterDims N E C wf).resultIdx? (ix2 e c) idx = some (ix2 n c') ↔ (landPos N idx e = some n ∧ c = c') := by
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have s0 : (rowScatterDims N E C wf).start (ix2 e c) idx (0 : Fin 2) = (idx (ix2 e (0 : Fin 1))).toInt := by
    unfold ScatterDims.start
    rw [dif_pos (show (0 : Fin 2) ∈ (rowScatterDims N E C wf).scatterDimsToOperandDims from List.mem_singleton.mpr rfl), hsi]
  have s1 : (rowScatterDims N E C wf).start (ix2 e c) idx (1 : Fin 2) = 0 := by
    unfold ScatterDims.start
    rw [dif_neg (show (1 : Fin 2) ∉ (rowScatterDims N E C wf).scatterDimsToOperandDims from
      fun h => absurd (List.mem_singleton.mp h) (show ¬ ((1 : Fin 2) = 0) by decide))]
  have k0 : (0 : Fin 2) ∉ (rowScatterDims N E C wf).sKept := by
    simp [ScatterDims.sKept, Shape.kept, List.mem_filter]
  have k1 : (1 : Fin 2) ∈ (rowScatterDims N E C wf).sKept := by
    refine List.mem_filter.mpr ⟨List.mem_finRange _, ?_⟩
    simpa using (show ¬ ((1 : Fin 2) = 0) by decide)
  have w0 : (rowScatterDims N E C wf).window (ix2 e c) (0 : Fin 2) = 0 := by
    unfold ScatterDims.window
    rw [dif_neg k0]
  have w1 : (rowScatterDims N E C wf).window (ix2 e c) (1 : Fin 2) = c.val := by
    unfold ScatterDims.window
    rw [dif_pos k1]
    rfl
  have hc := c.isLt
  unfold ScatterDims.resultIdx? landPos
  by_cases hl : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro a
      match a with
      | ⟨0, _⟩ =>
        show 0 ≤ (rowScatterDims N E C wf).start (ix2 e c) idx (0 : Fin 2) + ((rowScatterDims N E C wf).window (ix2 e c) (0 : Fin 2) : Int)
          ∧ (rowScatterDims N E C wf).start (ix2 e c) idx (0 : Fin 2) + ((rowScatterDims N E C wf).window (ix2 e c) (0 : Fin 2) : Int) < (N : Int)
        rw [s0, w0]; omega
      | ⟨1, _⟩ =>
        show 0 ≤ (rowScatterDims N E C wf).start (ix2 e c) idx (1 : Fin 2) + ((rowScatterDims N E C wf).window (ix2 e c) (1 : Fin 2) : Int)
          ∧ (rowScatterDims N E C wf).start (ix2 e c) idx (1 : Fin 2) + ((rowScatterDims N E C wf).window (ix2 e c) (1 : Fin 2) : Int) < (C : Int)
        rw [s1, w1]; omega
    rw [dif_pos hall, dif_pos hl]
    simp only [Option.some.injEq]
    constructor
    · intro h
      have e0 := congrArg (fun i => (i (0 : Fin 2)).val) h
      have e1 := congrArg (fun i => (i (1 : Fin 2)).val) h
      simp only at e0 e1
      have e0' : ((rowScatterDims N E C wf).start (ix2 e c) idx (0 : Fin 2) + ((rowScatterDims N E C wf).window (ix2 e c) (0 : Fin 2) : Int)).toNat = n.val := e0
      have e1' : ((rowScatterDims N E C wf).start (ix2 e c) idx (1 : Fin 2) + ((rowScatterDims N E C wf).window (ix2 e c) (1 : Fin 2) : Int)).toNat = c'.val := e1
      rw [s0, w0] at e0'
      rw [s1, w1] at e1'
      exact ⟨Fin.ext (by simp only; omega), Fin.ext (by omega)⟩
    · rintro ⟨hn, rfl⟩
      have hn' : (idx (ix2 e (0 : Fin 1))).toInt.toNat = n.val := congrArg Fin.val hn
      funext a; refine Fin.ext ?_
      match a with
      | ⟨0, _⟩ =>
        show ((rowScatterDims N E C wf).start (ix2 e c) idx (0 : Fin 2) + ((rowScatterDims N E C wf).window (ix2 e c) (0 : Fin 2) : Int)).toNat = n.val
        rw [s0, w0]; omega
      | ⟨1, _⟩ =>
        show ((rowScatterDims N E C wf).start (ix2 e c) idx (1 : Fin 2) + ((rowScatterDims N E C wf).window (ix2 e c) (1 : Fin 2) : Int)).toNat = c.val
        rw [s1, w1]; omega
  · have hnot : ¬ ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro h
      have h0 := h (0 : Fin 2)
      rw [s0, w0] at h0
      have h0' : 0 ≤ (idx (ix2 e (0 : Fin 1))).toInt + ((0 : Nat) : Int) ∧ (idx (ix2 e (0 : Fin 1))).toInt + ((0 : Nat) : Int) < (N : Int) := h0
      exact hl (by omega)
    rw [dif_neg hnot, dif_neg hl]
    simp

/-- THE SCATTER BY ADDITION READ AT (n, c), at the ideal values: the operand's entry plus the sum, over the update
    rows that land on n, of the update's entry in column c. -/
theorem scatterAdd_rows_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatterDims N E C wf) x idx upd (ix2 n c)
      = x (ix2 n c) + ∑ e ∈ Finset.univ.filter (fun e : Fin E => landPos N idx e = some n), upd (ix2 e c) := by
  unfold Ideal.hostScatterAdd
  congr 1
  rw [Finset.sum_filter, sum_idx2, Finset.sum_filter]
  refine Finset.sum_congr rfl fun e _ => ?_
  by_cases hL : landPos N idx e = some n
  · simp [resultIdx_rows, hL]
  · simp [resultIdx_rows, hL]

/-- The same, stated of the host operation's own spelling (at the ideal values it is that exact sum). -/
theorem host_scatterAdd_rows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatterDims N E C wf) x idx upd (ix2 n c)
      = x (ix2 n c) + ∑ e ∈ Finset.univ.filter (fun e : Fin E => landPos N idx e = some n), upd (ix2 e c) :=
  scatterAdd_rows_apply wf x idx upd n c

end Cert.Lib.RowGatherScatter

end
-- ==== Proof.RefAgg.lean ====
/-
  The neighbour sums of real features are real: at (n, c) the scatter-add of the gathered rows into zeros reads
  0 plus the sum, over the edges landing on node n, of the gathered entry, and a gathered entry is an entry of the
  features; a finite sum of real numbers is a real number.
-/
import proofs.«147060_j15040975470999_1_alg».proof.Proof.RefRunA
import proofs.«147060_j15040975470999_1_alg».proof.Proof.LibRowGatherScatter
import proofs.«147060_j15040975470999_1_alg».proof.Proof.GinMath
import Idealize.ShloMosaic.Lib.IdealHost
import Idealize.ShloMosaic.Lib.ValueIdx

noncomputable section

open scoped BigOperators

namespace Cert.ReferenceIdeal.HandRead

open Cert.ReferenceIdeal Cert.ReferenceIdeal.Gen Cert.ReferenceIdeal.Hand Idealize.ShloMosaic Idealize.ShloMosaic.ValueIdx
open Cert.Lib.RowGatherScatter Cert.Gin.Math

/-- The neighbour sums of real features are real. -/
theorem aggOps_isR (h : FVec Ideal S50000x128 .f32) (hh : ∀ i, IsR (h i)) (src dst : IVec S600000 32) (i : S50000x128.Idx) :
    IsR (aggOps (F := Ideal) h src dst i) := by
  obtain ⟨r, n, rfl⟩ : ∃ (r : Fin 50000) (n : Fin 128), i = ix2 r n := ⟨i 0, i 1, eq_ix2 i⟩
  unfold aggOps
  rw [show scatter_S50000x128_S600000x1_S600000x128_1_0_0_1 = rowScatterDims 50000 600000 128 scatter_S50000x128_S600000x1_S600000x128_1_0_0_1_wf from rfl,
    host_scatterAdd_rows_apply]
  refine IsR.add ?_ (IsR.sum _ _ fun e _ => ?_)
  · rw [broadcastInDim_scalar_apply, constant_apply, Ideal.ofBits_zero_f32]; exact IsR.zero
  · rw [show gather_S50000x128_S600000x1_S600000x128_1_0_n_n_0_1_1128 = rowGatherDims 50000 600000 128 gather_S50000x128_S600000x1_S600000x128_1_0_n_n_0_1_1128_wf from rfl,
      gather_rows_apply (by decide : 0 < 50000)]
    exact hh _

end Cert.ReferenceIdeal.HandRead

end
-- ==== Proof.LibFiniteCheck.lean ====
/-
  One finiteness check of a printed precondition, read back (general: any shape, any reduced axes).

  A precondition "every float input is finite" prints, per argument x, as a reduction by "and" over all axes of the
  one-bit array (|x| < +inf), started from the constant 1, and the claim states that the result is 1. Then the
  comparison is 1 at every index; an extended real whose absolute value max(x, -x) is below plus infinity is neither
  infinity; so every entry of x is a real number.
-/
import Idealize.ShloMosaic.Lib.ReduceAll
import Idealize.ShloMosaic.Lib.ValueIdx
import Idealize.ShloMosaic.Lib.Pipeline.Value
import Idealize.ShloMosaic.PureOps.Ideal

noncomputable section

namespace Cert.Lib.FiniteCheck

open Idealize.ShloMosaic Idealize.ShloMosaic.ValueIdx

/-- `Cert.Lib.FiniteCheck.scalarIdx_subsingleton`: the result of a reduction over all axes has one index. -/
instance scalarIdx_subsingleton : Subsingleton (⟨0, ![]⟩ : Shape).Idx := ⟨fun a b => funext fun d => d.elim0⟩

/-- `Cert.Lib.FiniteCheck.ofBits_inf`: the f32 pattern of plus infinity denotes plus infinity. -/
theorem ofBits_inf : Ideal.ofBits .f32 0x7F800000#32 = (⊤ : EReal) := by
  simp [Ideal.ofBits, Ideal.ieee]

/-- `Cert.Lib.FiniteCheck.real_of_abs_lt_top`: an extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- `Cert.Lib.FiniteCheck.all_real`: one check of the precondition. If "all entries have absolute value below plus
    infinity" came out 1, every entry is a real number. The shape relations are whatever the program states. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x)
        (broadcastInDim s (![] : Fin 0 → Fin s.rank) hb (constant (F := Ideal) ⟨0, ![]⟩ .f32 0x7F800000#32)))
        (constantI ⟨0, ![]⟩ 1 1#1) hr hu ix0 = 1#1) (i : s.Idx) : ∃ r : ℝ, x i = (r : EReal) := by
  have h1 := Host.reduce_andi_all _ _ hr hu ix0 e i
  rw [cmpf_apply, broadcastInDim_apply _ hb _ i ix0 (fun ax => ax.elim0)] at h1
  apply real_of_abs_lt_top
  have h2 : Ideal.cmp .olt (max (x i) (-(x i))) (Ideal.ofBits .f32 0x7F800000#32) = 1#1 := h1
  rw [ofBits_inf] at h2
  unfold Ideal.cmp at h2
  by_contra hn
  simp [hn] at h2

end Cert.Lib.FiniteCheck

end
-- ==== Proof.Finite.lean ====
/-
  From the precondition to real entries: when the check "every float input has absolute value below plus infinity"
  comes out 1, every entry of the nine float inputs is a real number (the conjunction is split, and each conjunct is
  "all entries pass", so each entry passes).
-/
import proofs.«147060_j15040975470999_1_alg».proof.Pre_finite_inputs
import proofs.«147060_j15040975470999_1_alg».proof.Proof.LibFiniteCheck
import Idealize.ShloMosaic.Lib.Affine

noncomputable section

namespace Cert.Gin.Finite

open Idealize.ShloMosaic Idealize.ShloMosaic.ValueIdx Cert.Pre_finite_inputs Cert.Lib.FiniteCheck

variable [Cert.Pre_finite_inputs.Facts]

/-- Every entry of every float input is a real number. -/
structure AllReal (a0 : FVec Ideal S50000x128 .f32) (a2 : FVec Ideal S3x128x128 .f32) (a3 : FVec Ideal S3x128 .f32)
    (a4 : FVec Ideal S3x128x128 .f32) (a5 : FVec Ideal S3x128 .f32) (a6 : FVec Ideal S3x128 .f32) (a7 : FVec Ideal S3x128 .f32)
    (a8 : FVec Ideal S128x1 .f32) (a9 : FVec Ideal S1 .f32) : Prop where
  r0 : ∀ i, ∃ r : ℝ, a0 i = (r : EReal)
  r2 : ∀ i, ∃ r : ℝ, a2 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)

theorem allReal_of_pre (a0 : FVec Ideal S50000x128 .f32) (a1 : IVec S2x600000 32) (a2 : FVec Ideal S3x128x128 .f32)
    (a3 : FVec Ideal S3x128 .f32) (a4 : FVec Ideal S3x128x128 .f32) (a5 : FVec Ideal S3x128 .f32) (a6 : FVec Ideal S3x128 .f32)
    (a7 : FVec Ideal S3x128 .f32) (a8 : FVec Ideal S128x1 .f32) (a9 : FVec Ideal S1 .f32)
    (h : fn (F := Ideal) a0 a1 a2 a3 a4 a5 a6 a7 a8 a9 = fun _ => 1#1) : AllReal a0 a2 a3 a4 a5 a6 a7 a8 a9 := by
  have h0 := congrFun h ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ e0, all_real a2 _ _ _ e2, all_real a3 _ _ _ e3, all_real a4 _ _ _ e4, all_real a5 _ _ _ e5,
    all_real a6 _ _ _ e6, all_real a7 _ _ _ e7, all_real a8 _ _ _ e8, all_real a9 _ _ _ e9⟩

end Cert.Gin.Finite

end
-- ==== Proof.Bridge.lean ====
/-
  The two programs' result arrays are one function of the arguments when every float argument is real: layer by
  layer the kernel's spelling (perceptron rows, column moments, scale and shift, rescaling) equals the reference's
  (perceptron, centred batch normalisation) and stays real (Cert.Gin.Layer.layer_eq, with the neighbour sums real by
  Cert.ReferenceIdeal.HandRead.aggOps_isR), and the read-outs agree.  A slice of a real array is real: each of its
  entries is an entry of the array.
-/
import proofs.«147060_j15040975470999_1_alg».proof.Proof.KChainDefs
import proofs.«147060_j15040975470999_1_alg».proof.Proof.KRead
import proofs.«147060_j15040975470999_1_alg».proof.Proof.Layer
import proofs.«147060_j15040975470999_1_alg».proof.Proof.RefAgg
import proofs.«147060_j15040975470999_1_alg».proof.Proof.Finite

noncomputable section

namespace Cert.Gin.Bridge

open Idealize.ShloMosaic Idealize.ShloMosaic.ValueIdx Cert.Gin Cert.Gin.Math Cert.Gin.Layer
open Cert.ReferenceIdeal Cert.ReferenceIdeal.Gen Cert.ReferenceIdeal.Hand Cert.ReferenceIdeal.HandRead
open Cert.KernelIdeal.Hand Cert.KernelIdeal.HandRead

/-! ## Slices of real arrays are real -/

theorem pick2_0_isR (a : FVec Ideal S3x128x128 .f32) (ha : ∀ i, IsR (a i)) (i : S128x128.Idx) : IsR (pick2_0 (F := Ideal) a i) := by
  unfold pick2_0 shapeCast extractStridedSlice; exact ha _
theorem pick2_1_isR (a : FVec Ideal S3x128x128 .f32) (ha : ∀ i, IsR (a i)) (i : S128x128.Idx) : IsR (pick2_1 (F := Ideal) a i) := by
  unfold pick2_1 shapeCast extractStridedSlice; exact ha _
theorem pick2_2_isR (a : FVec Ideal S3x128x128 .f32) (ha : ∀ i, IsR (a i)) (i : S128x128.Idx) : IsR (pick2_2 (F := Ideal) a i) := by
  unfold pick2_2 shapeCast extractStridedSlice; exact ha _
theorem pick1_0_isR (a : FVec Ideal S3x128 .f32) (ha : ∀ i, IsR (a i)) (i : S128.Idx) : IsR (pick1_0 (F := Ideal) a i) := by
  unfold pick1_0 shapeCast extractStridedSlice; exact ha _
theorem pick1_1_isR (a : FVec Ideal S3x128 .f32) (ha : ∀ i, IsR (a i)) (i : S128.Idx) : IsR (pick1_1 (F := Ideal) a i) := by
  unfold pick1_1 shapeCast extractStridedSlice; exact ha _
theorem pick1_2_isR (a : FVec Ideal S3x128 .f32) (ha : ∀ i, IsR (a i)) (i : S128.Idx) : IsR (pick1_2 (F := Ideal) a i) := by
  unfold pick1_2 shapeCast extractStridedSlice; exact ha _

/-! ## One layer -/

/-- The kernel's layer on row-shaped parameters is the reference's layer on the vectors, and its output is real. -/
theorem kLayer_eq (h : FVec Ideal S50000x128 .f32) (hh : ∀ i, IsR (h i)) (src dst : IVec S600000 32)
    (w1 : FVec Ideal S128x128 .f32) (hw1 : ∀ i, IsR (w1 i)) (b1 : FVec Ideal S128 .f32) (hb1 : ∀ i, IsR (b1 i))
    (w2 : FVec Ideal S128x128 .f32) (hw2 : ∀ i, IsR (w2 i)) (b2 : FVec Ideal S128 .f32) (hb2 : ∀ i, IsR (b2 i))
    (gam : FVec Ideal S128 .f32) (hg : ∀ i, IsR (gam i)) (bet : FVec Ideal S128 .f32) (hbt : ∀ i, IsR (bet i)) :
    kLayer h src dst w1 (kRow (F := Ideal) b1) w2 (kRow (F := Ideal) b2) (kRow (F := Ideal) gam) (kRow (F := Ideal) bet)
        = layerOps (F := Ideal) h src dst w1 b1 w2 b2 gam bet
      ∧ ∀ i, IsR (layerOps (F := Ideal) h src dst w1 b1 w2 b2 gam bet i) := by
  unfold kLayer kNorm layerOps
  rw [kAgg_eq]
  exact layer_eq h (aggOps (F := Ideal) h src dst) hh (aggOps_isR h hh src dst) w1 hw1 b1 hb1 w2 hw2 b2 hb2 gam hg bet hbt
    (kRow (F := Ideal) b1) (kRow (F := Ideal) b2) _ _ (kRow_at b1) (kRow_at b2)
    (fun n => by rw [kScale_at, kRow_at]) (fun n => by rw [kShift_at, kRow_at])

/-! ## The whole program -/

/-- With every float argument real, the kernel program's result function is the reference's. -/
theorem out_eq (a0 : FVec Ideal S50000x128 .f32) (a1 : IVec S2x600000 32) (a2 : FVec Ideal S3x128x128 .f32)
    (a3 : FVec Ideal S3x128 .f32) (a4 : FVec Ideal S3x128x128 .f32) (a5 a6 a7 : FVec Ideal S3x128 .f32)
    (a8 : FVec Ideal S128x1 .f32) (a9 : FVec Ideal S1 .f32)
    (r0 : ∀ i, IsR (a0 i)) (r2 : ∀ i, IsR (a2 i)) (r3 : ∀ i, IsR (a3 i)) (r4 : ∀ i, IsR (a4 i)) (r5 : ∀ i, IsR (a5 i))
    (r6 : ∀ i, IsR (a6 i)) (r7 : ∀ i, IsR (a7 i)) :
    kOut a0 a1 a2 a3 a4 a5 a6 a7 a8 a9 = refOut (F := Ideal) a0 a1 a2 a3 a4 a5 a6 a7 a8 a9 := by
  unfold kOut refOut
  rw [kSrc_eq, kDst_eq, kPick2_0_eq, kPick2_0_eq, kPick2_1_eq, kPick2_1_eq, kPick2_2_eq, kPick2_2_eq,
    kPick1_0_eq, kPick1_0_eq, kPick1_0_eq, kPick1_0_eq, kPick1_1_eq, kPick1_1_eq, kPick1_1_eq, kPick1_1_eq,
    kPick1_2_eq, kPick1_2_eq, kPick1_2_eq, kPick1_2_eq]
  obtain ⟨e0, h0⟩ := kLayer_eq a0 r0 (srcOf (F := Ideal) a1) (dstOf (F := Ideal) a1) _ (pick2_0_isR a2 r2) _ (pick1_0_isR a3 r3)
    _ (pick2_0_isR a4 r4) _ (pick1_0_isR a5 r5) _ (pick1_0_isR a6 r6) _ (pick1_0_isR a7 r7)
  rw [e0]
  obtain ⟨e1, h1⟩ := kLayer_eq _ h0 (srcOf (F := Ideal) a1) (dstOf (F := Ideal) a1) _ (pick2_1_isR a2 r2) _ (pick1_1_isR a3 r3)
    _ (pick2_1_isR a4 r4) _ (pick1_1_isR a5 r5) _ (pick1_1_isR a6 r6) _ (pick1_1_isR a7 r7)
  rw [e1]
  obtain ⟨e2, -⟩ := kLayer_eq _ h1 (srcOf (F := Ideal) a1) (dstOf (F := Ideal) a1) _ (pick2_2_isR a2 r2) _ (pick1_2_isR a3 r3)
    _ (pick2_2_isR a4 r4) _ (pick1_2_isR a5 r5) _ (pick1_2_isR a6 r6) _ (pick1_2_isR a7 r7)
  rw [e2]
  exact readOut_eq _ a8 a9 _ _ (kTranspose_at a8) (kReshape_at a9)

end Cert.Gin.Bridge

end
-- ==== Proof.Algebraic.lean ====
/-
  The two idealized programs end with equal results.  The kernel program's run leaves in its result array the last
  boundary's contents, which the walk through its seven launches and host stretches identifies as the kernel's
  result function of the launch arguments; the reference's run leaves the reference's result function of its
  arguments; the arguments agree, every float argument is real by the precondition, and on real arguments the two
  functions are one (Cert.Gin.Bridge.out_eq).
-/
import proofs.«147060_j15040975470999_1_alg».proof.Defs
import proofs.«147060_j15040975470999_1_alg».proof.Proof.Gen.KernelIdeal
import proofs.«147060_j15040975470999_1_alg».proof.Proof.Gen.ReferenceIdeal
import proofs.«147060_j15040975470999_1_alg».proof.Proof.Gen.Pre_finite_inputs
import proofs.«147060_j15040975470999_1_alg».proof.Proof.KRun
import proofs.«147060_j15040975470999_1_alg».proof.Proof.RefRun
import proofs.«147060_j15040975470999_1_alg».proof.Proof.Bridge
import proofs.«147060_j15040975470999_1_alg».proof.Proof.Finite

noncomputable section

namespace Cert.Proof

open Idealize.ShloMosaic Idealize.ShloMosaic.TcCoe Idealize.SL.Sem

/-- Given that the last boundary's contents of the result array are the kernel's result function of the launch
    arguments, the two idealized programs end with equal results and unchanged arguments. -/
theorem algebraic_of
    (hk : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
        Cert.KernelIdeal.Gen.W14 (F := Ideal) m ρ c (Proc.devRef .tc Cert.KernelIdeal.main_v126)
          = Cert.KernelIdeal.Hand.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) :
    Cert.algebraic_KernelIdeal_ReferenceIdeal := by
  intro m ρ m' ρ' hpre hagree
  refine ⟨fun c => Cert.KernelIdeal.Hand.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run _ _ _).mono (fun r h c => ⟨(h c).1.trans (hk m ρ c), (h c).2⟩) (Cert.KernelIdeal.Hand.run (F := Ideal) m ρ)
  · refine (θ_run _ _ _).mono (fun r h c => ⟨(h c).1.trans ?_, (h c).2⟩) (Cert.ReferenceIdeal.Hand.run (F := Ideal) m' ρ')
    obtain ⟨e0, e1, e2, e3, e4, e5, e6, e7, e8, e9⟩ := hagree c
    rw [e0, e1, e2, e3, e4, e5, e6, e7, e8, e9]
    have R := Cert.Gin.Finite.allReal_of_pre _ _ _ _ _ _ _ _ _ _ (hpre c)
    exact (Cert.Gin.Bridge.out_eq _ _ _ _ _ _ _ _ _ _ R.r0 R.r2 R.r3 R.r4 R.r5 R.r6 R.r7).symm

end Cert.Proof

end
-- ==== Proof.RegionIface.lean ====
/-
  What each of the seven kernel launches leaves in its output arrays, as functions of the arrays it found: the
  statements only, collected in one record so that the walk through the whole program and the launch-by-launch
  arguments can be written side by side.  `V` is the contents of the buffers when a launch starts.
-/
import proofs.«147060_j15040975470999_1_alg».proof.Proof.Gen.KernelIdeal.Frame
import proofs.«147060_j15040975470999_1_alg».proof.Proof.Spec

noncomputable section

namespace Cert.KernelIdeal.RegionValue

open Idealize.ShloMosaic Idealize.ShloMosaic.TcCoe Idealize.SL.Sem Cert.KernelIdeal Cert.KernelIdeal.Gen Cert.Gin

set_option maxHeartbeats 4000000 in
/-- The perceptron launches (0, 2, 4): the rows' values, and the column sums of the values and of their squares. -/
structure Facts : Prop where
  z0 : ∀ (V : (c : Dev nD) → (b : Ref sig .tc) → Buf (Elt Ideal) ((c : Thread nD τ).loc b)) (c : Dev nD), (dat0 (F := Ideal) V c).arrAt 6 cfg0.N
      = zArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
  s0 : ∀ (V : (c : Dev nD) → (b : Ref sig .tc) → Buf (Elt Ideal) ((c : Thread nD τ).loc b)) (c : Dev nD), (dat0 (F := Ideal) V c).arrAt 7 cfg0.N
      = colSum (zArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))
  q0 : ∀ (V : (c : Dev nD) → (b : Ref sig .tc) → Buf (Elt Ideal) ((c : Thread nD τ).loc b)) (c : Dev nD), (dat0 (F := Ideal) V c).arrAt 8 cfg0.N
      = colSumSq (zArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))
  h1 : ∀ (V : (c : Dev nD) → (b : Ref sig .tc) → Buf (Elt Ideal) ((c : Thread nD τ).loc b)) (c : Dev nD), (dat1 (F := Ideal) V c).arrAt 3 cfg1.N
      = affRelu (V c (Pipeline.arrRef spec1 0)) (V c (Pipeline.arrRef spec1 1)) (V c (Pipeline.arrRef spec1 2))
  z2 : ∀ (V : (c : Dev nD) → (b : Ref sig .tc) → Buf (Elt Ideal) ((c : Thread nD τ).loc b)) (c : Dev nD), (dat2 (F := Ideal) V c).arrAt 6 cfg2.N
      = zArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
  s2 : ∀ (V : (c : Dev nD) → (b : Ref sig .tc) → Buf (Elt Ideal) ((c : Thread nD τ).loc b)) (c : Dev nD), (dat2 (F := Ideal) V c).arrAt 7 cfg2.N
      = colSum (zArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
  q2 : ∀ (V : (c : Dev nD) → (b : Ref sig .tc) → Buf (Elt Ideal) ((c : Thread nD τ).loc b)) (c : Dev nD), (dat2 (F := Ideal) V c).arrAt 8 cfg2.N
      = colSumSq (zArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
  h3 : ∀ (V : (c : Dev nD) → (b : Ref sig .tc) → Buf (Elt Ideal) ((c : Thread nD τ).loc b)) (c : Dev nD), (dat3 (F := Ideal) V c).arrAt 3 cfg3.N
      = affRelu (V c (Pipeline.arrRef spec3 0)) (V c (Pipeline.arrRef spec3 1)) (V c (Pipeline.arrRef spec3 2))
  z4 : ∀ (V : (c : Dev nD) → (b : Ref sig .tc) → Buf (Elt Ideal) ((c : Thread nD τ).loc b)) (c : Dev nD), (dat4 (F := Ideal) V c).arrAt 6 cfg4.N
      = zArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
  s4 : ∀ (V : (c : Dev nD) → (b : Ref sig .tc) → Buf (Elt Ideal) ((c : Thread nD τ).loc b)) (c : Dev nD), (dat4 (F := Ideal) V c).arrAt 7 cfg4.N
      = colSum (zArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))
  q4 : ∀ (V : (c : Dev nD) → (b : Ref sig .tc) → Buf (Elt Ideal) ((c : Thread nD τ).loc b)) (c : Dev nD), (dat4 (F := Ideal) V c).arrAt 8 cfg4.N
      = colSumSq (zArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))
  h5 : ∀ (V : (c : Dev nD) → (b : Ref sig .tc) → Buf (Elt Ideal) ((c : Thread nD τ).loc b)) (c : Dev nD), (dat5 (F := Ideal) V c).arrAt 3 cfg5.N
      = affRelu (V c (Pipeline.arrRef spec5 0)) (V c (Pipeline.arrRef spec5 1)) (V c (Pipeline.arrRef spec5 2))
  o6 : ∀ (V : (c : Dev nD) → (b : Ref sig .tc) → Buf (Elt Ideal) ((c : Thread nD τ).loc b)) (c : Dev nD), (dat6 (F := Ideal) V c).arrAt 3 cfg6.N
      = readOut (V c (Pipeline.arrRef spec6 0)) (V c (Pipeline.arrRef spec6 1)) (V c (Pipeline.arrRef spec6 2))

end Cert.KernelIdeal.RegionValue

end
-- ==== Proof.KChainLib.lean ====
/-
  Small tools for walking a program's buffers from one boundary to the next: equal arguments give equal values
  (for functions of three, four and six arrays), and the check that a stretch of host operations writes none of
  the buffers one is following.
-/
import proofs.«147060_j15040975470999_1_alg».proof.Proof.Gen.KernelIdeal.Frame
import proofs.«147060_j15040975470999_1_alg».proof.Proof.KChainDefs
import proofs.«147060_j15040975470999_1_alg».proof.Proof.RegionIface

noncomputable section

namespace Cert.KernelIdeal.Hand

open Idealize.ShloMosaic

universe u

/-- A function of three arguments takes equal arguments to equal values. -/
theorem congr3 {α β γ δ : Sort u} (f : α → β → γ → δ) {a a' : α} {b b' : β} {c c' : γ}
    (ha : a = a') (hb : b = b') (hc : c = c') : f a b c = f a' b' c' := by
  subst ha hb hc; rfl

/-- A function of four arguments takes equal arguments to equal values. -/
theorem congr4 {α β γ δ ε : Sort u} (f : α → β → γ → δ → ε) {a a' : α} {b b' : β} {c c' : γ} {d d' : δ}
    (ha : a = a') (hb : b = b') (hc : c = c') (hd : d = d') : f a b c d = f a' b' c' d' := by
  subst ha hb hc hd; rfl

/-- A function of six arguments takes equal arguments to equal values. -/
theorem congr6 {α β γ δ ε ζ η : Sort u} (f : α → β → γ → δ → ε → ζ → η) {a a' : α} {b b' : β} {c c' : γ} {d d' : δ}
    {e e' : ε} {g g' : ζ} (ha : a = a') (hb : b = b') (hc : c = c') (hd : d = d') (he : e = e') (hg : g = g') :
    f a b c d e g = f a' b' c' d' e' g' := by
  subst ha hb hc hd he hg; rfl

/-- Closes "no operation of the stretch writes this buffer": the stretch is unfolded into its operations, each
    operation writes one named buffer, and that buffer is another one. -/
macro "no_write" ops:ident : tactic => `(tactic| (
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

end Cert.KernelIdeal.Hand

end
-- ==== Proof.KChain0.lean ====
/-
  Layer 0 of the program, walked from the buffer contents before its first host operation to the contents after
  its second launch: the host operations give the neighbour sums and the layer's slices of the parameters, the first
  launch the perceptron's values with their column sums, the host operations after it the columns' scale and shift,
  and the second launch the rescaled and rectified values. Every buffer is named by a rewrite, never opened.
-/
import proofs.«147060_j15040975470999_1_alg».proof.Proof.KChainLib

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg) (c : Dev nD)

/-! ## After the host operations before the first launch: the layer's operands -/

theorem W1_hIn :
    W1 m ρ c (Proc.devRef .tc main_arg0) = W0 m ρ c (Proc.devRef .tc main_arg0) :=
  StableHlo.after_of_forall_not_mem (b := Proc.devRef .tc main_arg0) _ _ (List.forall_iff_forall_mem.mp (by no_write hostOps0))

theorem W1_v1 :
    W1 m ρ c (Proc.devRef .tc main_v1) = kSrc (F := Ideal) (W0 m ρ c (Proc.devRef .tc main_arg1)) :=
  by
  show StableHlo.after hostOps0 (W0 m ρ c) (Proc.devRef .tc main_v1) = _
  after_results
  rfl

theorem W1_v3 :
    W1 m ρ c (Proc.devRef .tc main_v3) = kDst (F := Ideal) (W0 m ρ c (Proc.devRef .tc main_arg1)) :=
  by
  show StableHlo.after hostOps0 (W0 m ρ c) (Proc.devRef .tc main_v3) = _
  after_results
  rfl

theorem W1_v13 :
    W1 m ρ c (Proc.devRef .tc main_v13) = kAgg (F := Ideal) (W0 m ρ c (Proc.devRef .tc main_arg0)) (kSrc (F := Ideal) (W0 m ρ c (Proc.devRef .tc main_arg1))) (kDst (F := Ideal) (W0 m ρ c (Proc.devRef .tc main_arg1))) :=
  by
  show StableHlo.after hostOps0 (W0 m ρ c) (Proc.devRef .tc main_v13) = _
  after_results
  rfl

theorem W1_v15 :
    W1 m ρ c (Proc.devRef .tc main_v15) = kPick2_0 (F := Ideal) (W0 m ρ c (Proc.devRef .tc main_arg2)) :=
  by
  show StableHlo.after hostOps0 (W0 m ρ c) (Proc.devRef .tc main_v15) = _
  after_results
  rfl

theorem W1_v18 :
    W1 m ρ c (Proc.devRef .tc main_v18) = kRow (F := Ideal) (kPick1_0 (F := Ideal) (W0 m ρ c (Proc.devRef .tc main_arg3))) :=
  by
  show StableHlo.after hostOps0 (W0 m ρ c) (Proc.devRef .tc main_v18) = _
  after_results
  rfl

theorem W1_v20 :
    W1 m ρ c (Proc.devRef .tc main_v20) = kPick2_0 (F := Ideal) (W0 m ρ c (Proc.devRef .tc main_arg4)) :=
  by
  show StableHlo.after hostOps0 (W0 m ρ c) (Proc.devRef .tc main_v20) = _
  after_results
  rfl

theorem W1_v23 :
    W1 m ρ c (Proc.devRef .tc main_v23) = kRow (F := Ideal) (kPick1_0 (F := Ideal) (W0 m ρ c (Proc.devRef .tc main_arg5))) :=
  by
  show StableHlo.after hostOps0 (W0 m ρ c) (Proc.devRef .tc main_v23) = _
  after_results
  rfl

/-! ## After the first launch: the perceptron's values and their column sums -/

theorem V1_z :
    zArr (V1 m ρ c (Pipeline.arrRef spec0 0)) (V1 m ρ c (Pipeline.arrRef spec0 1)) (V1 m ρ c (Pipeline.arrRef spec0 2)) (V1 m ρ c (Pipeline.arrRef spec0 3)) (V1 m ρ c (Pipeline.arrRef spec0 4)) (V1 m ρ c (Pipeline.arrRef spec0 5))
      = zArr (W0 m ρ c (Proc.devRef .tc main_arg0)) (kAgg (F := Ideal) (W0 m ρ c (Proc.devRef .tc main_arg0)) (kSrc (F := Ideal) (W0 m ρ c (Proc.devRef .tc main_arg1))) (kDst (F := Ideal) (W0 m ρ c (Proc.devRef .tc main_arg1)))) (kPick2_0 (F := Ideal) (W0 m ρ c (Proc.devRef .tc main_arg2))) (kRow (F := Ideal) (kPick1_0 (F := Ideal) (W0 m ρ c (Proc.devRef .tc main_arg3)))) (kPick2_0 (F := Ideal) (W0 m ρ c (Proc.devRef .tc main_arg4))) (kRow (F := Ideal) (kPick1_0 (F := Ideal) (W0 m ρ c (Proc.devRef .tc main_arg5)))) :=
  congr6 zArr (W1_hIn m ρ c) (W1_v13 m ρ c) (W1_v15 m ρ c) (W1_v18 m ρ c) (W1_v20 m ρ c) (W1_v23 m ρ c)

theorem W2_z (R : RegionValue.Facts) :
    W2 m ρ c (Proc.devRef .tc main_v24_0) = zArr (W0 m ρ c (Proc.devRef .tc main_arg0)) (kAgg (F := Ideal) (W0 m ρ c (Proc.devRef .tc main_arg0)) (kSrc (F := Ideal) (W0 m ρ c (Proc.devRef .tc main_arg1))) (kDst (F := Ideal) (W0 m ρ c (Proc.devRef .tc main_arg1)))) (kPick2_0 (F := Ideal) (W0 m ρ c (Proc.devRef .tc main_arg2))) (kRow (F := Ideal) (kPick1_0 (F := Ideal) (W0 m ρ c (Proc.devRef .tc main_arg3)))) (kPick2_0 (F := Ideal) (W0 m ρ c (Proc.devRef .tc main_arg4))) (kRow (F := Ideal) (kPick1_0 (F := Ideal) (W0 m ρ c (Proc.devRef .tc main_arg5)))) :=
  (W2_arr m ρ c 6).trans ((R.z0 (V1 m ρ) c).trans (V1_z m ρ c))

theorem W2_s (R : RegionValue.Facts) :
    W2 m ρ c (Proc.devRef .tc main_v24_1) = colSum (zArr (W0 m ρ c (Proc.devRef .tc main_arg0)) (kAgg (F := Ideal) (W0 m ρ c (Proc.devRef .tc main_arg0)) (kSrc (F := Ideal) (W0 m ρ c (Proc.devRef .tc main_arg1))) (kDst (F := Ideal) (W0 m ρ c (Proc.devRef .tc main_arg1)))) (kPick2_0 (F := Ideal) (W0 m ρ c (Proc.devRef .tc main_arg2))) (kRow (F := Ideal) (kPick1_0 (F := Ideal) (W0 m ρ c (Proc.devRef .tc main_arg3)))) (kPick2_0 (F := Ideal) (W0 m ρ c (Proc.devRef .tc main_arg4))) (kRow (F := Ideal) (kPick1_0 (F := Ideal) (W0 m ρ c (Proc.devRef .tc main_arg5))))) :=
  (W2_arr m ρ c 7).trans ((R.s0 (V1 m ρ) c).trans (congrArg colSum (V1_z m ρ c)))

theorem W2_q (R : RegionValue.Facts) :
    W2 m ρ c (Proc.devRef .tc main_v24_2) = colSumSq (zArr (W0 m ρ c (Proc.devRef .tc main_arg0)) (kAgg (F := Ideal) (W0 m ρ c (Proc.devRef .tc main_arg0)) (kSrc (F := Ideal) (W0 m ρ c (Proc.devRef .tc main_arg1))) (kDst (F := Ideal) (W0 m ρ c (Proc.devRef .tc main_arg1)))) (kPick2_0 (F := Ideal) (W0 m ρ c (Proc.devRef .tc main_arg2))) (kRow (F := Ideal) (kPick1_0 (F := Ideal) (W0 m ρ c (Proc.devRef .tc main_arg3)))) (kPick2_0 (F := Ideal) (W0 m ρ c (Proc.devRef .tc main_arg4))) (kRow (F := Ideal) (kPick1_0 (F := Ideal) (W0 m ρ c (Proc.devRef .tc main_arg5))))) :=
  (W2_arr m ρ c 8).trans ((R.q0 (V1 m ρ) c).trans (congrArg colSumSq (V1_z m ρ c)))

theorem W2_arg6 :
    W2 m ρ c (Proc.devRef .tc main_arg6) = W0 m ρ c (Proc.devRef .tc main_arg6) :=
  (W2_of_ne m ρ c main_arg6 (by decide)).trans (StableHlo.after_of_forall_not_mem (b := Proc.devRef .tc main_arg6) _ _ (List.forall_iff_forall_mem.mp (by no_write hostOps0)))

theorem W2_arg7 :
    W2 m ρ c (Proc.devRef .tc main_arg7) = W0 m ρ c (Proc.devRef .tc main_arg7) :=
  (W2_of_ne m ρ c main_arg7 (by decide)).trans (StableHlo.after_of_forall_not_mem (b := Proc.devRef .tc main_arg7) _ _ (List.forall_iff_forall_mem.mp (by no_write hostOps0)))

/-! ## After the host operations between the launches: the columns' scale and shift -/

theorem W3_z :
    W3 m ρ c (Proc.devRef .tc main_v24_0) = W2 m ρ c (Proc.devRef .tc main_v24_0) :=
  StableHlo.after_of_forall_not_mem (b := Proc.devRef .tc main_v24_0) _ _ (List.forall_iff_forall_mem.mp (by no_write hostOps1))

theorem W3_v37 :
    W3 m ρ c (Proc.devRef .tc main_v37) = kScale (F := Ideal) (W2 m ρ c (Proc.devRef .tc main_v24_1)) (W2 m ρ c (Proc.devRef .tc main_v24_2)) (kRow (F := Ideal) (kPick1_0 (F := Ideal) (W2 m ρ c (Proc.devRef .tc main_arg6)))) :=
  by
  show StableHlo.after hostOps1 (W2 m ρ c) (Proc.devRef .tc main_v37) = _
  after_results_simp
  rfl

theorem W3_v42 :
    W3 m ρ c (Proc.devRef .tc main_v42) = kShift (F := Ideal) (W2 m ρ c (Proc.devRef .tc main_v24_1)) (W2 m ρ c (Proc.devRef .tc main_v24_2)) (kRow (F := Ideal) (kPick1_0 (F := Ideal) (W2 m ρ c (Proc.devRef .tc main_arg6)))) (kRow (F := Ideal) (kPick1_0 (F := Ideal) (W2 m ρ c (Proc.devRef .tc main_arg7)))) :=
  by
  show StableHlo.after hostOps1 (W2 m ρ c) (Proc.devRef .tc main_v42) = _
  after_results_simp
  rfl

/-! ## After the second launch: the layer's result -/

theorem W4_hOut (R : RegionValue.Facts) :
    W4 m ρ c (Proc.devRef .tc main_v43)
      = kLayer (W0 m ρ c (Proc.devRef .tc main_arg0)) (kSrc (F := Ideal) (W0 m ρ c (Proc.devRef .tc main_arg1))) (kDst (F := Ideal) (W0 m ρ c (Proc.devRef .tc main_arg1))) (kPick2_0 (F := Ideal) (W0 m ρ c (Proc.devRef .tc main_arg2))) (kRow (F := Ideal) (kPick1_0 (F := Ideal) (W0 m ρ c (Proc.devRef .tc main_arg3)))) (kPick2_0 (F := Ideal) (W0 m ρ c (Proc.devRef .tc main_arg4))) (kRow (F := Ideal) (kPick1_0 (F := Ideal) (W0 m ρ c (Proc.devRef .tc main_arg5)))) (kRow (F := Ideal) (kPick1_0 (F := Ideal) (W0 m ρ c (Proc.devRef .tc main_arg6)))) (kRow (F := Ideal) (kPick1_0 (F := Ideal) (W0 m ρ c (Proc.devRef .tc main_arg7)))) :=
  (W4_arr m ρ c 3).trans ((R.h1 (V3 m ρ) c).trans
    (congr3 affRelu ((W3_z m ρ c).trans (W2_z m ρ c R))
      ((W3_v37 m ρ c).trans (congr3 (kScale (F := Ideal)) (W2_s m ρ c R) (W2_q m ρ c R) (congrArg (fun a => kRow (F := Ideal) (kPick1_0 (F := Ideal) a)) (W2_arg6 m ρ c))))
      ((W3_v42 m ρ c).trans (congr4 (kShift (F := Ideal)) (W2_s m ρ c R) (W2_q m ρ c R) (congrArg (fun a => kRow (F := Ideal) (kPick1_0 (F := Ideal) a)) (W2_arg6 m ρ c)) (congrArg (fun a => kRow (F := Ideal) (kPick1_0 (F := Ideal) a)) (W2_arg7 m ρ c))))))

/-! ## The buffers the layer leaves alone -/

theorem W4_keep_v1 :
    W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by no_write hostOps1))
    _ = W1 m ρ c (Proc.devRef .tc main_v1) := W2_of_ne m ρ c main_v1 (by decide)

theorem W4_keep_v3 :
    W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by no_write hostOps1))
    _ = W1 m ρ c (Proc.devRef .tc main_v3) := W2_of_ne m ρ c main_v3 (by decide)

theorem W4_keep_arg2 :
    W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by no_write hostOps1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by no_write hostOps0))

theorem W4_keep_arg3 :
    W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by no_write hostOps1))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by no_write hostOps0))

theorem W4_keep_arg4 :
    W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by no_write hostOps1))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by no_write hostOps0))

theorem W4_keep_arg5 :
    W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by no_write hostOps1))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by no_write hostOps0))

theorem W4_keep_arg6 :
    W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by no_write hostOps1))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by no_write hostOps0))

theorem W4_keep_arg7 :
    W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by no_write hostOps1))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by no_write hostOps0))

theorem W4_keep_arg8 :
    W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by no_write hostOps1))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by no_write hostOps0))

theorem W4_keep_arg9 :
    W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by no_write hostOps1))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by no_write hostOps0))

end Cert.KernelIdeal.Hand

end
-- ==== Proof.KChain1.lean ====
/-
  Layer 1 of the program, walked from the buffer contents before its first host operation to the contents after
  its second launch: the host operations give the neighbour sums and the layer's slices of the parameters, the first
  launch the perceptron's values with their column sums, the host operations after it the columns' scale and shift,
  and the second launch the rescaled and rectified values. Every buffer is named by a rewrite, never opened.
-/
import proofs.«147060_j15040975470999_1_alg».proof.Proof.KChainLib

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg) (c : Dev nD)

/-! ## After the host operations before the first launch: the layer's operands -/

theorem W5_hIn :
    W5 m ρ c (Proc.devRef .tc main_v43) = W4 m ρ c (Proc.devRef .tc main_v43) :=
  StableHlo.after_of_forall_not_mem (b := Proc.devRef .tc main_v43) _ _ (List.forall_iff_forall_mem.mp (by no_write hostOps2))

theorem W5_v53 :
    W5 m ρ c (Proc.devRef .tc main_v53) = kAgg (F := Ideal) (W4 m ρ c (Proc.devRef .tc main_v43)) (W4 m ρ c (Proc.devRef .tc main_v1)) (W4 m ρ c (Proc.devRef .tc main_v3)) :=
  by
  show StableHlo.after hostOps2 (W4 m ρ c) (Proc.devRef .tc main_v53) = _
  after_results_simp
  rfl

theorem W5_v55 :
    W5 m ρ c (Proc.devRef .tc main_v55) = kPick2_1 (F := Ideal) (W4 m ρ c (Proc.devRef .tc main_arg2)) :=
  by
  show StableHlo.after hostOps2 (W4 m ρ c) (Proc.devRef .tc main_v55) = _
  after_results_simp
  rfl

theorem W5_v58 :
    W5 m ρ c (Proc.devRef .tc main_v58) = kRow (F := Ideal) (kPick1_1 (F := Ideal) (W4 m ρ c (Proc.devRef .tc main_arg3))) :=
  by
  show StableHlo.after hostOps2 (W4 m ρ c) (Proc.devRef .tc main_v58) = _
  after_results_simp
  rfl

theorem W5_v60 :
    W5 m ρ c (Proc.devRef .tc main_v60) = kPick2_1 (F := Ideal) (W4 m ρ c (Proc.devRef .tc main_arg4)) :=
  by
  show StableHlo.after hostOps2 (W4 m ρ c) (Proc.devRef .tc main_v60) = _
  after_results_simp
  rfl

theorem W5_v63 :
    W5 m ρ c (Proc.devRef .tc main_v63) = kRow (F := Ideal) (kPick1_1 (F := Ideal) (W4 m ρ c (Proc.devRef .tc main_arg5))) :=
  by
  show StableHlo.after hostOps2 (W4 m ρ c) (Proc.devRef .tc main_v63) = _
  after_results_simp
  rfl

/-! ## After the first launch: the perceptron's values and their column sums -/

theorem V5_z :
    zArr (V5 m ρ c (Pipeline.arrRef spec2 0)) (V5 m ρ c (Pipeline.arrRef spec2 1)) (V5 m ρ c (Pipeline.arrRef spec2 2)) (V5 m ρ c (Pipeline.arrRef spec2 3)) (V5 m ρ c (Pipeline.arrRef spec2 4)) (V5 m ρ c (Pipeline.arrRef spec2 5))
      = zArr (W4 m ρ c (Proc.devRef .tc main_v43)) (kAgg (F := Ideal) (W4 m ρ c (Proc.devRef .tc main_v43)) (W4 m ρ c (Proc.devRef .tc main_v1)) (W4 m ρ c (Proc.devRef .tc main_v3))) (kPick2_1 (F := Ideal) (W4 m ρ c (Proc.devRef .tc main_arg2))) (kRow (F := Ideal) (kPick1_1 (F := Ideal) (W4 m ρ c (Proc.devRef .tc main_arg3)))) (kPick2_1 (F := Ideal) (W4 m ρ c (Proc.devRef .tc main_arg4))) (kRow (F := Ideal) (kPick1_1 (F := Ideal) (W4 m ρ c (Proc.devRef .tc main_arg5)))) :=
  congr6 zArr (W5_hIn m ρ c) (W5_v53 m ρ c) (W5_v55 m ρ c) (W5_v58 m ρ c) (W5_v60 m ρ c) (W5_v63 m ρ c)

theorem W6_z (R : RegionValue.Facts) :
    W6 m ρ c (Proc.devRef .tc main_v64_0) = zArr (W4 m ρ c (Proc.devRef .tc main_v43)) (kAgg (F := Ideal) (W4 m ρ c (Proc.devRef .tc main_v43)) (W4 m ρ c (Proc.devRef .tc main_v1)) (W4 m ρ c (Proc.devRef .tc main_v3))) (kPick2_1 (F := Ideal) (W4 m ρ c (Proc.devRef .tc main_arg2))) (kRow (F := Ideal) (kPick1_1 (F := Ideal) (W4 m ρ c (Proc.devRef .tc main_arg3)))) (kPick2_1 (F := Ideal) (W4 m ρ c (Proc.devRef .tc main_arg4))) (kRow (F := Ideal) (kPick1_1 (F := Ideal) (W4 m ρ c (Proc.devRef .tc main_arg5)))) :=
  (W6_arr m ρ c 6).trans ((R.z2 (V5 m ρ) c).trans (V5_z m ρ c))

theorem W6_s (R : RegionValue.Facts) :
    W6 m ρ c (Proc.devRef .tc main_v64_1) = colSum (zArr (W4 m ρ c (Proc.devRef .tc main_v43)) (kAgg (F := Ideal) (W4 m ρ c (Proc.devRef .tc main_v43)) (W4 m ρ c (Proc.devRef .tc main_v1)) (W4 m ρ c (Proc.devRef .tc main_v3))) (kPick2_1 (F := Ideal) (W4 m ρ c (Proc.devRef .tc main_arg2))) (kRow (F := Ideal) (kPick1_1 (F := Ideal) (W4 m ρ c (Proc.devRef .tc main_arg3)))) (kPick2_1 (F := Ideal) (W4 m ρ c (Proc.devRef .tc main_arg4))) (kRow (F := Ideal) (kPick1_1 (F := Ideal) (W4 m ρ c (Proc.devRef .tc main_arg5))))) :=
  (W6_arr m ρ c 7).trans ((R.s2 (V5 m ρ) c).trans (congrArg colSum (V5_z m ρ c)))

theorem W6_q (R : RegionValue.Facts) :
    W6 m ρ c (Proc.devRef .tc main_v64_2) = colSumSq (zArr (W4 m ρ c (Proc.devRef .tc main_v43)) (kAgg (F := Ideal) (W4 m ρ c (Proc.devRef .tc main_v43)) (W4 m ρ c (Proc.devRef .tc main_v1)) (W4 m ρ c (Proc.devRef .tc main_v3))) (kPick2_1 (F := Ideal) (W4 m ρ c (Proc.devRef .tc main_arg2))) (kRow (F := Ideal) (kPick1_1 (F := Ideal) (W4 m ρ c (Proc.devRef .tc main_arg3)))) (kPick2_1 (F := Ideal) (W4 m ρ c (Proc.devRef .tc main_arg4))) (kRow (F := Ideal) (kPick1_1 (F := Ideal) (W4 m ρ c (Proc.devRef .tc main_arg5))))) :=
  (W6_arr m ρ c 8).trans ((R.q2 (V5 m ρ) c).trans (congrArg colSumSq (V5_z m ρ c)))

theorem W6_arg6 :
    W6 m ρ c (Proc.devRef .tc main_arg6) = W4 m ρ c (Proc.devRef .tc main_arg6) :=
  (W6_of_ne m ρ c main_arg6 (by decide)).trans (StableHlo.after_of_forall_not_mem (b := Proc.devRef .tc main_arg6) _ _ (List.forall_iff_forall_mem.mp (by no_write hostOps2)))

theorem W6_arg7 :
    W6 m ρ c (Proc.devRef .tc main_arg7) = W4 m ρ c (Proc.devRef .tc main_arg7) :=
  (W6_of_ne m ρ c main_arg7 (by decide)).trans (StableHlo.after_of_forall_not_mem (b := Proc.devRef .tc main_arg7) _ _ (List.forall_iff_forall_mem.mp (by no_write hostOps2)))

/-! ## After the host operations between the launches: the columns' scale and shift -/

theorem W7_z :
    W7 m ρ c (Proc.devRef .tc main_v64_0) = W6 m ρ c (Proc.devRef .tc main_v64_0) :=
  StableHlo.after_of_forall_not_mem (b := Proc.devRef .tc main_v64_0) _ _ (List.forall_iff_forall_mem.mp (by no_write hostOps3))

theorem W7_v77 :
    W7 m ρ c (Proc.devRef .tc main_v77) = kScale (F := Ideal) (W6 m ρ c (Proc.devRef .tc main_v64_1)) (W6 m ρ c (Proc.devRef .tc main_v64_2)) (kRow (F := Ideal) (kPick1_1 (F := Ideal) (W6 m ρ c (Proc.devRef .tc main_arg6)))) :=
  by
  show StableHlo.after hostOps3 (W6 m ρ c) (Proc.devRef .tc main_v77) = _
  after_results_simp
  rfl

theorem W7_v82 :
    W7 m ρ c (Proc.devRef .tc main_v82) = kShift (F := Ideal) (W6 m ρ c (Proc.devRef .tc main_v64_1)) (W6 m ρ c (Proc.devRef .tc main_v64_2)) (kRow (F := Ideal) (kPick1_1 (F := Ideal) (W6 m ρ c (Proc.devRef .tc main_arg6)))) (kRow (F := Ideal) (kPick1_1 (F := Ideal) (W6 m ρ c (Proc.devRef .tc main_arg7)))) :=
  by
  show StableHlo.after hostOps3 (W6 m ρ c) (Proc.devRef .tc main_v82) = _
  after_results_simp
  rfl

/-! ## After the second launch: the layer's result -/

theorem W8_hOut (R : RegionValue.Facts) :
    W8 m ρ c (Proc.devRef .tc main_v83)
      = kLayer (W4 m ρ c (Proc.devRef .tc main_v43)) (W4 m ρ c (Proc.devRef .tc main_v1)) (W4 m ρ c (Proc.devRef .tc main_v3)) (kPick2_1 (F := Ideal) (W4 m ρ c (Proc.devRef .tc main_arg2))) (kRow (F := Ideal) (kPick1_1 (F := Ideal) (W4 m ρ c (Proc.devRef .tc main_arg3)))) (kPick2_1 (F := Ideal) (W4 m ρ c (Proc.devRef .tc main_arg4))) (kRow (F := Ideal) (kPick1_1 (F := Ideal) (W4 m ρ c (Proc.devRef .tc main_arg5)))) (kRow (F := Ideal) (kPick1_1 (F := Ideal) (W4 m ρ c (Proc.devRef .tc main_arg6)))) (kRow (F := Ideal) (kPick1_1 (F := Ideal) (W4 m ρ c (Proc.devRef .tc main_arg7)))) :=
  (W8_arr m ρ c 3).trans ((R.h3 (V7 m ρ) c).trans
    (congr3 affRelu ((W7_z m ρ c).trans (W6_z m ρ c R))
      ((W7_v77 m ρ c).trans (congr3 (kScale (F := Ideal)) (W6_s m ρ c R) (W6_q m ρ c R) (congrArg (fun a => kRow (F := Ideal) (kPick1_1 (F := Ideal) a)) (W6_arg6 m ρ c))))
      ((W7_v82 m ρ c).trans (congr4 (kShift (F := Ideal)) (W6_s m ρ c R) (W6_q m ρ c R) (congrArg (fun a => kRow (F := Ideal) (kPick1_1 (F := Ideal) a)) (W6_arg6 m ρ c)) (congrArg (fun a => kRow (F := Ideal) (kPick1_1 (F := Ideal) a)) (W6_arg7 m ρ c))))))

/-! ## The buffers the layer leaves alone -/

theorem W8_keep_v1 :
    W8 m ρ c (Proc.devRef .tc main_v1) = W4 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by no_write hostOps3))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by no_write hostOps2))

theorem W8_keep_v3 :
    W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by no_write hostOps3))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by no_write hostOps2))

theorem W8_keep_arg2 :
    W8 m ρ c (Proc.devRef .tc main_arg2) = W4 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by no_write hostOps3))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by no_write hostOps2))

theorem W8_keep_arg3 :
    W8 m ρ c (Proc.devRef .tc main_arg3) = W4 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by no_write hostOps3))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by no_write hostOps2))

theorem W8_keep_arg4 :
    W8 m ρ c (Proc.devRef .tc main_arg4) = W4 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by no_write hostOps3))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by no_write hostOps2))

theorem W8_keep_arg5 :
    W8 m ρ c (Proc.devRef .tc main_arg5) = W4 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by no_write hostOps3))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by no_write hostOps2))

theorem W8_keep_arg6 :
    W8 m ρ c (Proc.devRef .tc main_arg6) = W4 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by no_write hostOps3))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by no_write hostOps2))

theorem W8_keep_arg7 :
    W8 m ρ c (Proc.devRef .tc main_arg7) = W4 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by no_write hostOps3))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by no_write hostOps2))

theorem W8_keep_arg8 :
    W8 m ρ c (Proc.devRef .tc main_arg8) = W4 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by no_write hostOps3))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by no_write hostOps2))

theorem W8_keep_arg9 :
    W8 m ρ c (Proc.devRef .tc main_arg9) = W4 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by no_write hostOps3))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by no_write hostOps2))

end Cert.KernelIdeal.Hand

end
-- ==== Proof.KChain2.lean ====
/-
  Layer 2 of the program, walked from the buffer contents before its first host operation to the contents after
  its second launch: the host operations give the neighbour sums and the layer's slices of the parameters, the first
  launch the perceptron's values with their column sums, the host operations after it the columns' scale and shift,
  and the second launch the rescaled and rectified values. Every buffer is named by a rewrite, never opened.
-/
import proofs.«147060_j15040975470999_1_alg».proof.Proof.KChainLib

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg) (c : Dev nD)

/-! ## After the host operations before the first launch: the layer's operands -/

theorem W9_hIn :
    W9 m ρ c (Proc.devRef .tc main_v83) = W8 m ρ c (Proc.devRef .tc main_v83) :=
  StableHlo.after_of_forall_not_mem (b := Proc.devRef .tc main_v83) _ _ (List.forall_iff_forall_mem.mp (by no_write hostOps4))

theorem W9_v93 :
    W9 m ρ c (Proc.devRef .tc main_v93) = kAgg (F := Ideal) (W8 m ρ c (Proc.devRef .tc main_v83)) (W8 m ρ c (Proc.devRef .tc main_v1)) (W8 m ρ c (Proc.devRef .tc main_v3)) :=
  by
  show StableHlo.after hostOps4 (W8 m ρ c) (Proc.devRef .tc main_v93) = _
  after_results_simp
  rfl

theorem W9_v95 :
    W9 m ρ c (Proc.devRef .tc main_v95) = kPick2_2 (F := Ideal) (W8 m ρ c (Proc.devRef .tc main_arg2)) :=
  by
  show StableHlo.after hostOps4 (W8 m ρ c) (Proc.devRef .tc main_v95) = _
  after_results_simp
  rfl

theorem W9_v98 :
    W9 m ρ c (Proc.devRef .tc main_v98) = kRow (F := Ideal) (kPick1_2 (F := Ideal) (W8 m ρ c (Proc.devRef .tc main_arg3))) :=
  by
  show StableHlo.after hostOps4 (W8 m ρ c) (Proc.devRef .tc main_v98) = _
  after_results_simp
  rfl

theorem W9_v100 :
    W9 m ρ c (Proc.devRef .tc main_v100) = kPick2_2 (F := Ideal) (W8 m ρ c (Proc.devRef .tc main_arg4)) :=
  by
  show StableHlo.after hostOps4 (W8 m ρ c) (Proc.devRef .tc main_v100) = _
  after_results_simp
  rfl

theorem W9_v103 :
    W9 m ρ c (Proc.devRef .tc main_v103) = kRow (F := Ideal) (kPick1_2 (F := Ideal) (W8 m ρ c (Proc.devRef .tc main_arg5))) :=
  by
  show StableHlo.after hostOps4 (W8 m ρ c) (Proc.devRef .tc main_v103) = _
  after_results_simp
  rfl

/-! ## After the first launch: the perceptron's values and their column sums -/

theorem V9_z :
    zArr (V9 m ρ c (Pipeline.arrRef spec4 0)) (V9 m ρ c (Pipeline.arrRef spec4 1)) (V9 m ρ c (Pipeline.arrRef spec4 2)) (V9 m ρ c (Pipeline.arrRef spec4 3)) (V9 m ρ c (Pipeline.arrRef spec4 4)) (V9 m ρ c (Pipeline.arrRef spec4 5))
      = zArr (W8 m ρ c (Proc.devRef .tc main_v83)) (kAgg (F := Ideal) (W8 m ρ c (Proc.devRef .tc main_v83)) (W8 m ρ c (Proc.devRef .tc main_v1)) (W8 m ρ c (Proc.devRef .tc main_v3))) (kPick2_2 (F := Ideal) (W8 m ρ c (Proc.devRef .tc main_arg2))) (kRow (F := Ideal) (kPick1_2 (F := Ideal) (W8 m ρ c (Proc.devRef .tc main_arg3)))) (kPick2_2 (F := Ideal) (W8 m ρ c (Proc.devRef .tc main_arg4))) (kRow (F := Ideal) (kPick1_2 (F := Ideal) (W8 m ρ c (Proc.devRef .tc main_arg5)))) :=
  congr6 zArr (W9_hIn m ρ c) (W9_v93 m ρ c) (W9_v95 m ρ c) (W9_v98 m ρ c) (W9_v100 m ρ c) (W9_v103 m ρ c)

theorem W10_z (R : RegionValue.Facts) :
    W10 m ρ c (Proc.devRef .tc main_v104_0) = zArr (W8 m ρ c (Proc.devRef .tc main_v83)) (kAgg (F := Ideal) (W8 m ρ c (Proc.devRef .tc main_v83)) (W8 m ρ c (Proc.devRef .tc main_v1)) (W8 m ρ c (Proc.devRef .tc main_v3))) (kPick2_2 (F := Ideal) (W8 m ρ c (Proc.devRef .tc main_arg2))) (kRow (F := Ideal) (kPick1_2 (F := Ideal) (W8 m ρ c (Proc.devRef .tc main_arg3)))) (kPick2_2 (F := Ideal) (W8 m ρ c (Proc.devRef .tc main_arg4))) (kRow (F := Ideal) (kPick1_2 (F := Ideal) (W8 m ρ c (Proc.devRef .tc main_arg5)))) :=
  (W10_arr m ρ c 6).trans ((R.z4 (V9 m ρ) c).trans (V9_z m ρ c))

theorem W10_s (R : RegionValue.Facts) :
    W10 m ρ c (Proc.devRef .tc main_v104_1) = colSum (zArr (W8 m ρ c (Proc.devRef .tc main_v83)) (kAgg (F := Ideal) (W8 m ρ c (Proc.devRef .tc main_v83)) (W8 m ρ c (Proc.devRef .tc main_v1)) (W8 m ρ c (Proc.devRef .tc main_v3))) (kPick2_2 (F := Ideal) (W8 m ρ c (Proc.devRef .tc main_arg2))) (kRow (F := Ideal) (kPick1_2 (F := Ideal) (W8 m ρ c (Proc.devRef .tc main_arg3)))) (kPick2_2 (F := Ideal) (W8 m ρ c (Proc.devRef .tc main_arg4))) (kRow (F := Ideal) (kPick1_2 (F := Ideal) (W8 m ρ c (Proc.devRef .tc main_arg5))))) :=
  (W10_arr m ρ c 7).trans ((R.s4 (V9 m ρ) c).trans (congrArg colSum (V9_z m ρ c)))

theorem W10_q (R : RegionValue.Facts) :
    W10 m ρ c (Proc.devRef .tc main_v104_2) = colSumSq (zArr (W8 m ρ c (Proc.devRef .tc main_v83)) (kAgg (F := Ideal) (W8 m ρ c (Proc.devRef .tc main_v83)) (W8 m ρ c (Proc.devRef .tc main_v1)) (W8 m ρ c (Proc.devRef .tc main_v3))) (kPick2_2 (F := Ideal) (W8 m ρ c (Proc.devRef .tc main_arg2))) (kRow (F := Ideal) (kPick1_2 (F := Ideal) (W8 m ρ c (Proc.devRef .tc main_arg3)))) (kPick2_2 (F := Ideal) (W8 m ρ c (Proc.devRef .tc main_arg4))) (kRow (F := Ideal) (kPick1_2 (F := Ideal) (W8 m ρ c (Proc.devRef .tc main_arg5))))) :=
  (W10_arr m ρ c 8).trans ((R.q4 (V9 m ρ) c).trans (congrArg colSumSq (V9_z m ρ c)))

theorem W10_arg6 :
    W10 m ρ c (Proc.devRef .tc main_arg6) = W8 m ρ c (Proc.devRef .tc main_arg6) :=
  (W10_of_ne m ρ c main_arg6 (by decide)).trans (StableHlo.after_of_forall_not_mem (b := Proc.devRef .tc main_arg6) _ _ (List.forall_iff_forall_mem.mp (by no_write hostOps4)))

theorem W10_arg7 :
    W10 m ρ c (Proc.devRef .tc main_arg7) = W8 m ρ c (Proc.devRef .tc main_arg7) :=
  (W10_of_ne m ρ c main_arg7 (by decide)).trans (StableHlo.after_of_forall_not_mem (b := Proc.devRef .tc main_arg7) _ _ (List.forall_iff_forall_mem.mp (by no_write hostOps4)))

/-! ## After the host operations between the launches: the columns' scale and shift -/

theorem W11_z :
    W11 m ρ c (Proc.devRef .tc main_v104_0) = W10 m ρ c (Proc.devRef .tc main_v104_0) :=
  StableHlo.after_of_forall_not_mem (b := Proc.devRef .tc main_v104_0) _ _ (List.forall_iff_forall_mem.mp (by no_write hostOps5))

theorem W11_v117 :
    W11 m ρ c (Proc.devRef .tc main_v117) = kScale (F := Ideal) (W10 m ρ c (Proc.devRef .tc main_v104_1)) (W10 m ρ c (Proc.devRef .tc main_v104_2)) (kRow (F := Ideal) (kPick1_2 (F := Ideal) (W10 m ρ c (Proc.devRef .tc main_arg6)))) :=
  by
  show StableHlo.after hostOps5 (W10 m ρ c) (Proc.devRef .tc main_v117) = _
  after_results_simp
  rfl

theorem W11_v122 :
    W11 m ρ c (Proc.devRef .tc main_v122) = kShift (F := Ideal) (W10 m ρ c (Proc.devRef .tc main_v104_1)) (W10 m ρ c (Proc.devRef .tc main_v104_2)) (kRow (F := Ideal) (kPick1_2 (F := Ideal) (W10 m ρ c (Proc.devRef .tc main_arg6)))) (kRow (F := Ideal) (kPick1_2 (F := Ideal) (W10 m ρ c (Proc.devRef .tc main_arg7)))) :=
  by
  show StableHlo.after hostOps5 (W10 m ρ c) (Proc.devRef .tc main_v122) = _
  after_results_simp
  rfl

/-! ## After the second launch: the layer's result -/

theorem W12_hOut (R : RegionValue.Facts) :
    W12 m ρ c (Proc.devRef .tc main_v123)
      = kLayer (W8 m ρ c (Proc.devRef .tc main_v83)) (W8 m ρ c (Proc.devRef .tc main_v1)) (W8 m ρ c (Proc.devRef .tc main_v3)) (kPick2_2 (F := Ideal) (W8 m ρ c (Proc.devRef .tc main_arg2))) (kRow (F := Ideal) (kPick1_2 (F := Ideal) (W8 m ρ c (Proc.devRef .tc main_arg3)))) (kPick2_2 (F := Ideal) (W8 m ρ c (Proc.devRef .tc main_arg4))) (kRow (F := Ideal) (kPick1_2 (F := Ideal) (W8 m ρ c (Proc.devRef .tc main_arg5)))) (kRow (F := Ideal) (kPick1_2 (F := Ideal) (W8 m ρ c (Proc.devRef .tc main_arg6)))) (kRow (F := Ideal) (kPick1_2 (F := Ideal) (W8 m ρ c (Proc.devRef .tc main_arg7)))) :=
  (W12_arr m ρ c 3).trans ((R.h5 (V11 m ρ) c).trans
    (congr3 affRelu ((W11_z m ρ c).trans (W10_z m ρ c R))
      ((W11_v117 m ρ c).trans (congr3 (kScale (F := Ideal)) (W10_s m ρ c R) (W10_q m ρ c R) (congrArg (fun a => kRow (F := Ideal) (kPick1_2 (F := Ideal) a)) (W10_arg6 m ρ c))))
      ((W11_v122 m ρ c).trans (congr4 (kShift (F := Ideal)) (W10_s m ρ c R) (W10_q m ρ c R) (congrArg (fun a => kRow (F := Ideal) (kPick1_2 (F := Ideal) a)) (W10_arg6 m ρ c)) (congrArg (fun a => kRow (F := Ideal) (kPick1_2 (F := Ideal) a)) (W10_arg7 m ρ c))))))

/-! ## The buffers the layer leaves alone -/

theorem W12_keep_arg8 :
    W12 m ρ c (Proc.devRef .tc main_arg8) = W8 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by no_write hostOps5))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by no_write hostOps4))

theorem W12_keep_arg9 :
    W12 m ρ c (Proc.devRef .tc main_arg9) = W8 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by no_write hostOps5))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by no_write hostOps4))

end Cert.KernelIdeal.Hand

end
-- ==== Proof.KChainOut.lean ====
/-
  The whole program walked back: the result array after the last launch is the read-out of the third layer's result,
  each layer's result is the layer function of the previous one and of that layer's slices of the parameters, and
  every parameter is read where it is used at its launch contents.
-/
import proofs.«147060_j15040975470999_1_alg».proof.Proof.KChain0
import proofs.«147060_j15040975470999_1_alg».proof.Proof.KChain1
import proofs.«147060_j15040975470999_1_alg».proof.Proof.KChain2

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Gin

universe u

/-- A function of nine arguments takes equal arguments to equal values. -/
theorem congr9 {α₁ α₂ α₃ α₄ α₅ α₆ α₇ α₈ α₉ β : Sort u} (f : α₁ → α₂ → α₃ → α₄ → α₅ → α₆ → α₇ → α₈ → α₉ → β)
    {a₁ b₁ : α₁} {a₂ b₂ : α₂} {a₃ b₃ : α₃} {a₄ b₄ : α₄} {a₅ b₅ : α₅} {a₆ b₆ : α₆} {a₇ b₇ : α₇} {a₈ b₈ : α₈} {a₉ b₉ : α₉}
    (h₁ : a₁ = b₁) (h₂ : a₂ = b₂) (h₃ : a₃ = b₃) (h₄ : a₄ = b₄) (h₅ : a₅ = b₅) (h₆ : a₆ = b₆) (h₇ : a₇ = b₇) (h₈ : a₈ = b₈)
    (h₉ : a₉ = b₉) : f a₁ a₂ a₃ a₄ a₅ a₆ a₇ a₈ a₉ = f b₁ b₂ b₃ b₄ b₅ b₆ b₇ b₈ b₉ := by
  subst h₁ h₂ h₃ h₄ h₅ h₆ h₇ h₈ h₉; rfl

variable (m : (ℓ : Loc nD τ sig) → Buf (Elt Ideal) ℓ) (ρ : Dev nD → PrngReg) (c : Dev nD)

/-! ## The parameters and the edge lists where the layers read them -/

theorem at4_v1 :
    W4 m ρ c (Proc.devRef .tc main_v1) = kSrc (F := Ideal) (m ((c.tc : Thread nD τ).loc main_arg1)) :=
  (W4_keep_v1 m ρ c).trans (W1_v1 m ρ c)

theorem at4_v3 :
    W4 m ρ c (Proc.devRef .tc main_v3) = kDst (F := Ideal) (m ((c.tc : Thread nD τ).loc main_arg1)) :=
  (W4_keep_v3 m ρ c).trans (W1_v3 m ρ c)

theorem at4_arg2 :
    W4 m ρ c (Proc.devRef .tc main_arg2) = m ((c.tc : Thread nD τ).loc main_arg2) :=
  W4_keep_arg2 m ρ c

theorem at4_arg3 :
    W4 m ρ c (Proc.devRef .tc main_arg3) = m ((c.tc : Thread nD τ).loc main_arg3) :=
  W4_keep_arg3 m ρ c

theorem at4_arg4 :
    W4 m ρ c (Proc.devRef .tc main_arg4) = m ((c.tc : Thread nD τ).loc main_arg4) :=
  W4_keep_arg4 m ρ c

theorem at4_arg5 :
    W4 m ρ c (Proc.devRef .tc main_arg5) = m ((c.tc : Thread nD τ).loc main_arg5) :=
  W4_keep_arg5 m ρ c

theorem at4_arg6 :
    W4 m ρ c (Proc.devRef .tc main_arg6) = m ((c.tc : Thread nD τ).loc main_arg6) :=
  W4_keep_arg6 m ρ c

theorem at4_arg7 :
    W4 m ρ c (Proc.devRef .tc main_arg7) = m ((c.tc : Thread nD τ).loc main_arg7) :=
  W4_keep_arg7 m ρ c

theorem at4_arg8 :
    W4 m ρ c (Proc.devRef .tc main_arg8) = m ((c.tc : Thread nD τ).loc main_arg8) :=
  W4_keep_arg8 m ρ c

theorem at4_arg9 :
    W4 m ρ c (Proc.devRef .tc main_arg9) = m ((c.tc : Thread nD τ).loc main_arg9) :=
  W4_keep_arg9 m ρ c

theorem at8_v1 :
    W8 m ρ c (Proc.devRef .tc main_v1) = kSrc (F := Ideal) (m ((c.tc : Thread nD τ).loc main_arg1)) :=
  (W8_keep_v1 m ρ c).trans (at4_v1 m ρ c)

theorem at8_v3 :
    W8 m ρ c (Proc.devRef .tc main_v3) = kDst (F := Ideal) (m ((c.tc : Thread nD τ).loc main_arg1)) :=
  (W8_keep_v3 m ρ c).trans (at4_v3 m ρ c)

theorem at8_arg2 :
    W8 m ρ c (Proc.devRef .tc main_arg2) = m ((c.tc : Thread nD τ).loc main_arg2) :=
  (W8_keep_arg2 m ρ c).trans (at4_arg2 m ρ c)

theorem at8_arg3 :
    W8 m ρ c (Proc.devRef .tc main_arg3) = m ((c.tc : Thread nD τ).loc main_arg3) :=
  (W8_keep_arg3 m ρ c).trans (at4_arg3 m ρ c)

theorem at8_arg4 :
    W8 m ρ c (Proc.devRef .tc main_arg4) = m ((c.tc : Thread nD τ).loc main_arg4) :=
  (W8_keep_arg4 m ρ c).trans (at4_arg4 m ρ c)

theorem at8_arg5 :
    W8 m ρ c (Proc.devRef .tc main_arg5) = m ((c.tc : Thread nD τ).loc main_arg5) :=
  (W8_keep_arg5 m ρ c).trans (at4_arg5 m ρ c)

theorem at8_arg6 :
    W8 m ρ c (Proc.devRef .tc main_arg6) = m ((c.tc : Thread nD τ).loc main_arg6) :=
  (W8_keep_arg6 m ρ c).trans (at4_arg6 m ρ c)

theorem at8_arg7 :
    W8 m ρ c (Proc.devRef .tc main_arg7) = m ((c.tc : Thread nD τ).loc main_arg7) :=
  (W8_keep_arg7 m ρ c).trans (at4_arg7 m ρ c)

theorem at8_arg8 :
    W8 m ρ c (Proc.devRef .tc main_arg8) = m ((c.tc : Thread nD τ).loc main_arg8) :=
  (W8_keep_arg8 m ρ c).trans (at4_arg8 m ρ c)

theorem at8_arg9 :
    W8 m ρ c (Proc.devRef .tc main_arg9) = m ((c.tc : Thread nD τ).loc main_arg9) :=
  (W8_keep_arg9 m ρ c).trans (at4_arg9 m ρ c)

theorem at12_arg8 :
    W12 m ρ c (Proc.devRef .tc main_arg8) = m ((c.tc : Thread nD τ).loc main_arg8) :=
  (W12_keep_arg8 m ρ c).trans (at8_arg8 m ρ c)

theorem at12_arg9 :
    W12 m ρ c (Proc.devRef .tc main_arg9) = m ((c.tc : Thread nD τ).loc main_arg9) :=
  (W12_keep_arg9 m ρ c).trans (at8_arg9 m ρ c)

/-! ## The three layers -/

theorem layer0 (R : RegionValue.Facts) :
    W4 m ρ c (Proc.devRef .tc main_v43)
      = kLayer (m ((c.tc : Thread nD τ).loc main_arg0)) (kSrc (F := Ideal) (m ((c.tc : Thread nD τ).loc main_arg1))) (kDst (F := Ideal) (m ((c.tc : Thread nD τ).loc main_arg1))) (kPick2_0 (F := Ideal) (m ((c.tc : Thread nD τ).loc main_arg2))) (kRow (F := Ideal) (kPick1_0 (F := Ideal) (m ((c.tc : Thread nD τ).loc main_arg3)))) (kPick2_0 (F := Ideal) (m ((c.tc : Thread nD τ).loc main_arg4))) (kRow (F := Ideal) (kPick1_0 (F := Ideal) (m ((c.tc : Thread nD τ).loc main_arg5)))) (kRow (F := Ideal) (kPick1_0 (F := Ideal) (m ((c.tc : Thread nD τ).loc main_arg6)))) (kRow (F := Ideal) (kPick1_0 (F := Ideal) (m ((c.tc : Thread nD τ).loc main_arg7)))) :=
  W4_hOut m ρ c R

theorem layer1 (R : RegionValue.Facts) :
    W8 m ρ c (Proc.devRef .tc main_v83)
      = kLayer (kLayer (m ((c.tc : Thread nD τ).loc main_arg0)) (kSrc (F := Ideal) (m ((c.tc : Thread nD τ).loc main_arg1))) (kDst (F := Ideal) (m ((c.tc : Thread nD τ).loc main_arg1))) (kPick2_0 (F := Ideal) (m ((c.tc : Thread nD τ).loc main_arg2))) (kRow (F := Ideal) (kPick1_0 (F := Ideal) (m ((c.tc : Thread nD τ).loc main_arg3)))) (kPick2_0 (F := Ideal) (m ((c.tc : Thread nD τ).loc main_arg4))) (kRow (F := Ideal) (kPick1_0 (F := Ideal) (m ((c.tc : Thread nD τ).loc main_arg5)))) (kRow (F := Ideal) (kPick1_0 (F := Ideal) (m ((c.tc : Thread nD τ).loc main_arg6)))) (kRow (F := Ideal) (kPick1_0 (F := Ideal) (m ((c.tc : Thread nD τ).loc main_arg7))))) (kSrc (F := Ideal) (m ((c.tc : Thread nD τ).loc main_arg1))) (kDst (F := Ideal) (m ((c.tc : Thread nD τ).loc main_arg1))) (kPick2_1 (F := Ideal) (m ((c.tc : Thread nD τ).loc main_arg2))) (kRow (F := Ideal) (kPick1_1 (F := Ideal) (m ((c.tc : Thread nD τ).loc main_arg3)))) (kPick2_1 (F := Ideal) (m ((c.tc : Thread nD τ).loc main_arg4))) (kRow (F := Ideal) (kPick1_1 (F := Ideal) (m ((c.tc : Thread nD τ).loc main_arg5)))) (kRow (F := Ideal) (kPick1_1 (F := Ideal) (m ((c.tc : Thread nD τ).loc main_arg6)))) (kRow (F := Ideal) (kPick1_1 (F := Ideal) (m ((c.tc : Thread nD τ).loc main_arg7)))) :=
  (W8_hOut m ρ c R).trans
    (congr9 kLayer (layer0 m ρ c R) (at4_v1 m ρ c) (at4_v3 m ρ c) (congrArg (kPick2_1 (F := Ideal)) (at4_arg2 m ρ c))
      (congrArg (fun a => kRow (F := Ideal) (kPick1_1 (F := Ideal) a)) (at4_arg3 m ρ c)) (congrArg (kPick2_1 (F := Ideal)) (at4_arg4 m ρ c))
      (congrArg (fun a => kRow (F := Ideal) (kPick1_1 (F := Ideal) a)) (at4_arg5 m ρ c)) (congrArg (fun a => kRow (F := Ideal) (kPick1_1 (F := Ideal) a)) (at4_arg6 m ρ c))
      (congrArg (fun a => kRow (F := Ideal) (kPick1_1 (F := Ideal) a)) (at4_arg7 m ρ c)))

theorem layer2 (R : RegionValue.Facts) :
    W12 m ρ c (Proc.devRef .tc main_v123)
      = kLayer (kLayer (kLayer (m ((c.tc : Thread nD τ).loc main_arg0)) (kSrc (F := Ideal) (m ((c.tc : Thread nD τ).loc main_arg1))) (kDst (F := Ideal) (m ((c.tc : Thread nD τ).loc main_arg1))) (kPick2_0 (F := Ideal) (m ((c.tc : Thread nD τ).loc main_arg2))) (kRow (F := Ideal) (kPick1_0 (F := Ideal) (m ((c.tc : Thread nD τ).loc main_arg3)))) (kPick2_0 (F := Ideal) (m ((c.tc : Thread nD τ).loc main_arg4))) (kRow (F := Ideal) (kPick1_0 (F := Ideal) (m ((c.tc : Thread nD τ).loc main_arg5)))) (kRow (F := Ideal) (kPick1_0 (F := Ideal) (m ((c.tc : Thread nD τ).loc main_arg6)))) (kRow (F := Ideal) (kPick1_0 (F := Ideal) (m ((c.tc : Thread nD τ).loc main_arg7))))) (kSrc (F := Ideal) (m ((c.tc : Thread nD τ).loc main_arg1))) (kDst (F := Ideal) (m ((c.tc : Thread nD τ).loc main_arg1))) (kPick2_1 (F := Ideal) (m ((c.tc : Thread nD τ).loc main_arg2))) (kRow (F := Ideal) (kPick1_1 (F := Ideal) (m ((c.tc : Thread nD τ).loc main_arg3)))) (kPick2_1 (F := Ideal) (m ((c.tc : Thread nD τ).loc main_arg4))) (kRow (F := Ideal) (kPick1_1 (F := Ideal) (m ((c.tc : Thread nD τ).loc main_arg5)))) (kRow (F := Ideal) (kPick1_1 (F := Ideal) (m ((c.tc : Thread nD τ).loc main_arg6)))) (kRow (F := Ideal) (kPick1_1 (F := Ideal) (m ((c.tc : Thread nD τ).loc main_arg7))))) (kSrc (F := Ideal) (m ((c.tc : Thread nD τ).loc main_arg1))) (kDst (F := Ideal) (m ((c.tc : Thread nD τ).loc main_arg1))) (kPick2_2 (F := Ideal) (m ((c.tc : Thread nD τ).loc main_arg2))) (kRow (F := Ideal) (kPick1_2 (F := Ideal) (m ((c.tc : Thread nD τ).loc main_arg3)))) (kPick2_2 (F := Ideal) (m ((c.tc : Thread nD τ).loc main_arg4))) (kRow (F := Ideal) (kPick1_2 (F := Ideal) (m ((c.tc : Thread nD τ).loc main_arg5)))) (kRow (F := Ideal) (kPick1_2 (F := Ideal) (m ((c.tc : Thread nD τ).loc main_arg6)))) (kRow (F := Ideal) (kPick1_2 (F := Ideal) (m ((c.tc : Thread nD τ).loc main_arg7)))) :=
  (W12_hOut m ρ c R).trans
    (congr9 kLayer (layer1 m ρ c R) (at8_v1 m ρ c) (at8_v3 m ρ c) (congrArg (kPick2_2 (F := Ideal)) (at8_arg2 m ρ c))
      (congrArg (fun a => kRow (F := Ideal) (kPick1_2 (F := Ideal) a)) (at8_arg3 m ρ c)) (congrArg (kPick2_2 (F := Ideal)) (at8_arg4 m ρ c))
      (congrArg (fun a => kRow (F := Ideal) (kPick1_2 (F := Ideal) a)) (at8_arg5 m ρ c)) (congrArg (fun a => kRow (F := Ideal) (kPick1_2 (F := Ideal) a)) (at8_arg6 m ρ c))
      (congrArg (fun a => kRow (F := Ideal) (kPick1_2 (F := Ideal) a)) (at8_arg7 m ρ c)))

/-! ## The read-out -/

theorem W13_v123 :
    W13 m ρ c (Proc.devRef .tc main_v123) = W12 m ρ c (Proc.devRef .tc main_v123) :=
  StableHlo.after_of_forall_not_mem (b := Proc.devRef .tc main_v123) _ _ (List.forall_iff_forall_mem.mp (by no_write hostOps6))

theorem W13_v124 :
    W13 m ρ c (Proc.devRef .tc main_v124) = kTranspose (F := Ideal) (W12 m ρ c (Proc.devRef .tc main_arg8)) :=
  by
  show StableHlo.after hostOps6 (W12 m ρ c) (Proc.devRef .tc main_v124) = _
  after_results
  rfl

theorem W13_v125 :
    W13 m ρ c (Proc.devRef .tc main_v125) = kReshape (F := Ideal) (W12 m ρ c (Proc.devRef .tc main_arg9)) :=
  by
  show StableHlo.after hostOps6 (W12 m ρ c) (Proc.devRef .tc main_v125) = _
  after_results
  rfl

theorem W14_out (R : RegionValue.Facts) :
    W14 m ρ c (Proc.devRef .tc main_v126)
      = readOut (W12 m ρ c (Proc.devRef .tc main_v123)) (kTranspose (F := Ideal) (W12 m ρ c (Proc.devRef .tc main_arg8))) (kReshape (F := Ideal) (W12 m ρ c (Proc.devRef .tc main_arg9))) :=
  (W14_arr m ρ c 3).trans ((R.o6 (V13 m ρ) c).trans (congr3 readOut (W13_v123 m ρ c) (W13_v124 m ρ c) (W13_v125 m ρ c)))

/-- The result array after the last launch is the program's function of the ten argument arrays as launched. -/
theorem out_eq_at (R : RegionValue.Facts) :
    W14 (F := Ideal) m ρ c (Proc.devRef .tc main_v126)
      = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W14_out m ρ c R).trans
    (congr3 readOut (layer2 m ρ c R) (congrArg (kTranspose (F := Ideal)) (at12_arg8 m ρ c)) (congrArg (kReshape (F := Ideal)) (at12_arg9 m ρ c)))

/-- The same, with the launches' record first. -/
theorem out_eq (R : RegionValue.Facts) (m : (ℓ : Loc nD τ sig) → Buf (Elt Ideal) ℓ) (ρ : Dev nD → PrngReg) (c : Dev nD) :
    W14 (F := Ideal) m ρ c (Proc.devRef .tc main_v126)
      = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  out_eq_at m ρ c R

end Cert.KernelIdeal.Hand

end
-- ==== Proof.LibTileSum.lean ====
/-
  A sum over n·m consecutive positions, taken tile by tile: n tiles of m positions each.
-/
import Mathlib.Algebra.BigOperators.Fin
import Mathlib.Logic.Equiv.Fin.Basic

namespace Cert.LibTileSum

open Finset

/-- For a function f on the naturals with values in a commutative additive monoid, the sum over the positions
    0, …, n·m − 1 is the sum over the tiles k = 0, …, n − 1 of the sum over the positions m·k + p, p = 0, …, m − 1
    of the tile. -/
theorem sum_tiles {M : Type*} [AddCommMonoid M] (n m : ℕ) (f : ℕ → M) :
    ∑ k ∈ Finset.range n, ∑ p : Fin m, f (m * k + p.val) = ∑ s : Fin (n * m), f s.val := by
  rw [Finset.sum_range fun k => ∑ p : Fin m, f (m * k + p.val)]
  rw [← (finProdFinEquiv (m := n) (n := m)).sum_comp fun s => f s.val, Fintype.sum_prod_type]
  refine Finset.sum_congr rfl fun a _ => Finset.sum_congr rfl fun b _ => ?_
  show f (m * a.val + b.val) = f (finProdFinEquiv (a, b)).val
  rw [finProdFinEquiv_apply_val, Nat.add_comm]

end Cert.LibTileSum
-- ==== Proof.GinBlock.lean ====
/-
  One row block of the perceptron layer, entry by entry, on the extended reals.

  From two row blocks x0, x1 : [T, K], weights wa : [K, D], wb : [D, D] and one-row biases ba, bb : [1, D] a launch's
  body forms the block
      t[p, q] = (∑ k, max (∑ j, (x0[p, j] + x1[p, j]) · wa[j, k] + ba[k]) 0 · wb[k, q]) + bb[q].
  Narrowing a product's operands to bf16 is the identity on the extended reals, a product into a zero accumulator is
  the plain sum of products, a one-row bias spread over the rows reads its one row, and the rectifier's zero is the
  real zero.  The sum of a [a, b] array along its rows, started from the zero pattern, is at column q the sum of the
  a entries of that column; added to a running row it gives the row plus the block's column sums.
-/
import Idealize.ShloMosaic.Lib.ValueIdx
import Idealize.ShloMosaic.Lib.ValueLayout
import Idealize.ShloMosaic.Lib.Pipeline.Value
import Idealize.ShloMosaic.PureOps.Ideal.Laws
import proofs.«147060_j15040975470999_1_alg».proof.Proof.LibMlpAt
import proofs.«147060_j15040975470999_1_alg».proof.Proof.LibTileSum

noncomputable section

open scoped BigOperators

namespace Cert.Gin.Block

open Idealize.ShloMosaic Idealize.ShloMosaic.ValueIdx Cert.Mlp

/-- The offsets of a store or a load through a whole block: zero on both axes. -/
theorem off_zero : (![0, 0] : Fin 2 → Nat) = fun _ => 0 := funext fun a => by fin_cases a <;> rfl

/-! ## The block of values -/

/-- The block's value at (p, q): a rectifier after the first affine map, none after the second. -/
def blockVal {T K D : Nat} (x0 x1 : FVec Ideal ⟨2, ![T, K]⟩ .f32) (wa : FVec Ideal ⟨2, ![K, D]⟩ .f32)
    (ba : FVec Ideal ⟨2, ![1, D]⟩ .f32) (wb : FVec Ideal ⟨2, ![D, D]⟩ .f32) (bb : FVec Ideal ⟨2, ![1, D]⟩ .f32)
    (p : Fin T) (q : Fin D) : EReal :=
  (∑ k : Fin D, max ((∑ j : Fin K, (x0 (ix2 p j) + x1 (ix2 p j)) * wa (ix2 j k)) + ba (ix2 (0 : Fin 1) k)) 0 * wb (ix2 k q))
    + bb (ix2 (0 : Fin 1) q)

/-- The body's spelling of the block: the operands narrowed to bf16, two products into a zero accumulator, the biases
    spread over the rows, the rectifier a maximum with a splat zero. -/
def block {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x0 x1 : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  addf (matmul (D2 wB) none
      (truncf .bf16 (maximumf (addf (matmul (D2 wA) none (truncf .bf16 (addf x0 x1) hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
    (broadcastTo ⟨2, ![T, D]⟩ bb hb)

/-- The spelling read at (p, q) is the value there. -/
theorem block_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x0 x1 : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    block wA wB hb hlt x0 x1 wa ba wb bb (ix2 p q) = blockVal x0 x1 wa ba wb bb p q := by
  unfold block blockVal
  rw [addf_apply, matmul_zero_at, broadcastTo_1b_ab_apply]
  refine congrArg (fun s => s + bb (ix2 (0 : Fin 1) q)) ?_
  refine Finset.sum_congr rfl fun j _ => ?_
  rw [truncf_apply, truncf_apply, maximumf_apply, addf_apply, matmul_zero_at, broadcastTo_1b_ab_apply, broadcast_apply]
  show max _ (Ideal.ofBits .f32 0x00000000#32) * _ = _
  rw [Ideal.ofBits_zero_f32]
  refine congrArg (fun s => max (s + ba (ix2 (0 : Fin 1) j)) 0 * wb (ix2 j q)) ?_
  refine Finset.sum_congr rfl fun i _ => ?_
  rw [truncf_apply, truncf_apply, addf_apply]

/-! ## Sums along the rows -/

/-- A reduction of [a, b] along axis 0 visits, for column q and coordinate p of the reduced axis, the index (p, q). -/
theorem lift_axis0 {a b : ℕ} (h : (⟨2, ![a, b]⟩ : Shape).Reduces [0] ⟨1, ![b]⟩) (p : Fin a) (q : Fin b) :
    h.lift (ix1 q) p = ix2 p q :=
  funext fun c => Fin.ext (by match c with | ⟨0, _⟩ => rfl | ⟨1, _⟩ => rfl)

/-- The sum along the rows of an [a, b] array, started from the zero pattern, is at column q the sum of the column's
    a entries (on the extended reals a reduction is the exact sum in any order). -/
theorem colSum_at {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.bits .f32)) = FKind.add.neutral .f32 hφ) (q : Fin b) :
    multiReduction (F := Ideal) .add [0] ⟨1, ![b]⟩ v 0x00000000#32 h hφ hacc (ix1 q) = ∑ p : Fin a, v (ix2 p q) := by
  refine (Ideal.multiReduction_add_single v _ h hφ hacc (ix1 q)).trans ?_
  exact Finset.sum_congr rfl fun p _ => congrArg v (lift_axis0 h p q)

/-- A running row plus the column sums of a block, the sums laid as one row. -/
theorem accRow_at {a b : ℕ} (acc : FVec Ideal ⟨2, ![1, b]⟩ .f32) (v : FVec Ideal ⟨2, ![a, b]⟩ .f32)
    (h : (⟨2, ![a, b]⟩ : Shape).Reduces [0] ⟨1, ![b]⟩) (hφ : FKind.Formats .f32)
    (hacc : (0x00000000#32 : BitVec (FTy.bits .f32)) = FKind.add.neutral .f32 hφ)
    (hc : (⟨1, ![b]⟩ : Shape).ShapeCasts ⟨2, ![1, b]⟩) (u : Fin 1) (q : Fin b) :
    addf acc (shapeCast ⟨2, ![1, b]⟩ (multiReduction (F := Ideal) .add [0] ⟨1, ![b]⟩ v 0x00000000#32 h hφ hacc) hc) (ix2 u q)
      = acc (ix2 u q) + ∑ p : Fin a, v (ix2 p q) := by
  rw [addf_apply, shapeCast_a_1a_apply, colSum_at]

/-! ## A sum over all rows, taken block by block -/

/-- A function of the row as a function of the row NUMBER, zero past the last row. -/
def rowFn {N : ℕ} (h : Fin N → EReal) (r : ℕ) : EReal := if hr : r < N then h ⟨r, hr⟩ else 0

theorem rowFn_of_lt {N : ℕ} (h : Fin N → EReal) (r : ℕ) (hr : r < N) : rowFn h r = h ⟨r, hr⟩ := dif_pos hr

/-- The sum over n blocks of m rows each, block k holding rows m·k … m·k + m − 1, is the sum over all n·m rows. -/
theorem sum_blocks_rows {N : ℕ} (n m : ℕ) (hN : n * m = N) (h : Fin N → EReal) :
    ∑ k ∈ Finset.range n, ∑ p : Fin m, rowFn h (m * k + p.val) = ∑ r : Fin N, h r := by
  subst hN
  rw [Cert.LibTileSum.sum_tiles]
  exact Finset.sum_congr rfl fun r _ => dif_pos r.isLt

end Cert.Gin.Block

end
-- ==== Proof.Region0Pay.lean ====
/-
  The arithmetic of the first perceptron launch's body at the ideal values, entry by entry.

  The block the body stores in the rows' window is, at (p, q), the two-layer perceptron of the sum of its two row
  blocks (`Cert.Gin.Block.blockVal`); the row it adds to a running row acc is acc[q] plus the column sums of that
  block, and likewise acc[q] plus the column sums of the squares; the two rows it stores at the first point are zero.
-/
import proofs.«147060_j15040975470999_1_alg».proof.Proof.Gen.KernelIdeal.Skeleton
import proofs.«147060_j15040975470999_1_alg».proof.Proof.GinBlock

noncomputable section

open scoped BigOperators

namespace Cert.KernelIdeal.RegionValue

open Idealize.ShloMosaic Idealize.ShloMosaic.ValueIdx Cert.KernelIdeal Cert.KernelIdeal.Gen Cert.Gin.Block

/-- The stored block is the body's spelling of the perceptron block: the casts between equal shapes are the identity. -/
theorem k0_pay2_eq (x0 x1 : FVec Ideal S5000x128 .f32) (w1 : FVec Ideal S128x128 .f32) (b1 : FVec Ideal S1x128 .f32)
    (w2 : FVec Ideal S128x128 .f32) (b2 : FVec Ideal S1x128 .f32) :
    k0_pay2 (F := Ideal) x0 x1 w1 b1 w2 b2
      = block (T := 5000) (K := 128) (D := 128) dot_S5000x128_S128x128_S5000x128_1_0_0_1_n_n.wf
          dot_S5000x128_S128x128_S5000x128_1_0_0_1_n_n.wf broadcasts_S1x128_S5000x128 bitsLt_bf16_f32 x0 x1 w1 b1 w2 b2 := by
  unfold k0_pay2 block
  simp only [shapeCast_self]
  rfl

/-- The stored block at (p, q). -/
theorem k0_pay2_at (x0 x1 : FVec Ideal S5000x128 .f32) (w1 : FVec Ideal S128x128 .f32) (b1 : FVec Ideal S1x128 .f32)
    (w2 : FVec Ideal S128x128 .f32) (b2 : FVec Ideal S1x128 .f32) (p : Fin 5000) (q : Fin 128) :
    k0_pay2 (F := Ideal) x0 x1 w1 b1 w2 b2 (ix2 p q) = blockVal x0 x1 w1 b1 w2 b2 p q :=
  (congrFun (k0_pay2_eq x0 x1 w1 b1 w2 b2) (ix2 p q)).trans (block_at _ _ _ _ x0 x1 w1 b1 w2 b2 p q)

/-- The row added to the running sums: the running row plus the block's column sums. -/
theorem k0_pay5_at (x0 x1 : FVec Ideal S5000x128 .f32) (w1 : FVec Ideal S128x128 .f32) (b1 : FVec Ideal S1x128 .f32)
    (w2 : FVec Ideal S128x128 .f32) (b2 : FVec Ideal S1x128 .f32) (acc : FVec Ideal S1x128 .f32) (u : Fin 1) (q : Fin 128) :
    k0_pay5 (F := Ideal) x0 x1 w1 b1 w2 b2 acc (ix2 u q)
      = acc (ix2 u q) + ∑ p : Fin 5000, blockVal x0 x1 w1 b1 w2 b2 p q := by
  unfold k0_pay5
  dsimp only
  rw [shapeCast_self]
  refine (accRow_at (a := 5000) (b := 128) acc (k0_pay2 (F := Ideal) x0 x1 w1 b1 w2 b2) _ _ _ _ u q).trans ?_
  refine congrArg (fun s => acc (ix2 u q) + s) ?_
  exact Finset.sum_congr rfl fun p _ => k0_pay2_at x0 x1 w1 b1 w2 b2 p q

/-- The row added to the running sums of squares: the running row plus the column sums of the squares of a block. -/
theorem k0_pay1_at (z : FVec Ideal S5000x128 .f32) (acc : FVec Ideal S1x128 .f32) (u : Fin 1) (q : Fin 128) :
    k0_pay1 (F := Ideal) z acc (ix2 u q) = acc (ix2 u q) + ∑ p : Fin 5000, z (ix2 p q) * z (ix2 p q) := by
  unfold k0_pay1
  dsimp only
  rw [shapeCast_self]
  exact accRow_at (a := 5000) (b := 128) acc (mulf z z) _ _ _ _ u q

/-- The rows stored at the first point are zero. -/
theorem k0_pay3_at (u : Fin 1) (q : Fin 128) : k0_pay3 (F := Ideal) (ix2 u q) = 0 := Ideal.ofBits_zero_f32
theorem k0_pay4_at (u : Fin 1) (q : Fin 128) : k0_pay4 (F := Ideal) (ix2 u q) = 0 := Ideal.ofBits_zero_f32

end Cert.KernelIdeal.RegionValue

end
-- ==== Proof.Region0Pieces.lean ====
/-
  What each case of the first perceptron launch's body leaves in its three output blocks, as values of what it read.

  At the first grid point the body stores the perceptron block of its two row blocks, zeroes the two running rows and
  adds to them the block's column sums and the column sums of its squares; at every later point it adds the same to
  the rows the point before left.  Each output block is covered by its last store, so it holds that store's value;
  a row read back after being zeroed reads the zero row.
-/
import proofs.«147060_j15040975470999_1_alg».proof.Proof.Gen.KernelIdeal.Frame
import Idealize.ShloMosaic.Lib.Pipeline.Value
import Idealize.ShloMosaic.Lib.Tactic
import proofs.«147060_j15040975470999_1_alg».proof.Proof.GinBlock

noncomputable section

namespace Cert.KernelIdeal.RegionValue

open Idealize.ShloMosaic Idealize.ShloMosaic.TcCoe Idealize.SL.Sem Cert.KernelIdeal Cert.KernelIdeal.Gen
open Cert.Gin.Block (off_zero)

variable {F : FTy → Type} [FloatOps F]

/-- First point, the rows' block: the perceptron block of the two row blocks. -/
theorem out0_A_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay2 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S5000x128) off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- First point, the running sums: the zero row plus the block's column sums. -/
theorem out0_A_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 (k0_pay3 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) off_zero, View.readCov_unit_zero (S := S1x128) _ off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- First point, the running sums of squares: the zero row plus the column sums of the block's squares. -/
theorem out0_A_8_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay2 x0 x1 x2 x3 x4 x5) (k0_pay4 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) off_zero, View.readCov_unit_zero (S := S1x128) _ off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- A later point, the rows' block: the perceptron block of the two row blocks. -/
theorem out0_B_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay2 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S5000x128) off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- A later point, the running sums: the row the point before left plus the block's column sums. -/
theorem out0_B_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S1x128) off_zero]
  simp only [View.readAt_eq_ld, harg1.read_unread, harg2.read_unread, harg3.read_unread, harg4.read_unread, harg5.read_unread, harg6.read_unread, harg8.read_unread, View.ld_unit_zero (S := S5000x128) off_zero, View.ld_unit_zero (S := S128x128) off_zero, View.ld_unit_zero (S := S1x128) off_zero]

/-- A later point, the running sums of squares: the row the point before left plus the column sums of the block's squares. -/
theorem out0_B_8_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay2 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S1x128) off_zero]
  simp only [View.readAt_eq_ld, harg1.read_unread, harg2.read_unread, harg3.read_unread, harg4.read_unread, harg5.read_unread, harg6.read_unread, harg9.read_unread, View.ld_unit_zero (S := S5000x128) off_zero, View.ld_unit_zero (S := S128x128) off_zero, View.ld_unit_zero (S := S1x128) off_zero]

end Cert.KernelIdeal.RegionValue

end
-- ==== Proof.Region0Blocks.lean ====
/-
  The blocks the first perceptron launch reads and writes, as entries of its arrays.

  The grid has ten points; at point t the two row windows and the rows' output window hold rows 5000·t … 5000·t + 4999
  of their arrays (block index (t, 0), blocks of 5000 × 128), and the two weights, the two one-row biases and the two
  one-row outputs are whole arrays at every point (block index (0, 0)).  So a row block's entry (p, j) is the array's
  entry (5000·t + p, j), and a whole array's entry is itself.
-/
import proofs.«147060_j15040975470999_1_alg».proof.Proof.Gen.KernelIdeal.Frame
import proofs.«147060_j15040975470999_1_alg».proof.Proof.Spec
import Idealize.ShloMosaic.Lib.Pipeline.Value
import Idealize.ShloMosaic.Lib.ValueIdx

noncomputable section

namespace Cert.KernelIdeal.RegionValue

open Idealize.ShloMosaic Idealize.ShloMosaic.ValueIdx Idealize.ShloMosaic.TcCoe Idealize.SL.Sem Cert.KernelIdeal Cert.KernelIdeal.Gen Cert.Gin

variable {F : FTy → Type} [FloatOps F]
variable (V : (c : Dev nD) → (b : Ref sig .tc) → Buf (Elt F) ((c : Thread nD τ).loc b))

/-- The windows' block indices at each point, decided over the grid: the row windows move with the point … -/
theorem idx0_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0 :=
  (by decide +kernel : ∀ t : Fin grid0.N, _)

/-- … and the others stay at the one block their array is. -/
theorem idx0_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row window 0's block at point t, entry (p, j), is its array's entry (5000·t + p, j). -/
theorem iblk0_0_at (c : Dev nD) (t : Fin cfg0.N) (p : Fin 5000) (j : Fin 128) (r : Fin 50000)
    (hr : r.val = 5000 * t.val + p.val) :
    (iblk0 V c 0 t : Vec F S5000x128 .f32) (ix2 p j) = (V c (Pipeline.arrRef spec0 0) : SN.Idx → Elt F .f32) (ix2 r j) := by
  have e := idx0_rows t
  unfold iblk0
  rw [View.read_apply]
  refine congrArg (V c (Pipeline.arrRef spec0 0)) ?_
  funext a
  apply Fin.ext
  match a with
  | ⟨0, _⟩ => show win0_0.index t 0 * 5000 + 1 * p.val = r.val; rw [e.1, hr]; omega
  | ⟨1, _⟩ => show win0_0.index t 1 * 128 + 1 * j.val = j.val; rw [e.2.1]; omega

/-- Row window 1's block at point t, entry (p, j), is its array's entry (5000·t + p, j). -/
theorem iblk0_1_at (c : Dev nD) (t : Fin cfg0.N) (p : Fin 5000) (j : Fin 128) (r : Fin 50000)
    (hr : r.val = 5000 * t.val + p.val) :
    (iblk0 V c 1 t : Vec F S5000x128 .f32) (ix2 p j) = (V c (Pipeline.arrRef spec0 1) : SN.Idx → Elt F .f32) (ix2 r j) := by
  have e := idx0_rows t
  unfold iblk0
  rw [View.read_apply]
  refine congrArg (V c (Pipeline.arrRef spec0 1)) ?_
  funext a
  apply Fin.ext
  match a with
  | ⟨0, _⟩ => show win0_1.index t 0 * 5000 + 1 * p.val = r.val; rw [e.2.2.1, hr]; omega
  | ⟨1, _⟩ => show win0_1.index t 1 * 128 + 1 * j.val = j.val; rw [e.2.2.2.1]; omega

/-- Weight window 2 holds its whole array at every point. -/
theorem iblk0_2_at (c : Dev nD) (t : Fin cfg0.N) (j k : Fin 128) :
    (iblk0 V c 2 t : Vec F S128x128 .f32) (ix2 j k) = (V c (Pipeline.arrRef spec0 2) : SW.Idx → Elt F .f32) (ix2 j k) := by
  have e := idx0_whole t
  unfold iblk0
  rw [View.read_apply]
  refine congrArg (V c (Pipeline.arrRef spec0 2)) ?_
  funext a
  apply Fin.ext
  match a with
  | ⟨0, _⟩ => show win0_2.index t 0 * 128 + 1 * j.val = j.val; rw [e.1]; omega
  | ⟨1, _⟩ => show win0_2.index t 1 * 128 + 1 * k.val = k.val; rw [e.2.1]; omega

/-- Bias window 3 holds its whole one-row array at every point. -/
theorem iblk0_3_at (c : Dev nD) (t : Fin cfg0.N) (u : Fin 1) (k : Fin 128) :
    (iblk0 V c 3 t : Vec F S1x128 .f32) (ix2 u k) = (V c (Pipeline.arrRef spec0 3) : SR.Idx → Elt F .f32) (ix2 u k) := by
  have e := idx0_whole t
  unfold iblk0
  rw [View.read_apply]
  refine congrArg (V c (Pipeline.arrRef spec0 3)) ?_
  funext a
  apply Fin.ext
  match a with
  | ⟨0, _⟩ => show win0_3.index t 0 * 1 + 1 * u.val = u.val; rw [e.2.2.1]; omega
  | ⟨1, _⟩ => show win0_3.index t 1 * 128 + 1 * k.val = k.val; rw [e.2.2.2.1]; omega

/-- Weight window 4 holds its whole array at every point. -/
theorem iblk0_4_at (c : Dev nD) (t : Fin cfg0.N) (j k : Fin 128) :
    (iblk0 V c 4 t : Vec F S128x128 .f32) (ix2 j k) = (V c (Pipeline.arrRef spec0 4) : SW.Idx → Elt F .f32) (ix2 j k) := by
  have e := idx0_whole t
  unfold iblk0
  rw [View.read_apply]
  refine congrArg (V c (Pipeline.arrRef spec0 4)) ?_
  funext a
  apply Fin.ext
  match a with
  | ⟨0, _⟩ => show win0_4.index t 0 * 128 + 1 * j.val = j.val; rw [e.2.2.2.2.1]; omega
  | ⟨1, _⟩ => show win0_4.index t 1 * 128 + 1 * k.val = k.val; rw [e.2.2.2.2.2.1]; omega

/-- Bias window 5 holds its whole one-row array at every point. -/
theorem iblk0_5_at (c : Dev nD) (t : Fin cfg0.N) (u : Fin 1) (k : Fin 128) :
    (iblk0 V c 5 t : Vec F S1x128 .f32) (ix2 u k) = (V c (Pipeline.arrRef spec0 5) : SR.Idx → Elt F .f32) (ix2 u k) := by
  have e := idx0_whole t
  unfold iblk0
  rw [View.read_apply]
  refine congrArg (V c (Pipeline.arrRef spec0 5)) ?_
  funext a
  apply Fin.ext
  match a with
  | ⟨0, _⟩ => show win0_5.index t 0 * 1 + 1 * u.val = u.val; rw [e.2.2.2.2.2.2.1]; omega
  | ⟨1, _⟩ => show win0_5.index t 1 * 128 + 1 * k.val = k.val; rw [e.2.2.2.2.2.2.2.1]; omega

/-! ## Where the output blocks sit in their arrays -/

/-- The rows' output block at point t: entry (p, q) sits at (5000·t + p, q) of the array. -/
theorem emb0_6 (t : Fin cfg0.N) (p : Fin 5000) (q : Fin 128) (r : Fin 50000) (hr : r.val = 5000 * t.val + p.val) :
    ((cfg0.win 6).blk t).view.emb (ix2 p q) = (ix2 r q : SN.Idx) := by
  have e := idx0_rows t
  funext a
  apply Fin.ext
  match a with
  | ⟨0, _⟩ => show win0_6.index t 0 * 5000 + 1 * p.val = r.val; rw [e.2.2.2.2.1, hr]; omega
  | ⟨1, _⟩ => show win0_6.index t 1 * 128 + 1 * q.val = q.val; rw [e.2.2.2.2.2]; omega

/-- The one-row output blocks are their whole arrays. -/
theorem emb0_7 (t : Fin cfg0.N) (u : Fin 1) (q : Fin 128) :
    ((cfg0.win 7).blk t).view.emb (ix2 u q) = (ix2 u q : SR.Idx) := by
  have e := idx0_whole t
  funext a
  apply Fin.ext
  match a with
  | ⟨0, _⟩ => show win0_7.index t 0 * 1 + 1 * u.val = u.val; rw [e.2.2.2.2.2.2.2.2.1]; omega
  | ⟨1, _⟩ => show win0_7.index t 1 * 128 + 1 * q.val = q.val; rw [e.2.2.2.2.2.2.2.2.2.1]; omega

theorem emb0_8 (t : Fin cfg0.N) (u : Fin 1) (q : Fin 128) :
    ((cfg0.win 8).blk t).view.emb (ix2 u q) = (ix2 u q : SR.Idx) := by
  have e := idx0_whole t
  funext a
  apply Fin.ext
  match a with
  | ⟨0, _⟩ => show win0_8.index t 0 * 1 + 1 * u.val = u.val; rw [e.2.2.2.2.2.2.2.2.2.2.1]; omega
  | ⟨1, _⟩ => show win0_8.index t 1 * 128 + 1 * q.val = q.val; rw [e.2.2.2.2.2.2.2.2.2.2.2]; omega

/-- An index of the rows' array is in point t's block iff each coordinate is in the block's range on its axis. -/
theorem mem_blk0_6 (t : Fin cfg0.N) (i : SN.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24_0).slice (win0_6.rect t)).set ↔ _
  rw [View.set_slice_whole, Rect.mem_set_unit]
  exact Iff.rfl

theorem mem_blk0_7 (t : Fin cfg0.N) (i : SR.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v24_1).slice (win0_7.rect t)).set ↔ _
  rw [View.set_slice_whole, Rect.mem_set_unit]
  exact Iff.rfl

theorem mem_blk0_8 (t : Fin cfg0.N) (i : SR.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v24_2).slice (win0_8.rect t)).set ↔ _
  rw [View.set_slice_whole, Rect.mem_set_unit]
  exact Iff.rfl

end Cert.KernelIdeal.RegionValue

end
-- ==== Proof.Region0Acc.lean ====
/-
  What the first perceptron launch's three output blocks hold after each grid point, as entries of the layer's rows.

  Write Z for the layer's rows computed from the arrays the launch finds.  After point t the rows' block holds rows
  5000·t … 5000·t + 4999 of Z; the two one-row blocks hold, at column q, the sums over the rows of the blocks
  0, …, t — that is over rows 0 … 5000·(t + 1) − 1 — of Z[r, q] and of Z[r, q]²: the first point starts them from
  zero, every later point adds its block's column sums to what the point before left.  By induction on the point.
-/
import proofs.«147060_j15040975470999_1_alg».proof.Proof.Region0Pay
import proofs.«147060_j15040975470999_1_alg».proof.Proof.Region0Pieces
import proofs.«147060_j15040975470999_1_alg».proof.Proof.Region0Blocks

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen Cert.Gin Cert.Gin.Block

variable (V : (c : Dev nD) → (b : Ref sig .tc) → Buf (Elt Ideal) ((c : Thread nD τ).loc b))

/-- The layer's rows, from the arrays the launch finds. -/
abbrev rows0 (c : Dev nD) : FVec Ideal SN .f32 :=
  zArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))

/-! ## The three blocks after a point, case by case -/

/-- The rows' block after the first point is the perceptron block of the point's row blocks … -/
theorem outsAt0_rows_A (c : Dev nD) (t : Fin cfg0.N) (h0 : t.val % 10 = 0) :
    (outsAt0 V c t.val t.isLt).1 = k0_pay2 (iblk0 V c 0 t) (iblk0 V c 1 t) (iblk0 V c 2 t) (iblk0 V c 3 t) (iblk0 V c 4 t) (iblk0 V c 5 t) := by
  rw [outsAt0_A V c t h0]
  dsimp only
  exact out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)

/-- … and so it is after every later point. -/
theorem outsAt0_rows_B (c : Dev nD) (t : Fin cfg0.N) (h0 : ¬t.val % 10 = 0) :
    (outsAt0 V c t.val t.isLt).1 = k0_pay2 (iblk0 V c 0 t) (iblk0 V c 1 t) (iblk0 V c 2 t) (iblk0 V c 3 t) (iblk0 V c 4 t) (iblk0 V c 5 t) := by
  rw [outsAt0_B V c t h0]
  dsimp only
  exact out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

theorem outsAt0_rows (c : Dev nD) (t : Fin cfg0.N) :
    (outsAt0 V c t.val t.isLt).1 = k0_pay2 (iblk0 V c 0 t) (iblk0 V c 1 t) (iblk0 V c 2 t) (iblk0 V c 3 t) (iblk0 V c 4 t) (iblk0 V c 5 t) :=
  if h0 : t.val % 10 = 0 then outsAt0_rows_A V c t h0 else outsAt0_rows_B V c t h0

/-- The running sums after the first point: zero plus the block's column sums. -/
theorem outsAt0_sum_A (c : Dev nD) (t : Fin cfg0.N) (h0 : t.val % 10 = 0) :
    (outsAt0 V c t.val t.isLt).2.1 = k0_pay5 (iblk0 V c 0 t) (iblk0 V c 1 t) (iblk0 V c 2 t) (iblk0 V c 3 t) (iblk0 V c 4 t) (iblk0 V c 5 t) (k0_pay3 (F := Ideal)) := by
  rw [outsAt0_A V c t h0]
  dsimp only
  exact out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)

/-- The running sums after a later point: what the point before left plus the block's column sums. -/
theorem outsAt0_sum_B (c : Dev nD) (t : Fin cfg0.N) (h0 : ¬t.val % 10 = 0) :
    (outsAt0 V c t.val t.isLt).2.1 = k0_pay5 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 := by
  rw [outsAt0_B V c t h0]
  dsimp only
  exact out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- The running sums of squares after the first point. -/
theorem outsAt0_sq_A (c : Dev nD) (t : Fin cfg0.N) (h0 : t.val % 10 = 0) :
    (outsAt0 V c t.val t.isLt).2.2 = k0_pay1 (k0_pay2 (iblk0 V c 0 t) (iblk0 V c 1 t) (iblk0 V c 2 t) (iblk0 V c 3 t) (iblk0 V c 4 t) (iblk0 V c 5 t)) (k0_pay4 (F := Ideal)) := by
  rw [outsAt0_A V c t h0]
  dsimp only
  exact out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)

/-- The running sums of squares after a later point. -/
theorem outsAt0_sq_B (c : Dev nD) (t : Fin cfg0.N) (h0 : ¬t.val % 10 = 0) :
    (outsAt0 V c t.val t.isLt).2.2 = k0_pay1 (k0_pay2 (iblk0 V c 0 t) (iblk0 V c 1 t) (iblk0 V c 2 t) (iblk0 V c 3 t) (iblk0 V c 4 t) (iblk0 V c 5 t)) (outsAt0 V c (t.val - 1) (Nat.lt_of_le_of_lt (Nat.sub_le _ _) t.isLt)).2.2 := by
  rw [outsAt0_B V c t h0]
  dsimp only
  exact out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-! ## A point's block is a block of rows of Z -/

/-- The perceptron of the point's blocks at (p, q) is Z at row 5000·t + p: the row blocks read those rows, the weights
    and biases are the whole arrays. -/
theorem blockVal_iblk0 (c : Dev nD) (t : Fin cfg0.N) (p : Fin 5000) (q : Fin 128) (r : Fin 50000)
    (hr : r.val = 5000 * t.val + p.val) :
    blockVal (T := 5000) (K := 128) (D := 128) (iblk0 V c 0 t) (iblk0 V c 1 t) (iblk0 V c 2 t) (iblk0 V c 3 t) (iblk0 V c 4 t) (iblk0 V c 5 t) p q = rows0 V c (ix2 r q) := by
  show _ = zVal _ _ _ _ _ _ r q
  unfold blockVal zVal
  refine congrArg₂ (· + ·) (Finset.sum_congr rfl fun k _ => ?_) (iblk0_5_at V c t 0 q)
  refine congrArg₂ (· * ·) (congrArg (fun s => max s 0) ?_) (iblk0_4_at V c t k q)
  refine congrArg₂ (· + ·) (Finset.sum_congr rfl fun j _ => ?_) (iblk0_3_at V c t 0 k)
  exact congrArg₂ (· * ·) (congrArg₂ (· + ·) (iblk0_0_at V c t p j r hr) (iblk0_1_at V c t p j r hr)) (iblk0_2_at V c t j k)

/-- The same, the row given by its number. -/
theorem blockVal_row0 (c : Dev nD) (t : Fin cfg0.N) (p : Fin 5000) (q : Fin 128) :
    blockVal (T := 5000) (K := 128) (D := 128) (iblk0 V c 0 t) (iblk0 V c 1 t) (iblk0 V c 2 t) (iblk0 V c 3 t) (iblk0 V c 4 t) (iblk0 V c 5 t) p q
      = rowFn (fun r : Fin 50000 => rows0 V c (ix2 r q)) (5000 * t.val + p.val) := by
  have hN : cfg0.N = 10 := N_0
  have hlt : 5000 * t.val + p.val < 50000 := by have := t.isLt; have := p.isLt; omega
  rw [rowFn_of_lt _ _ hlt]
  exact blockVal_iblk0 V c t p q ⟨_, hlt⟩ rfl

/-- The stored block's entry at (p, q) is Z at row 5000·t + p. -/
theorem pay2_row0 (c : Dev nD) (t : Fin cfg0.N) (p : Fin 5000) (q : Fin 128) (r : Fin 50000)
    (hr : r.val = 5000 * t.val + p.val) :
    k0_pay2 (F := Ideal) (iblk0 V c 0 t) (iblk0 V c 1 t) (iblk0 V c 2 t) (iblk0 V c 3 t) (iblk0 V c 4 t) (iblk0 V c 5 t) (ix2 p q) = rows0 V c (ix2 r q) :=
  (k0_pay2_at (iblk0 V c 0 t) (iblk0 V c 1 t) (iblk0 V c 2 t) (iblk0 V c 3 t) (iblk0 V c 4 t) (iblk0 V c 5 t) p q).trans (blockVal_iblk0 V c t p q r hr)

/-- Its square, the row given by its number. -/
theorem pay2_sq_row0 (c : Dev nD) (t : Fin cfg0.N) (p : Fin 5000) (q : Fin 128) :
    k0_pay2 (F := Ideal) (iblk0 V c 0 t) (iblk0 V c 1 t) (iblk0 V c 2 t) (iblk0 V c 3 t) (iblk0 V c 4 t) (iblk0 V c 5 t) (ix2 p q) * k0_pay2 (F := Ideal) (iblk0 V c 0 t) (iblk0 V c 1 t) (iblk0 V c 2 t) (iblk0 V c 3 t) (iblk0 V c 4 t) (iblk0 V c 5 t) (ix2 p q)
      = rowFn (fun r : Fin 50000 => rows0 V c (ix2 r q) * rows0 V c (ix2 r q)) (5000 * t.val + p.val) := by
  have hN : cfg0.N = 10 := N_0
  have hlt : 5000 * t.val + p.val < 50000 := by have := t.isLt; have := p.isLt; omega
  have e := pay2_row0 V c t p q ⟨_, hlt⟩ rfl
  rw [rowFn_of_lt _ _ hlt]
  exact congrArg₂ (· * ·) e e

/-! ## The running sums, by induction on the point -/

/-- After point n the two one-row blocks hold, at column q, the sums over the blocks 0, …, n of the rows' entries of
    Z and of their squares. -/
theorem outsAt0_sums (c : Dev nD) (q : Fin 128) : ∀ (n : ℕ) (hn : n < cfg0.N) (u : Fin 1),
    ((outsAt0 V c n hn).2.1 : FVec Ideal S1x128 .f32) (ix2 u q)
        = ∑ k ∈ Finset.range (n + 1), ∑ p : Fin 5000, rowFn (fun r : Fin 50000 => rows0 V c (ix2 r q)) (5000 * k + p.val)
    ∧ ((outsAt0 V c n hn).2.2 : FVec Ideal S1x128 .f32) (ix2 u q)
        = ∑ k ∈ Finset.range (n + 1), ∑ p : Fin 5000,
            rowFn (fun r : Fin 50000 => rows0 V c (ix2 r q) * rows0 V c (ix2 r q)) (5000 * k + p.val)
  | 0, hn, u => by
    constructor
    · refine (congrFun (outsAt0_sum_A V c ⟨0, hn⟩ (Nat.zero_mod 10)) (ix2 u q)).trans ?_
      refine (k0_pay5_at (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay3 (F := Ideal)) u q).trans ?_
      rw [k0_pay3_at, zero_add, Finset.sum_range_succ, Finset.sum_range_zero, zero_add]
      exact Finset.sum_congr rfl fun p _ => blockVal_row0 V c ⟨0, hn⟩ p q
    · refine (congrFun (outsAt0_sq_A V c ⟨0, hn⟩ (Nat.zero_mod 10)) (ix2 u q)).trans ?_
      refine (k0_pay1_at (k0_pay2 (F := Ideal) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (k0_pay4 (F := Ideal)) u q).trans ?_
      rw [k0_pay4_at, zero_add, Finset.sum_range_succ, Finset.sum_range_zero, zero_add]
      exact Finset.sum_congr rfl fun p _ => pay2_sq_row0 V c ⟨0, hn⟩ p q
  | n + 1, hn, u => by
    have hN : cfg0.N = 10 := N_0
    have hB : ¬(⟨n + 1, hn⟩ : Fin cfg0.N).val % 10 = 0 := by dsimp only; omega
    obtain ⟨ih7, ih8⟩ := outsAt0_sums c q n (Nat.lt_of_succ_lt hn) u
    constructor
    · refine (congrFun (outsAt0_sum_B V c ⟨n + 1, hn⟩ hB) (ix2 u q)).trans ?_
      refine (k0_pay5_at (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) _ u q).trans ?_
      rw [Finset.sum_range_succ _ (n + 1)]
      exact congrArg₂ (· + ·) ih7 (Finset.sum_congr rfl fun p _ => blockVal_row0 V c ⟨n + 1, hn⟩ p q)
    · refine (congrFun (outsAt0_sq_B V c ⟨n + 1, hn⟩ hB) (ix2 u q)).trans ?_
      refine (k0_pay1_at (k0_pay2 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) _ u q).trans ?_
      rw [Finset.sum_range_succ _ (n + 1)]
      exact congrArg₂ (· + ·) ih8 (Finset.sum_congr rfl fun p _ => pay2_sq_row0 V c ⟨n + 1, hn⟩ p q)

end Cert.KernelIdeal.RegionValue

end
-- ==== Proof.Region0.lean ====
/-
  What the first perceptron launch leaves in its three output arrays.

  Write Z for the layer's rows computed from the arrays the launch finds.  Every grid point writes its rows' block
  back, block t being rows 5000·t … 5000·t + 4999 of Z, and the ten blocks fill the array: the rows' array ends as Z.
  The two one-row arrays are written back once, after the last point, and then hold the sums over all ten blocks —
  over all 50000 rows — of Z[r, q] and of Z[r, q]²: the column sums of Z and of its squares.
-/
import proofs.«147060_j15040975470999_1_alg».proof.Proof.Region0Acc

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen Cert.Gin Cert.Gin.Block
open Idealize.ShloMosaic.Pipeline (Dat)

section

variable (V : (c : Dev nD) → (b : Ref sig .tc) → Buf (Elt Ideal) ((c : Thread nD τ).loc b))

/-! ## The rows -/

/-- The rows' block after point t, entry y, is Z where the block's entry y sits in the array. -/
theorem flushed0_6_at (c : Dev nD) (t : Fin cfg0.N) (y : S5000x128.Idx) :
    k0_pay2 (F := Ideal) (iblk0 V c 0 t) (iblk0 V c 1 t) (iblk0 V c 2 t) (iblk0 V c 3 t) (iblk0 V c 4 t) (iblk0 V c 5 t) y = rows0 V c (((cfg0.win 6).blk t).view.emb y) := by
  obtain ⟨p, q, rfl⟩ : ∃ (p : Fin 5000) (q : Fin 128), y = ix2 p q := ⟨y 0, y 1, eq_ix2 y⟩
  have hN : cfg0.N = 10 := N_0
  have hlt : 5000 * t.val + p.val < 50000 := by have := t.isLt; have := p.isLt; omega
  rw [emb0_6 t p q ⟨_, hlt⟩ rfl]
  exact pay2_row0 V c t p q ⟨_, hlt⟩ rfl

/-- What point t writes back to the rows' array is block t of Z. -/
theorem flushed0_6 (c : Dev nD) (t : Fin cfg0.N) :
    (dat0 V c).flushed 6 t = ((cfg0.win 6).blk t).view.read (Elt Ideal) (rows0 V c) := by
  show (cfg0.win 6).cut (grid0.coords t) ((dat0 V c).after 6 t) = _
  rw [after0_6, outsAt0_rows V c t]
  funext y
  exact flushed0_6_at V c t y

/-- Every row is in some point's block: row r in the block of point r / 5000. -/
theorem cover0_6 (i : SN.Idx) :
    ∃ t : Fin cfg0.N, (cfg0.win 6).flush t = true ∧ i ∈ ((cfg0.win 6).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  have e := idx0_rows t
  refine ⟨t, flush0_6 t, ?_⟩
  rw [mem_blk0_6]
  intro a
  match a with
  | ⟨0, _⟩ => show win0_6.index t 0 * 5000 ≤ (i 0).val ∧ (i 0).val < win0_6.index t 0 * 5000 + 5000; rw [e.2.2.2.2.1, ht]; omega
  | ⟨1, _⟩ => show win0_6.index t 1 * 128 ≤ (i 1).val ∧ (i 1).val < win0_6.index t 1 * 128 + 128; rw [e.2.2.2.2.2]; omega

/-! ## The column sums -/

/-- Reading a one-row array through the sums' window's block reads the array where the block's entry sits. -/
theorem read0_7 (t : Fin cfg0.N) (G : FVec Ideal SR .f32) (y : S1x128.Idx) :
    ((cfg0.win 7).blk t).view.read (Elt Ideal) G y = G (((cfg0.win 7).blk t).view.emb y) := rfl

theorem read0_8 (t : Fin cfg0.N) (G : FVec Ideal SR .f32) (y : S1x128.Idx) :
    ((cfg0.win 8).blk t).view.read (Elt Ideal) G y = G (((cfg0.win 8).blk t).view.emb y) := rfl

/-- After the last point the running sums are the column sums of Z: the ten blocks of 5000 rows are all its rows. -/
theorem flushed0_7_at (c : Dev nD) (t : Fin cfg0.N) (h9 : t.val = 9) (y : S1x128.Idx) :
    ((outsAt0 V c t.val t.isLt).2.1 : FVec Ideal S1x128 .f32) y
      = ((cfg0.win 7).blk t).view.read (Elt Ideal) (colSum (rows0 V c)) y := by
  obtain ⟨u, q, rfl⟩ : ∃ (u : Fin 1) (q : Fin 128), y = ix2 u q := ⟨y 0, y 1, eq_ix2 y⟩
  rw [read0_7 t (colSum (rows0 V c)) (ix2 u q), emb0_7 t u q, colSum_apply]
  refine ((outsAt0_sums V c q t.val t.isLt u).1).trans ?_
  have hs := sum_blocks_rows 10 5000 (by norm_num) (fun r : Fin 50000 => rows0 V c (ix2 r q))
  rw [h9]
  exact hs

theorem flushed0_8_at (c : Dev nD) (t : Fin cfg0.N) (h9 : t.val = 9) (y : S1x128.Idx) :
    ((outsAt0 V c t.val t.isLt).2.2 : FVec Ideal S1x128 .f32) y
      = ((cfg0.win 8).blk t).view.read (Elt Ideal) (colSumSq (rows0 V c)) y := by
  obtain ⟨u, q, rfl⟩ : ∃ (u : Fin 1) (q : Fin 128), y = ix2 u q := ⟨y 0, y 1, eq_ix2 y⟩
  rw [read0_8 t (colSumSq (rows0 V c)) (ix2 u q), emb0_8 t u q, colSumSq_apply]
  refine ((outsAt0_sums V c q t.val t.isLt u).2).trans ?_
  have hs := sum_blocks_rows 10 5000 (by norm_num) (fun r : Fin 50000 => rows0 V c (ix2 r q) * rows0 V c (ix2 r q))
  rw [h9]
  exact hs

/-- The one write-back of the sums, after the last point, writes the column sums of Z. -/
theorem flushed0_7 (c : Dev nD) (t : Fin cfg0.N) (hf : (cfg0.win 7).flush t = true) :
    (dat0 V c).flushed 7 t = ((cfg0.win 7).blk t).view.read (Elt Ideal) (colSum (rows0 V c)) := by
  have hN : cfg0.N = 10 := N_0
  have h9 : t.val = 9 := by have := (flush0_7 t).mp hf; have := t.isLt; omega
  show (cfg0.win 7).cut (grid0.coords t) ((dat0 V c).after 7 t) = _
  rw [after0_7]
  funext y
  exact flushed0_7_at V c t h9 y

theorem flushed0_8 (c : Dev nD) (t : Fin cfg0.N) (hf : (cfg0.win 8).flush t = true) :
    (dat0 V c).flushed 8 t = ((cfg0.win 8).blk t).view.read (Elt Ideal) (colSumSq (rows0 V c)) := by
  have hN : cfg0.N = 10 := N_0
  have h9 : t.val = 9 := by have := (flush0_8 t).mp hf; have := t.isLt; omega
  show (cfg0.win 8).cut (grid0.coords t) ((dat0 V c).after 8 t) = _
  rw [after0_8]
  funext y
  exact flushed0_8_at V c t h9 y

/-- The last point's block is the whole one-row array. -/
theorem cover0_7 (i : SR.Idx) :
    ∃ t : Fin cfg0.N, (cfg0.win 7).flush t = true ∧ i ∈ ((cfg0.win 7).blk t).view.set := by
  have hN : cfg0.N = 10 := N_0
  have h0 : (i 0).val < 1 := (i 0).isLt
  have h1 : (i 1).val < 128 := (i 1).isLt
  obtain ⟨t, ht⟩ : ∃ t : Fin cfg0.N, t.val = 9 := ⟨⟨9, by rw [hN]; decide⟩, rfl⟩
  have e := idx0_whole t
  refine ⟨t, (flush0_7 t).mpr (by rw [ht]), ?_⟩
  rw [mem_blk0_7]
  intro a
  match a with
  | ⟨0, _⟩ => show win0_7.index t 0 * 1 ≤ (i 0).val ∧ (i 0).val < win0_7.index t 0 * 1 + 1; rw [e.2.2.2.2.2.2.2.2.1]; omega
  | ⟨1, _⟩ => show win0_7.index t 1 * 128 ≤ (i 1).val ∧ (i 1).val < win0_7.index t 1 * 128 + 128; rw [e.2.2.2.2.2.2.2.2.2.1]; omega

theorem cover0_8 (i : SR.Idx) :
    ∃ t : Fin cfg0.N, (cfg0.win 8).flush t = true ∧ i ∈ ((cfg0.win 8).blk t).view.set := by
  have hN : cfg0.N = 10 := N_0
  have h0 : (i 0).val < 1 := (i 0).isLt
  have h1 : (i 1).val < 128 := (i 1).isLt
  obtain ⟨t, ht⟩ : ∃ t : Fin cfg0.N, t.val = 9 := ⟨⟨9, by rw [hN]; decide⟩, rfl⟩
  have e := idx0_whole t
  refine ⟨t, (flush0_8 t).mpr (by rw [ht]), ?_⟩
  rw [mem_blk0_8]
  intro a
  match a with
  | ⟨0, _⟩ => show win0_8.index t 0 * 1 ≤ (i 0).val ∧ (i 0).val < win0_8.index t 0 * 1 + 1; rw [e.2.2.2.2.2.2.2.2.2.2.1]; omega
  | ⟨1, _⟩ => show win0_8.index t 1 * 128 ≤ (i 1).val ∧ (i 1).val < win0_8.index t 1 * 128 + 128; rw [e.2.2.2.2.2.2.2.2.2.2.2]; omega

end

/-! ## The three arrays after the launch -/

set_option maxHeartbeats 4000000 in
/-- The rows' array ends as the layer's rows. -/
theorem region0_z : ∀ (V : (c : Dev nD) → (b : Ref sig .tc) → Buf (Elt Ideal) ((c : Thread nD τ).loc b)) (c : Dev nD), (dat0 (F := Ideal) V c).arrAt 6 cfg0.N
      = zArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  fun V c => (dat0 V c).arrAt_eq_of_cover 6 (rows0 V c) (fun t _ => flushed0_6 V c t) cover0_6

set_option maxHeartbeats 4000000 in
/-- The sums' array ends as the column sums of the layer's rows. -/
theorem region0_s : ∀ (V : (c : Dev nD) → (b : Ref sig .tc) → Buf (Elt Ideal) ((c : Thread nD τ).loc b)) (c : Dev nD), (dat0 (F := Ideal) V c).arrAt 7 cfg0.N
      = colSum (zArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  fun V c => (dat0 V c).arrAt_eq_of_cover 7 (colSum (rows0 V c)) (flushed0_7 V c) cover0_7

set_option maxHeartbeats 4000000 in
/-- The squares' array ends as the column sums of the squares of the layer's rows. -/
theorem region0_q : ∀ (V : (c : Dev nD) → (b : Ref sig .tc) → Buf (Elt Ideal) ((c : Thread nD τ).loc b)) (c : Dev nD), (dat0 (F := Ideal) V c).arrAt 8 cfg0.N
      = colSumSq (zArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  fun V c => (dat0 V c).arrAt_eq_of_cover 8 (colSumSq (rows0 V c)) (flushed0_8 V c) cover0_8

end Cert.KernelIdeal.RegionValue

end
-- ==== Proof.Region1.lean ====
/-
  The first rescaling launch, read as a whole array. The launch walks the 50000 rows in ten blocks of 5000; at every
  block it multiplies each entry by its column's scale, adds the column's shift and rectifies. Each block's result is
  the same function of the entries whatever the block, so the ten write-backs together leave, at row r and column n,
      max (z[r, n] · scale[n] + shift[n]) 0
  of the arrays z, scale, shift the launch found.
-/
import proofs.«147060_j15040975470999_1_alg».proof.Proof.Gen.KernelIdeal.Frame
import proofs.«147060_j15040975470999_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.ValueIdx Idealize.ShloMosaic.TcCoe Idealize.SL.Sem
open Cert.KernelIdeal Cert.KernelIdeal.Gen Cert.Gin
open Idealize.ShloMosaic.Pipeline (Dat)

/-- The block's value at row p and column q: the entry times the column's scale plus the column's shift, rectified.
    The row of scales and the row of shifts are spread over the 5000 rows, so both are read at (0, q); the constant
    the maximum is taken against is the zero word, whose value is 0. -/
theorem pay1_at (x0 : Vec Ideal S5000x128 .f32) (x1 x2 : Vec Ideal S1x128 .f32) (p : Fin 5000) (q : Fin 128) :
    k1_pay1 (F := Ideal) x0 x1 x2 (ix2 p q)
      = max (x0 (ix2 p q) * x1 (ix2 (0 : Fin 1) q) + x2 (ix2 (0 : Fin 1) q)) 0 := by
  unfold k1_pay1
  rw [maximumf_apply, addf_apply, mulf_apply, broadcast_apply, shapeCast_self, shapeCast_self, shapeCast_self,
    broadcastTo_1b_ab_apply, broadcastTo_1b_ab_apply]
  exact congrArg (max _) Ideal.ofBits_zero_f32

theorem zeroOff1 : (![0, 0] : Fin 2 → Nat) = fun _ => 0 := funext fun a => by fin_cases a <;> rfl

/-- Where the blocks sit, decided over the ten points: the block of rows of the input and of the output at point t is
    block t along the rows and the only block along the columns; the two rows of parameters are always block (0, 0). -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- Row p of the output's block at point t is row 5000 t + p of the array. -/
theorem emb1_3 (t : Fin cfg1.N) (p : Fin 5000) (q : Fin 128) (r : Fin 50000) (hr : r.val = t.val * 5000 + p.val) :
    ((cfg1.win 3).blk t).view.emb (ix2 p q) = (ix2 r q : S50000x128.Idx) := by
  obtain ⟨-, -, -, -, -, -, e6, e7⟩ := blockIdx1 t
  funext a; apply Fin.ext
  match a with
  | ⟨0, _⟩ => show win1_3.index t (0 : Fin 2) * 5000 + 1 * p.val = r.val; rw [e6, hr]; omega
  | ⟨1, _⟩ => show win1_3.index t (1 : Fin 2) * 128 + 1 * q.val = q.val; rw [e7]; omega

/-- Row p of the input's block at point t is row 5000 t + p of the array the launch found. -/
theorem iblk1_0_at (c : Dev nD) (t : Fin cfg1.N) (p : Fin 5000) (q : Fin 128) (r : Fin 50000)
    (hr : r.val = t.val * 5000 + p.val) :
    (iblk1 V c 0 t : Vec Ideal S5000x128 .f32) (ix2 p q)
      = (V c (Pipeline.arrRef spec1 0) : S50000x128.Idx → Elt Ideal .f32) (ix2 r q) := by
  obtain ⟨e0, e1, -⟩ := blockIdx1 t
  unfold iblk1
  rw [View.read_apply]
  show (V c (Pipeline.arrRef spec1 0) : S50000x128.Idx → Elt Ideal .f32) _ = _
  refine congrArg (V c (Pipeline.arrRef spec1 0) : S50000x128.Idx → Elt Ideal .f32) ?_
  funext a; apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- The block of the row of scales is that row, at every point. -/
theorem iblk1_1_at (c : Dev nD) (t : Fin cfg1.N) (q : Fin 128) :
    (iblk1 V c 1 t : Vec Ideal S1x128 .f32) (ix2 (0 : Fin 1) q)
      = (V c (Pipeline.arrRef spec1 1) : S1x128.Idx → Elt Ideal .f32) (ix2 (0 : Fin 1) q) := by
  obtain ⟨-, -, e2, e3, -⟩ := blockIdx1 t
  unfold iblk1
  rw [View.read_apply]
  show (V c (Pipeline.arrRef spec1 1) : S1x128.Idx → Elt Ideal .f32) _ = _
  refine congrArg (V c (Pipeline.arrRef spec1 1) : S1x128.Idx → Elt Ideal .f32) ?_
  funext a; apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- The block of the row of shifts is that row, at every point. -/
theorem iblk1_2_at (c : Dev nD) (t : Fin cfg1.N) (q : Fin 128) :
    (iblk1 V c 2 t : Vec Ideal S1x128 .f32) (ix2 (0 : Fin 1) q)
      = (V c (Pipeline.arrRef spec1 2) : S1x128.Idx → Elt Ideal .f32) (ix2 (0 : Fin 1) q) := by
  obtain ⟨-, -, -, -, e4, e5, -⟩ := blockIdx1 t
  unfold iblk1
  rw [View.read_apply]
  show (V c (Pipeline.arrRef spec1 2) : S1x128.Idx → Elt Ideal .f32) _ = _
  refine congrArg (V c (Pipeline.arrRef spec1 2) : S1x128.Idx → Elt Ideal .f32) ?_
  funext a; apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

set_option maxHeartbeats 1000000 in
/-- What point t writes back is block t of the rescaled and rectified array. -/
theorem flushed1_eq (c : Dev nD) (t : Fin cfg1.N) :
    (dat1 (F := Ideal) V c).flushed 3 t = ((cfg1.win 3).blk t).view.read (Elt Ideal)
      (affRelu (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zeroOff1]
  simp only [View.ld_unit_zero (S := S5000x128) zeroOff1, View.ld_unit_zero (S := S1x128) zeroOff1]
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
      = affRelu (V c (Pipeline.arrRef spec1 0)) (V c (Pipeline.arrRef spec1 1)) (V c (Pipeline.arrRef spec1 2))
          (((cfg1.win 3).blk t).view.emb (ix2 p q))
  have ht : t.val < 10 := lt_of_lt_of_eq t.isLt N_1
  have hp : p.val < 5000 := p.isLt
  rw [emb1_3 t p q ⟨t.val * 5000 + p.val, by omega⟩ rfl, affRelu_apply]
  refine (pay1_at (iblk1 V c 0 t) (iblk1 V c 1 t) (iblk1 V c 2 t) p q).trans ?_
  rw [iblk1_0_at V c t p q ⟨t.val * 5000 + p.val, by omega⟩ rfl, iblk1_1_at V c t q, iblk1_2_at V c t q]

/-- An index of the array is in point t's block when each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v43).slice (win1_3.rect t)).set ↔ _
  rw [View.set_slice_whole, Rect.mem_set_unit]
  exact Iff.rfl

/-- Every row r lies in the block of point r / 5000, and every point writes its block back. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e6, e7⟩ := blockIdx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 128 ≤ (i 1).val ∧ (i 1).val < win1_3.index t (1 : Fin 2) * 128 + 128
    rw [e7]; omega

/-- The array the first rescaling launch leaves: every entry rescaled by its column's scale, shifted by its column's
    shift and rectified, of the arrays the launch found. -/
theorem region1_h (c : Dev nD) : (dat1 (F := Ideal) V c).arrAt 3 cfg1.N
    = affRelu (V c (Pipeline.arrRef spec1 0)) (V c (Pipeline.arrRef spec1 1)) (V c (Pipeline.arrRef spec1 2)) :=
  (dat1 (F := Ideal) V c).arrAt_eq_of_cover 3
    (affRelu (V c (Pipeline.arrRef spec1 0)) (V c (Pipeline.arrRef spec1 1)) (V c (Pipeline.arrRef spec1 2)))
    (fun t _ => flushed1_eq V c t) cover1

end

end Cert.KernelIdeal.RegionValue

end
-- ==== Proof.Region2Pay.lean ====
/-
  The arithmetic of the second perceptron launch's body at the ideal values, entry by entry.

  The block the body stores in the rows' window is, at (p, q), the two-layer perceptron of the sum of its two row
  blocks (`Cert.Gin.Block.blockVal`); the row it adds to a running row acc is acc[q] plus the column sums of that
  block, and likewise acc[q] plus the column sums of the squares; the two rows it stores at the first point are zero.
-/
import proofs.«147060_j15040975470999_1_alg».proof.Proof.Gen.KernelIdeal.Skeleton
import proofs.«147060_j15040975470999_1_alg».proof.Proof.GinBlock

noncomputable section

open scoped BigOperators

namespace Cert.KernelIdeal.RegionValue

open Idealize.ShloMosaic Idealize.ShloMosaic.ValueIdx Cert.KernelIdeal Cert.KernelIdeal.Gen Cert.Gin.Block

/-- The stored block is the body's spelling of the perceptron block: the casts between equal shapes are the identity. -/
theorem k2_pay2_eq (x0 x1 : FVec Ideal S5000x128 .f32) (w1 : FVec Ideal S128x128 .f32) (b1 : FVec Ideal S1x128 .f32)
    (w2 : FVec Ideal S128x128 .f32) (b2 : FVec Ideal S1x128 .f32) :
    k2_pay2 (F := Ideal) x0 x1 w1 b1 w2 b2
      = block (T := 5000) (K := 128) (D := 128) dot_S5000x128_S128x128_S5000x128_1_0_0_1_n_n.wf
          dot_S5000x128_S128x128_S5000x128_1_0_0_1_n_n.wf broadcasts_S1x128_S5000x128 bitsLt_bf16_f32 x0 x1 w1 b1 w2 b2 := by
  unfold k2_pay2 block
  simp only [shapeCast_self]
  rfl

/-- The stored block at (p, q). -/
theorem k2_pay2_at (x0 x1 : FVec Ideal S5000x128 .f32) (w1 : FVec Ideal S128x128 .f32) (b1 : FVec Ideal S1x128 .f32)
    (w2 : FVec Ideal S128x128 .f32) (b2 : FVec Ideal S1x128 .f32) (p : Fin 5000) (q : Fin 128) :
    k2_pay2 (F := Ideal) x0 x1 w1 b1 w2 b2 (ix2 p q) = blockVal x0 x1 w1 b1 w2 b2 p q :=
  (congrFun (k2_pay2_eq x0 x1 w1 b1 w2 b2) (ix2 p q)).trans (block_at _ _ _ _ x0 x1 w1 b1 w2 b2 p q)

/-- The row added to the running sums: the running row plus the block's column sums. -/
theorem k2_pay5_at (x0 x1 : FVec Ideal S5000x128 .f32) (w1 : FVec Ideal S128x128 .f32) (b1 : FVec Ideal S1x128 .f32)
    (w2 : FVec Ideal S128x128 .f32) (b2 : FVec Ideal S1x128 .f32) (acc : FVec Ideal S1x128 .f32) (u : Fin 1) (q : Fin 128) :
    k2_pay5 (F := Ideal) x0 x1 w1 b1 w2 b2 acc (ix2 u q)
      = acc (ix2 u q) + ∑ p : Fin 5000, blockVal x0 x1 w1 b1 w2 b2 p q := by
  unfold k2_pay5
  dsimp only
  rw [shapeCast_self]
  refine (accRow_at (a := 5000) (b := 128) acc (k2_pay2 (F := Ideal) x0 x1 w1 b1 w2 b2) _ _ _ _ u q).trans ?_
  refine congrArg (fun s => acc (ix2 u q) + s) ?_
  exact Finset.sum_congr rfl fun p _ => k2_pay2_at x0 x1 w1 b1 w2 b2 p q

/-- The row added to the running sums of squares: the running row plus the column sums of the squares of a block. -/
theorem k2_pay1_at (z : FVec Ideal S5000x128 .f32) (acc : FVec Ideal S1x128 .f32) (u : Fin 1) (q : Fin 128) :
    k2_pay1 (F := Ideal) z acc (ix2 u q) = acc (ix2 u q) + ∑ p : Fin 5000, z (ix2 p q) * z (ix2 p q) := by
  unfold k2_pay1
  dsimp only
  rw [shapeCast_self]
  exact accRow_at (a := 5000) (b := 128) acc (mulf z z) _ _ _ _ u q

/-- The rows stored at the first point are zero. -/
theorem k2_pay3_at (u : Fin 1) (q : Fin 128) : k2_pay3 (F := Ideal) (ix2 u q) = 0 := Ideal.ofBits_zero_f32
theorem k2_pay4_at (u : Fin 1) (q : Fin 128) : k2_pay4 (F := Ideal) (ix2 u q) = 0 := Ideal.ofBits_zero_f32

end Cert.KernelIdeal.RegionValue

end
-- ==== Proof.Region2Pieces.lean ====
/-
  What each case of the second perceptron launch's body leaves in its three output blocks, as values of what it read.

  At the first grid point the body stores the perceptron block of its two row blocks, zeroes the two running rows and
  adds to them the block's column sums and the column sums of its squares; at every later point it adds the same to
  the rows the point before left.  Each output block is covered by its last store, so it holds that store's value;
  a row read back after being zeroed reads the zero row.
-/
import proofs.«147060_j15040975470999_1_alg».proof.Proof.Gen.KernelIdeal.Frame
import Idealize.ShloMosaic.Lib.Pipeline.Value
import Idealize.ShloMosaic.Lib.Tactic
import proofs.«147060_j15040975470999_1_alg».proof.Proof.GinBlock

noncomputable section

namespace Cert.KernelIdeal.RegionValue

open Idealize.ShloMosaic Idealize.ShloMosaic.TcCoe Idealize.SL.Sem Cert.KernelIdeal Cert.KernelIdeal.Gen
open Cert.Gin.Block (off_zero)

variable {F : FTy → Type} [FloatOps F]

/-- First point, the rows' block: the perceptron block of the two row blocks. -/
theorem out2_A_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k2_pay2 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_unit_zero (S := S5000x128) off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- First point, the running sums: the zero row plus the block's column sums. -/
theorem out2_A_7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k2_pay5 x0 x1 x2 x3 x4 x5 (k2_pay3 (F := F)) := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) off_zero, View.readCov_unit_zero (S := S1x128) _ off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- First point, the running sums of squares: the zero row plus the column sums of the block's squares. -/
theorem out2_A_8_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k2_pay1 (k2_pay2 x0 x1 x2 x3 x4 x5) (k2_pay4 (F := F)) := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) off_zero, View.readCov_unit_zero (S := S1x128) _ off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- A later point, the rows' block: the perceptron block of the two row blocks. -/
theorem out2_B_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay2 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero (S := S5000x128) off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- A later point, the running sums: the row the point before left plus the block's column sums. -/
theorem out2_B_7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero (S := S1x128) off_zero]
  simp only [View.readAt_eq_ld, harg1.read_unread, harg2.read_unread, harg3.read_unread, harg4.read_unread, harg5.read_unread, harg6.read_unread, harg8.read_unread, View.ld_unit_zero (S := S5000x128) off_zero, View.ld_unit_zero (S := S128x128) off_zero, View.ld_unit_zero (S := S1x128) off_zero]

/-- A later point, the running sums of squares: the row the point before left plus the column sums of the block's squares. -/
theorem out2_B_8_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay1 (k2_pay2 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero (S := S1x128) off_zero]
  simp only [View.readAt_eq_ld, harg1.read_unread, harg2.read_unread, harg3.read_unread, harg4.read_unread, harg5.read_unread, harg6.read_unread, harg9.read_unread, View.ld_unit_zero (S := S5000x128) off_zero, View.ld_unit_zero (S := S128x128) off_zero, View.ld_unit_zero (S := S1x128) off_zero]

end Cert.KernelIdeal.RegionValue

end
-- ==== Proof.Region2Blocks.lean ====
/-
  The blocks the second perceptron launch reads and writes, as entries of its arrays.

  The grid has ten points; at point t the two row windows and the rows' output window hold rows 5000·t … 5000·t + 4999
  of their arrays (block index (t, 0), blocks of 5000 × 128), and the two weights, the two one-row biases and the two
  one-row outputs are whole arrays at every point (block index (0, 0)).  So a row block's entry (p, j) is the array's
  entry (5000·t + p, j), and a whole array's entry is itself.
-/
import proofs.«147060_j15040975470999_1_alg».proof.Proof.Gen.KernelIdeal.Frame
import proofs.«147060_j15040975470999_1_alg».proof.Proof.Spec
import Idealize.ShloMosaic.Lib.Pipeline.Value
import Idealize.ShloMosaic.Lib.ValueIdx

noncomputable section

namespace Cert.KernelIdeal.RegionValue

open Idealize.ShloMosaic Idealize.ShloMosaic.ValueIdx Idealize.ShloMosaic.TcCoe Idealize.SL.Sem Cert.KernelIdeal Cert.KernelIdeal.Gen Cert.Gin

variable {F : FTy → Type} [FloatOps F]
variable (V : (c : Dev nD) → (b : Ref sig .tc) → Buf (Elt F) ((c : Thread nD τ).loc b))

/-- The windows' block indices at each point, decided over the grid: the row windows move with the point … -/
theorem idx2_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0 :=
  (by decide +kernel : ∀ t : Fin grid2.N, _)

/-- … and the others stay at the one block their array is. -/
theorem idx2_whole : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row window 0's block at point t, entry (p, j), is its array's entry (5000·t + p, j). -/
theorem iblk2_0_at (c : Dev nD) (t : Fin cfg2.N) (p : Fin 5000) (j : Fin 128) (r : Fin 50000)
    (hr : r.val = 5000 * t.val + p.val) :
    (iblk2 V c 0 t : Vec F S5000x128 .f32) (ix2 p j) = (V c (Pipeline.arrRef spec2 0) : SN.Idx → Elt F .f32) (ix2 r j) := by
  have e := idx2_rows t
  unfold iblk2
  rw [View.read_apply]
  refine congrArg (V c (Pipeline.arrRef spec2 0)) ?_
  funext a
  apply Fin.ext
  match a with
  | ⟨0, _⟩ => show win2_0.index t 0 * 5000 + 1 * p.val = r.val; rw [e.1, hr]; omega
  | ⟨1, _⟩ => show win2_0.index t 1 * 128 + 1 * j.val = j.val; rw [e.2.1]; omega

/-- Row window 1's block at point t, entry (p, j), is its array's entry (5000·t + p, j). -/
theorem iblk2_1_at (c : Dev nD) (t : Fin cfg2.N) (p : Fin 5000) (j : Fin 128) (r : Fin 50000)
    (hr : r.val = 5000 * t.val + p.val) :
    (iblk2 V c 1 t : Vec F S5000x128 .f32) (ix2 p j) = (V c (Pipeline.arrRef spec2 1) : SN.Idx → Elt F .f32) (ix2 r j) := by
  have e := idx2_rows t
  unfold iblk2
  rw [View.read_apply]
  refine congrArg (V c (Pipeline.arrRef spec2 1)) ?_
  funext a
  apply Fin.ext
  match a with
  | ⟨0, _⟩ => show win2_1.index t 0 * 5000 + 1 * p.val = r.val; rw [e.2.2.1, hr]; omega
  | ⟨1, _⟩ => show win2_1.index t 1 * 128 + 1 * j.val = j.val; rw [e.2.2.2.1]; omega

/-- Weight window 2 holds its whole array at every point. -/
theorem iblk2_2_at (c : Dev nD) (t : Fin cfg2.N) (j k : Fin 128) :
    (iblk2 V c 2 t : Vec F S128x128 .f32) (ix2 j k) = (V c (Pipeline.arrRef spec2 2) : SW.Idx → Elt F .f32) (ix2 j k) := by
  have e := idx2_whole t
  unfold iblk2
  rw [View.read_apply]
  refine congrArg (V c (Pipeline.arrRef spec2 2)) ?_
  funext a
  apply Fin.ext
  match a with
  | ⟨0, _⟩ => show win2_2.index t 0 * 128 + 1 * j.val = j.val; rw [e.1]; omega
  | ⟨1, _⟩ => show win2_2.index t 1 * 128 + 1 * k.val = k.val; rw [e.2.1]; omega

/-- Bias window 3 holds its whole one-row array at every point. -/
theorem iblk2_3_at (c : Dev nD) (t : Fin cfg2.N) (u : Fin 1) (k : Fin 128) :
    (iblk2 V c 3 t : Vec F S1x128 .f32) (ix2 u k) = (V c (Pipeline.arrRef spec2 3) : SR.Idx → Elt F .f32) (ix2 u k) := by
  have e := idx2_whole t
  unfold iblk2
  rw [View.read_apply]
  refine congrArg (V c (Pipeline.arrRef spec2 3)) ?_
  funext a
  apply Fin.ext
  match a with
  | ⟨0, _⟩ => show win2_3.index t 0 * 1 + 1 * u.val = u.val; rw [e.2.2.1]; omega
  | ⟨1, _⟩ => show win2_3.index t 1 * 128 + 1 * k.val = k.val; rw [e.2.2.2.1]; omega

/-- Weight window 4 holds its whole array at every point. -/
theorem iblk2_4_at (c : Dev nD) (t : Fin cfg2.N) (j k : Fin 128) :
    (iblk2 V c 4 t : Vec F S128x128 .f32) (ix2 j k) = (V c (Pipeline.arrRef spec2 4) : SW.Idx → Elt F .f32) (ix2 j k) := by
  have e := idx2_whole t
  unfold iblk2
  rw [View.read_apply]
  refine congrArg (V c (Pipeline.arrRef spec2 4)) ?_
  funext a
  apply Fin.ext
  match a with
  | ⟨0, _⟩ => show win2_4.index t 0 * 128 + 1 * j.val = j.val; rw [e.2.2.2.2.1]; omega
  | ⟨1, _⟩ => show win2_4.index t 1 * 128 + 1 * k.val = k.val; rw [e.2.2.2.2.2.1]; omega

/-- Bias window 5 holds its whole one-row array at every point. -/
theorem iblk2_5_at (c : Dev nD) (t : Fin cfg2.N) (u : Fin 1) (k : Fin 128) :
    (iblk2 V c 5 t : Vec F S1x128 .f32) (ix2 u k) = (V c (Pipeline.arrRef spec2 5) : SR.Idx → Elt F .f32) (ix2 u k) := by
  have e := idx2_whole t
  unfold iblk2
  rw [View.read_apply]
  refine congrArg (V c (Pipeline.arrRef spec2 5)) ?_
  funext a
  apply Fin.ext
  match a with
  | ⟨0, _⟩ => show win2_5.index t 0 * 1 + 1 * u.val = u.val; rw [e.2.2.2.2.2.2.1]; omega
  | ⟨1, _⟩ => show win2_5.index t 1 * 128 + 1 * k.val = k.val; rw [e.2.2.2.2.2.2.2.1]; omega

/-! ## Where the output blocks sit in their arrays -/

/-- The rows' output block at point t: entry (p, q) sits at (5000·t + p, q) of the array. -/
theorem emb2_6 (t : Fin cfg2.N) (p : Fin 5000) (q : Fin 128) (r : Fin 50000) (hr : r.val = 5000 * t.val + p.val) :
    ((cfg2.win 6).blk t).view.emb (ix2 p q) = (ix2 r q : SN.Idx) := by
  have e := idx2_rows t
  funext a
  apply Fin.ext
  match a with
  | ⟨0, _⟩ => show win2_6.index t 0 * 5000 + 1 * p.val = r.val; rw [e.2.2.2.2.1, hr]; omega
  | ⟨1, _⟩ => show win2_6.index t 1 * 128 + 1 * q.val = q.val; rw [e.2.2.2.2.2]; omega

/-- The one-row output blocks are their whole arrays. -/
theorem emb2_7 (t : Fin cfg2.N) (u : Fin 1) (q : Fin 128) :
    ((cfg2.win 7).blk t).view.emb (ix2 u q) = (ix2 u q : SR.Idx) := by
  have e := idx2_whole t
  funext a
  apply Fin.ext
  match a with
  | ⟨0, _⟩ => show win2_7.index t 0 * 1 + 1 * u.val = u.val; rw [e.2.2.2.2.2.2.2.2.1]; omega
  | ⟨1, _⟩ => show win2_7.index t 1 * 128 + 1 * q.val = q.val; rw [e.2.2.2.2.2.2.2.2.2.1]; omega

theorem emb2_8 (t : Fin cfg2.N) (u : Fin 1) (q : Fin 128) :
    ((cfg2.win 8).blk t).view.emb (ix2 u q) = (ix2 u q : SR.Idx) := by
  have e := idx2_whole t
  funext a
  apply Fin.ext
  match a with
  | ⟨0, _⟩ => show win2_8.index t 0 * 1 + 1 * u.val = u.val; rw [e.2.2.2.2.2.2.2.2.2.2.1]; omega
  | ⟨1, _⟩ => show win2_8.index t 1 * 128 + 1 * q.val = q.val; rw [e.2.2.2.2.2.2.2.2.2.2.2]; omega

/-- An index of the rows' array is in point t's block iff each coordinate is in the block's range on its axis. -/
theorem mem_blk2_6 (t : Fin cfg2.N) (i : SN.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v64_0).slice (win2_6.rect t)).set ↔ _
  rw [View.set_slice_whole, Rect.mem_set_unit]
  exact Iff.rfl

theorem mem_blk2_7 (t : Fin cfg2.N) (i : SR.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v64_1).slice (win2_7.rect t)).set ↔ _
  rw [View.set_slice_whole, Rect.mem_set_unit]
  exact Iff.rfl

theorem mem_blk2_8 (t : Fin cfg2.N) (i : SR.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v64_2).slice (win2_8.rect t)).set ↔ _
  rw [View.set_slice_whole, Rect.mem_set_unit]
  exact Iff.rfl

end Cert.KernelIdeal.RegionValue

end
-- ==== Proof.Region2Acc.lean ====
/-
  What the second perceptron launch's three output blocks hold after each grid point, as entries of the layer's rows.

  Write Z for the layer's rows computed from the arrays the launch finds.  After point t the rows' block holds rows
  5000·t … 5000·t + 4999 of Z; the two one-row blocks hold, at column q, the sums over the rows of the blocks
  0, …, t — that is over rows 0 … 5000·(t + 1) − 1 — of Z[r, q] and of Z[r, q]²: the first point starts them from
  zero, every later point adds its block's column sums to what the point before left.  By induction on the point.
-/
import proofs.«147060_j15040975470999_1_alg».proof.Proof.Region2Pay
import proofs.«147060_j15040975470999_1_alg».proof.Proof.Region2Pieces
import proofs.«147060_j15040975470999_1_alg».proof.Proof.Region2Blocks

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen Cert.Gin Cert.Gin.Block

variable (V : (c : Dev nD) → (b : Ref sig .tc) → Buf (Elt Ideal) ((c : Thread nD τ).loc b))

/-- The layer's rows, from the arrays the launch finds. -/
abbrev rows2 (c : Dev nD) : FVec Ideal SN .f32 :=
  zArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-! ## The three blocks after a point, case by case -/

/-- The rows' block after the first point is the perceptron block of the point's row blocks … -/
theorem outsAt2_rows_A (c : Dev nD) (t : Fin cfg2.N) (h0 : t.val % 10 = 0) :
    (outsAt2 V c t.val t.isLt).1 = k2_pay2 (iblk2 V c 0 t) (iblk2 V c 1 t) (iblk2 V c 2 t) (iblk2 V c 3 t) (iblk2 V c 4 t) (iblk2 V c 5 t) := by
  rw [outsAt2_A V c t h0]
  dsimp only
  exact out2_A_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)

/-- … and so it is after every later point. -/
theorem outsAt2_rows_B (c : Dev nD) (t : Fin cfg2.N) (h0 : ¬t.val % 10 = 0) :
    (outsAt2 V c t.val t.isLt).1 = k2_pay2 (iblk2 V c 0 t) (iblk2 V c 1 t) (iblk2 V c 2 t) (iblk2 V c 3 t) (iblk2 V c 4 t) (iblk2 V c 5 t) := by
  rw [outsAt2_B V c t h0]
  dsimp only
  exact out2_B_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

theorem outsAt2_rows (c : Dev nD) (t : Fin cfg2.N) :
    (outsAt2 V c t.val t.isLt).1 = k2_pay2 (iblk2 V c 0 t) (iblk2 V c 1 t) (iblk2 V c 2 t) (iblk2 V c 3 t) (iblk2 V c 4 t) (iblk2 V c 5 t) :=
  if h0 : t.val % 10 = 0 then outsAt2_rows_A V c t h0 else outsAt2_rows_B V c t h0

/-- The running sums after the first point: zero plus the block's column sums. -/
theorem outsAt2_sum_A (c : Dev nD) (t : Fin cfg2.N) (h0 : t.val % 10 = 0) :
    (outsAt2 V c t.val t.isLt).2.1 = k2_pay5 (iblk2 V c 0 t) (iblk2 V c 1 t) (iblk2 V c 2 t) (iblk2 V c 3 t) (iblk2 V c 4 t) (iblk2 V c 5 t) (k2_pay3 (F := Ideal)) := by
  rw [outsAt2_A V c t h0]
  dsimp only
  exact out2_A_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)

/-- The running sums after a later point: what the point before left plus the block's column sums. -/
theorem outsAt2_sum_B (c : Dev nD) (t : Fin cfg2.N) (h0 : ¬t.val % 10 = 0) :
    (outsAt2 V c t.val t.isLt).2.1 = k2_pay5 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 := by
  rw [outsAt2_B V c t h0]
  dsimp only
  exact out2_B_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- The running sums of squares after the first point. -/
theorem outsAt2_sq_A (c : Dev nD) (t : Fin cfg2.N) (h0 : t.val % 10 = 0) :
    (outsAt2 V c t.val t.isLt).2.2 = k2_pay1 (k2_pay2 (iblk2 V c 0 t) (iblk2 V c 1 t) (iblk2 V c 2 t) (iblk2 V c 3 t) (iblk2 V c 4 t) (iblk2 V c 5 t)) (k2_pay4 (F := Ideal)) := by
  rw [outsAt2_A V c t h0]
  dsimp only
  exact out2_A_8_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)

/-- The running sums of squares after a later point. -/
theorem outsAt2_sq_B (c : Dev nD) (t : Fin cfg2.N) (h0 : ¬t.val % 10 = 0) :
    (outsAt2 V c t.val t.isLt).2.2 = k2_pay1 (k2_pay2 (iblk2 V c 0 t) (iblk2 V c 1 t) (iblk2 V c 2 t) (iblk2 V c 3 t) (iblk2 V c 4 t) (iblk2 V c 5 t)) (outsAt2 V c (t.val - 1) (Nat.lt_of_le_of_lt (Nat.sub_le _ _) t.isLt)).2.2 := by
  rw [outsAt2_B V c t h0]
  dsimp only
  exact out2_B_8_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-! ## A point's block is a block of rows of Z -/

/-- The perceptron of the point's blocks at (p, q) is Z at row 5000·t + p: the row blocks read those rows, the weights
    and biases are the whole arrays. -/
theorem blockVal_iblk2 (c : Dev nD) (t : Fin cfg2.N) (p : Fin 5000) (q : Fin 128) (r : Fin 50000)
    (hr : r.val = 5000 * t.val + p.val) :
    blockVal (T := 5000) (K := 128) (D := 128) (iblk2 V c 0 t) (iblk2 V c 1 t) (iblk2 V c 2 t) (iblk2 V c 3 t) (iblk2 V c 4 t) (iblk2 V c 5 t) p q = rows2 V c (ix2 r q) := by
  show _ = zVal _ _ _ _ _ _ r q
  unfold blockVal zVal
  refine congrArg₂ (· + ·) (Finset.sum_congr rfl fun k _ => ?_) (iblk2_5_at V c t 0 q)
  refine congrArg₂ (· * ·) (congrArg (fun s => max s 0) ?_) (iblk2_4_at V c t k q)
  refine congrArg₂ (· + ·) (Finset.sum_congr rfl fun j _ => ?_) (iblk2_3_at V c t 0 k)
  exact congrArg₂ (· * ·) (congrArg₂ (· + ·) (iblk2_0_at V c t p j r hr) (iblk2_1_at V c t p j r hr)) (iblk2_2_at V c t j k)

/-- The same, the row given by its number. -/
theorem blockVal_row2 (c : Dev nD) (t : Fin cfg2.N) (p : Fin 5000) (q : Fin 128) :
    blockVal (T := 5000) (K := 128) (D := 128) (iblk2 V c 0 t) (iblk2 V c 1 t) (iblk2 V c 2 t) (iblk2 V c 3 t) (iblk2 V c 4 t) (iblk2 V c 5 t) p q
      = rowFn (fun r : Fin 50000 => rows2 V c (ix2 r q)) (5000 * t.val + p.val) := by
  have hN : cfg2.N = 10 := N_2
  have hlt : 5000 * t.val + p.val < 50000 := by have := t.isLt; have := p.isLt; omega
  rw [rowFn_of_lt _ _ hlt]
  exact blockVal_iblk2 V c t p q ⟨_, hlt⟩ rfl

/-- The stored block's entry at (p, q) is Z at row 5000·t + p. -/
theorem pay2_row2 (c : Dev nD) (t : Fin cfg2.N) (p : Fin 5000) (q : Fin 128) (r : Fin 50000)
    (hr : r.val = 5000 * t.val + p.val) :
    k2_pay2 (F := Ideal) (iblk2 V c 0 t) (iblk2 V c 1 t) (iblk2 V c 2 t) (iblk2 V c 3 t) (iblk2 V c 4 t) (iblk2 V c 5 t) (ix2 p q) = rows2 V c (ix2 r q) :=
  (k2_pay2_at (iblk2 V c 0 t) (iblk2 V c 1 t) (iblk2 V c 2 t) (iblk2 V c 3 t) (iblk2 V c 4 t) (iblk2 V c 5 t) p q).trans (blockVal_iblk2 V c t p q r hr)

/-- Its square, the row given by its number. -/
theorem pay2_sq_row2 (c : Dev nD) (t : Fin cfg2.N) (p : Fin 5000) (q : Fin 128) :
    k2_pay2 (F := Ideal) (iblk2 V c 0 t) (iblk2 V c 1 t) (iblk2 V c 2 t) (iblk2 V c 3 t) (iblk2 V c 4 t) (iblk2 V c 5 t) (ix2 p q) * k2_pay2 (F := Ideal) (iblk2 V c 0 t) (iblk2 V c 1 t) (iblk2 V c 2 t) (iblk2 V c 3 t) (iblk2 V c 4 t) (iblk2 V c 5 t) (ix2 p q)
      = rowFn (fun r : Fin 50000 => rows2 V c (ix2 r q) * rows2 V c (ix2 r q)) (5000 * t.val + p.val) := by
  have hN : cfg2.N = 10 := N_2
  have hlt : 5000 * t.val + p.val < 50000 := by have := t.isLt; have := p.isLt; omega
  have e := pay2_row2 V c t p q ⟨_, hlt⟩ rfl
  rw [rowFn_of_lt _ _ hlt]
  exact congrArg₂ (· * ·) e e

/-! ## The running sums, by induction on the point -/

/-- After point n the two one-row blocks hold, at column q, the sums over the blocks 0, …, n of the rows' entries of
    Z and of their squares. -/
theorem outsAt2_sums (c : Dev nD) (q : Fin 128) : ∀ (n : ℕ) (hn : n < cfg2.N) (u : Fin 1),
    ((outsAt2 V c n hn).2.1 : FVec Ideal S1x128 .f32) (ix2 u q)
        = ∑ k ∈ Finset.range (n + 1), ∑ p : Fin 5000, rowFn (fun r : Fin 50000 => rows2 V c (ix2 r q)) (5000 * k + p.val)
    ∧ ((outsAt2 V c n hn).2.2 : FVec Ideal S1x128 .f32) (ix2 u q)
        = ∑ k ∈ Finset.range (n + 1), ∑ p : Fin 5000,
            rowFn (fun r : Fin 50000 => rows2 V c (ix2 r q) * rows2 V c (ix2 r q)) (5000 * k + p.val)
  | 0, hn, u => by
    constructor
    · refine (congrFun (outsAt2_sum_A V c ⟨0, hn⟩ (Nat.zero_mod 10)) (ix2 u q)).trans ?_
      refine (k2_pay5_at (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay3 (F := Ideal)) u q).trans ?_
      rw [k2_pay3_at, zero_add, Finset.sum_range_succ, Finset.sum_range_zero, zero_add]
      exact Finset.sum_congr rfl fun p _ => blockVal_row2 V c ⟨0, hn⟩ p q
    · refine (congrFun (outsAt2_sq_A V c ⟨0, hn⟩ (Nat.zero_mod 10)) (ix2 u q)).trans ?_
      refine (k2_pay1_at (k2_pay2 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) (k2_pay4 (F := Ideal)) u q).trans ?_
      rw [k2_pay4_at, zero_add, Finset.sum_range_succ, Finset.sum_range_zero, zero_add]
      exact Finset.sum_congr rfl fun p _ => pay2_sq_row2 V c ⟨0, hn⟩ p q
  | n + 1, hn, u => by
    have hN : cfg2.N = 10 := N_2
    have hB : ¬(⟨n + 1, hn⟩ : Fin cfg2.N).val % 10 = 0 := by dsimp only; omega
    obtain ⟨ih7, ih8⟩ := outsAt2_sums c q n (Nat.lt_of_succ_lt hn) u
    constructor
    · refine (congrFun (outsAt2_sum_B V c ⟨n + 1, hn⟩ hB) (ix2 u q)).trans ?_
      refine (k2_pay5_at (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ u q).trans ?_
      rw [Finset.sum_range_succ _ (n + 1)]
      exact congrArg₂ (· + ·) ih7 (Finset.sum_congr rfl fun p _ => blockVal_row2 V c ⟨n + 1, hn⟩ p q)
    · refine (congrFun (outsAt2_sq_B V c ⟨n + 1, hn⟩ hB) (ix2 u q)).trans ?_
      refine (k2_pay1_at (k2_pay2 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) _ u q).trans ?_
      rw [Finset.sum_range_succ _ (n + 1)]
      exact congrArg₂ (· + ·) ih8 (Finset.sum_congr rfl fun p _ => pay2_sq_row2 V c ⟨n + 1, hn⟩ p q)

end Cert.KernelIdeal.RegionValue

end
-- ==== Proof.Region2.lean ====
/-
  What the second perceptron launch leaves in its three output arrays.

  Write Z for the layer's rows computed from the arrays the launch finds.  Every grid point writes its rows' block
  back, block t being rows 5000·t … 5000·t + 4999 of Z, and the ten blocks fill the array: the rows' array ends as Z.
  The two one-row arrays are written back once, after the last point, and then hold the sums over all ten blocks —
  over all 50000 rows — of Z[r, q] and of Z[r, q]²: the column sums of Z and of its squares.
-/
import proofs.«147060_j15040975470999_1_alg».proof.Proof.Region2Acc

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen Cert.Gin Cert.Gin.Block
open Idealize.ShloMosaic.Pipeline (Dat)

section

variable (V : (c : Dev nD) → (b : Ref sig .tc) → Buf (Elt Ideal) ((c : Thread nD τ).loc b))

/-! ## The rows -/

/-- The rows' block after point t, entry y, is Z where the block's entry y sits in the array. -/
theorem flushed2_6_at (c : Dev nD) (t : Fin cfg2.N) (y : S5000x128.Idx) :
    k2_pay2 (F := Ideal) (iblk2 V c 0 t) (iblk2 V c 1 t) (iblk2 V c 2 t) (iblk2 V c 3 t) (iblk2 V c 4 t) (iblk2 V c 5 t) y = rows2 V c (((cfg2.win 6).blk t).view.emb y) := by
  obtain ⟨p, q, rfl⟩ : ∃ (p : Fin 5000) (q : Fin 128), y = ix2 p q := ⟨y 0, y 1, eq_ix2 y⟩
  have hN : cfg2.N = 10 := N_2
  have hlt : 5000 * t.val + p.val < 50000 := by have := t.isLt; have := p.isLt; omega
  rw [emb2_6 t p q ⟨_, hlt⟩ rfl]
  exact pay2_row2 V c t p q ⟨_, hlt⟩ rfl

/-- What point t writes back to the rows' array is block t of Z. -/
theorem flushed2_6 (c : Dev nD) (t : Fin cfg2.N) :
    (dat2 V c).flushed 6 t = ((cfg2.win 6).blk t).view.read (Elt Ideal) (rows2 V c) := by
  show (cfg2.win 6).cut (grid2.coords t) ((dat2 V c).after 6 t) = _
  rw [after2_6, outsAt2_rows V c t]
  funext y
  exact flushed2_6_at V c t y

/-- Every row is in some point's block: row r in the block of point r / 5000. -/
theorem cover2_6 (i : SN.Idx) :
    ∃ t : Fin cfg2.N, (cfg2.win 6).flush t = true ∧ i ∈ ((cfg2.win 6).blk t).view.set := by
  have hN : cfg2.N = 10 := N_2
  have h0 : (i 0).val < 50000 := (i 0).isLt
  have h1 : (i 1).val < 128 := (i 1).isLt
  obtain ⟨t, ht⟩ : ∃ t : Fin cfg2.N, t.val = (i 0).val / 5000 := ⟨⟨(i 0).val / 5000, by rw [hN]; omega⟩, rfl⟩
  have e := idx2_rows t
  refine ⟨t, flush2_6 t, ?_⟩
  rw [mem_blk2_6]
  intro a
  match a with
  | ⟨0, _⟩ => show win2_6.index t 0 * 5000 ≤ (i 0).val ∧ (i 0).val < win2_6.index t 0 * 5000 + 5000; rw [e.2.2.2.2.1, ht]; omega
  | ⟨1, _⟩ => show win2_6.index t 1 * 128 ≤ (i 1).val ∧ (i 1).val < win2_6.index t 1 * 128 + 128; rw [e.2.2.2.2.2]; omega

/-! ## The column sums -/

/-- Reading a one-row array through the sums' window's block reads the array where the block's entry sits. -/
theorem read2_7 (t : Fin cfg2.N) (G : FVec Ideal SR .f32) (y : S1x128.Idx) :
    ((cfg2.win 7).blk t).view.read (Elt Ideal) G y = G (((cfg2.win 7).blk t).view.emb y) := rfl

theorem read2_8 (t : Fin cfg2.N) (G : FVec Ideal SR .f32) (y : S1x128.Idx) :
    ((cfg2.win 8).blk t).view.read (Elt Ideal) G y = G (((cfg2.win 8).blk t).view.emb y) := rfl

/-- After the last point the running sums are the column sums of Z: the ten blocks of 5000 rows are all its rows. -/
theorem flushed2_7_at (c : Dev nD) (t : Fin cfg2.N) (h9 : t.val = 9) (y : S1x128.Idx) :
    ((outsAt2 V c t.val t.isLt).2.1 : FVec Ideal S1x128 .f32) y
      = ((cfg2.win 7).blk t).view.read (Elt Ideal) (colSum (rows2 V c)) y := by
  obtain ⟨u, q, rfl⟩ : ∃ (u : Fin 1) (q : Fin 128), y = ix2 u q := ⟨y 0, y 1, eq_ix2 y⟩
  rw [read2_7 t (colSum (rows2 V c)) (ix2 u q), emb2_7 t u q, colSum_apply]
  refine ((outsAt2_sums V c q t.val t.isLt u).1).trans ?_
  have hs := sum_blocks_rows 10 5000 (by norm_num) (fun r : Fin 50000 => rows2 V c (ix2 r q))
  rw [h9]
  exact hs

theorem flushed2_8_at (c : Dev nD) (t : Fin cfg2.N) (h9 : t.val = 9) (y : S1x128.Idx) :
    ((outsAt2 V c t.val t.isLt).2.2 : FVec Ideal S1x128 .f32) y
      = ((cfg2.win 8).blk t).view.read (Elt Ideal) (colSumSq (rows2 V c)) y := by
  obtain ⟨u, q, rfl⟩ : ∃ (u : Fin 1) (q : Fin 128), y = ix2 u q := ⟨y 0, y 1, eq_ix2 y⟩
  rw [read2_8 t (colSumSq (rows2 V c)) (ix2 u q), emb2_8 t u q, colSumSq_apply]
  refine ((outsAt2_sums V c q t.val t.isLt u).2).trans ?_
  have hs := sum_blocks_rows 10 5000 (by norm_num) (fun r : Fin 50000 => rows2 V c (ix2 r q) * rows2 V c (ix2 r q))
  rw [h9]
  exact hs

/-- The one write-back of the sums, after the last point, writes the column sums of Z. -/
theorem flushed2_7 (c : Dev nD) (t : Fin cfg2.N) (hf : (cfg2.win 7).flush t = true) :
    (dat2 V c).flushed 7 t = ((cfg2.win 7).blk t).view.read (Elt Ideal) (colSum (rows2 V c)) := by
  have hN : cfg2.N = 10 := N_2
  have h9 : t.val = 9 := by have := (flush2_7 t).mp hf; have := t.isLt; omega
  show (cfg2.win 7).cut (grid2.coords t) ((dat2 V c).after 7 t) = _
  rw [after2_7]
  funext y
  exact flushed2_7_at V c t h9 y

theorem flushed2_8 (c : Dev nD) (t : Fin cfg2.N) (hf : (cfg2.win 8).flush t = true) :
    (dat2 V c).flushed 8 t = ((cfg2.win 8).blk t).view.read (Elt Ideal) (colSumSq (rows2 V c)) := by
  have hN : cfg2.N = 10 := N_2
  have h9 : t.val = 9 := by have := (flush2_8 t).mp hf; have := t.isLt; omega
  show (cfg2.win 8).cut (grid2.coords t) ((dat2 V c).after 8 t) = _
  rw [after2_8]
  funext y
  exact flushed2_8_at V c t h9 y

/-- The last point's block is the whole one-row array. -/
theorem cover2_7 (i : SR.Idx) :
    ∃ t : Fin cfg2.N, (cfg2.win 7).flush t = true ∧ i ∈ ((cfg2.win 7).blk t).view.set := by
  have hN : cfg2.N = 10 := N_2
  have h0 : (i 0).val < 1 := (i 0).isLt
  have h1 : (i 1).val < 128 := (i 1).isLt
  obtain ⟨t, ht⟩ : ∃ t : Fin cfg2.N, t.val = 9 := ⟨⟨9, by rw [hN]; decide⟩, rfl⟩
  have e := idx2_whole t
  refine ⟨t, (flush2_7 t).mpr (by rw [ht]), ?_⟩
  rw [mem_blk2_7]
  intro a
  match a with
  | ⟨0, _⟩ => show win2_7.index t 0 * 1 ≤ (i 0).val ∧ (i 0).val < win2_7.index t 0 * 1 + 1; rw [e.2.2.2.2.2.2.2.2.1]; omega
  | ⟨1, _⟩ => show win2_7.index t 1 * 128 ≤ (i 1).val ∧ (i 1).val < win2_7.index t 1 * 128 + 128; rw [e.2.2.2.2.2.2.2.2.2.1]; omega

theorem cover2_8 (i : SR.Idx) :
    ∃ t : Fin cfg2.N, (cfg2.win 8).flush t = true ∧ i ∈ ((cfg2.win 8).blk t).view.set := by
  have hN : cfg2.N = 10 := N_2
  have h0 : (i 0).val < 1 := (i 0).isLt
  have h1 : (i 1).val < 128 := (i 1).isLt
  obtain ⟨t, ht⟩ : ∃ t : Fin cfg2.N, t.val = 9 := ⟨⟨9, by rw [hN]; decide⟩, rfl⟩
  have e := idx2_whole t
  refine ⟨t, (flush2_8 t).mpr (by rw [ht]), ?_⟩
  rw [mem_blk2_8]
  intro a
  match a with
  | ⟨0, _⟩ => show win2_8.index t 0 * 1 ≤ (i 0).val ∧ (i 0).val < win2_8.index t 0 * 1 + 1; rw [e.2.2.2.2.2.2.2.2.2.2.1]; omega
  | ⟨1, _⟩ => show win2_8.index t 1 * 128 ≤ (i 1).val ∧ (i 1).val < win2_8.index t 1 * 128 + 128; rw [e.2.2.2.2.2.2.2.2.2.2.2]; omega

end

/-! ## The three arrays after the launch -/

set_option maxHeartbeats 4000000 in
/-- The rows' array ends as the layer's rows. -/
theorem region2_z : ∀ (V : (c : Dev nD) → (b : Ref sig .tc) → Buf (Elt Ideal) ((c : Thread nD τ).loc b)) (c : Dev nD), (dat2 (F := Ideal) V c).arrAt 6 cfg2.N
      = zArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  fun V c => (dat2 V c).arrAt_eq_of_cover 6 (rows2 V c) (fun t _ => flushed2_6 V c t) cover2_6

set_option maxHeartbeats 4000000 in
/-- The sums' array ends as the column sums of the layer's rows. -/
theorem region2_s : ∀ (V : (c : Dev nD) → (b : Ref sig .tc) → Buf (Elt Ideal) ((c : Thread nD τ).loc b)) (c : Dev nD), (dat2 (F := Ideal) V c).arrAt 7 cfg2.N
      = colSum (zArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  fun V c => (dat2 V c).arrAt_eq_of_cover 7 (colSum (rows2 V c)) (flushed2_7 V c) cover2_7

set_option maxHeartbeats 4000000 in
/-- The squares' array ends as the column sums of the squares of the layer's rows. -/
theorem region2_q : ∀ (V : (c : Dev nD) → (b : Ref sig .tc) → Buf (Elt Ideal) ((c : Thread nD τ).loc b)) (c : Dev nD), (dat2 (F := Ideal) V c).arrAt 8 cfg2.N
      = colSumSq (zArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  fun V c => (dat2 V c).arrAt_eq_of_cover 8 (colSumSq (rows2 V c)) (flushed2_8 V c) cover2_8

end Cert.KernelIdeal.RegionValue

end
-- ==== Proof.Region3.lean ====
/-
  The second rescaling launch, read as a whole array. The launch walks the 50000 rows in ten blocks of 5000; at every
  block it multiplies each entry by its column's scale, adds the column's shift and rectifies. Each block's result is
  the same function of the entries whatever the block, so the ten write-backs together leave, at row r and column n,
      max (z[r, n] · scale[n] + shift[n]) 0
  of the arrays z, scale, shift the launch found.
-/
import proofs.«147060_j15040975470999_1_alg».proof.Proof.Gen.KernelIdeal.Frame
import proofs.«147060_j15040975470999_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.ValueIdx Idealize.ShloMosaic.TcCoe Idealize.SL.Sem
open Cert.KernelIdeal Cert.KernelIdeal.Gen Cert.Gin
open Idealize.ShloMosaic.Pipeline (Dat)

/-- The block's value at row p and column q: the entry times the column's scale plus the column's shift, rectified.
    The row of scales and the row of shifts are spread over the 5000 rows, so both are read at (0, q); the constant
    the maximum is taken against is the zero word, whose value is 0. -/
theorem pay3_at (x0 : Vec Ideal S5000x128 .f32) (x1 x2 : Vec Ideal S1x128 .f32) (p : Fin 5000) (q : Fin 128) :
    k3_pay1 (F := Ideal) x0 x1 x2 (ix2 p q)
      = max (x0 (ix2 p q) * x1 (ix2 (0 : Fin 1) q) + x2 (ix2 (0 : Fin 1) q)) 0 := by
  unfold k3_pay1
  rw [maximumf_apply, addf_apply, mulf_apply, broadcast_apply, shapeCast_self, shapeCast_self, shapeCast_self,
    broadcastTo_1b_ab_apply, broadcastTo_1b_ab_apply]
  exact congrArg (max _) Ideal.ofBits_zero_f32

theorem zeroOff3 : (![0, 0] : Fin 2 → Nat) = fun _ => 0 := funext fun a => by fin_cases a <;> rfl

/-- Where the blocks sit, decided over the ten points: the block of rows of the input and of the output at point t is
    block t along the rows and the only block along the columns; the two rows of parameters are always block (0, 0). -/
theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

/-- Row p of the output's block at point t is row 5000 t + p of the array. -/
theorem emb3_3 (t : Fin cfg3.N) (p : Fin 5000) (q : Fin 128) (r : Fin 50000) (hr : r.val = t.val * 5000 + p.val) :
    ((cfg3.win 3).blk t).view.emb (ix2 p q) = (ix2 r q : S50000x128.Idx) := by
  obtain ⟨-, -, -, -, -, -, e6, e7⟩ := blockIdx3 t
  funext a; apply Fin.ext
  match a with
  | ⟨0, _⟩ => show win3_3.index t (0 : Fin 2) * 5000 + 1 * p.val = r.val; rw [e6, hr]; omega
  | ⟨1, _⟩ => show win3_3.index t (1 : Fin 2) * 128 + 1 * q.val = q.val; rw [e7]; omega

/-- Row p of the input's block at point t is row 5000 t + p of the array the launch found. -/
theorem iblk3_0_at (c : Dev nD) (t : Fin cfg3.N) (p : Fin 5000) (q : Fin 128) (r : Fin 50000)
    (hr : r.val = t.val * 5000 + p.val) :
    (iblk3 V c 0 t : Vec Ideal S5000x128 .f32) (ix2 p q)
      = (V c (Pipeline.arrRef spec3 0) : S50000x128.Idx → Elt Ideal .f32) (ix2 r q) := by
  obtain ⟨e0, e1, -⟩ := blockIdx3 t
  unfold iblk3
  rw [View.read_apply]
  show (V c (Pipeline.arrRef spec3 0) : S50000x128.Idx → Elt Ideal .f32) _ = _
  refine congrArg (V c (Pipeline.arrRef spec3 0) : S50000x128.Idx → Elt Ideal .f32) ?_
  funext a; apply Fin.ext
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- The block of the row of scales is that row, at every point. -/
theorem iblk3_1_at (c : Dev nD) (t : Fin cfg3.N) (q : Fin 128) :
    (iblk3 V c 1 t : Vec Ideal S1x128 .f32) (ix2 (0 : Fin 1) q)
      = (V c (Pipeline.arrRef spec3 1) : S1x128.Idx → Elt Ideal .f32) (ix2 (0 : Fin 1) q) := by
  obtain ⟨-, -, e2, e3, -⟩ := blockIdx3 t
  unfold iblk3
  rw [View.read_apply]
  show (V c (Pipeline.arrRef spec3 1) : S1x128.Idx → Elt Ideal .f32) _ = _
  refine congrArg (V c (Pipeline.arrRef spec3 1) : S1x128.Idx → Elt Ideal .f32) ?_
  funext a; apply Fin.ext
  match a with
  | ⟨0, _⟩ => show win3_1.index t (0 : Fin 2) * 1 + 1 * 0 = 0; rw [e2]
  | ⟨1, _⟩ => show win3_1.index t (1 : Fin 2) * 128 + 1 * q.val = q.val; rw [e3]; omega

/-- The block of the row of shifts is that row, at every point. -/
theorem iblk3_2_at (c : Dev nD) (t : Fin cfg3.N) (q : Fin 128) :
    (iblk3 V c 2 t : Vec Ideal S1x128 .f32) (ix2 (0 : Fin 1) q)
      = (V c (Pipeline.arrRef spec3 2) : S1x128.Idx → Elt Ideal .f32) (ix2 (0 : Fin 1) q) := by
  obtain ⟨-, -, -, -, e4, e5, -⟩ := blockIdx3 t
  unfold iblk3
  rw [View.read_apply]
  show (V c (Pipeline.arrRef spec3 2) : S1x128.Idx → Elt Ideal .f32) _ = _
  refine congrArg (V c (Pipeline.arrRef spec3 2) : S1x128.Idx → Elt Ideal .f32) ?_
  funext a; apply Fin.ext
  match a with
  | ⟨0, _⟩ => show win3_2.index t (0 : Fin 2) * 1 + 1 * 0 = 0; rw [e4]
  | ⟨1, _⟩ => show win3_2.index t (1 : Fin 2) * 128 + 1 * q.val = q.val; rw [e5]; omega

set_option maxHeartbeats 1000000 in
/-- What point t writes back is block t of the rescaled and rectified array. -/
theorem flushed3_eq (c : Dev nD) (t : Fin cfg3.N) :
    (dat3 (F := Ideal) V c).flushed 3 t = ((cfg3.win 3).blk t).view.read (Elt Ideal)
      (affRelu (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zeroOff3]
  simp only [View.ld_unit_zero (S := S5000x128) zeroOff3, View.ld_unit_zero (S := S1x128) zeroOff3]
  refine funext fun (j : S5000x128.Idx) => ?_
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (ix2 p q)
      = affRelu (V c (Pipeline.arrRef spec3 0)) (V c (Pipeline.arrRef spec3 1)) (V c (Pipeline.arrRef spec3 2))
          (((cfg3.win 3).blk t).view.emb (ix2 p q))
  have ht : t.val < 10 := lt_of_lt_of_eq t.isLt N_3
  have hp : p.val < 5000 := p.isLt
  rw [emb3_3 t p q ⟨t.val * 5000 + p.val, by omega⟩ rfl, affRelu_apply]
  refine (pay3_at (iblk3 V c 0 t) (iblk3 V c 1 t) (iblk3 V c 2 t) p q).trans ?_
  rw [iblk3_0_at V c t p q ⟨t.val * 5000 + p.val, by omega⟩ rfl, iblk3_1_at V c t q, iblk3_2_at V c t q]

/-- An index of the array is in point t's block when each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v83).slice (win3_3.rect t)).set ↔ _
  rw [View.set_slice_whole, Rect.mem_set_unit]
  exact Iff.rfl

/-- Every row r lies in the block of point r / 5000, and every point writes its block back. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, e6, e7⟩ := blockIdx3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e6, ht]; omega
  | ⟨1, _⟩ =>
    show win3_3.index t (1 : Fin 2) * 128 ≤ (i 1).val ∧ (i 1).val < win3_3.index t (1 : Fin 2) * 128 + 128
    rw [e7]; omega

/-- The array the second rescaling launch leaves: every entry rescaled by its column's scale, shifted by its column's
    shift and rectified, of the arrays the launch found. -/
theorem region3_h (c : Dev nD) : (dat3 (F := Ideal) V c).arrAt 3 cfg3.N
    = affRelu (V c (Pipeline.arrRef spec3 0)) (V c (Pipeline.arrRef spec3 1)) (V c (Pipeline.arrRef spec3 2)) :=
  (dat3 (F := Ideal) V c).arrAt_eq_of_cover 3
    (affRelu (V c (Pipeline.arrRef spec3 0)) (V c (Pipeline.arrRef spec3 1)) (V c (Pipeline.arrRef spec3 2)))
    (fun t _ => flushed3_eq V c t) cover3

end

end Cert.KernelIdeal.RegionValue

end
-- ==== Proof.Region4Pay.lean ====
/-
  The arithmetic of the third perceptron launch's body at the ideal values, entry by entry.

  The block the body stores in the rows' window is, at (p, q), the two-layer perceptron of the sum of its two row
  blocks (`Cert.Gin.Block.blockVal`); the row it adds to a running row acc is acc[q] plus the column sums of that
  block, and likewise acc[q] plus the column sums of the squares; the two rows it stores at the first point are zero.
-/
import proofs.«147060_j15040975470999_1_alg».proof.Proof.Gen.KernelIdeal.Skeleton
import proofs.«147060_j15040975470999_1_alg».proof.Proof.GinBlock

noncomputable section

open scoped BigOperators

namespace Cert.KernelIdeal.RegionValue

open Idealize.ShloMosaic Idealize.ShloMosaic.ValueIdx Cert.KernelIdeal Cert.KernelIdeal.Gen Cert.Gin.Block

/-- The stored block is the body's spelling of the perceptron block: the casts between equal shapes are the identity. -/
theorem k4_pay2_eq (x0 x1 : FVec Ideal S5000x128 .f32) (w1 : FVec Ideal S128x128 .f32) (b1 : FVec Ideal S1x128 .f32)
    (w2 : FVec Ideal S128x128 .f32) (b2 : FVec Ideal S1x128 .f32) :
    k4_pay2 (F := Ideal) x0 x1 w1 b1 w2 b2
      = block (T := 5000) (K := 128) (D := 128) dot_S5000x128_S128x128_S5000x128_1_0_0_1_n_n.wf
          dot_S5000x128_S128x128_S5000x128_1_0_0_1_n_n.wf broadcasts_S1x128_S5000x128 bitsLt_bf16_f32 x0 x1 w1 b1 w2 b2 := by
  unfold k4_pay2 block
  simp only [shapeCast_self]
  rfl

/-- The stored block at (p, q). -/
theorem k4_pay2_at (x0 x1 : FVec Ideal S5000x128 .f32) (w1 : FVec Ideal S128x128 .f32) (b1 : FVec Ideal S1x128 .f32)
    (w2 : FVec Ideal S128x128 .f32) (b2 : FVec Ideal S1x128 .f32) (p : Fin 5000) (q : Fin 128) :
    k4_pay2 (F := Ideal) x0 x1 w1 b1 w2 b2 (ix2 p q) = blockVal x0 x1 w1 b1 w2 b2 p q :=
  (congrFun (k4_pay2_eq x0 x1 w1 b1 w2 b2) (ix2 p q)).trans (block_at _ _ _ _ x0 x1 w1 b1 w2 b2 p q)

/-- The row added to the running sums: the running row plus the block's column sums. -/
theorem k4_pay5_at (x0 x1 : FVec Ideal S5000x128 .f32) (w1 : FVec Ideal S128x128 .f32) (b1 : FVec Ideal S1x128 .f32)
    (w2 : FVec Ideal S128x128 .f32) (b2 : FVec Ideal S1x128 .f32) (acc : FVec Ideal S1x128 .f32) (u : Fin 1) (q : Fin 128) :
    k4_pay5 (F := Ideal) x0 x1 w1 b1 w2 b2 acc (ix2 u q)
      = acc (ix2 u q) + ∑ p : Fin 5000, blockVal x0 x1 w1 b1 w2 b2 p q := by
  unfold k4_pay5
  dsimp only
  rw [shapeCast_self]
  refine (accRow_at (a := 5000) (b := 128) acc (k4_pay2 (F := Ideal) x0 x1 w1 b1 w2 b2) _ _ _ _ u q).trans ?_
  refine congrArg (fun s => acc (ix2 u q) + s) ?_
  exact Finset.sum_congr rfl fun p _ => k4_pay2_at x0 x1 w1 b1 w2 b2 p q

/-- The row added to the running sums of squares: the running row plus the column sums of the squares of a block. -/
theorem k4_pay1_at (z : FVec Ideal S5000x128 .f32) (acc : FVec Ideal S1x128 .f32) (u : Fin 1) (q : Fin 128) :
    k4_pay1 (F := Ideal) z acc (ix2 u q) = acc (ix2 u q) + ∑ p : Fin 5000, z (ix2 p q) * z (ix2 p q) := by
  unfold k4_pay1
  dsimp only
  rw [shapeCast_self]
  exact accRow_at (a := 5000) (b := 128) acc (mulf z z) _ _ _ _ u q

/-- The rows stored at the first point are zero. -/
theorem k4_pay3_at (u : Fin 1) (q : Fin 128) : k4_pay3 (F := Ideal) (ix2 u q) = 0 := Ideal.ofBits_zero_f32
theorem k4_pay4_at (u : Fin 1) (q : Fin 128) : k4_pay4 (F := Ideal) (ix2 u q) = 0 := Ideal.ofBits_zero_f32

end Cert.KernelIdeal.RegionValue

end
-- ==== Proof.Region4Pieces.lean ====
/-
  What each case of the third perceptron launch's body leaves in its three output blocks, as values of what it read.

  At the first grid point the body stores the perceptron block of its two row blocks, zeroes the two running rows and
  adds to them the block's column sums and the column sums of its squares; at every later point it adds the same to
  the rows the point before left.  Each output block is covered by its last store, so it holds that store's value;
  a row read back after being zeroed reads the zero row.
-/
import proofs.«147060_j15040975470999_1_alg».proof.Proof.Gen.KernelIdeal.Frame
import Idealize.ShloMosaic.Lib.Pipeline.Value
import Idealize.ShloMosaic.Lib.Tactic
import proofs.«147060_j15040975470999_1_alg».proof.Proof.GinBlock

noncomputable section

namespace Cert.KernelIdeal.RegionValue

open Idealize.ShloMosaic Idealize.ShloMosaic.TcCoe Idealize.SL.Sem Cert.KernelIdeal Cert.KernelIdeal.Gen
open Cert.Gin.Block (off_zero)

variable {F : FTy → Type} [FloatOps F]

/-- First point, the rows' block: the perceptron block of the two row blocks. -/
theorem out4_A_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i) (x0 : Vec F S5000x128 .f32) (x1 : Vec F S5000x128 .f32) (x2 : Vec F S128x128 .f32) (x3 : Vec F S1x128 .f32) (x4 : Vec F S128x128 .f32) (x5 : Vec F S1x128 .f32) :
    out4_A_6 c i arg1 harg1 arg2 harg2 arg3 harg3 arg4 harg4 arg5 harg5 arg6 harg6 arg7 harg7 arg8 harg8 arg9 harg9 hc0 x0 x1 x2 x3 x4 x5 = k4_pay2 x0 x1 x2 x3 x4 x5 := by
  unfold out4_A_6
  rw [View.read_writes_eq_canon _ _ _ (cover4_A_6 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_unit_zero (S := S5000x128) off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- First point, the running sums: the zero row plus the block's column sums. -/
theorem out4_A_7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i) (x0 : Vec F S5000x128 .f32) (x1 : Vec F S5000x128 .f32) (x2 : Vec F S128x128 .f32) (x3 : Vec F S1x128 .f32) (x4 : Vec F S128x128 .f32) (x5 : Vec F S1x128 .f32) :
    out4_A_7 c i arg1 harg1 arg2 harg2 arg3 harg3 arg4 harg4 arg5 harg5 arg6 harg6 arg7 harg7 arg8 harg8 arg9 harg9 hc0 x0 x1 x2 x3 x4 x5 = k4_pay5 x0 x1 x2 x3 x4 x5 (k4_pay3 (F := F)) := by
  unfold out4_A_7
  rw [View.read_writes_eq_canon _ _ _ (cover4_A_7 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) off_zero, View.readCov_unit_zero (S := S1x128) _ off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- First point, the running sums of squares: the zero row plus the column sums of the block's squares. -/
theorem out4_A_8_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i) (x0 : Vec F S5000x128 .f32) (x1 : Vec F S5000x128 .f32) (x2 : Vec F S128x128 .f32) (x3 : Vec F S1x128 .f32) (x4 : Vec F S128x128 .f32) (x5 : Vec F S1x128 .f32) :
    out4_A_8 c i arg1 harg1 arg2 harg2 arg3 harg3 arg4 harg4 arg5 harg5 arg6 harg6 arg7 harg7 arg8 harg8 arg9 harg9 hc0 x0 x1 x2 x3 x4 x5 = k4_pay1 (k4_pay2 x0 x1 x2 x3 x4 x5) (k4_pay4 (F := F)) := by
  unfold out4_A_8
  rw [View.read_writes_eq_canon _ _ _ (cover4_A_8 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) off_zero, View.readCov_unit_zero (S := S1x128) _ off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- A later point, the rows' block: the perceptron block of the two row blocks. -/
theorem out4_B_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out4_B_6 c i arg1 harg1 arg2 harg2 arg3 harg3 arg4 harg4 arg5 harg5 arg6 harg6 arg7 harg7 arg8 harg8 arg9 harg9 hc0 x0 x1 x2 x3 x4 x5 xo7 xo8 = k4_pay2 x0 x1 x2 x3 x4 x5 := by
  unfold out4_B_6
  rw [View.read_writes_eq_canon _ _ _ (cover4_B_6 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero (S := S5000x128) off_zero]
  simp only [View.readAt_eq_ld, harg1.read_unread, harg2.read_unread, harg3.read_unread, harg4.read_unread, harg5.read_unread, harg6.read_unread, View.ld_unit_zero (S := S5000x128) off_zero, View.ld_unit_zero (S := S128x128) off_zero, View.ld_unit_zero (S := S1x128) off_zero]

/-- A later point, the running sums: the row the point before left plus the block's column sums. -/
theorem out4_B_7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out4_B_7 c i arg1 harg1 arg2 harg2 arg3 harg3 arg4 harg4 arg5 harg5 arg6 harg6 arg7 harg7 arg8 harg8 arg9 harg9 hc0 x0 x1 x2 x3 x4 x5 xo7 xo8 = k4_pay5 x0 x1 x2 x3 x4 x5 xo7 := by
  unfold out4_B_7
  rw [View.read_writes_eq_canon _ _ _ (cover4_B_7 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero (S := S1x128) off_zero]
  simp only [View.readAt_eq_ld, harg1.read_unread, harg2.read_unread, harg3.read_unread, harg4.read_unread, harg5.read_unread, harg6.read_unread, harg8.read_unread, View.ld_unit_zero (S := S5000x128) off_zero, View.ld_unit_zero (S := S128x128) off_zero, View.ld_unit_zero (S := S1x128) off_zero]

/-- A later point, the running sums of squares: the row the point before left plus the column sums of the block's squares. -/
theorem out4_B_8_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out4_B_8 c i arg1 harg1 arg2 harg2 arg3 harg3 arg4 harg4 arg5 harg5 arg6 harg6 arg7 harg7 arg8 harg8 arg9 harg9 hc0 x0 x1 x2 x3 x4 x5 xo7 xo8 = k4_pay1 (k4_pay2 x0 x1 x2 x3 x4 x5) xo8 := by
  unfold out4_B_8
  rw [View.read_writes_eq_canon _ _ _ (cover4_B_8 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero (S := S1x128) off_zero]
  simp only [View.readAt_eq_ld, harg1.read_unread, harg2.read_unread, harg3.read_unread, harg4.read_unread, harg5.read_unread, harg6.read_unread, harg9.read_unread, View.ld_unit_zero (S := S5000x128) off_zero, View.ld_unit_zero (S := S128x128) off_zero, View.ld_unit_zero (S := S1x128) off_zero]

end Cert.KernelIdeal.RegionValue

end
-- ==== Proof.Region4Blocks.lean ====
/-
  The blocks the third perceptron launch reads and writes, as entries of its arrays.

  The grid has ten points; at point t the two row windows and the rows' output window hold rows 5000·t … 5000·t + 4999
  of their arrays (block index (t, 0), blocks of 5000 × 128), and the two weights, the two one-row biases and the two
  one-row outputs are whole arrays at every point (block index (0, 0)).  So a row block's entry (p, j) is the array's
  entry (5000·t + p, j), and a whole array's entry is itself.
-/
import proofs.«147060_j15040975470999_1_alg».proof.Proof.Gen.KernelIdeal.Frame
import proofs.«147060_j15040975470999_1_alg».proof.Proof.Spec
import Idealize.ShloMosaic.Lib.Pipeline.Value
import Idealize.ShloMosaic.Lib.ValueIdx

noncomputable section

namespace Cert.KernelIdeal.RegionValue

open Idealize.ShloMosaic Idealize.ShloMosaic.ValueIdx Idealize.ShloMosaic.TcCoe Idealize.SL.Sem Cert.KernelIdeal Cert.KernelIdeal.Gen Cert.Gin

variable {F : FTy → Type} [FloatOps F]
variable (V : (c : Dev nD) → (b : Ref sig .tc) → Buf (Elt F) ((c : Thread nD τ).loc b))

/-- The windows' block indices at each point, decided over the grid: the row windows move with the point … -/
theorem idx4_rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_6.index t (0 : Fin 2) = t.val ∧ win4_6.index t (1 : Fin 2) = 0 :=
  (by decide +kernel : ∀ t : Fin grid4.N, _)

/-- … and the others stay at the one block their array is. -/
theorem idx4_whole : ∀ t : Fin cfg4.N,
    win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row window 0's block at point t, entry (p, j), is its array's entry (5000·t + p, j). -/
theorem iblk4_0_at (c : Dev nD) (t : Fin cfg4.N) (p : Fin 5000) (j : Fin 128) (r : Fin 50000)
    (hr : r.val = 5000 * t.val + p.val) :
    (iblk4 V c 0 t : Vec F S5000x128 .f32) (ix2 p j) = (V c (Pipeline.arrRef spec4 0) : SN.Idx → Elt F .f32) (ix2 r j) := by
  have e := idx4_rows t
  unfold iblk4
  rw [View.read_apply]
  refine congrArg (V c (Pipeline.arrRef spec4 0)) ?_
  funext a
  apply Fin.ext
  match a with
  | ⟨0, _⟩ => show win4_0.index t 0 * 5000 + 1 * p.val = r.val; rw [e.1, hr]; omega
  | ⟨1, _⟩ => show win4_0.index t 1 * 128 + 1 * j.val = j.val; rw [e.2.1]; omega

/-- Row window 1's block at point t, entry (p, j), is its array's entry (5000·t + p, j). -/
theorem iblk4_1_at (c : Dev nD) (t : Fin cfg4.N) (p : Fin 5000) (j : Fin 128) (r : Fin 50000)
    (hr : r.val = 5000 * t.val + p.val) :
    (iblk4 V c 1 t : Vec F S5000x128 .f32) (ix2 p j) = (V c (Pipeline.arrRef spec4 1) : SN.Idx → Elt F .f32) (ix2 r j) := by
  have e := idx4_rows t
  unfold iblk4
  rw [View.read_apply]
  refine congrArg (V c (Pipeline.arrRef spec4 1)) ?_
  funext a
  apply Fin.ext
  match a with
  | ⟨0, _⟩ => show win4_1.index t 0 * 5000 + 1 * p.val = r.val; rw [e.2.2.1, hr]; omega
  | ⟨1, _⟩ => show win4_1.index t 1 * 128 + 1 * j.val = j.val; rw [e.2.2.2.1]; omega

/-- Weight window 2 holds its whole array at every point. -/
theorem iblk4_2_at (c : Dev nD) (t : Fin cfg4.N) (j k : Fin 128) :
    (iblk4 V c 2 t : Vec F S128x128 .f32) (ix2 j k) = (V c (Pipeline.arrRef spec4 2) : SW.Idx → Elt F .f32) (ix2 j k) := by
  have e := idx4_whole t
  unfold iblk4
  rw [View.read_apply]
  refine congrArg (V c (Pipeline.arrRef spec4 2)) ?_
  funext a
  apply Fin.ext
  match a with
  | ⟨0, _⟩ => show win4_2.index t 0 * 128 + 1 * j.val = j.val; rw [e.1]; omega
  | ⟨1, _⟩ => show win4_2.index t 1 * 128 + 1 * k.val = k.val; rw [e.2.1]; omega

/-- Bias window 3 holds its whole one-row array at every point. -/
theorem iblk4_3_at (c : Dev nD) (t : Fin cfg4.N) (u : Fin 1) (k : Fin 128) :
    (iblk4 V c 3 t : Vec F S1x128 .f32) (ix2 u k) = (V c (Pipeline.arrRef spec4 3) : SR.Idx → Elt F .f32) (ix2 u k) := by
  have e := idx4_whole t
  unfold iblk4
  rw [View.read_apply]
  refine congrArg (V c (Pipeline.arrRef spec4 3)) ?_
  funext a
  apply Fin.ext
  match a with
  | ⟨0, _⟩ => show win4_3.index t 0 * 1 + 1 * u.val = u.val; rw [e.2.2.1]; omega
  | ⟨1, _⟩ => show win4_3.index t 1 * 128 + 1 * k.val = k.val; rw [e.2.2.2.1]; omega

/-- Weight window 4 holds its whole array at every point. -/
theorem iblk4_4_at (c : Dev nD) (t : Fin cfg4.N) (j k : Fin 128) :
    (iblk4 V c 4 t : Vec F S128x128 .f32) (ix2 j k) = (V c (Pipeline.arrRef spec4 4) : SW.Idx → Elt F .f32) (ix2 j k) := by
  have e := idx4_whole t
  unfold iblk4
  rw [View.read_apply]
  refine congrArg (V c (Pipeline.arrRef spec4 4)) ?_
  funext a
  apply Fin.ext
  match a with
  | ⟨0, _⟩ => show win4_4.index t 0 * 128 + 1 * j.val = j.val; rw [e.2.2.2.2.1]; omega
  | ⟨1, _⟩ => show win4_4.index t 1 * 128 + 1 * k.val = k.val; rw [e.2.2.2.2.2.1]; omega

/-- Bias window 5 holds its whole one-row array at every point. -/
theorem iblk4_5_at (c : Dev nD) (t : Fin cfg4.N) (u : Fin 1) (k : Fin 128) :
    (iblk4 V c 5 t : Vec F S1x128 .f32) (ix2 u k) = (V c (Pipeline.arrRef spec4 5) : SR.Idx → Elt F .f32) (ix2 u k) := by
  have e := idx4_whole t
  unfold iblk4
  rw [View.read_apply]
  refine congrArg (V c (Pipeline.arrRef spec4 5)) ?_
  funext a
  apply Fin.ext
  match a with
  | ⟨0, _⟩ => show win4_5.index t 0 * 1 + 1 * u.val = u.val; rw [e.2.2.2.2.2.2.1]; omega
  | ⟨1, _⟩ => show win4_5.index t 1 * 128 + 1 * k.val = k.val; rw [e.2.2.2.2.2.2.2.1]; omega

/-! ## Where the output blocks sit in their arrays -/

/-- The rows' output block at point t: entry (p, q) sits at (5000·t + p, q) of the array. -/
theorem emb4_6 (t : Fin cfg4.N) (p : Fin 5000) (q : Fin 128) (r : Fin 50000) (hr : r.val = 5000 * t.val + p.val) :
    ((cfg4.win 6).blk t).view.emb (ix2 p q) = (ix2 r q : SN.Idx) := by
  have e := idx4_rows t
  funext a
  apply Fin.ext
  match a with
  | ⟨0, _⟩ => show win4_6.index t 0 * 5000 + 1 * p.val = r.val; rw [e.2.2.2.2.1, hr]; omega
  | ⟨1, _⟩ => show win4_6.index t 1 * 128 + 1 * q.val = q.val; rw [e.2.2.2.2.2]; omega

/-- The one-row output blocks are their whole arrays. -/
theorem emb4_7 (t : Fin cfg4.N) (u : Fin 1) (q : Fin 128) :
    ((cfg4.win 7).blk t).view.emb (ix2 u q) = (ix2 u q : SR.Idx) := by
  have e := idx4_whole t
  funext a
  apply Fin.ext
  match a with
  | ⟨0, _⟩ => show win4_7.index t 0 * 1 + 1 * u.val = u.val; rw [e.2.2.2.2.2.2.2.2.1]; omega
  | ⟨1, _⟩ => show win4_7.index t 1 * 128 + 1 * q.val = q.val; rw [e.2.2.2.2.2.2.2.2.2.1]; omega

theorem emb4_8 (t : Fin cfg4.N) (u : Fin 1) (q : Fin 128) :
    ((cfg4.win 8).blk t).view.emb (ix2 u q) = (ix2 u q : SR.Idx) := by
  have e := idx4_whole t
  funext a
  apply Fin.ext
  match a with
  | ⟨0, _⟩ => show win4_8.index t 0 * 1 + 1 * u.val = u.val; rw [e.2.2.2.2.2.2.2.2.2.2.1]; omega
  | ⟨1, _⟩ => show win4_8.index t 1 * 128 + 1 * q.val = q.val; rw [e.2.2.2.2.2.2.2.2.2.2.2]; omega

/-- An index of the rows' array is in point t's block iff each coordinate is in the block's range on its axis. -/
theorem mem_blk4_6 (t : Fin cfg4.N) (i : SN.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v104_0).slice (win4_6.rect t)).set ↔ _
  rw [View.set_slice_whole, Rect.mem_set_unit]
  exact Iff.rfl

theorem mem_blk4_7 (t : Fin cfg4.N) (i : SR.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v104_1).slice (win4_7.rect t)).set ↔ _
  rw [View.set_slice_whole, Rect.mem_set_unit]
  exact Iff.rfl

theorem mem_blk4_8 (t : Fin cfg4.N) (i : SR.Idx) :
    i ∈ ((cfg4.win 8).blk t).view.set ↔ ∀ a : Fin 2, win4_8.index t a * S1x128.size a ≤ (i a).val ∧ (i a).val < win4_8.index t a * S1x128.size a + S1x128.size a := by
  show i ∈ ((View.whole main_v104_2).slice (win4_8.rect t)).set ↔ _
  rw [View.set_slice_whole, Rect.mem_set_unit]
  exact Iff.rfl

end Cert.KernelIdeal.RegionValue

end
-- ==== Proof.Region4Acc.lean ====
/-
  What the third perceptron launch's three output blocks hold after each grid point, as entries of the layer's rows.

  Write Z for the layer's rows computed from the arrays the launch finds.  After point t the rows' block holds rows
  5000·t … 5000·t + 4999 of Z; the two one-row blocks hold, at column q, the sums over the rows of the blocks
  0, …, t — that is over rows 0 … 5000·(t + 1) − 1 — of Z[r, q] and of Z[r, q]²: the first point starts them from
  zero, every later point adds its block's column sums to what the point before left.  By induction on the point.
-/
import proofs.«147060_j15040975470999_1_alg».proof.Proof.Region4Pay
import proofs.«147060_j15040975470999_1_alg».proof.Proof.Region4Pieces
import proofs.«147060_j15040975470999_1_alg».proof.Proof.Region4Blocks

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen Cert.Gin Cert.Gin.Block

variable (V : (c : Dev nD) → (b : Ref sig .tc) → Buf (Elt Ideal) ((c : Thread nD τ).loc b))

/-- The layer's rows, from the arrays the launch finds. -/
abbrev rows4 (c : Dev nD) : FVec Ideal SN .f32 :=
  zArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))

/-! ## The three blocks after a point, case by case -/

/-- The rows' block after the first point is the perceptron block of the point's row blocks … -/
theorem outsAt4_rows_A (c : Dev nD) (t : Fin cfg4.N) (h0 : t.val % 10 = 0) :
    (outsAt4 V c t.val t.isLt).1 = k4_pay2 (iblk4 V c 0 t) (iblk4 V c 1 t) (iblk4 V c 2 t) (iblk4 V c 3 t) (iblk4 V c 4 t) (iblk4 V c 5 t) := by
  rw [outsAt4_A V c t h0]
  dsimp only
  exact out4_A_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)

/-- … and so it is after every later point. -/
theorem outsAt4_rows_B (c : Dev nD) (t : Fin cfg4.N) (h0 : ¬t.val % 10 = 0) :
    (outsAt4 V c t.val t.isLt).1 = k4_pay2 (iblk4 V c 0 t) (iblk4 V c 1 t) (iblk4 V c 2 t) (iblk4 V c 3 t) (iblk4 V c 4 t) (iblk4 V c 5 t) := by
  rw [outsAt4_B V c t h0]
  dsimp only
  exact out4_B_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

theorem outsAt4_rows (c : Dev nD) (t : Fin cfg4.N) :
    (outsAt4 V c t.val t.isLt).1 = k4_pay2 (iblk4 V c 0 t) (iblk4 V c 1 t) (iblk4 V c 2 t) (iblk4 V c 3 t) (iblk4 V c 4 t) (iblk4 V c 5 t) :=
  if h0 : t.val % 10 = 0 then outsAt4_rows_A V c t h0 else outsAt4_rows_B V c t h0

/-- The running sums after the first point: zero plus the block's column sums. -/
theorem outsAt4_sum_A (c : Dev nD) (t : Fin cfg4.N) (h0 : t.val % 10 = 0) :
    (outsAt4 V c t.val t.isLt).2.1 = k4_pay5 (iblk4 V c 0 t) (iblk4 V c 1 t) (iblk4 V c 2 t) (iblk4 V c 3 t) (iblk4 V c 4 t) (iblk4 V c 5 t) (k4_pay3 (F := Ideal)) := by
  rw [outsAt4_A V c t h0]
  dsimp only
  exact out4_A_7_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)

/-- The running sums after a later point: what the point before left plus the block's column sums. -/
theorem outsAt4_sum_B (c : Dev nD) (t : Fin cfg4.N) (h0 : ¬t.val % 10 = 0) :
    (outsAt4 V c t.val t.isLt).2.1 = k4_pay5 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 := by
  rw [outsAt4_B V c t h0]
  dsimp only
  exact out4_B_7_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

/-- The running sums of squares after the first point. -/
theorem outsAt4_sq_A (c : Dev nD) (t : Fin cfg4.N) (h0 : t.val % 10 = 0) :
    (outsAt4 V c t.val t.isLt).2.2 = k4_pay1 (k4_pay2 (iblk4 V c 0 t) (iblk4 V c 1 t) (iblk4 V c 2 t) (iblk4 V c 3 t) (iblk4 V c 4 t) (iblk4 V c 5 t)) (k4_pay4 (F := Ideal)) := by
  rw [outsAt4_A V c t h0]
  dsimp only
  exact out4_A_8_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)

/-- The running sums of squares after a later point. -/
theorem outsAt4_sq_B (c : Dev nD) (t : Fin cfg4.N) (h0 : ¬t.val % 10 = 0) :
    (outsAt4 V c t.val t.isLt).2.2 = k4_pay1 (k4_pay2 (iblk4 V c 0 t) (iblk4 V c 1 t) (iblk4 V c 2 t) (iblk4 V c 3 t) (iblk4 V c 4 t) (iblk4 V c 5 t)) (outsAt4 V c (t.val - 1) (Nat.lt_of_le_of_lt (Nat.sub_le _ _) t.isLt)).2.2 := by
  rw [outsAt4_B V c t h0]
  dsimp only
  exact out4_B_8_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

/-! ## A point's block is a block of rows of Z -/

/-- The perceptron of the point's blocks at (p, q) is Z at row 5000·t + p: the row blocks read those rows, the weights
    and biases are the whole arrays. -/
theorem blockVal_iblk4 (c : Dev nD) (t : Fin cfg4.N) (p : Fin 5000) (q : Fin 128) (r : Fin 50000)
    (hr : r.val = 5000 * t.val + p.val) :
    blockVal (T := 5000) (K := 128) (D := 128) (iblk4 V c 0 t) (iblk4 V c 1 t) (iblk4 V c 2 t) (iblk4 V c 3 t) (iblk4 V c 4 t) (iblk4 V c 5 t) p q = rows4 V c (ix2 r q) := by
  show _ = zVal _ _ _ _ _ _ r q
  unfold blockVal zVal
  refine congrArg₂ (· + ·) (Finset.sum_congr rfl fun k _ => ?_) (iblk4_5_at V c t 0 q)
  refine congrArg₂ (· * ·) (congrArg (fun s => max s 0) ?_) (iblk4_4_at V c t k q)
  refine congrArg₂ (· + ·) (Finset.sum_congr rfl fun j _ => ?_) (iblk4_3_at V c t 0 k)
  exact congrArg₂ (· * ·) (congrArg₂ (· + ·) (iblk4_0_at V c t p j r hr) (iblk4_1_at V c t p j r hr)) (iblk4_2_at V c t j k)

/-- The same, the row given by its number. -/
theorem blockVal_row4 (c : Dev nD) (t : Fin cfg4.N) (p : Fin 5000) (q : Fin 128) :
    blockVal (T := 5000) (K := 128) (D := 128) (iblk4 V c 0 t) (iblk4 V c 1 t) (iblk4 V c 2 t) (iblk4 V c 3 t) (iblk4 V c 4 t) (iblk4 V c 5 t) p q
      = rowFn (fun r : Fin 50000 => rows4 V c (ix2 r q)) (5000 * t.val + p.val) := by
  have hN : cfg4.N = 10 := N_4
  have hlt : 5000 * t.val + p.val < 50000 := by have := t.isLt; have := p.isLt; omega
  rw [rowFn_of_lt _ _ hlt]
  exact blockVal_iblk4 V c t p q ⟨_, hlt⟩ rfl

/-- The stored block's entry at (p, q) is Z at row 5000·t + p. -/
theorem pay2_row4 (c : Dev nD) (t : Fin cfg4.N) (p : Fin 5000) (q : Fin 128) (r : Fin 50000)
    (hr : r.val = 5000 * t.val + p.val) :
    k4_pay2 (F := Ideal) (iblk4 V c 0 t) (iblk4 V c 1 t) (iblk4 V c 2 t) (iblk4 V c 3 t) (iblk4 V c 4 t) (iblk4 V c 5 t) (ix2 p q) = rows4 V c (ix2 r q) :=
  (k4_pay2_at (iblk4 V c 0 t) (iblk4 V c 1 t) (iblk4 V c 2 t) (iblk4 V c 3 t) (iblk4 V c 4 t) (iblk4 V c 5 t) p q).trans (blockVal_iblk4 V c t p q r hr)

/-- Its square, the row given by its number. -/
theorem pay2_sq_row4 (c : Dev nD) (t : Fin cfg4.N) (p : Fin 5000) (q : Fin 128) :
    k4_pay2 (F := Ideal) (iblk4 V c 0 t) (iblk4 V c 1 t) (iblk4 V c 2 t) (iblk4 V c 3 t) (iblk4 V c 4 t) (iblk4 V c 5 t) (ix2 p q) * k4_pay2 (F := Ideal) (iblk4 V c 0 t) (iblk4 V c 1 t) (iblk4 V c 2 t) (iblk4 V c 3 t) (iblk4 V c 4 t) (iblk4 V c 5 t) (ix2 p q)
      = rowFn (fun r : Fin 50000 => rows4 V c (ix2 r q) * rows4 V c (ix2 r q)) (5000 * t.val + p.val) := by
  have hN : cfg4.N = 10 := N_4
  have hlt : 5000 * t.val + p.val < 50000 := by have := t.isLt; have := p.isLt; omega
  have e := pay2_row4 V c t p q ⟨_, hlt⟩ rfl
  rw [rowFn_of_lt _ _ hlt]
  exact congrArg₂ (· * ·) e e

/-! ## The running sums, by induction on the point -/

/-- After point n the two one-row blocks hold, at column q, the sums over the blocks 0, …, n of the rows' entries of
    Z and of their squares. -/
theorem outsAt4_sums (c : Dev nD) (q : Fin 128) : ∀ (n : ℕ) (hn : n < cfg4.N) (u : Fin 1),
    ((outsAt4 V c n hn).2.1 : FVec Ideal S1x128 .f32) (ix2 u q)
        = ∑ k ∈ Finset.range (n + 1), ∑ p : Fin 5000, rowFn (fun r : Fin 50000 => rows4 V c (ix2 r q)) (5000 * k + p.val)
    ∧ ((outsAt4 V c n hn).2.2 : FVec Ideal S1x128 .f32) (ix2 u q)
        = ∑ k ∈ Finset.range (n + 1), ∑ p : Fin 5000,
            rowFn (fun r : Fin 50000 => rows4 V c (ix2 r q) * rows4 V c (ix2 r q)) (5000 * k + p.val)
  | 0, hn, u => by
    constructor
    · refine (congrFun (outsAt4_sum_A V c ⟨0, hn⟩ (Nat.zero_mod 10)) (ix2 u q)).trans ?_
      refine (k4_pay5_at (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (k4_pay3 (F := Ideal)) u q).trans ?_
      rw [k4_pay3_at, zero_add, Finset.sum_range_succ, Finset.sum_range_zero, zero_add]
      exact Finset.sum_congr rfl fun p _ => blockVal_row4 V c ⟨0, hn⟩ p q
    · refine (congrFun (outsAt4_sq_A V c ⟨0, hn⟩ (Nat.zero_mod 10)) (ix2 u q)).trans ?_
      refine (k4_pay1_at (k4_pay2 (F := Ideal) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)) (k4_pay4 (F := Ideal)) u q).trans ?_
      rw [k4_pay4_at, zero_add, Finset.sum_range_succ, Finset.sum_range_zero, zero_add]
      exact Finset.sum_congr rfl fun p _ => pay2_sq_row4 V c ⟨0, hn⟩ p q
  | n + 1, hn, u => by
    have hN : cfg4.N = 10 := N_4
    have hB : ¬(⟨n + 1, hn⟩ : Fin cfg4.N).val % 10 = 0 := by dsimp only; omega
    obtain ⟨ih7, ih8⟩ := outsAt4_sums c q n (Nat.lt_of_succ_lt hn) u
    constructor
    · refine (congrFun (outsAt4_sum_B V c ⟨n + 1, hn⟩ hB) (ix2 u q)).trans ?_
      refine (k4_pay5_at (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) _ u q).trans ?_
      rw [Finset.sum_range_succ _ (n + 1)]
      exact congrArg₂ (· + ·) ih7 (Finset.sum_congr rfl fun p _ => blockVal_row4 V c ⟨n + 1, hn⟩ p q)
    · refine (congrFun (outsAt4_sq_B V c ⟨n + 1, hn⟩ hB) (ix2 u q)).trans ?_
      refine (k4_pay1_at (k4_pay2 (F := Ideal) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) _ u q).trans ?_
      rw [Finset.sum_range_succ _ (n + 1)]
      exact congrArg₂ (· + ·) ih8 (Finset.sum_congr rfl fun p _ => pay2_sq_row4 V c ⟨n + 1, hn⟩ p q)

end Cert.KernelIdeal.RegionValue

end
-- ==== Proof.Region4.lean ====
/-
  What the third perceptron launch leaves in its three output arrays.

  Write Z for the layer's rows computed from the arrays the launch finds.  Every grid point writes its rows' block
  back, block t being rows 5000·t … 5000·t + 4999 of Z, and the ten blocks fill the array: the rows' array ends as Z.
  The two one-row arrays are written back once, after the last point, and then hold the sums over all ten blocks —
  over all 50000 rows — of Z[r, q] and of Z[r, q]²: the column sums of Z and of its squares.
-/
import proofs.«147060_j15040975470999_1_alg».proof.Proof.Region4Acc

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen Cert.Gin Cert.Gin.Block
open Idealize.ShloMosaic.Pipeline (Dat)

section

variable (V : (c : Dev nD) → (b : Ref sig .tc) → Buf (Elt Ideal) ((c : Thread nD τ).loc b))

/-! ## The rows -/

/-- The rows' block after point t, entry y, is Z where the block's entry y sits in the array. -/
theorem flushed4_6_at (c : Dev nD) (t : Fin cfg4.N) (y : S5000x128.Idx) :
    k4_pay2 (F := Ideal) (iblk4 V c 0 t) (iblk4 V c 1 t) (iblk4 V c 2 t) (iblk4 V c 3 t) (iblk4 V c 4 t) (iblk4 V c 5 t) y = rows4 V c (((cfg4.win 6).blk t).view.emb y) := by
  obtain ⟨p, q, rfl⟩ : ∃ (p : Fin 5000) (q : Fin 128), y = ix2 p q := ⟨y 0, y 1, eq_ix2 y⟩
  have hN : cfg4.N = 10 := N_4
  have hlt : 5000 * t.val + p.val < 50000 := by have := t.isLt; have := p.isLt; omega
  rw [emb4_6 t p q ⟨_, hlt⟩ rfl]
  exact pay2_row4 V c t p q ⟨_, hlt⟩ rfl

/-- What point t writes back to the rows' array is block t of Z. -/
theorem flushed4_6 (c : Dev nD) (t : Fin cfg4.N) :
    (dat4 V c).flushed 6 t = ((cfg4.win 6).blk t).view.read (Elt Ideal) (rows4 V c) := by
  show (cfg4.win 6).cut (grid4.coords t) ((dat4 V c).after 6 t) = _
  rw [after4_6, outsAt4_rows V c t]
  funext y
  exact flushed4_6_at V c t y

/-- Every row is in some point's block: row r in the block of point r / 5000. -/
theorem cover4_6 (i : SN.Idx) :
    ∃ t : Fin cfg4.N, (cfg4.win 6).flush t = true ∧ i ∈ ((cfg4.win 6).blk t).view.set := by
  have hN : cfg4.N = 10 := N_4
  have h0 : (i 0).val < 50000 := (i 0).isLt
  have h1 : (i 1).val < 128 := (i 1).isLt
  obtain ⟨t, ht⟩ : ∃ t : Fin cfg4.N, t.val = (i 0).val / 5000 := ⟨⟨(i 0).val / 5000, by rw [hN]; omega⟩, rfl⟩
  have e := idx4_rows t
  refine ⟨t, flush4_6 t, ?_⟩
  rw [mem_blk4_6]
  intro a
  match a with
  | ⟨0, _⟩ => show win4_6.index t 0 * 5000 ≤ (i 0).val ∧ (i 0).val < win4_6.index t 0 * 5000 + 5000; rw [e.2.2.2.2.1, ht]; omega
  | ⟨1, _⟩ => show win4_6.index t 1 * 128 ≤ (i 1).val ∧ (i 1).val < win4_6.index t 1 * 128 + 128; rw [e.2.2.2.2.2]; omega

/-! ## The column sums -/

/-- Reading a one-row array through the sums' window's block reads the array where the block's entry sits. -/
theorem read4_7 (t : Fin cfg4.N) (G : FVec Ideal SR .f32) (y : S1x128.Idx) :
    ((cfg4.win 7).blk t).view.read (Elt Ideal) G y = G (((cfg4.win 7).blk t).view.emb y) := rfl

theorem read4_8 (t : Fin cfg4.N) (G : FVec Ideal SR .f32) (y : S1x128.Idx) :
    ((cfg4.win 8).blk t).view.read (Elt Ideal) G y = G (((cfg4.win 8).blk t).view.emb y) := rfl

/-- After the last point the running sums are the column sums of Z: the ten blocks of 5000 rows are all its rows. -/
theorem flushed4_7_at (c : Dev nD) (t : Fin cfg4.N) (h9 : t.val = 9) (y : S1x128.Idx) :
    ((outsAt4 V c t.val t.isLt).2.1 : FVec Ideal S1x128 .f32) y
      = ((cfg4.win 7).blk t).view.read (Elt Ideal) (colSum (rows4 V c)) y := by
  obtain ⟨u, q, rfl⟩ : ∃ (u : Fin 1) (q : Fin 128), y = ix2 u q := ⟨y 0, y 1, eq_ix2 y⟩
  rw [read4_7 t (colSum (rows4 V c)) (ix2 u q), emb4_7 t u q, colSum_apply]
  refine ((outsAt4_sums V c q t.val t.isLt u).1).trans ?_
  have hs := sum_blocks_rows 10 5000 (by norm_num) (fun r : Fin 50000 => rows4 V c (ix2 r q))
  rw [h9]
  exact hs

theorem flushed4_8_at (c : Dev nD) (t : Fin cfg4.N) (h9 : t.val = 9) (y : S1x128.Idx) :
    ((outsAt4 V c t.val t.isLt).2.2 : FVec Ideal S1x128 .f32) y
      = ((cfg4.win 8).blk t).view.read (Elt Ideal) (colSumSq (rows4 V c)) y := by
  obtain ⟨u, q, rfl⟩ : ∃ (u : Fin 1) (q : Fin 128), y = ix2 u q := ⟨y 0, y 1, eq_ix2 y⟩
  rw [read4_8 t (colSumSq (rows4 V c)) (ix2 u q), emb4_8 t u q, colSumSq_apply]
  refine ((outsAt4_sums V c q t.val t.isLt u).2).trans ?_
  have hs := sum_blocks_rows 10 5000 (by norm_num) (fun r : Fin 50000 => rows4 V c (ix2 r q) * rows4 V c (ix2 r q))
  rw [h9]
  exact hs

/-- The one write-back of the sums, after the last point, writes the column sums of Z. -/
theorem flushed4_7 (c : Dev nD) (t : Fin cfg4.N) (hf : (cfg4.win 7).flush t = true) :
    (dat4 V c).flushed 7 t = ((cfg4.win 7).blk t).view.read (Elt Ideal) (colSum (rows4 V c)) := by
  have hN : cfg4.N = 10 := N_4
  have h9 : t.val = 9 := by have := (flush4_7 t).mp hf; have := t.isLt; omega
  show (cfg4.win 7).cut (grid4.coords t) ((dat4 V c).after 7 t) = _
  rw [after4_7]
  funext y
  exact flushed4_7_at V c t h9 y

theorem flushed4_8 (c : Dev nD) (t : Fin cfg4.N) (hf : (cfg4.win 8).flush t = true) :
    (dat4 V c).flushed 8 t = ((cfg4.win 8).blk t).view.read (Elt Ideal) (colSumSq (rows4 V c)) := by
  have hN : cfg4.N = 10 := N_4
  have h9 : t.val = 9 := by have := (flush4_8 t).mp hf; have := t.isLt; omega
  show (cfg4.win 8).cut (grid4.coords t) ((dat4 V c).after 8 t) = _
  rw [after4_8]
  funext y
  exact flushed4_8_at V c t h9 y

/-- The last point's block is the whole one-row array. -/
theorem cover4_7 (i : SR.Idx) :
    ∃ t : Fin cfg4.N, (cfg4.win 7).flush t = true ∧ i ∈ ((cfg4.win 7).blk t).view.set := by
  have hN : cfg4.N = 10 := N_4
  have h0 : (i 0).val < 1 := (i 0).isLt
  have h1 : (i 1).val < 128 := (i 1).isLt
  obtain ⟨t, ht⟩ : ∃ t : Fin cfg4.N, t.val = 9 := ⟨⟨9, by rw [hN]; decide⟩, rfl⟩
  have e := idx4_whole t
  refine ⟨t, (flush4_7 t).mpr (by rw [ht]), ?_⟩
  rw [mem_blk4_7]
  intro a
  match a with
  | ⟨0, _⟩ => show win4_7.index t 0 * 1 ≤ (i 0).val ∧ (i 0).val < win4_7.index t 0 * 1 + 1; rw [e.2.2.2.2.2.2.2.2.1]; omega
  | ⟨1, _⟩ => show win4_7.index t 1 * 128 ≤ (i 1).val ∧ (i 1).val < win4_7.index t 1 * 128 + 128; rw [e.2.2.2.2.2.2.2.2.2.1]; omega

theorem cover4_8 (i : SR.Idx) :
    ∃ t : Fin cfg4.N, (cfg4.win 8).flush t = true ∧ i ∈ ((cfg4.win 8).blk t).view.set := by
  have hN : cfg4.N = 10 := N_4
  have h0 : (i 0).val < 1 := (i 0).isLt
  have h1 : (i 1).val < 128 := (i 1).isLt
  obtain ⟨t, ht⟩ : ∃ t : Fin cfg4.N, t.val = 9 := ⟨⟨9, by rw [hN]; decide⟩, rfl⟩
  have e := idx4_whole t
  refine ⟨t, (flush4_8 t).mpr (by rw [ht]), ?_⟩
  rw [mem_blk4_8]
  intro a
  match a with
  | ⟨0, _⟩ => show win4_8.index t 0 * 1 ≤ (i 0).val ∧ (i 0).val < win4_8.index t 0 * 1 + 1; rw [e.2.2.2.2.2.2.2.2.2.2.1]; omega
  | ⟨1, _⟩ => show win4_8.index t 1 * 128 ≤ (i 1).val ∧ (i 1).val < win4_8.index t 1 * 128 + 128; rw [e.2.2.2.2.2.2.2.2.2.2.2]; omega

end

/-! ## The three arrays after the launch -/

set_option maxHeartbeats 4000000 in
/-- The rows' array ends as the layer's rows. -/
theorem region4_z : ∀ (V : (c : Dev nD) → (b : Ref sig .tc) → Buf (Elt Ideal) ((c : Thread nD τ).loc b)) (c : Dev nD), (dat4 (F := Ideal) V c).arrAt 6 cfg4.N
      = zArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  fun V c => (dat4 V c).arrAt_eq_of_cover 6 (rows4 V c) (fun t _ => flushed4_6 V c t) cover4_6

set_option maxHeartbeats 4000000 in
/-- The sums' array ends as the column sums of the layer's rows. -/
theorem region4_s : ∀ (V : (c : Dev nD) → (b : Ref sig .tc) → Buf (Elt Ideal) ((c : Thread nD τ).loc b)) (c : Dev nD), (dat4 (F := Ideal) V c).arrAt 7 cfg4.N
      = colSum (zArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  fun V c => (dat4 V c).arrAt_eq_of_cover 7 (colSum (rows4 V c)) (flushed4_7 V c) cover4_7

set_option maxHeartbeats 4000000 in
/-- The squares' array ends as the column sums of the squares of the layer's rows. -/
theorem region4_q : ∀ (V : (c : Dev nD) → (b : Ref sig .tc) → Buf (Elt Ideal) ((c : Thread nD τ).loc b)) (c : Dev nD), (dat4 (F := Ideal) V c).arrAt 8 cfg4.N
      = colSumSq (zArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  fun V c => (dat4 V c).arrAt_eq_of_cover 8 (colSumSq (rows4 V c)) (flushed4_8 V c) cover4_8

end Cert.KernelIdeal.RegionValue

end
-- ==== Proof.Region5.lean ====
/-
  The third rescaling launch, read as a whole array. The launch walks the 50000 rows in ten blocks of 5000; at every
  block it multiplies each entry by its column's scale, adds the column's shift and rectifies. Each block's result is
  the same function of the entries whatever the block, so the ten write-backs together leave, at row r and column n,
      max (z[r, n] · scale[n] + shift[n]) 0
  of the arrays z, scale, shift the launch found.
-/
import proofs.«147060_j15040975470999_1_alg».proof.Proof.Gen.KernelIdeal.Frame
import proofs.«147060_j15040975470999_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.ValueIdx Idealize.ShloMosaic.TcCoe Idealize.SL.Sem
open Cert.KernelIdeal Cert.KernelIdeal.Gen Cert.Gin
open Idealize.ShloMosaic.Pipeline (Dat)

/-- The block's value at row p and column q: the entry times the column's scale plus the column's shift, rectified.
    The row of scales and the row of shifts are spread over the 5000 rows, so both are read at (0, q); the constant
    the maximum is taken against is the zero word, whose value is 0. -/
theorem pay5_at (x0 : Vec Ideal S5000x128 .f32) (x1 x2 : Vec Ideal S1x128 .f32) (p : Fin 5000) (q : Fin 128) :
    k5_pay1 (F := Ideal) x0 x1 x2 (ix2 p q)
      = max (x0 (ix2 p q) * x1 (ix2 (0 : Fin 1) q) + x2 (ix2 (0 : Fin 1) q)) 0 := by
  unfold k5_pay1
  rw [maximumf_apply, addf_apply, mulf_apply, broadcast_apply, shapeCast_self, shapeCast_self, shapeCast_self,
    broadcastTo_1b_ab_apply, broadcastTo_1b_ab_apply]
  exact congrArg (max _) Ideal.ofBits_zero_f32

theorem zeroOff5 : (![0, 0] : Fin 2 → Nat) = fun _ => 0 := funext fun a => by fin_cases a <;> rfl

/-- Where the blocks sit, decided over the ten points: the block of rows of the input and of the output at point t is
    block t along the rows and the only block along the columns; the two rows of parameters are always block (0, 0). -/
theorem blockIdx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

section
variable (V : (c : Dev nD) → (b : Ref sig .tc) → Buf (Elt Ideal) ((c : Thread nD τ).loc b))

/-- Row p of the output's block at point t is row 5000 t + p of the array. -/
theorem emb5_3 (t : Fin cfg5.N) (p : Fin 5000) (q : Fin 128) (r : Fin 50000) (hr : r.val = t.val * 5000 + p.val) :
    ((cfg5.win 3).blk t).view.emb (ix2 p q) = (ix2 r q : S50000x128.Idx) := by
  obtain ⟨-, -, -, -, -, -, e6, e7⟩ := blockIdx5 t
  funext a; apply Fin.ext
  match a with
  | ⟨0, _⟩ => show win5_3.index t (0 : Fin 2) * 5000 + 1 * p.val = r.val; rw [e6, hr]; omega
  | ⟨1, _⟩ => show win5_3.index t (1 : Fin 2) * 128 + 1 * q.val = q.val; rw [e7]; omega

/-- Row p of the input's block at point t is row 5000 t + p of the array the launch found. -/
theorem iblk5_0_at (c : Dev nD) (t : Fin cfg5.N) (p : Fin 5000) (q : Fin 128) (r : Fin 50000)
    (hr : r.val = t.val * 5000 + p.val) :
    (iblk5 V c 0 t : Vec Ideal S5000x128 .f32) (ix2 p q)
      = (V c (Pipeline.arrRef spec5 0) : S50000x128.Idx → Elt Ideal .f32) (ix2 r q) := by
  obtain ⟨e0, e1, -⟩ := blockIdx5 t
  unfold iblk5
  rw [View.read_apply]
  show (V c (Pipeline.arrRef spec5 0) : S50000x128.Idx → Elt Ideal .f32) _ = _
  refine congrArg (V c (Pipeline.arrRef spec5 0) : S50000x128.Idx → Elt Ideal .f32) ?_
  funext a; apply Fin.ext
  match a with
  | ⟨0, _⟩ => show win5_0.index t (0 : Fin 2) * 5000 + 1 * p.val = r.val; rw [e0, hr]; omega
  | ⟨1, _⟩ => show win5_0.index t (1 : Fin 2) * 128 + 1 * q.val = q.val; rw [e1]; omega

/-- The block of the row of scales is that row, at every point. -/
theorem iblk5_1_at (c : Dev nD) (t : Fin cfg5.N) (q : Fin 128) :
    (iblk5 V c 1 t : Vec Ideal S1x128 .f32) (ix2 (0 : Fin 1) q)
      = (V c (Pipeline.arrRef spec5 1) : S1x128.Idx → Elt Ideal .f32) (ix2 (0 : Fin 1) q) := by
  obtain ⟨-, -, e2, e3, -⟩ := blockIdx5 t
  unfold iblk5
  rw [View.read_apply]
  show (V c (Pipeline.arrRef spec5 1) : S1x128.Idx → Elt Ideal .f32) _ = _
  refine congrArg (V c (Pipeline.arrRef spec5 1) : S1x128.Idx → Elt Ideal .f32) ?_
  funext a; apply Fin.ext
  match a with
  | ⟨0, _⟩ => show win5_1.index t (0 : Fin 2) * 1 + 1 * 0 = 0; rw [e2]
  | ⟨1, _⟩ => show win5_1.index t (1 : Fin 2) * 128 + 1 * q.val = q.val; rw [e3]; omega

/-- The block of the row of shifts is that row, at every point. -/
theorem iblk5_2_at (c : Dev nD) (t : Fin cfg5.N) (q : Fin 128) :
    (iblk5 V c 2 t : Vec Ideal S1x128 .f32) (ix2 (0 : Fin 1) q)
      = (V c (Pipeline.arrRef spec5 2) : S1x128.Idx → Elt Ideal .f32) (ix2 (0 : Fin 1) q) := by
  obtain ⟨-, -, -, -, e4, e5, -⟩ := blockIdx5 t
  unfold iblk5
  rw [View.read_apply]
  show (V c (Pipeline.arrRef spec5 2) : S1x128.Idx → Elt Ideal .f32) _ = _
  refine congrArg (V c (Pipeline.arrRef spec5 2) : S1x128.Idx → Elt Ideal .f32) ?_
  funext a; apply Fin.ext
  match a with
  | ⟨0, _⟩ => show win5_2.index t (0 : Fin 2) * 1 + 1 * 0 = 0; rw [e4]
  | ⟨1, _⟩ => show win5_2.index t (1 : Fin 2) * 128 + 1 * q.val = q.val; rw [e5]; omega

set_option maxHeartbeats 1000000 in
/-- What point t writes back is block t of the rescaled and rectified array. -/
theorem flushed5_eq (c : Dev nD) (t : Fin cfg5.N) :
    (dat5 (F := Ideal) V c).flushed 3 t = ((cfg5.win 3).blk t).view.read (Elt Ideal)
      (affRelu (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero zeroOff5]
  simp only [View.ld_unit_zero (S := S5000x128) zeroOff5, View.ld_unit_zero (S := S1x128) zeroOff5]
  refine funext fun (j : S5000x128.Idx) => ?_
  obtain ⟨p, q, rfl⟩ : ∃ (p : Fin 5000) (q : Fin 128), j = ix2 p q := ⟨j 0, j 1, eq_ix2 j⟩
  show k5_pay1 (F := Ideal) (iblk5 V c 0 t) (iblk5 V c 1 t) (iblk5 V c 2 t) (ix2 p q)
      = affRelu (V c (Pipeline.arrRef spec5 0)) (V c (Pipeline.arrRef spec5 1)) (V c (Pipeline.arrRef spec5 2))
          (((cfg5.win 3).blk t).view.emb (ix2 p q))
  have ht : t.val < 10 := lt_of_lt_of_eq t.isLt N_5
  have hp : p.val < 5000 := p.isLt
  rw [emb5_3 t p q ⟨t.val * 5000 + p.val, by omega⟩ rfl, affRelu_apply]
  refine (pay5_at (iblk5 V c 0 t) (iblk5 V c 1 t) (iblk5 V c 2 t) p q).trans ?_
  rw [iblk5_0_at V c t p q ⟨t.val * 5000 + p.val, by omega⟩ rfl, iblk5_1_at V c t q, iblk5_2_at V c t q]

/-- An index of the array is in point t's block when each coordinate is in the block's range on its axis. -/
theorem mem_blk5 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v123).slice (win5_3.rect t)).set ↔ _
  rw [View.set_slice_whole, Rect.mem_set_unit]
  exact Iff.rfl

/-- Every row r lies in the block of point r / 5000, and every point writes its block back. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨(i 0).val / 5000, by rw [show cfg5.N = 10 from N_5]; omega⟩, rfl⟩
  obtain ⟨-, -, -, -, -, -, e6, e7⟩ := blockIdx5 t
  refine ⟨t, flush5_3 t, ?_⟩
  rw [mem_blk5]
  intro a
  match a with
  | ⟨0, _⟩ =>
    show win5_3.index t (0 : Fin 2) * 5000 ≤ (i 0).val ∧ (i 0).val < win5_3.index t (0 : Fin 2) * 5000 + 5000
    rw [e6, ht]; omega
  | ⟨1, _⟩ =>
    show win5_3.index t (1 : Fin 2) * 128 ≤ (i 1).val ∧ (i 1).val < win5_3.index t (1 : Fin 2) * 128 + 128
    rw [e7]; omega

/-- The array the third rescaling launch leaves: every entry rescaled by its column's scale, shifted by its column's
    shift and rectified, of the arrays the launch found. -/
theorem region5_h (c : Dev nD) : (dat5 (F := Ideal) V c).arrAt 3 cfg5.N
    = affRelu (V c (Pipeline.arrRef spec5 0)) (V c (Pipeline.arrRef spec5 1)) (V c (Pipeline.arrRef spec5 2)) :=
  (dat5 (F := Ideal) V c).arrAt_eq_of_cover 3
    (affRelu (V c (Pipeline.arrRef spec5 0)) (V c (Pipeline.arrRef spec5 1)) (V c (Pipeline.arrRef spec5 2)))
    (fun t _ => flushed5_eq V c t) cover5

end

end Cert.KernelIdeal.RegionValue

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibRowSums.lean ====
/-
  Row sums of an `[a, b]` array and the two re-layings a kernel applies to them, read at an index (general: any extents).
    * `rowSum_apply`: a lane reduction by addition along the last axis, from the zero pattern, is at row p the sum over
      the b lanes of that row, at the ideal values;
    * `shapeCast_a1_1a_apply`: a column `[a, 1]` re-laid as a row `[1, a]` reads at (0, i) the column's entry (i, 0): both
      are position i in row-major order;
    * `column_as_row_spread_apply`: a vector laid as a column, re-laid as a row and spread over `c` rows reads at (p, q)
      the vector's entry q.
-/
import Idealize.ShloMosaic.Lib.Pipeline.Value
import Idealize.ShloMosaic.Lib.ValueIdx
import Idealize.ShloMosaic.Lib.ValueLayout
import Idealize.ShloMosaic.PureOps.Ideal.Laws
import proofs.«147060_j15040975470999_1_alg».proof.Proof.LibKeepdims

noncomputable section

namespace Cert.Lib.RowSums

open Idealize.ShloMosaic Idealize.ShloMosaic.ValueIdx

/-- The sum along the last axis of an `[a, b]` array, started from the f32 zero pattern, is at row `p` the sum of the
    row's `b` entries (at the ideal values, where a reduction is the exact sum in any order). -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  exact Finset.sum_congr rfl fun k _ => congrArg v (Cert.Lib.Keepdims.lift_axis1 h p k)

variable {α : Type}

/-- An `[a, 1]` column re-laid as a `[1, a]` row reads, at `(u, i)`, the column's entry of row `i`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A vector laid as a column, the column re-laid as a row, the row spread over `c` rows: at `(p, q)` the vector at `q`. -/
theorem column_as_row_spread_apply {a c : ℕ} (x : (⟨1, ![a]⟩ : Shape).Idx → α)
    (h1 : (⟨1, ![a]⟩ : Shape).ShapeCasts ⟨2, ![a, 1]⟩) (h2 : (⟨2, ![a, 1]⟩ : Shape).ShapeCasts ⟨2, ![1, a]⟩)
    (h3 : (⟨2, ![1, a]⟩ : Shape).Broadcasts ⟨2, ![c, a]⟩) (p : Fin c) (q : Fin a) :
    broadcastTo ⟨2, ![c, a]⟩ (shapeCast ⟨2, ![1, a]⟩ (shapeCast ⟨2, ![a, 1]⟩ x h1) h2) h3 (ix2 p q) = x (ix1 q) :=
  (broadcastTo_1b_ab_apply _ h3 p q).trans
    ((shapeCast_a1_1a_apply _ h2 0 q).trans (Cert.Lib.Keepdims.shapeCast_a_a1_apply x h1 q 0))

end Cert.Lib.RowSums

end
-- ==== Proof.Region6.lean ====
/-
  The read-out launch, entry by entry.

  The grid has ten points.  At point t the feature window and the output window hold rows 5000·t … 5000·t + 4999 of their
  arrays (block index (t, 0); blocks of 5000 × 128 and 5000 × 1); the one row of weights and the single bias are whole
  arrays at every point (block index (0, 0)).  The body multiplies each row of the feature block by the row of weights,
  adds the 128 products of the row up, lays the 5000 sums out as a column and adds the bias to each.  So the entry the
  launch leaves at row r of its output is the inner product of row r of the features with the weights, plus the bias;
  the ten blocks tile the 50000 rows (row r lies in block r / 5000), so the whole array ends as that function.
-/
import proofs.«147060_j15040975470999_1_alg».proof.Proof.Gen.KernelIdeal.Frame
import proofs.«147060_j15040975470999_1_alg».proof.Proof.Spec
import proofs.«147060_j15040975470999_1_alg».proof.Proof.LibKeepdims
import proofs.«147060_j15040975470999_1_alg».proof.Proof.LibRowSums
import Idealize.ShloMosaic.Lib.Pipeline.Value
import Idealize.ShloMosaic.Lib.ValueIdx
import Idealize.ShloMosaic.Lib.ValueLayout

noncomputable section

open scoped BigOperators

namespace Cert.KernelIdeal.RegionValue

open Idealize.ShloMosaic Idealize.ShloMosaic.ValueIdx Idealize.ShloMosaic.TcCoe Idealize.SL.Sem Cert.KernelIdeal Cert.KernelIdeal.Gen Cert.Gin
open Idealize.ShloMosaic.Pipeline (Dat)

variable (V : (c : Dev nD) → (b : Ref sig .tc) → Buf (Elt Ideal) ((c : Thread nD τ).loc b))

/-- The offset of a whole block: zero on both axes. -/
theorem off6_zero : (![0, 0] : Fin 2 → Nat) = fun _ => 0 := funext fun a => by fin_cases a <;> rfl

/-! ## The body's result at an entry -/

/-- Row p of the body's result: the 128 products of row p of the feature block with the weights, added up, plus the bias. -/
theorem pay6_at (x0 : Vec Ideal S5000x128 .f32) (x1 : Vec Ideal S1x128 .f32) (x2 : Vec Ideal S1x1 .f32) (p : Fin 5000) (u : Fin 1) :
    k6_pay1 x0 x1 x2 (ix2 p u) = (∑ k : Fin 128, x0 (ix2 p k) * x1 (ix2 (0 : Fin 1) k)) + x2 (ix2 (0 : Fin 1) (0 : Fin 1)) := by
  have hu : u = 0 := Subsingleton.elim _ _
  subst hu
  unfold k6_pay1
  refine congrArg₂ (· + ·) ?_ ?_
  · refine (Cert.Lib.Keepdims.shapeCast_a_a1_apply _ _ p 0).trans ?_
    refine (Cert.Lib.RowSums.rowSum_apply _ _ _ _ p).trans ?_
    refine Finset.sum_congr rfl fun k _ => ?_
    refine congrArg₂ (· * ·) (congrFun (shapeCast_self x0 _) _) ?_
    exact (broadcastTo_1b_ab_apply _ _ p k).trans (congrFun (shapeCast_self x1 _) _)
  · exact (broadcastTo_1b_ab_apply _ _ p 0).trans (congrFun (shapeCast_self x2 _) _)

/-! ## The blocks as entries of their arrays -/

/-- The windows' block indices at each point, decided over the grid: the feature and output windows move with the point,
    the weights and the bias stay at the one block their array is. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The feature block at point t, entry (p, j), is the array's entry (5000·t + p, j). -/
theorem iblk6_0_at (c : Dev nD) (t : Fin cfg6.N) (p : Fin 5000) (j : Fin 128) (r : Fin 50000)
    (hr : r.val = 5000 * t.val + p.val) :
    (iblk6 V c 0 t : Vec Ideal S5000x128 .f32) (ix2 p j) = ((V c (Pipeline.arrRef spec6 0)) : SN.Idx → Elt Ideal .f32) (ix2 r j) := by
  have e := idx6 t
  unfold iblk6
  rw [View.read_apply]
  refine congrArg (V c (Pipeline.arrRef spec6 0)) ?_
  funext a
  apply Fin.ext
  match a with
  | ⟨0, _⟩ => show win6_0.index t 0 * 5000 + 1 * p.val = r.val; rw [e.1, hr]; omega
  | ⟨1, _⟩ => show win6_0.index t 1 * 128 + 1 * j.val = j.val; rw [e.2.1]; omega

/-- The weight window holds its whole one-row array at every point. -/
theorem iblk6_1_at (c : Dev nD) (t : Fin cfg6.N) (u : Fin 1) (k : Fin 128) :
    (iblk6 V c 1 t : Vec Ideal S1x128 .f32) (ix2 u k) = ((V c (Pipeline.arrRef spec6 1)) : SR.Idx → Elt Ideal .f32) (ix2 u k) := by
  have e := idx6 t
  unfold iblk6
  rw [View.read_apply]
  refine congrArg (V c (Pipeline.arrRef spec6 1)) ?_
  funext a
  apply Fin.ext
  match a with
  | ⟨0, _⟩ => show win6_1.index t 0 * 1 + 1 * u.val = u.val; rw [e.2.2.1]; omega
  | ⟨1, _⟩ => show win6_1.index t 1 * 128 + 1 * k.val = k.val; rw [e.2.2.2.1]; omega

/-- The bias window holds its whole single-entry array at every point. -/
theorem iblk6_2_at (c : Dev nD) (t : Fin cfg6.N) (u v : Fin 1) :
    (iblk6 V c 2 t : Vec Ideal S1x1 .f32) (ix2 u v) = ((V c (Pipeline.arrRef spec6 2)) : SE.Idx → Elt Ideal .f32) (ix2 u v) := by
  have e := idx6 t
  unfold iblk6
  rw [View.read_apply]
  refine congrArg (V c (Pipeline.arrRef spec6 2)) ?_
  funext a
  apply Fin.ext
  match a with
  | ⟨0, _⟩ => show win6_2.index t 0 * 1 + 1 * u.val = u.val; rw [e.2.2.2.2.1]; omega
  | ⟨1, _⟩ => show win6_2.index t 1 * 1 + 1 * v.val = v.val; rw [e.2.2.2.2.2.1]; omega

/-- The output block at point t: entry (p, u) sits at (5000·t + p, u) of the array. -/
theorem emb6_3 (t : Fin cfg6.N) (p : Fin 5000) (u : Fin 1) (r : Fin 50000) (hr : r.val = 5000 * t.val + p.val) :
    ((cfg6.win 3).blk t).view.emb (ix2 p u) = (ix2 r u : SO.Idx) := by
  have e := idx6 t
  funext a
  apply Fin.ext
  match a with
  | ⟨0, _⟩ => show win6_3.index t 0 * 5000 + 1 * p.val = r.val; rw [e.2.2.2.2.2.2.1, hr]; omega
  | ⟨1, _⟩ => show win6_3.index t 1 * 1 + 1 * u.val = u.val; rw [e.2.2.2.2.2.2.2]; omega

/-- An index of the output array is in point t's block iff each coordinate is in the block's range on its axis. -/
theorem mem_blk6_3 (t : Fin cfg6.N) (i : SO.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v126).slice (win6_3.rect t)).set ↔ _
  rw [View.set_slice_whole, Rect.mem_set_unit]
  exact Iff.rfl

/-! ## What a point writes back, and the whole array -/

set_option maxHeartbeats 4000000 in
/-- What point t writes back is block t of the read-out of the arrays the launch found. -/
theorem flushed6_eq (c : Dev nD) (t : Fin cfg6.N) :
    (dat6 (F := Ideal) V c).flushed 3 t = ((cfg6.win 3).blk t).view.read (Elt Ideal)
      (readOut (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero off6_zero]
  simp only [View.ld_unit_zero (S := S5000x128) off6_zero, View.ld_unit_zero (S := S1x128) off6_zero, View.ld_unit_zero (S := S1x1) off6_zero]
  funext j
  obtain ⟨p, u, rfl⟩ : ∃ (p : Fin 5000) (u : Fin 1), j = ix2 p u := ⟨j 0, j 1, eq_ix2 j⟩
  have ht : t.val < 10 := Nat.lt_of_lt_of_eq (show t.val < grid6.N from t.isLt) N_6
  have hr : 5000 * t.val + p.val < 50000 := by have := p.isLt; omega
  show k6_pay1 (iblk6 V c 0 t) (iblk6 V c 1 t) (iblk6 V c 2 t) (ix2 p u)
    = readOut (V c (Pipeline.arrRef spec6 0)) (V c (Pipeline.arrRef spec6 1)) (V c (Pipeline.arrRef spec6 2)) (((cfg6.win 3).blk t).view.emb (ix2 p u))
  rw [emb6_3 t p u ⟨5000 * t.val + p.val, hr⟩ rfl, readOut_apply]
  refine (pay6_at _ _ _ p u).trans ?_
  exact congrArg₂ (· + ·)
    (Finset.sum_congr rfl fun k _ => congrArg₂ (· * ·) (iblk6_0_at V c t p k ⟨5000 * t.val + p.val, hr⟩ rfl) (iblk6_1_at V c t 0 k))
    (iblk6_2_at V c t 0 0)

/-- Every row of the output array lies in some point's block: row r in block r / 5000. -/
theorem cover6_rows (i : SO.Idx) : ∃ t : Fin cfg6.N, (cfg6.win 3).flush t = true ∧ i ∈ ((cfg6.win 3).blk t).view.set := by
  have h0 : (i 0).val < 50000 := (i 0).isLt
  have h1 : (i 1).val < 1 := (i 1).isLt
  have hN : (i 0).val / 5000 < cfg6.N := by show (i 0).val / 5000 < grid6.N; rw [N_6]; omega
  refine ⟨⟨(i 0).val / 5000, hN⟩, flush6_3 _, ?_⟩
  rw [mem_blk6_3]
  have e := idx6 ⟨(i 0).val / 5000, hN⟩
  intro a
  match a with
  | ⟨0, _⟩ =>
    show win6_3.index ⟨(i 0).val / 5000, hN⟩ 0 * 5000 ≤ (i 0).val ∧ (i 0).val < win6_3.index ⟨(i 0).val / 5000, hN⟩ 0 * 5000 + 5000
    rw [e.2.2.2.2.2.2.1]
    show (i 0).val / 5000 * 5000 ≤ (i 0).val ∧ (i 0).val < (i 0).val / 5000 * 5000 + 5000
    omega
  | ⟨1, _⟩ =>
    show win6_3.index ⟨(i 0).val / 5000, hN⟩ 1 * 1 ≤ (i 1).val ∧ (i 1).val < win6_3.index ⟨(i 0).val / 5000, hN⟩ 1 * 1 + 1
    rw [e.2.2.2.2.2.2.2]
    omega

set_option maxHeartbeats 4000000 in
/-- The output array after the launch is the read-out of the arrays the launch found. -/
theorem region6_o : ∀ (V : (c : Dev nD) → (b : Ref sig .tc) → Buf (Elt Ideal) ((c : Thread nD τ).loc b)) (c : Dev nD), (dat6 (F := Ideal) V c).arrAt 3 cfg6.N
      = readOut (V c (Pipeline.arrRef spec6 0)) (V c (Pipeline.arrRef spec6 1)) (V c (Pipeline.arrRef spec6 2)) :=
  fun V c => (dat6 (F := Ideal) V c).arrAt_eq_of_cover 3 _ (fun t _ => flushed6_eq V c t) cover6_rows

end Cert.KernelIdeal.RegionValue

end
-- ==== Proof.lean ====
/-
  The certificate of the graph network: three layers (neighbour sums by gather and scatter-add, a two-layer
  perceptron, batch normalisation over the 50000 rows, a rectifier) and a linear read-out, computed by seven kernel
  launches among host operations, against the plain reference.

  The frames of the two kernel programs are the launch-by-launch frame arguments; the reference's frame is its run
  with the result forgotten.  The idealization rewrote nothing, so there is nothing to preserve.  For the value claim,
  at the ideal values (a change of float format is the identity, every sum exact):
    * each perceptron launch leaves the rows' values z, and in its two carried rows the column sums of z and of z·z
      (ten blocks of 5000 rows make the 50000 rows); each rescaling launch leaves max (z · scale + shift) 0; the last
      launch leaves the rows' inner products with the weights plus the bias;
    * the host stretches between launches compute mean = S/N, var = Q/N − mean², scale = γ · (var + ε)^(-1/2) and
      shift = β − mean · scale, while the reference normalises by the centred second moment;
    * Q/N − (S/N)² = (∑ (z − S/N)²)/N over the reals, and this is not negative, so with ε > 0 the reciprocal square
      root is of a positive real; the inputs are real by the precondition and every layer keeps its values real
      (sums and products of reals, the neighbour sums included), so the distributive law applies and the two
      spellings of a layer are one function; the read-outs are the same sum.
-/
import proofs.«147060_j15040975470999_1_alg».proof.Defs
import proofs.«147060_j15040975470999_1_alg».proof.Proof.Gen.Kernel
import proofs.«147060_j15040975470999_1_alg».proof.Proof.Gen.Kernel.Skeleton
import proofs.«147060_j15040975470999_1_alg».proof.Proof.Gen.Kernel.Launch
import proofs.«147060_j15040975470999_1_alg».proof.Proof.Gen.Kernel.Points
import proofs.«147060_j15040975470999_1_alg».proof.Proof.Gen.Kernel.Frame
import proofs.«147060_j15040975470999_1_alg».proof.Proof.Gen.KernelIdeal
import proofs.«147060_j15040975470999_1_alg».proof.Proof.Gen.KernelIdeal.Skeleton
import proofs.«147060_j15040975470999_1_alg».proof.Proof.Gen.KernelIdeal.Launch
import proofs.«147060_j15040975470999_1_alg».proof.Proof.Gen.KernelIdeal.Points
import proofs.«147060_j15040975470999_1_alg».proof.Proof.Gen.KernelIdeal.Frame
import proofs.«147060_j15040975470999_1_alg».proof.Proof.Gen.ReferenceIdeal
import proofs.«147060_j15040975470999_1_alg».proof.Proof.Gen.Pre_finite_inputs
import proofs.«147060_j15040975470999_1_alg».proof.Proof.Algebraic
import proofs.«147060_j15040975470999_1_alg».proof.Proof.KChainOut
import proofs.«147060_j15040975470999_1_alg».proof.Proof.Region0
import proofs.«147060_j15040975470999_1_alg».proof.Proof.Region1
import proofs.«147060_j15040975470999_1_alg».proof.Proof.Region2
import proofs.«147060_j15040975470999_1_alg».proof.Proof.Region3
import proofs.«147060_j15040975470999_1_alg».proof.Proof.Region4
import proofs.«147060_j15040975470999_1_alg».proof.Proof.Region5
import proofs.«147060_j15040975470999_1_alg».proof.Proof.Region6
import Idealize.ShloMosaic.Adequacy
import Idealize.ShloMosaic.Init

noncomputable section

namespace Cert.Proof

open Idealize.ShloMosaic Idealize.SL.Sem

/-- What each of the seven launches leaves in its output arrays. -/
theorem regionFacts : Cert.KernelIdeal.RegionValue.Facts :=
  ⟨Cert.KernelIdeal.RegionValue.region0_z, Cert.KernelIdeal.RegionValue.region0_s, Cert.KernelIdeal.RegionValue.region0_q,
   Cert.KernelIdeal.RegionValue.region1_h,
   Cert.KernelIdeal.RegionValue.region2_z, Cert.KernelIdeal.RegionValue.region2_s, Cert.KernelIdeal.RegionValue.region2_q,
   Cert.KernelIdeal.RegionValue.region3_h,
   Cert.KernelIdeal.RegionValue.region4_z, Cert.KernelIdeal.RegionValue.region4_s, Cert.KernelIdeal.RegionValue.region4_q,
   Cert.KernelIdeal.RegionValue.region5_h,
   Cert.KernelIdeal.RegionValue.region6_o⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Hand.run (F := Ideal) m ρ),
  trivial,
  algebraic_of fun m ρ c => Cert.KernelIdeal.Hand.out_eq regionFacts m ρ c⟩

end Cert.Proof

end
